-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x600000 : Shape := ⟨2, ![2, 600000]⟩
abbrev S600000 : Shape := ⟨1, ![600000]⟩
abbrev S50000x128 : Shape := ⟨2, ![50000, 128]⟩
abbrev S8x128x128 : Shape := ⟨3, ![8, 128, 128]⟩
abbrev S48x8 : Shape := ⟨2, ![48, 8]⟩
abbrev S128x128 : Shape := ⟨2, ![128, 128]⟩
abbrev S128 : Shape := ⟨1, ![128]⟩
abbrev S64x128 : Shape := ⟨2, ![64, 128]⟩
abbrev S_ : Shape := ⟨0, ![]⟩
abbrev S1x600000 : Shape := ⟨2, ![1, 600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S48x8 : S_.BroadcastsInDim S48x8 (![] : Fin 0 → Fin S48x8.rank)
  reducesTo_S48x8_S_d0_1 : S48x8.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_v28 : IVec S_ 1) (main_v32 : IVec S600000 1) (main_v34 : IVec S600000 32) : IVec S_ 1 :=
  let main_c_11 : IVec S_ 32 := constantI S_ 32 50000#32
  let main_v35 : IVec S600000 32 := broadcastInDim S600000 ![] bcast_S_S600000 main_c_11
  let main_v36 : IVec S600000 1 := cmpi .slt main_v34 main_v35
  let main_v37 : IVec S600000 1 := andi main_v32 main_v36
  let main_c_12 : IVec S_ 1 := constantI S_ 1 1#1
  let main_v38 : IVec S_ 1 := (fun x v => Host.reduce IntOp.andi x v reducesTo_S600000_S_d0 h_S_) main_v37 main_c_12
  let main_v39 : IVec S_ 1 := andi main_v28 main_v38
  main_v39

def fn_part1 {F : FTy → Type} [FloatOps F] (main_arg0 : IVec S2x600000 32) (main_arg6 : FVec F S128 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : IVec S1x600000 32 := (extractStridedSlice S1x600000 ![0, 0] · slices_S2x600000_S1x600000_0_0) main_arg0
  let main_v30 : IVec S600000 32 := shapeCast S600000 main_v29 shapeCasts_S1x600000_S600000
  let main_c_10 : IVec S_ 32 := constantI S_ 32 0#32
  let main_v31 : IVec S600000 32 := broadcastInDim S600000 ![] bcast_S_S600000 main_c_10
  let main_v32 : IVec S600000 1 := cmpi .sge main_v30 main_v31
  let main_v33 : IVec S1x600000 32 := (extractStridedSlice S1x600000 ![0, 0] · slices_S2x600000_S1x600000_0_0) main_arg0
  let main_v34 : IVec S600000 32 := shapeCast S600000 main_v33 shapeCasts_S1x600000_S600000
  fn_part2 (F := F) main_v28 main_v32 main_v34

def fn {F : FTy → Type} [FloatOps F] (main_arg0 : IVec S2x600000 32) (main_arg1 : IVec S600000 32) (main_arg2 : FVec F S50000x128 .f32) (main_arg3 : FVec F S8x128x128 .f32) (main_arg4 : FVec F S48x8 .f32) (main_arg5 : FVec F S128x128 .f32) (main_arg6 : FVec F S128 .f32) (main_arg7 : FVec F S64x128 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S8x128x128 .f32 := Host.absf main_arg3
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S48x8 .f32 := Host.absf main_arg4
  let main_cst_2 : FVec F S_ .f32 := constant S_ .f32 0x7F800000#32
  let main_v10 : FVec F S48x8 .f32 := broadcastInDim S48x8 ![] bcast_S_S48x8 main_cst_2
  let main_v11 : IVec S48x8 1 := cmpf .olt main_v9 main_v10
  let main_c_3 : IVec S_ 1 := constantI S_ 1 1#1
  let main_v12 : IVec S_ 1 := (fun x v => Host.reduce IntOp.andi x v reducesTo_S48x8_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg6 main_arg7 main_v13 main_v16
-- ==== Kernel.lean ====
abbrev S2x600000 : Shape := ⟨2, ![2, 600000]⟩
abbrev S600000 : Shape := ⟨1, ![600000]⟩
abbrev S50000x128 : Shape := ⟨2, ![50000, 128]⟩
abbrev S8x128x128 : Shape := ⟨3, ![8, 128, 128]⟩
abbrev S48x8 : Shape := ⟨2, ![48, 8]⟩
abbrev S128x128 : Shape := ⟨2, ![128, 128]⟩
abbrev S128 : Shape := ⟨1, ![128]⟩
abbrev S64x128 : Shape := ⟨2, ![64, 128]⟩
abbrev S1x600000 : Shape := ⟨2, ![1, 600000]⟩
abbrev S_ : Shape := ⟨0, ![]⟩
abbrev S2400000 : Shape := ⟨1, ![2400000]⟩
abbrev S600000x1 : Shape := ⟨2, ![600000, 1]⟩
abbrev S600000x8 : Shape := ⟨2, ![600000, 8]⟩
abbrev S600576 : Shape := ⟨1, ![600576]⟩
abbrev S600576x8 : Shape := ⟨2, ![600576, 8]⟩
abbrev S1x600576 : Shape := ⟨2, ![1, 600576]⟩
abbrev S1x128 : Shape := ⟨2, ![1, 128]⟩
abbrev S600576x128 : Shape := ⟨2, ![600576, 128]⟩
abbrev S1x1536 : Shape := ⟨2, ![1, 1536]⟩
abbrev S1536x8 : Shape := ⟨2, ![1536, 8]⟩
abbrev S1000x128 : Shape := ⟨2, ![1000, 128]⟩
abbrev S1536x128 : Shape := ⟨2, ![1536, 128]⟩
abbrev S1536 : Shape := ⟨1, ![1536]⟩
abbrev S1x1000 : Shape := ⟨2, ![1, 1000]⟩
abbrev S1536x1 : Shape := ⟨2, ![1536, 1]⟩
abbrev S1536x1000 : Shape := ⟨2, ![1536, 1000]⟩
abbrev S1x128x128 : Shape := ⟨3, ![1, 128, 128]⟩
abbrev S1000x1 : Shape := ⟨2, ![1000, 1]⟩
abbrev S1000x1536 : Shape := ⟨2, ![1000, 1536]⟩
abbrev S50064x128 : Shape := ⟨2, ![50064, 128]⟩

abbrev nBuf : Space → Nat
  | .hbm => 64
  | .vmem => 21
  | .smem => 0
  | _ => 0

abbrev bufTy : (tb : Table) → Fin (tcTables nBuf tb) → BufTy
  | .hbm, ⟨0, _⟩ => ⟨S2x600000, .i32⟩
  | .hbm, ⟨1, _⟩ => ⟨S600000, .i32⟩
  | .hbm, ⟨2, _⟩ => ⟨S50000x128, .f32⟩
  | .hbm, ⟨3, _⟩ => ⟨S8x128x128, .f32⟩
  | .hbm, ⟨4, _⟩ => ⟨S48x8, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S2400000, .f32⟩
  | .hbm, ⟨20, _⟩ => ⟨S600000x1, .i32⟩
  | .hbm, ⟨21, _⟩ => ⟨S2400000, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000, .f32⟩
  | .hbm, ⟨31, _⟩ => ⟨S_, .f32⟩
  | .hbm, ⟨32, _⟩ => ⟨S600000, .f32⟩
  | .hbm, ⟨33, _⟩ => ⟨S600000, .f32⟩
  | .hbm, ⟨34, _⟩ => ⟨S_, .f32⟩
  | .hbm, ⟨35, _⟩ => ⟨S600000, .f32⟩
  | .hbm, ⟨36, _⟩ => ⟨S600000, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x8, .f32⟩
  | .hbm, ⟨46, _⟩ => ⟨S600000x1, .f32⟩
  | .hbm, ⟨47, _⟩ => ⟨S600000x8, .f32⟩
  | .hbm, ⟨48, _⟩ => ⟨S600000x8, .f32⟩
  | .hbm, ⟨49, _⟩ => ⟨S_, .i32⟩
  | .hbm, ⟨50, _⟩ => ⟨S_, .i32⟩
  | .hbm, ⟨51, _⟩ => ⟨S600576, .i32⟩
  | .hbm, ⟨52, _⟩ => ⟨S_, .i32⟩
  | .hbm, ⟨53, _⟩ => ⟨S_, .i32⟩
  | .hbm, ⟨54, _⟩ => ⟨S600576, .i32⟩
  | .hbm, ⟨55, _⟩ => ⟨S_, .i32⟩
  | .hbm, ⟨56, _⟩ => ⟨S_, .f32⟩
  | .hbm, ⟨57, _⟩ => ⟨S600576x8, .f32⟩
  | .hbm, ⟨58, _⟩ => ⟨S1x600576, .i32⟩
  | .hbm, ⟨59, _⟩ => ⟨S1x600576, .i32⟩
  | .hbm, ⟨60, _⟩ => ⟨S1x128, .f32⟩
  | .hbm, ⟨61, _⟩ => ⟨S600576x128, .f32⟩
  | .hbm, ⟨62, _⟩ => ⟨S50000x128, .f32⟩
  | .hbm, ⟨63, _⟩ => ⟨S50064x128, .f32⟩
  | .local _ .vmem, ⟨0, _⟩ => ⟨S1x1536, .i32⟩
  | .local _ .vmem, ⟨1, _⟩ => ⟨S1x1536, .i32⟩
  | .local _ .vmem, ⟨2, _⟩ => ⟨S1536x8, .f32⟩
  | .local _ .vmem, ⟨3, _⟩ => ⟨S1536x8, .f32⟩
  | .local _ .vmem, ⟨4, _⟩ => ⟨S1000x128, .f32⟩
  | .local _ .vmem, ⟨5, _⟩ => ⟨S1000x128, .f32⟩
  | .local _ .vmem, ⟨6, _⟩ => ⟨S8x128x128, .f32⟩
  | .local _ .vmem, ⟨7, _⟩ => ⟨S1536x128, .f32⟩
  | .local _ .vmem, ⟨8, _⟩ => ⟨S1536x128, .f32⟩
  | .local _ .vmem, ⟨9, _⟩ => ⟨S1536x128, .f32⟩
  | .local _ .vmem, ⟨10, _⟩ => ⟨S1x1536, .i32⟩
  | .local _ .vmem, ⟨11, _⟩ => ⟨S1x1536, .i32⟩
  | .local _ .vmem, ⟨12, _⟩ => ⟨S1536x128, .f32⟩
  | .local _ .vmem, ⟨13, _⟩ => ⟨S1536x128, .f32⟩
  | .local _ .vmem, ⟨14, _⟩ => ⟨S1000x128, .f32⟩
  | .local _ .vmem, ⟨15, _⟩ => ⟨S1000x128, .f32⟩
  | .local _ .vmem, ⟨16, _⟩ => ⟨S128x128, .f32⟩
  | .local _ .vmem, ⟨17, _⟩ => ⟨S1x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | _, _ => ⟨S2x600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_call0_v0 : Ref sig .tc := ⟨.hbm, 50, rfl⟩
abbrev main_v32 : Ref sig .tc := ⟨.hbm, 51, rfl⟩
abbrev main_c_8 : Ref sig .tc := ⟨.hbm, 52, rfl⟩
abbrev main_call1_v0 : Ref sig .tc := ⟨.hbm, 53, rfl⟩
abbrev main_v33 : Ref sig .tc := ⟨.hbm, 54, rfl⟩
abbrev main_c_9 : Ref sig .tc := ⟨.hbm, 55, rfl⟩
abbrev main_call2_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨2, ![391, 50], ![false, false]⟩

def k0_cond2 (i : grid0.Coords) : BitVec 1 :=
  let arg1 : BitVec 32 := BitVec.ofNat 32 (i 1).val
  let c49_i32 : BitVec 32 := 49#32
  let v24 : BitVec 1 := Scalar.cmpi .eq arg1 c49_i32
  let v25 : BitVec 32 := Scalar.extui v24
  let c0_i32_8 : BitVec 32 := 0#32
  let v26 : BitVec 1 := Scalar.cmpi .ne v25 c0_i32_8
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1536 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![50, 391], ![false, false]⟩

def k1_cond2 (i : grid1.Coords) : BitVec 1 :=
  let arg1 : BitVec 32 := BitVec.ofNat 32 (i 1).val
  let c390_i32 : BitVec 32 := 390#32
  let v25 : BitVec 1 := Scalar.cmpi .eq arg1 c390_i32
  let v26 : BitVec 32 := Scalar.extui v25
  let c0_i32_8 : BitVec 32 := 0#32
  let v27 : BitVec 1 := Scalar.cmpi .ne v26 c0_i32_8
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1536 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1536x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S2400000 : S_.BroadcastsInDim S2400000 (![] : Fin 0 → Fin S2400000.rank)
  bcast_S600000_S600000x1_0 : S600000.BroadcastsInDim S600000x1 (![0] : Fin 1 → Fin S600000x1.rank)
  bcast_S600000x1_S600000x8_0_1 : S600000x1.BroadcastsInDim S600000x8 (![0, 1] : Fin 2 → Fin S600000x8.rank)
  pads_S600000_S600576_05760 : S600000.Pads (![0] : Fin 1 → Nat) ![576] ![0] S600576
  h_S_ : 0 < S_.numel
  pads_S600000x8_S600576x8_05760_000 : S600000x8.Pads (![0, 0] : Fin 2 → Nat) ![576, 0] ![0, 0] S600576x8
  shapeCasts_S600576_S1x600576 : S600576.ShapeCasts S1x600576
  shapeCasts_S128_S1x128 : S128.ShapeCasts S1x128
  inb_S1536x128_S1536x128_0_0 : ∀ a, (![0, 0] : Fin 2 → Nat) a + S1536x128.size a ≤ S1536x128.size a
  h_S1536x128 : 0 < S1536x128.numel
  shapeCasts_S1536x128_S1536x128 : S1536x128.ShapeCasts S1536x128
  inb_S1x1536_S1x1536_0_0 : ∀ a, (![0, 0] : Fin 2 → Nat) a + S1x1536.size a ≤ S1x1536.size a
  h_S1x1536 : 0 < S1x1536.numel
  shapeCasts_S1x1536_S1536 : S1x1536.ShapeCasts S1536
  iota_S1x1000_d1_w32 : S1x1000.Iotas .tc 32 [1]
  shapeCasts_S1536_S1536x1 : S1536.ShapeCasts S1536x1
  broadcasts_S1536x1_S1536x1000 : S1536x1.Broadcasts S1536x1000
  broadcasts_S1x1000_S1536x1000 : S1x1000.Broadcasts S1536x1000
  natLt_1_32 : 1 < 32
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  inb_S1536x8_S1536x8_0_0 : ∀ a, (![0, 0] : Fin 2 → Nat) a + S1536x8.size a ≤ S1536x8.size a
  h_S1536x8 : 0 < S1536x8.numel
  shapeCasts_S1536x8_S1536x8 : S1536x8.ShapeCasts S1536x8
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  slices_S1536x8_o0_0_S1536x1 : S1536x8.Slices ![0, 0] S1536x1
  broadcasts_S1536x1_S1536x128 : S1536x1.Broadcasts S1536x128
  inb_S8x128x128_S1x128x128_1_0_0 : ∀ a, (![1, 0, 0] : Fin 3 → Nat) a + S1x128x128.size a ≤ S8x128x128.size a
  slices_S1536x8_o0_1_S1536x1 : S1536x8.Slices ![0, 1] S1536x1
  inb_S8x128x128_S1x128x128_2_0_0 : ∀ a, (![2, 0, 0] : Fin 3 → Nat) a + S1x128x128.size a ≤ S8x128x128.size a
  slices_S1536x8_o0_2_S1536x1 : S1536x8.Slices ![0, 2] S1536x1
  inb_S8x128x128_S1x128x128_3_0_0 : ∀ a, (![3, 0, 0] : Fin 3 → Nat) a + S1x128x128.size a ≤ S8x128x128.size a
  slices_S1536x8_o0_3_S1536x1 : S1536x8.Slices ![0, 3] S1536x1
  inb_S8x128x128_S1x128x128_4_0_0 : ∀ a, (![4, 0, 0] : Fin 3 → Nat) a + S1x128x128.size a ≤ S8x128x128.size a
  slices_S1536x8_o0_4_S1536x1 : S1536x8.Slices ![0, 4] S1536x1
  inb_S8x128x128_S1x128x128_5_0_0 : ∀ a, (![5, 0, 0] : Fin 3 → Nat) a + S1x128x128.size a ≤ S8x128x128.size a
  slices_S1536x8_o0_5_S1536x1 : S1536x8.Slices ![0, 5] S1536x1
  inb_S8x128x128_S1x128x128_6_0_0 : ∀ a, (![6, 0, 0] : Fin 3 → Nat) a + S1x128x128.size a ≤ S8x128x128.size a
  slices_S1536x8_o0_6_S1536x1 : S1536x8.Slices ![0, 6] S1536x1
  inb_S8x128x128_S1x128x128_7_0_0 : ∀ a, (![7, 0, 0] : Fin 3 → Nat) a + S1x128x128.size a ≤ S8x128x128.size a
  slices_S1536x8_o0_7_S1536x1 : S1536x8.Slices ![0, 7] S1536x1
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  shapeCasts_S1000x128_S1000x128 : S1000x128.ShapeCasts S1000x128
  iota_S1000x1_d0_w32 : S1000x1.Iotas .tc 32 [0]
  shapeCasts_S1536_S1x1536 : S1536.ShapeCasts S1x1536
  broadcasts_S1000x1_S1000x1536 : S1000x1.Broadcasts S1000x1536
  broadcasts_S1x1536_S1000x1536 : S1x1536.Broadcasts S1000x1536
  concatenates_S50000x128_S64x128_S50064x128_d0 : Shape.Concatenates [S50000x128, S64x128] S50064x128 0
  scatter_S2400000_S600000x1_S600000_n_0_0_1_wf : ScatterDims.WF S2400000 S600000x1 S600000 [] [0] [0] 1
  gather_S2400000_S600000x1_S600000_n_0_n_n_0_1_1_wf : GatherDims.WF S2400000 S600000x1 S600000 [] [0] [] [0] [] 1 ![1]
  gather_S48x8_S600000x1_S600000x8_1_0_n_n_0_1_18_wf : GatherDims.WF S48x8 S600000x1 S600000x8 [1] [0] [] [0] [] 1 ![1, 8]
  dot_S1536x1000_S1000x128_S1536x128_1_0_0_1_n_n_wf : DotDims.WF S1536x1000 S1000x128 S1536x128 [1] [0] [0] [1] [] []
  dot_S1536x128_S128x128_S1536x128_1_0_0_1_n_n_wf : DotDims.WF S1536x128 S128x128 S1536x128 [1] [0] [0] [1] [] []
  dot_S1000x128_S128x128_S1000x128_1_0_0_1_n_n_wf : DotDims.WF S1000x128 S128x128 S1000x128 [1] [0] [0] [1] [] []
  dot_S1000x1536_S1536x128_S1000x128_1_0_0_1_n_n_wf : DotDims.WF S1000x1536 S1536x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1536.size a ≤ S1x600576.size a
  hwx0_0 : ∀ i : grid0.Coords, EltTy.bits .i32 = 32 ∨ (Rect.block (s := S1x600576) S1x1536.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x8.size a ≤ S600576x8.size a
  hwx0_1 : ∀ i : grid0.Coords, EltTy.bits .f32 = 32 ∨ (Rect.block (s := S600576x8) S1536x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128x128.size a ≤ S8x128x128.size a
  hwx0_3 : ∀ i : grid0.Coords, EltTy.bits .f32 = 32 ∨ (Rect.block (s := S8x128x128) S8x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1536x128.size a ≤ S600576x128.size a
  hwx0_4 : ∀ i : grid0.Coords, EltTy.bits .f32 = 32 ∨ (Rect.block (s := S600576x128) S1536x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1536.size a ≤ S1x600576.size a
  hwx1_0 : ∀ i : grid1.Coords, EltTy.bits .i32 = 32 ∨ (Rect.block (s := S1x600576) S1x1536.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1536x128.size a ≤ S600576x128.size a
  hwx1_1 : ∀ i : grid1.Coords, EltTy.bits .f32 = 32 ∨ (Rect.block (s := S600576x128) S1536x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S50000x128.size a
  hwx1_5 : ∀ i : grid1.Coords, EltTy.bits .f32 = 32 ∨ (Rect.block (s := S50000x128) S1000x128.size (cc1_transform_5 i) (hinb1_5 i)).WholeWords (EltTy.packing .f32)

variable [Facts₀]

def scatter_S2400000_S600000x1_S600000_n_0_0_1 : ScatterDims S2400000 S600000x1 S600000 where
  updateWindowDims := []
  insertedWindowDims := [0]
  scatterDimsToOperandDims := [0]
  indexVectorDim := 1
  wf := scatter_S2400000_S600000x1_S600000_n_0_0_1_wf
def gather_S2400000_S600000x1_S600000_n_0_n_n_0_1_1 : GatherDims S2400000 S600000x1 S600000 where
  offsetDims := []
  collapsedSliceDims := [0]
  operandBatchingDims := []
  startIndicesBatchingDims := []
  startIndexMap := [0]
  indexVectorDim := 1
  sliceSizes := ![1]
  wf := gather_S2400000_S600000x1_S600000_n_0_n_n_0_1_1_wf
def gather_S48x8_S600000x1_S600000x8_1_0_n_n_0_1_18 : GatherDims S48x8 S600000x1 S600000x8 where
  offsetDims := [1]
  collapsedSliceDims := [0]
  operandBatchingDims := []
  startIndicesBatchingDims := []
  startIndexMap := [0]
  indexVectorDim := 1
  sliceSizes := ![1, 8]
  wf := gather_S48x8_S600000x1_S600000x8_1_0_n_n_0_1_18_wf
def dot_S1536x1000_S1000x128_S1536x128_1_0_0_1_n_n : DotDims S1536x1000 S1000x128 S1536x128 where
  lhsContracting := [1]
  rhsContracting := [0]
  lhsNonContracting := [0]
  rhsNonContracting := [1]
  lhsBatch := []
  rhsBatch := []
  wf := dot_S1536x1000_S1000x128_S1536x128_1_0_0_1_n_n_wf
def dot_S1536x128_S128x128_S1536x128_1_0_0_1_n_n : DotDims S1536x128 S128x128 S1536x128 where
  lhsContracting := [1]
  rhsContracting := [0]
  lhsNonContracting := [0]
  rhsNonContracting := [1]
  lhsBatch := []
  rhsBatch := []
  wf := dot_S1536x128_S128x128_S1536x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x1536_S1536x128_S1000x128_1_0_0_1_n_n : DotDims S1000x1536 S1536x128 S1000x128 where
  lhsContracting := [1]
  rhsContracting := [0]
  lhsNonContracting := [0]
  rhsNonContracting := [1]
  lhsBatch := []
  rhsBatch := []
  wf := dot_S1000x1536_S1536x128_S1000x128_1_0_0_1_n_n_wf

abbrev win0_0 : Pipeline.Window sig grid0 :=
  Pipeline.Window.ofSpec (Memref.whole main_v35) S1x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1536x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1536x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v36) S1x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1536x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S2x600000 : Shape := ⟨2, ![2, 600000]⟩
abbrev S600000 : Shape := ⟨1, ![600000]⟩
abbrev S50000x128 : Shape := ⟨2, ![50000, 128]⟩
abbrev S8x128x128 : Shape := ⟨3, ![8, 128, 128]⟩
abbrev S48x8 : Shape := ⟨2, ![48, 8]⟩
abbrev S128x128 : Shape := ⟨2, ![128, 128]⟩
abbrev S128 : Shape := ⟨1, ![128]⟩
abbrev S64x128 : Shape := ⟨2, ![64, 128]⟩
abbrev S1x600000 : Shape := ⟨2, ![1, 600000]⟩
abbrev S_ : Shape := ⟨0, ![]⟩
abbrev S2400000 : Shape := ⟨1, ![2400000]⟩
abbrev S600000x1 : Shape := ⟨2, ![600000, 1]⟩
abbrev S600000x8 : Shape := ⟨2, ![600000, 8]⟩
abbrev S600000x128 : Shape := ⟨2, ![600000, 128]⟩
abbrev S1x128 : Shape := ⟨2, ![1, 128]⟩
abbrev S1x128x128 : Shape := ⟨3, ![1, 128, 128]⟩
abbrev S50064x128 : Shape := ⟨2, ![50064, 128]⟩

abbrev nBuf : Space → Nat
  | .hbm => 151
  | .vmem => 0
  | .smem => 0
  | _ => 0

abbrev hbmTy0_0 (i : Nat) : BufTy := match i % 128 with
  | 0 => ⟨S2x600000, .i32⟩
  | 1 => ⟨S600000, .i32⟩
  | 2 => ⟨S50000x128, .f32⟩
  | 3 => ⟨S8x128x128, .f32⟩
  | 4 => ⟨S48x8, .f32⟩
  | 5 => ⟨S128x128, .f32⟩
  | 6 => ⟨S128, .f32⟩
  | 7 => ⟨S64x128, .f32⟩
  | 8 => ⟨S1x600000, .i32⟩
  | 9 => ⟨S600000, .i32⟩
  | 10 => ⟨S1x600000, .i32⟩
  | 11 => ⟨S600000, .i32⟩
  | 12 => ⟨S_, .i32⟩
  | 13 => ⟨S600000, .i32⟩
  | 14 => ⟨S600000, .i32⟩
  | 15 => ⟨S600000, .i32⟩
  | 16 => ⟨S_, .f32⟩
  | 17 => ⟨S600000, .f32⟩
  | 18 => ⟨S_, .f32⟩
  | 19 => ⟨S2400000, .f32⟩
  | 20 => ⟨S600000x1, .i32⟩
  | 21 => ⟨S2400000, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000, .f32⟩
  | 31 => ⟨S_, .f32⟩
  | 32 => ⟨S600000, .f32⟩
  | 33 => ⟨S600000, .f32⟩
  | 34 => ⟨S_, .f32⟩
  | 35 => ⟨S600000, .f32⟩
  | 36 => ⟨S600000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x8, .f32⟩
  | 46 => ⟨S600000x1, .f32⟩
  | 47 => ⟨S600000x8, .f32⟩
  | 48 => ⟨S600000x8, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S50000x128, .f32⟩
  | 59 => ⟨S1x128, .f32⟩
  | 60 => ⟨S50000x128, .f32⟩
  | 61 => ⟨S50000x128, .f32⟩
  | 62 => ⟨S600000x1, .f32⟩
  | 63 => ⟨S600000x128, .f32⟩
  | 64 => ⟨S600000x128, .f32⟩
  | 65 => ⟨S_, .f32⟩
  | 66 => ⟨S50000x128, .f32⟩
  | 67 => ⟨S600000x1, .i32⟩
  | 68 => ⟨S50000x128, .f32⟩
  | 69 => ⟨S1x128x128, .f32⟩
  | 70 => ⟨S128x128, .f32⟩
  | 71 => ⟨S50000x128, .f32⟩
  | 72 => ⟨S50000x128, .f32⟩
  | 73 => ⟨S600000x1, .f32⟩
  | 74 => ⟨S600000x128, .f32⟩
  | 75 => ⟨S600000x128, .f32⟩
  | 76 => ⟨S_, .f32⟩
  | 77 => ⟨S50000x128, .f32⟩
  | 78 => ⟨S600000x1, .i32⟩
  | 79 => ⟨S50000x128, .f32⟩
  | 80 => ⟨S1x128x128, .f32⟩
  | 81 => ⟨S128x128, .f32⟩
  | 82 => ⟨S50000x128, .f32⟩
  | 83 => ⟨S50000x128, .f32⟩
  | 84 => ⟨S600000x1, .f32⟩
  | 85 => ⟨S600000x128, .f32⟩
  | 86 => ⟨S600000x128, .f32⟩
  | 87 => ⟨S_, .f32⟩
  | 88 => ⟨S50000x128, .f32⟩
  | 89 => ⟨S600000x1, .i32⟩
  | 90 => ⟨S50000x128, .f32⟩
  | 91 => ⟨S1x128x128, .f32⟩
  | 92 => ⟨S128x128, .f32⟩
  | 93 => ⟨S50000x128, .f32⟩
  | 94 => ⟨S50000x128, .f32⟩
  | 95 => ⟨S600000x1, .f32⟩
  | 96 => ⟨S600000x128, .f32⟩
  | 97 => ⟨S600000x128, .f32⟩
  | 98 => ⟨S_, .f32⟩
  | 99 => ⟨S50000x128, .f32⟩
  | 100 => ⟨S600000x1, .i32⟩
  | 101 => ⟨S50000x128, .f32⟩
  | 102 => ⟨S1x128x128, .f32⟩
  | 103 => ⟨S128x128, .f32⟩
  | 104 => ⟨S50000x128, .f32⟩
  | 105 => ⟨S50000x128, .f32⟩
  | 106 => ⟨S600000x1, .f32⟩
  | 107 => ⟨S600000x128, .f32⟩
  | 108 => ⟨S600000x128, .f32⟩
  | 109 => ⟨S_, .f32⟩
  | 110 => ⟨S50000x128, .f32⟩
  | 111 => ⟨S600000x1, .i32⟩
  | 112 => ⟨S50000x128, .f32⟩
  | 113 => ⟨S1x128x128, .f32⟩
  | 114 => ⟨S128x128, .f32⟩
  | 115 => ⟨S50000x128, .f32⟩
  | 116 => ⟨S50000x128, .f32⟩
  | 117 => ⟨S600000x1, .f32⟩
  | 118 => ⟨S600000x128, .f32⟩
  | 119 => ⟨S600000x128, .f32⟩
  | 120 => ⟨S_, .f32⟩
  | 121 => ⟨S50000x128, .f32⟩
  | 122 => ⟨S600000x1, .i32⟩
  | 123 => ⟨S50000x128, .f32⟩
  | 124 => ⟨S1x128x128, .f32⟩
  | 125 => ⟨S128x128, .f32⟩
  | 126 => ⟨S50000x128, .f32⟩
  | 127 => ⟨S50000x128, .f32⟩
  | _ => ⟨S2x600000, .i32⟩

abbrev hbmTy0_1 (i : Nat) : BufTy := match i % 128 with
  | 0 => ⟨S600000x1, .f32⟩
  | 1 => ⟨S600000x128, .f32⟩
  | 2 => ⟨S600000x128, .f32⟩
  | 3 => ⟨S_, .f32⟩
  | 4 => ⟨S50000x128, .f32⟩
  | 5 => ⟨S600000x1, .i32⟩
  | 6 => ⟨S50000x128, .f32⟩
  | 7 => ⟨S1x128x128, .f32⟩
  | 8 => ⟨S128x128, .f32⟩
  | 9 => ⟨S50000x128, .f32⟩
  | 10 => ⟨S50000x128, .f32⟩
  | 11 => ⟨S600000x1, .f32⟩
  | 12 => ⟨S600000x128, .f32⟩
  | 13 => ⟨S600000x128, .f32⟩
  | 14 => ⟨S_, .f32⟩
  | 15 => ⟨S50000x128, .f32⟩
  | 16 => ⟨S600000x1, .i32⟩
  | 17 => ⟨S50000x128, .f32⟩
  | 18 => ⟨S1x128x128, .f32⟩
  | 19 => ⟨S128x128, .f32⟩
  | 20 => ⟨S50000x128, .f32⟩
  | 21 => ⟨S50000x128, .f32⟩
  | 22 => ⟨S50064x128, .f32⟩
  | _ => ⟨S2x600000, .i32⟩

abbrev hbmTy (i : Nat) : BufTy := match i / 128 with
  | 0 => hbmTy0_0 i
  | 1 => hbmTy0_1 i
  | _ => ⟨S2x600000, .i32⟩

abbrev bufTy : (tb : Table) → Fin (tcTables nBuf tb) → BufTy
  | .hbm, ⟨i, _⟩ => hbmTy i
  | _, _ => ⟨S2x600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_13 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_14 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_15 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_cst_16 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S2400000 : S_.BroadcastsInDim S2400000 (![] : Fin 0 → Fin S2400000.rank)
  bcast_S600000_S600000x1_0 : S600000.BroadcastsInDim S600000x1 (![0] : Fin 1 → Fin S600000x1.rank)
  bcast_S600000x1_S600000x8_0_1 : S600000x1.BroadcastsInDim S600000x8 (![0, 1] : Fin 2 → Fin S600000x8.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S600000x8_S600000x1_0_0 : S600000x8.Slices ![0, 0] S600000x1
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S8x128x128_S1x128x128_0_0_0 : S8x128x128.Slices ![0, 0, 0] S1x128x128
  shapeCasts_S1x128x128_S128x128 : S1x128x128.ShapeCasts S128x128
  slices_S600000x8_S600000x1_0_1 : S600000x8.Slices ![0, 1] S600000x1
  slices_S8x128x128_S1x128x128_1_0_0 : S8x128x128.Slices ![1, 0, 0] S1x128x128
  slices_S600000x8_S600000x1_0_2 : S600000x8.Slices ![0, 2] S600000x1
  slices_S8x128x128_S1x128x128_2_0_0 : S8x128x128.Slices ![2, 0, 0] S1x128x128
  slices_S600000x8_S600000x1_0_3 : S600000x8.Slices ![0, 3] S600000x1
  slices_S8x128x128_S1x128x128_3_0_0 : S8x128x128.Slices ![3, 0, 0] S1x128x128
  slices_S600000x8_S600000x1_0_4 : S600000x8.Slices ![0, 4] S600000x1
  slices_S8x128x128_S1x128x128_4_0_0 : S8x128x128.Slices ![4, 0, 0] S1x128x128
  slices_S600000x8_S600000x1_0_5 : S600000x8.Slices ![0, 5] S600000x1
  slices_S8x128x128_S1x128x128_5_0_0 : S8x128x128.Slices ![5, 0, 0] S1x128x128
  slices_S600000x8_S600000x1_0_6 : S600000x8.Slices ![0, 6] S600000x1
  slices_S8x128x128_S1x128x128_6_0_0 : S8x128x128.Slices ![6, 0, 0] S1x128x128
  slices_S600000x8_S600000x1_0_7 : S600000x8.Slices ![0, 7] S600000x1
  slices_S8x128x128_S1x128x128_7_0_0 : S8x128x128.Slices ![7, 0, 0] S1x128x128
  concatenates_S50000x128_S64x128_S50064x128_d0 : Shape.Concatenates [S50000x128, S64x128] S50064x128 0
  scatter_S2400000_S600000x1_S600000_n_0_0_1_wf : ScatterDims.WF S2400000 S600000x1 S600000 [] [0] [0] 1
  gather_S2400000_S600000x1_S600000_n_0_n_n_0_1_1_wf : GatherDims.WF S2400000 S600000x1 S600000 [] [0] [] [0] [] 1 ![1]
  gather_S48x8_S600000x1_S600000x8_1_0_n_n_0_1_18_wf : GatherDims.WF S48x8 S600000x1 S600000x8 [1] [0] [] [0] [] 1 ![1, 8]
  gather_S50000x128_S600000x1_S600000x128_1_0_n_n_0_1_1128_wf : GatherDims.WF S50000x128 S600000x1 S600000x128 [1] [0] [] [0] [] 1 ![1, 128]
  dot_S50000x128_S128x128_S50000x128_1_0_0_1_n_n_wf : DotDims.WF S50000x128 S128x128 S50000x128 [1] [0] [0] [1] [] []
  scatter_S50000x128_S600000x1_S600000x128_1_0_0_1_wf : ScatterDims.WF S50000x128 S600000x1 S600000x128 [1] [0] [0] 1

variable [Facts₀]

def scatter_S2400000_S600000x1_S600000_n_0_0_1 : ScatterDims S2400000 S600000x1 S600000 where
  updateWindowDims := []
  insertedWindowDims := [0]
  scatterDimsToOperandDims := [0]
  indexVectorDim := 1
  wf := scatter_S2400000_S600000x1_S600000_n_0_0_1_wf
def gather_S2400000_S600000x1_S600000_n_0_n_n_0_1_1 : GatherDims S2400000 S600000x1 S600000 where
  offsetDims := []
  collapsedSliceDims := [0]
  operandBatchingDims := []
  startIndicesBatchingDims := []
  startIndexMap := [0]
  indexVectorDim := 1
  sliceSizes := ![1]
  wf := gather_S2400000_S600000x1_S600000_n_0_n_n_0_1_1_wf
def gather_S48x8_S600000x1_S600000x8_1_0_n_n_0_1_18 : GatherDims S48x8 S600000x1 S600000x8 where
  offsetDims := [1]
  collapsedSliceDims := [0]
  operandBatchingDims := []
  startIndicesBatchingDims := []
  startIndexMap := [0]
  indexVectorDim := 1
  sliceSizes := ![1, 8]
  wf := gather_S48x8_S600000x1_S600000x8_1_0_n_n_0_1_18_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KI.R0Runs.lean ====
import proofs.«141899_j10780367913070_1_alg».proof.Proof.Gen.KernelIdeal.Launch
import proofs.«141899_j10780367913070_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0 (the gather kernel, pipeline 0): what its three case runs share

The region's kernel keeps an accumulator in a scratch buffer between grid points: at the first point of each run of
the inner grid axis it zeroes the scratch, at every point it adds a one-hot product into it, and at the last point of
the run it computes the output block from the accumulated value and stores it into the output window, which is idle
(left untouched and not written back) at every other point. Everything here is stated at a PARAMETER `V`, the
TensorCore's buffer contents when the region is entered. -/

section Region0
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branch conditions, in closed form over the grid -/

/-- The inner coordinate of the `t`-th point (the last axis runs fastest, its bound is 50). -/
theorem coord0_inner (t : Fin grid0.N) : (grid0.coords t 1).val = t.val % 50 := by
  show t.val / 1 % 50 = t.val % 50
  rw [Nat.div_one]

/-- The condition of the body's first conditional (reset the accumulator): the inner coordinate is 0. -/
abbrev cond0_0 (i : grid0.Coords) : Prop := (Scalar.cmpi .ne (Scalar.extui (Scalar.cmpi .eq (BitVec.ofNat 32 (i 1).val) 0#32)) 0#32) = 1#1
/-- Over the 50 values of the inner coordinate: it holds exactly at 0. -/
theorem cond0_0_iff (i : grid0.Coords) : cond0_0 i ↔ (i 1).val = 0 := by
  have h : ∀ n : Fin 50, ((Scalar.cmpi .ne (Scalar.extui (Scalar.cmpi .eq (BitVec.ofNat 32 n.val) 0#32)) 0#32 : BitVec 1) = 1#1) ↔ n.val = 0 := by decide
  exact h (i 1)
/-- It holds at the points ≡ 0 (mod 50). -/
theorem hcond0_0 (t : Fin cfg0.N) : cond0_0 (grid0.coords t) ↔ t.val % 50 = 0 := by
  rw [cond0_0_iff, coord0_inner]

/-- The condition of the body's second conditional (compute and store the output block): the inner coordinate is 49. -/
abbrev cond0_1 (i : grid0.Coords) : Prop := k0_cond2 i = 1#1
/-- Over the 50 values of the inner coordinate: it holds exactly at 49. -/
theorem cond0_1_iff (i : grid0.Coords) : cond0_1 i ↔ (i 1).val = 49 := by
  have h : ∀ n : Fin 50, ((Scalar.cmpi .ne (Scalar.extui (Scalar.cmpi .eq (BitVec.ofNat 32 n.val) 49#32)) 0#32 : BitVec 1) = 1#1) ↔ n.val = 49 := by decide
  exact h (i 1)
/-- It holds at the points ≡ 49 (mod 50). -/
theorem hcond0_1 (t : Fin cfg0.N) : cond0_1 (grid0.coords t) ↔ t.val % 50 = 49 := by
  rw [cond0_1_iff, coord0_inner]

/-! ## Where the windows are idle -/

/-- The four input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Where the second condition fails the output window is idle: the body stores nothing into it. -/
theorem idleAt0_4 (i : grid0.Coords) (h : ¬cond0_1 i) : cfg0.idle 4 i = true := by
  show (!(k0_cond2 i == 1#1)) = true
  rw [Bool.not_eq_true', beq_eq_false_iff_ne]; exact h
/-- Where it holds the output window is live: the body stores into it. -/
theorem liveAt0_4 (i : grid0.Coords) (h : cond0_1 i) : cfg0.idle 4 i = false := by
  show (!(k0_cond2 i == 1#1)) = false
  rw [Bool.not_eq_false', beq_iff_eq]; exact h
/-! ## The staging and scratch memrefs the body is called with -/

/-- One staging buffer of output window 4, through which its contents are stated (the choice does not matter). -/
abbrev VO0_4 : View sig .tc .vmem S1536x128 .f32 := (Memref.whole cc0_stg4_0 : Memref sig .tc .vmem S1536x128 .f32).view
/-- Each window's current staging memref at point `t`, spelled as the pipeline passes it, and its wholeness. -/
abbrev ms0_0 (t : Fin cfg0.N) : Memref sig .tc .vmem S1x1536 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x128 .f32 := win0_4.stage (cfg0.slots t 4)
abbrev hs0_4 (t : Fin cfg0.N) : (ms0_4 t).IsWhole := hstage0_4 ((cfg0.slots t 4).cast nbuf0_4)
/-- The scratch operand: a whole scoped buffer of the kernel's own, passed beside the windows. -/
abbrev scM0_0 : Memref sig .tc .vmem S1536x128 .f32 := Memref.whole cc0_scratch0
/-- The scratch the kernel carries between points, as a view: what it holds is stated through it. -/
abbrev VS0_0 : View sig .tc .vmem S1536x128 .f32 := scM0_0.view

/-- The core's other scoped buffers that are no staging buffer of this region (the other region's staging buffers and
    scratch), each whole at some contents: they pass through the region untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The launch's invariant with the scratch operand as a memref owned at some contents: what the body obligation
    hands the run and takes back. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.KernelIdeal.Hand

end
-- ==== Proof.KI.R0RunA.lean ====
import proofs.«141899_j10780367913070_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0, case A: the first point of a run of the inner axis (reset, then accumulate; nothing stored into the output) -/

set_option maxHeartbeats 1000000 in
/-- What the body's stores leave in the output's staging memref and in the scratch, as pieces (last first), in the case
    where the first condition holds and the second does not, WITH the proof that on whole memrefs — the inputs' at
    their contents, the idle output's at contents `xi4` handed back untouched, the scratch at anything — the body runs
    to the continuation holding the inputs' as they were and the scratch with its pieces written. -/
noncomputable def kernelRun0_A (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : cond0_0 i) (hc1 : ¬cond0_1 i)
    (x0 : Vec F S1x1536 .i32) (x1 : Vec F S1536x8 .f32) (x2 : Vec F S1000x128 .f32) (x3 : Vec F S8x128x128 .f32) :
    Σ' (L4 : List (View.Piece (Elt F) S1536x128 .f32)), { LS0 : List (View.Piece (Elt F) S1536x128 .f32) //
      ∀ (xi4 : Vec F S1536x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg2 harg2 arg3 harg3 arg4 harg4 arg5 harg5 arg6 harg6 arg7 harg7) K } := by
  refine ⟨[], ?_, fun xi4 E K => ?run⟩
  case run =>
    simp only [cc0__gather_kernel_eq_skeleton]; unfold cc0__gather_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R0OutA.lean ====
import proofs.«141899_j10780367913070_1_alg».proof.Proof.KI.R0RunA
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0, case A: what the run's pieces read back as

The pieces case A's run found for the output window (none) and for the carried scratch, read back over junk, the
cover of the scratch by its pieces, and the scratch's value as the skeleton's payloads of the input blocks. -/

/-- Case A stores nothing into the output window (it is idle at the case's points and not written back there): no
    pieces — a placeholder (junk read back) that nothing consults. -/
def out0_A_4 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : cond0_0 i) (hc1 : ¬cond0_1 i)
    (x0 : Vec F S1x1536 .i32) (x1 : Vec F S1536x8 .f32) (x2 : Vec F S1000x128 .f32) (x3 : Vec F S8x128x128 .f32) : Vec F S1536x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the scratch, which the kernel carries between points, cover it (whole stores). -/
theorem scover0_A_0 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : cond0_0 i) (hc1 : ¬cond0_1 i)
    (x0 : Vec F S1x1536 .i32) (x1 : Vec F S1536x8 .f32) (x2 : Vec F S1000x128 .f32) (x3 : Vec F S8x128x128 .f32) (y : S1536x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1536x128.size (by sl_kernel_rfl) y

/-- What case A leaves in the scratch: its pieces read back over junk. -/
def sout0_A_0 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : cond0_0 i) (hc1 : ¬cond0_1 i)
    (x0 : Vec F S1x1536 .i32) (x1 : Vec F S1536x8 .f32) (x2 : Vec F S1000x128 .f32) (x3 : Vec F S8x128x128 .f32) : Vec F S1536x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- The value of case A's scratch: the accumulator is reset (the zero payload), then the point's one-hot product is
    added to it — the reset store is read back whole by the load that follows it, the inputs' loads read their blocks. -/
theorem sout0_A_0_eq (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : cond0_0 i) (hc1 : ¬cond0_1 i)
    (x0 : Vec F S1x1536 .i32) (x1 : Vec F S1536x8 .f32) (x2 : Vec F S1000x128 .f32) (x3 : Vec F S8x128x128 .f32) :
    sout0_A_0 c i arg2 harg2 arg3 harg3 arg4 harg4 arg5 harg5 arg6 harg6 arg7 harg7 hc0 hc1 x0 x1 x2 x3 = k0_pay2 i x0 x2 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  have hz : (![0, 0] : Fin 2 → Nat) = fun _ => 0 := by funext a; fin_cases a <;> rfl
  rw [View.canon_cons_unit_zero hz]
  simp only [View.readAt_eq_ld, harg2.read_unread, harg4.read_unread, View.ld_unit_zero (S := S1x1536) hz, View.ld_unit_zero (S := S1000x128) hz, View.readCov_unit_zero (S := S1536x128) arg7.view hz]

end Cert.KernelIdeal.Hand

end
-- ==== Proof.KI.R0RunB.lean ====
import proofs.«141899_j10780367913070_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0, case B: a point inside a run of the inner axis (accumulate only; nothing stored into the output) -/

set_option maxHeartbeats 1000000 in
/-- What the body's stores leave in the output's staging memref and in the scratch, as pieces (last first), in the case
    where neither condition holds, WITH the proof that on whole memrefs — the inputs' at their contents, the idle
    output's at contents `xi4` handed back untouched, the scratch at the contents `xs0` the point before left — the
    body runs to the continuation holding the inputs' as they were and the scratch with its pieces written. -/
noncomputable def kernelRun0_B (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : ¬cond0_1 i)
    (x0 : Vec F S1x1536 .i32) (x1 : Vec F S1536x8 .f32) (x2 : Vec F S1000x128 .f32) (x3 : Vec F S8x128x128 .f32) (xs0 : Vec F S1536x128 .f32) :
    Σ' (L4 : List (View.Piece (Elt F) S1536x128 .f32)), { LS0 : List (View.Piece (Elt F) S1536x128 .f32) //
      ∀ (xi4 : Vec F S1536x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg2 harg2 arg3 harg3 arg4 harg4 arg5 harg5 arg6 harg6 arg7 harg7) K } := by
  refine ⟨[], ?_, fun xi4 E K => ?run⟩
  case run =>
    simp only [cc0__gather_kernel_eq_skeleton]; unfold cc0__gather_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R0OutB.lean ====
import proofs.«141899_j10780367913070_1_alg».proof.Proof.KI.R0RunB
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0, case B: what the run's pieces read back as

The pieces case B's run found for the output window (none) and for the carried scratch, read back over junk, the
cover of the scratch by its pieces, and the scratch's value as the skeleton's payload of the input blocks and of the
scratch the point before left. -/

/-- Case B stores nothing into the output window (it is idle at the case's points and not written back there): no
    pieces — a placeholder (junk read back) that nothing consults. -/
def out0_B_4 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : ¬cond0_1 i)
    (x0 : Vec F S1x1536 .i32) (x1 : Vec F S1536x8 .f32) (x2 : Vec F S1000x128 .f32) (x3 : Vec F S8x128x128 .f32) (xs0 : Vec F S1536x128 .f32) : Vec F S1536x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the scratch, which the kernel carries between points, cover it (whole stores). -/
theorem scover0_B_0 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : ¬cond0_1 i)
    (x0 : Vec F S1x1536 .i32) (x1 : Vec F S1536x8 .f32) (x2 : Vec F S1000x128 .f32) (x3 : Vec F S8x128x128 .f32) (xs0 : Vec F S1536x128 .f32) (y : S1536x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1536x128.size (by sl_kernel_rfl) y

/-- What case B leaves in the scratch: its pieces read back over junk. -/
def sout0_B_0 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : ¬cond0_1 i)
    (x0 : Vec F S1x1536 .i32) (x1 : Vec F S1536x8 .f32) (x2 : Vec F S1000x128 .f32) (x3 : Vec F S8x128x128 .f32) (xs0 : Vec F S1536x128 .f32) : Vec F S1536x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- The value of case B's scratch: the point's one-hot product added to what the point before left — the scratch's
    load reads the contents it was handed, the inputs' loads read their blocks. -/
theorem sout0_B_0_eq (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : ¬cond0_1 i)
    (x0 : Vec F S1x1536 .i32) (x1 : Vec F S1536x8 .f32) (x2 : Vec F S1000x128 .f32) (x3 : Vec F S8x128x128 .f32) (xs0 : Vec F S1536x128 .f32) :
    sout0_B_0 c i arg2 harg2 arg3 harg3 arg4 harg4 arg5 harg5 arg6 harg6 arg7 harg7 hc0 hc1 x0 x1 x2 x3 xs0 = k0_pay2 i x0 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  have hz : (![0, 0] : Fin 2 → Nat) = fun _ => 0 := by funext a; fin_cases a <;> rfl
  rw [View.canon_cons_unit_zero hz]
  simp only [View.readAt_eq_ld, harg2.read_unread, harg4.read_unread, harg7.read_unread, View.ld_unit_zero (S := S1x1536) hz, View.ld_unit_zero (S := S1000x128) hz, View.ld_unit_zero (S := S1536x128) hz]

end Cert.KernelIdeal.Hand

end
-- ==== Proof.KI.R0RunC.lean ====
import proofs.«141899_j10780367913070_1_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0, case C: the last point of a run of the inner axis (accumulate, then compute and store the output block) -/

set_option maxHeartbeats 1000000 in
/-- What the body's stores leave in the output's staging memref and in the scratch, as pieces (last first), in the case
    where the first condition fails and the second holds, WITH the proof that on whole memrefs — the inputs' at their
    contents, the output's at anything, the scratch at the contents `xs0` the point before left — the body runs to the
    continuation holding the inputs' as they were and the output and the scratch each with its pieces written. -/
noncomputable def kernelRun0_C (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : cond0_1 i)
    (x0 : Vec F S1x1536 .i32) (x1 : Vec F S1536x8 .f32) (x2 : Vec F S1000x128 .f32) (x3 : Vec F S8x128x128 .f32) (xs0 : Vec F S1536x128 .f32) :
    Σ' (L4 : List (View.Piece (Elt F) S1536x128 .f32)), { LS0 : List (View.Piece (Elt F) S1536x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg2 harg2 arg3 harg3 arg4 harg4 arg5 harg5 arg6 harg6 arg7 harg7) K } := by
  refine ⟨?_, ?_, fun E K => ?run⟩
  case run =>
    simp only [cc0__gather_kernel_eq_skeleton]; unfold cc0__gather_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.R0OutC.lean ====
import proofs.«141899_j10780367913070_1_alg».proof.Proof.KI.R0RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0, case C: what the run's pieces read back as

The pieces case C's run found for the output window and for the carried scratch, read back over junk, their covers,
and both values as the skeleton's payloads of the input blocks and of the scratch the point before left. -/

/-- Case C's pieces for the output window tile its block (one whole store), so they cover it. -/
theorem cover0_C_4 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : cond0_1 i)
    (x0 : Vec F S1x1536 .i32) (x1 : Vec F S1536x8 .f32) (x2 : Vec F S1000x128 .f32) (x3 : Vec F S8x128x128 .f32) (xs0 : Vec F S1536x128 .f32) (y : S1536x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1536x128.size (by sl_kernel_rfl) y

/-- What case C leaves in the output window's staging buffer: its pieces read back over junk. -/
def out0_C_4 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : cond0_1 i)
    (x0 : Vec F S1x1536 .i32) (x1 : Vec F S1536x8 .f32) (x2 : Vec F S1000x128 .f32) (x3 : Vec F S8x128x128 .f32) (xs0 : Vec F S1536x128 .f32) : Vec F S1536x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the scratch, which the kernel carries between points, cover it (whole stores). -/
theorem scover0_C_0 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : cond0_1 i)
    (x0 : Vec F S1x1536 .i32) (x1 : Vec F S1536x8 .f32) (x2 : Vec F S1000x128 .f32) (x3 : Vec F S8x128x128 .f32) (xs0 : Vec F S1536x128 .f32) (y : S1536x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1536x128.size (by sl_kernel_rfl) y

/-- What case C leaves in the scratch: its pieces read back over junk. -/
def sout0_C_0 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : cond0_1 i)
    (x0 : Vec F S1x1536 .i32) (x1 : Vec F S1536x8 .f32) (x2 : Vec F S1000x128 .f32) (x3 : Vec F S8x128x128 .f32) (xs0 : Vec F S1536x128 .f32) : Vec F S1536x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- The value of case C's scratch: the point's one-hot product added to what the point before left. -/
theorem sout0_C_0_eq (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : cond0_1 i)
    (x0 : Vec F S1x1536 .i32) (x1 : Vec F S1536x8 .f32) (x2 : Vec F S1000x128 .f32) (x3 : Vec F S8x128x128 .f32) (xs0 : Vec F S1536x128 .f32) :
    sout0_C_0 c i arg2 harg2 arg3 harg3 arg4 harg4 arg5 harg5 arg6 harg6 arg7 harg7 hc0 hc1 x0 x1 x2 x3 xs0 = k0_pay2 i x0 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  have hz : (![0, 0] : Fin 2 → Nat) = fun _ => 0 := by funext a; fin_cases a <;> rfl
  rw [View.canon_cons_unit_zero hz]
  simp only [View.readAt_eq_ld, harg2.read_unread, harg4.read_unread, harg7.read_unread, View.ld_unit_zero (S := S1x1536) hz, View.ld_unit_zero (S := S1000x128) hz, View.ld_unit_zero (S := S1536x128) hz]

/-- The value of case C's output block, over the accumulated scratch `S` the point leaves: the scratch's store is read
    back whole by the load that follows it, the weight block is loaded slab by slab through literal rectangles. -/
theorem out0_C_4_eq (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : cond0_1 i)
    (x0 : Vec F S1x1536 .i32) (x1 : Vec F S1536x8 .f32) (x2 : Vec F S1000x128 .f32) (x3 : Vec F S8x128x128 .f32) (xs0 : Vec F S1536x128 .f32) :
    out0_C_4 c i arg2 harg2 arg3 harg3 arg4 harg4 arg5 harg5 arg6 harg6 arg7 harg7 hc0 hc1 x0 x1 x2 x3 xs0
      = k0_pay3 (k0_pay4 x1) (k0_pay5 (sout0_C_0 c i arg2 harg2 arg3 harg3 arg4 harg4 arg5 harg5 arg6 harg6 arg7 harg7 hc0 hc1 x0 x1 x2 x3 xs0)) (k0_pay6 (sout0_C_0 c i arg2 harg2 arg3 harg3 arg4 harg4 arg5 harg5 arg6 harg6 arg7 harg7 hc0 hc1 x0 x1 x2 x3 xs0) x1 (View.ld x3 (Rect.unit (s := S8x128x128) ![0, 0, 0] S1x128x128.size inb_S8x128x128_S1x128x128_0_0_0)) (View.ld x3 (Rect.unit (s := S8x128x128) ![1, 0, 0] S1x128x128.size inb_S8x128x128_S1x128x128_1_0_0)) (View.ld x3 (Rect.unit (s := S8x128x128) ![2, 0, 0] S1x128x128.size inb_S8x128x128_S1x128x128_2_0_0)) (View.ld x3 (Rect.unit (s := S8x128x128) ![3, 0, 0] S1x128x128.size inb_S8x128x128_S1x128x128_3_0_0))) (View.ld x3 (Rect.unit (s := S8x128x128) ![4, 0, 0] S1x128x128.size inb_S8x128x128_S1x128x128_4_0_0)) (View.ld x3 (Rect.unit (s := S8x128x128) ![5, 0, 0] S1x128x128.size inb_S8x128x128_S1x128x128_5_0_0)) (View.ld x3 (Rect.unit (s := S8x128x128) ![6, 0, 0] S1x128x128.size inb_S8x128x128_S1x128x128_6_0_0)) (View.ld x3 (Rect.unit (s := S8x128x128) ![7, 0, 0] S1x128x128.size inb_S8x128x128_S1x128x128_7_0_0)) := by
  rw [sout0_C_0_eq]
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  have hz : (![0, 0] : Fin 2 → Nat) = fun _ => 0 := by funext a; fin_cases a <;> rfl
  rw [View.canon_cons_unit_zero hz]
  simp only [View.readAt_eq_ld, harg2.read_unread, harg3.read_unread, harg4.read_unread, harg5.read_unread, harg7.read_unread, View.ld_unit_zero (S := S1x1536) hz, View.ld_unit_zero (S := S1536x8) hz, View.ld_unit_zero (S := S1000x128) hz, View.ld_unit_zero (S := S1536x128) hz, View.readCov_unit_zero (S := S1536x128) arg7.view hz]
  <;> rfl

end Cert.KernelIdeal.Hand

end
-- ==== Proof.KI.R0Frame.lean ====
import proofs.«141899_j10780367913070_1_alg».proof.Proof.KI.R0OutA
import proofs.«141899_j10780367913070_1_alg».proof.Proof.KI.R0OutB
import proofs.«141899_j10780367913070_1_alg».proof.Proof.KI.R0OutC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0 (the gather kernel): what its output and scratch hold point by point, the proof data, the body obligation

The accumulation `outsAt0` by recursion on the position, the region invariant `PhiS0` naming the scratch contents
the point before left, the proof data `dat0` at the region-entry contents `V`, and the body obligation by cases. -/

/-! ## The write-back schedule of the output window, and the body as the pipeline calls it -/

/-- The outer coordinate of the `t`-th point (the inner axis has 50 points, the outer 391). -/
theorem coord0_outer (t : Fin grid0.N) : (grid0.coords t 0).val = t.val / 50 % 391 := rfl

/-- Where the second condition fails the pipeline does not write the output block back: the point is not the grid's
    last, and the next point has the same outer coordinate, which is all the output window's block index reads. -/
theorem noFlush0_4 (t : Fin cfg0.N) (h : ¬cond0_1 (grid0.coords t)) : (cfg0.win 4).flush t = false := by
  have h49 : ¬t.val % 50 = 49 := fun e => h ((hcond0_1 t).mpr e)
  rw [Bool.eq_false_iff]; intro hf
  unfold Pipeline.Window.flush at hf
  rw [Bool.and_eq_true, Bool.or_eq_true, decide_eq_true_eq, decide_eq_true_eq] at hf
  obtain ⟨-, hN | ⟨hlt, hne⟩⟩ := hf
  · have hN' : t.val + 1 = 19550 := hN.trans N_0
    omega
  · refine hne (hreads0_4 (grid0.coords ⟨t.val + 1, hlt⟩) (grid0.coords t) fun a ha => ?_)
    match a, ha with
    | ⟨0, _⟩, _ => exact Fin.ext (by show (t.val + 1) / 50 % 391 = t.val / 50 % 391; omega)
    | ⟨1, _⟩, ha => exact absurd ha Bool.false_ne_true

/-- The kernel body at point `t`, on what the pipeline calls it with (the label table's row at the point's slots). -/
abbrev bodyAtR0 (t : Fin cfg0.N) : Prog (TpuEff nD τ sig (Elt F) Λ₀ .tc) PUnit :=
  cc0__gather_kernel (grid0.coords t) (ms0_0 t) (hs0_0 t) (ms0_1 t) (hs0_1 t) (ms0_2 t) (hs0_2 t) (ms0_3 t) (hs0_3 t) (ms0_4 t) (hs0_4 t) scM0_0 (Memref.isWhole_whole _)

section Region0
variable (V : (c : Dev nD) → (b : Ref sig .tc) → Buf (Elt F) ((c : Thread nD τ).loc b))

/-! ## What the output and the scratch hold after each point -/

/-- THE ACCUMULATION. What the output window's staging buffer (first component) and the carried scratch (second
    component) hold after the body at position `n`: the case the closed forms select at `n`, run at the point's
    memrefs and input blocks, the scratch it reads at what this leaves at `n - 1`. Both conditions at once is no case. -/
def outsAt0 (c : Dev nD) : (n : ℕ) → n < cfg0.N → Vec F S1536x128 .f32 × Vec F S1536x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 50 = 0 then
      if h1 : (n + 1) % 50 = 49 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 50 = 49 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- `outsAt0` at a point of case A: that case's contents. -/
theorem outsAt0_A (c : Dev nD) (t : Fin cfg0.N) (h0 : t.val % 50 = 0) (h1 : ¬t.val % 50 = 49) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 50 = 0) (h1 : ¬t.val % 50 = 49) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 50 = 0) (h1 : t.val % 50 = 49) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer that is no staging
    buffer of the region at anything, the generator register at some state); afterwards the same with the carried scratch
    at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- Before the first point the invariant is the launch's. -/
theorem Phi0_first (c : Dev nD) : (dat0 V c).Φ 0 = Pipeline.ΦA spec0 c := by
  rw [show (dat0 V c).Φ 0 = PhiS0 V c 0 (Nat.zero_le _) from rfl, PhiS0_zero V c 0 _ rfl]

/-- After any point but the first the invariant gives the launch's back: the scratch's named contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem Phi0_last (c : Dev nD) : (dat0 V c).Φ (Fin.last cfg0.N) ⊢ Pipeline.ΦA spec0 c :=
  Phi0_out V c _ (by rw [Fin.val_last]; have : cfg0.N = 19550 := N_0; omega)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which case the point is in; the
    invariant hands the body the carried scratch at what the point before left (at anything at the first point) and
    takes it back at this point's contents, the other scoped buffers and the generator register passing through; the
    core owes nothing throughout. -/
theorem sound_body0 (c : Dev nD) (t : Fin cfg0.N) :
    bodyPre0 V c t ⊢ wp frame (wpE (defs₀ (F := F)) Variants.none c none) Set.univ (bodyAtR0 t) (fun _ => bodyPost0 V c t) := by
  unfold bodyPre0 bodyPost0 bodyAtR0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 19550 := lt_of_lt_of_eq t.isLt (show cfg0.N = 19550 from N_0)
  by_cases h0 : t.val % 50 = 0
  · by_cases h1 : t.val % 50 = 49
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 _ (fun h => h1 ((hcond0_1 t).mp h))) (noFlush0_4 t (fun h => h1 ((hcond0_1 t).mp h)))]
      rw [outsAt0_A V c t h0 h1]
      unfold sout0_A_0; (try dsimp only)
      by_cases hz : t.val = 0
      ·
        rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 50 = 49
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 _ ((hcond0_1 t).mpr h1)], after0_4]
      rw [outsAt0_C V c t h0 h1]
      unfold out0_C_4 sout0_C_0; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 _ (fun h => h1 ((hcond0_1 t).mp h))) (noFlush0_4 t (fun h => h1 ((hcond0_1 t).mp h)))]
      rw [outsAt0_B V c t h0 h1]
      unfold sout0_B_0; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Runs.lean ====
/- Region 1 (the scatter kernel, pipeline 1) of the idealized program: what the three control cases of its body share.
   The body keeps a scratch accumulator between grid points: at the first point of each run of the inner grid axis it
   resets the scratch, at every point it adds a one-hot product into it, at the last point of the run it copies the
   scratch into the output window (idle, and not written back, at the other points). Everything is stated at a
   PARAMETER `V`, the TensorCore's buffer contents when the region is entered. The grid has 50 · 391 points, point `t`
   at coordinates (t div 391, t mod 391): the conditions and the output's write-back schedule are read off that. -/
import proofs.«141899_j10780367913070_1_alg».proof.Proof.Gen.KernelIdeal.Launch
import proofs.«141899_j10780367913070_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

-- membership in a rectangle of large extents: the elaborator's structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched point has
    the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): an unfetched point has
    the block index of the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): an unfetched point has
    the block index of the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): an unfetched point has
    the block index of the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): an unfetched point has
    the block index of the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The grid's coordinates and the body's branch conditions, in closed form -/

/-- The inner coordinate of point `t` is `t mod 391`; -/
theorem coords1_1 (t : Fin cfg1.N) : (grid1.coords t 1).val = t.val % 391 := by
  show t.val / grid1.stride 1 % grid1.bound 1 = _
  rw [show grid1.stride 1 = 1 from by decide, show grid1.bound 1 = 391 from rfl, Nat.div_one]
/-- the outer one `t div 391` (the grid has 50 · 391 points). -/
theorem coords1_0 (t : Fin cfg1.N) : (grid1.coords t 0).val = t.val / 391 := by
  have hN : t.val < 19550 := lt_of_lt_of_eq t.isLt (show cfg1.N = 19550 from N_1)
  show t.val / grid1.stride 0 % grid1.bound 0 = _
  rw [show grid1.stride 0 = 391 from by decide, show grid1.bound 0 = 50 from rfl]
  omega

/-- The flag the body computes of "coordinate `n` is the literal `k`" (compare for equality, extend the bit to a
    word, compare the word with zero) is set exactly when the two numbers are equal. -/
theorem flag1_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  unfold Scalar.cmpi Scalar.extui
  have key : ∀ v : BitVec 1, (v.setWidth 32 ≠ 0#32 ↔ v = 1#1) := by decide
  rw [IntOp.cmpi_ne, key, IntOp.cmpi_eq]
  constructor
  · intro h
    have e := congrArg BitVec.toNat h
    rwa [BitVec.toNat_ofNat, BitVec.toNat_ofNat, Nat.mod_eq_of_lt hn, Nat.mod_eq_of_lt hk] at e
  · rintro rfl; rfl

/-- The condition of the body's first conditional (the scratch is reset), from the grid coordinates: the inner
    coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 391). -/
theorem hcond1_0 (t : Fin cfg1.N) : cond1_0 (grid1.coords t) ↔ t.val % 391 = 0 := by
  have hb : (grid1.coords t 1).val < 391 := (grid1.coords t 1).isLt
  rw [← coords1_1 t]
  exact flag1_iff _ 0 (by omega) (by omega)

/-- The condition of the body's second conditional (the output is stored): the inner coordinate is 390. -/
abbrev cond1_1 (i : grid1.Coords) : Prop := k1_cond2 i = 1#1
/-- It holds at the points ≡ 390 (mod 391). -/
theorem hcond1_1 (t : Fin cfg1.N) : cond1_1 (grid1.coords t) ↔ t.val % 391 = 390 := by
  have hb : (grid1.coords t 1).val < 391 := (grid1.coords t 1).isLt
  rw [← coords1_1 t]
  exact flag1_iff _ 390 (by omega) (by omega)

/-! ## The output window's schedule -/

/-- Output window 5's block index at point `t`: the outer coordinate along the rows, 0 along the columns. -/
theorem index1_5 (t : Fin cfg1.N) : (cfg1.win 5).index t = ![t.val / 391, 0] := by
  have hN : t.val < 19550 := lt_of_lt_of_eq t.isLt (show cfg1.N = 19550 from N_1)
  show cc1_transform_5 (grid1.coords t) = _
  unfold cc1_transform_5
  funext a
  fin_cases a
  · show (BitVec.ofNat 32 (grid1.coords t 0).val).toNat = t.val / 391
    rw [BitVec.toNat_ofNat, coords1_0, Nat.mod_eq_of_lt (by omega)]
  · rfl

/-! ## Where the windows are idle -/

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Where the second conditional is not taken the output window 5 is idle: the body stores nothing into it. -/
theorem idleAt1_5 : ∀ t : Fin cfg1.N, ¬cond1_1 (grid1.coords t) → cfg1.idle 5 (grid1.coords t) = true := fun t h => by
  show (!(k1_cond2 (grid1.coords t) == 1#1)) = true
  rw [Bool.not_eq_true', beq_eq_false_iff_ne]; exact h
/-- And the pipeline does not write its block back there: the point is not the grid's last, and the next point has
    the same block index (the outer coordinate moves only after inner coordinate 390). -/
theorem noFlush1_5 : ∀ t : Fin cfg1.N, ¬cond1_1 (grid1.coords t) → (cfg1.win 5).flush t = false := fun t h => by
  have hm : t.val % 391 ≠ 390 := fun e => h ((hcond1_1 t).mpr e)
  have hN : t.val < 19550 := lt_of_lt_of_eq t.isLt (show cfg1.N = 19550 from N_1)
  unfold Pipeline.Window.flush
  rw [Bool.and_eq_false_iff]; right
  rw [Bool.or_eq_false_iff]
  refine ⟨decide_eq_false ?_, decide_eq_false ?_⟩
  · have e : cfg1.grid.N = 19550 := N_1
    omega
  · rintro ⟨h', hne⟩
    apply hne
    rw [index1_5, index1_5]
    show ![(t.val + 1) / 391, 0] = ![t.val / 391, 0]
    rw [show (t.val + 1) / 391 = t.val / 391 from by omega]
/-- Where it is taken the window is live: the body stores into it. -/
theorem liveAt1_5 : ∀ t : Fin cfg1.N, cond1_1 (grid1.coords t) → cfg1.idle 5 (grid1.coords t) = false := fun t h => by
  show (!(k1_cond2 (grid1.coords t) == 1#1)) = false
  rw [Bool.not_eq_false', beq_iff_eq]; exact h

/-! ## The staging and scratch memrefs -/

/-- One staging buffer of output window 5, through which its contents are stated (the choice does not matter). -/
abbrev VO1_5 : View sig .tc .vmem S1000x128 .f32 := (Memref.whole cc1_stg5_0 : Memref sig .tc .vmem S1000x128 .f32).view
/-- Each window's current staging memref at point `t`, spelled as the pipeline passes it, and its wholeness. -/
abbrev ms1_0 (t : Fin cfg1.N) : Memref sig .tc .vmem S1x1536 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1536x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1000x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1000x128 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows. -/
abbrev scM1_0 : Memref sig .tc .vmem S1000x128 .f32 := Memref.whole cc1_scratch0
/-- The scratch the kernel carries between points, as a view: what it holds is stated through it. -/
abbrev VS1_0 : View sig .tc .vmem S1000x128 .f32 := scM1_0.view

/-- The core's scoped buffers that are neither a staging buffer of this pipeline nor its scratch (the other
    pipeline's staging buffers and scratch), at some contents each: carried through the region unopened. -/
abbrev rest1 (c : Dev nD) : sProp 𝕄 :=
  Pipeline.scopedRestBut (Ix := Unit) (Name := ℕ) (U := UR sig nD τ) (Lvl := ℕ) (Val := Elt F) spec1 c [cc1_scratch0]

/-- The region invariant with the scratch operand as a memref owned at some contents: what the body obligation
    hands the run and takes back. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA
  rw [Pipeline.scopedRest_split_of_list spec1 c [cc1_scratch0] (by decide) (by decide)]
  simp only [scM1_0, owns_whole, bigSepL_singleton]; try rfl

/-! ## The body as the pipeline calls it -/

/-- The kernel body at point `t`, on the point's coordinates, the windows' current staging memrefs and the scratch: the
    body table's row for this pipeline, at the slots the pipeline is on. -/
abbrev bodyAtR1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (Memref.whole cc1_scratch0) (Memref.isWhole_whole _)

end Cert.KernelIdeal.Hand

end
-- ==== Proof.KI.R1RunA.lean ====
/- Region 1 (the scatter kernel): the whole-body run of the kernel in the first case (the inner coordinate is 0: the scratch is reset, then added to; the output is not stored).
   One module per control case, so that each case is elaborated by itself; the run modules form a chain. -/
import proofs.«141899_j10780367913070_1_alg».proof.Proof.KI.R1Runs

-- membership in a rectangle of large extents: the elaborator's structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first), IN THE FIRST CASE (the inner coordinate is 0: the scratch is reset, then added to; the output is not stored), WITH the
    proof that on whole memrefs — the five inputs' at their contents `x·`, the output's at contents `xi5` handed back untouched, the scratch at anything — the body runs
    to the continuation holding the inputs' as they were, the output's as it was and the scratch with its pieces written (`LS0`). The pieces
    are the witness the symbolic execution of the body's skeleton finds. -/
noncomputable def kernelRun1_A (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : cond1_0 i) (hc1 : ¬cond1_1 i)
    (x0 : Vec F S1x1536 .i32) (x1 : Vec F S1536x128 .f32) (x2 : Vec F S1000x128 .f32) (x3 : Vec F S128x128 .f32) (x4 : Vec F S1x128 .f32) :
    Σ' (L5 : List (View.Piece (Elt F) S1000x128 .f32)), { LS0 : List (View.Piece (Elt F) S1000x128 .f32) //
      ∀ (xi5 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__scatter_kernel i arg2 harg2 arg3 harg3 arg4 harg4 arg5 harg5 arg6 harg6 arg7 harg7 arg8 harg8) K } := by
  refine ⟨[], ?_, fun xi5 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R1RunB.lean ====
/- Region 1 (the scatter kernel): the whole-body run of the kernel in the middle case (the inner coordinate is neither 0 nor 390: the scratch is added to; the output is not stored).
   One module per control case, so that each case is elaborated by itself; the run modules form a chain. -/
import proofs.«141899_j10780367913070_1_alg».proof.Proof.KI.R1RunA

-- membership in a rectangle of large extents: the elaborator's structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first), IN THE MIDDLE CASE (the inner coordinate is neither 0 nor 390: the scratch is added to; the output is not stored), WITH the
    proof that on whole memrefs — the five inputs' at their contents `x·`, the output's at contents `xi5` handed back untouched, the scratch at what the point before left (`xs0`) — the body runs
    to the continuation holding the inputs' as they were, the output's as it was and the scratch with its pieces written (`LS0`). The pieces
    are the witness the symbolic execution of the body's skeleton finds. -/
noncomputable def kernelRun1_B (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : ¬cond1_1 i)
    (x0 : Vec F S1x1536 .i32) (x1 : Vec F S1536x128 .f32) (x2 : Vec F S1000x128 .f32) (x3 : Vec F S128x128 .f32) (x4 : Vec F S1x128 .f32) (xs0 : Vec F S1000x128 .f32) :
    Σ' (L5 : List (View.Piece (Elt F) S1000x128 .f32)), { LS0 : List (View.Piece (Elt F) S1000x128 .f32) //
      ∀ (xi5 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__scatter_kernel i arg2 harg2 arg3 harg3 arg4 harg4 arg5 harg5 arg6 harg6 arg7 harg7 arg8 harg8) K } := by
  refine ⟨[], ?_, fun xi5 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R1RunC.lean ====
/- Region 1 (the scatter kernel): the whole-body run of the kernel in the last case (the inner coordinate is 390: the scratch is added to, then copied into the output).
   One module per control case, so that each case is elaborated by itself; the run modules form a chain. -/
import proofs.«141899_j10780367913070_1_alg».proof.Proof.KI.R1RunB

-- membership in a rectangle of large extents: the elaborator's structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first), IN THE LAST CASE (the inner coordinate is 390: the scratch is added to, then copied into the output), WITH the
    proof that on whole memrefs — the five inputs' at their contents `x·`, the output's at anything, the scratch at what the point before left (`xs0`) — the body runs
    to the continuation holding the inputs' as they were, the output's with its pieces written (`L5`) and the scratch with its pieces written (`LS0`). The pieces
    are the witness the symbolic execution of the body's skeleton finds. -/
noncomputable def kernelRun1_C (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : cond1_1 i)
    (x0 : Vec F S1x1536 .i32) (x1 : Vec F S1536x128 .f32) (x2 : Vec F S1000x128 .f32) (x3 : Vec F S128x128 .f32) (x4 : Vec F S1x128 .f32) (xs0 : Vec F S1000x128 .f32) :
    Σ' (L5 : List (View.Piece (Elt F) S1000x128 .f32)), { LS0 : List (View.Piece (Elt F) S1000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__scatter_kernel i arg2 harg2 arg3 harg3 arg4 harg4 arg5 harg5 arg6 harg6 arg7 harg7 arg8 harg8) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.R1Body.lean ====
/- Region 1 (the scatter kernel, pipeline 1), at the entry contents `V`: what the output window and the carried scratch
   hold per control case (the pieces the runs found, read back) and point by point (`outsAt1`, by recursion on the
   position), the region invariant with the scratch at the previous point's contents (`PhiS1`), the pipeline's proof data
   (`dat1`), and the body obligation (`body_obligation1`) by cases on the conditions' closed forms. -/
import proofs.«141899_j10780367913070_1_alg».proof.Proof.KI.R1RunC

-- membership in a rectangle of large extents: the elaborator's structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- In the first case the body stores nothing into output window 5 (the window is idle at these points and not written back):
    no pieces — a placeholder that nothing consults. -/
def out1_A_5 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : cond1_0 i) (hc1 : ¬cond1_1 i)
    (x0 : Vec F S1x1536 .i32) (x1 : Vec F S1536x128 .f32) (x2 : Vec F S1000x128 .f32) (x3 : Vec F S128x128 .f32) (x4 : Vec F S1x128 .f32) : Vec F S1000x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- In the first case the pieces stored into the scratch tile it, so they cover it. -/
theorem scover1_A_0 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : cond1_0 i) (hc1 : ¬cond1_1 i)
    (x0 : Vec F S1x1536 .i32) (x1 : Vec F S1536x128 .f32) (x2 : Vec F S1000x128 .f32) (x3 : Vec F S128x128 .f32) (x4 : Vec F S1x128 .f32) (y : S1000x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1000x128.size (by sl_kernel_rfl) y

/-- What the first case leaves in the scratch: its pieces read back. -/
def sout1_A_0 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : cond1_0 i) (hc1 : ¬cond1_1 i)
    (x0 : Vec F S1x1536 .i32) (x1 : Vec F S1536x128 .f32) (x2 : Vec F S1000x128 .f32) (x3 : Vec F S128x128 .f32) (x4 : Vec F S1x128 .f32) : Vec F S1000x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- In the middle case the body stores nothing into output window 5 (the window is idle at these points and not written back):
    no pieces — a placeholder that nothing consults. -/
def out1_B_5 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : ¬cond1_1 i)
    (x0 : Vec F S1x1536 .i32) (x1 : Vec F S1536x128 .f32) (x2 : Vec F S1000x128 .f32) (x3 : Vec F S128x128 .f32) (x4 : Vec F S1x128 .f32) (xs0 : Vec F S1000x128 .f32) : Vec F S1000x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- In the middle case the pieces stored into the scratch tile it, so they cover it. -/
theorem scover1_B_0 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : ¬cond1_1 i)
    (x0 : Vec F S1x1536 .i32) (x1 : Vec F S1536x128 .f32) (x2 : Vec F S1000x128 .f32) (x3 : Vec F S128x128 .f32) (x4 : Vec F S1x128 .f32) (xs0 : Vec F S1000x128 .f32) (y : S1000x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1000x128.size (by sl_kernel_rfl) y

/-- What the middle case leaves in the scratch: its pieces read back. -/
def sout1_B_0 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : ¬cond1_1 i)
    (x0 : Vec F S1x1536 .i32) (x1 : Vec F S1536x128 .f32) (x2 : Vec F S1000x128 .f32) (x3 : Vec F S128x128 .f32) (x4 : Vec F S1x128 .f32) (xs0 : Vec F S1000x128 .f32) : Vec F S1000x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- In the last case the pieces stored into output window 5 tile its block, so they cover it. -/
theorem cover1_C_5 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : cond1_1 i)
    (x0 : Vec F S1x1536 .i32) (x1 : Vec F S1536x128 .f32) (x2 : Vec F S1000x128 .f32) (x3 : Vec F S128x128 .f32) (x4 : Vec F S1x128 .f32) (xs0 : Vec F S1000x128 .f32) (y : S1000x128.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1000x128.size (by sl_kernel_rfl) y

/-- What the last case leaves in output window 5's staging buffer: its pieces read back. -/
def out1_C_5 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : cond1_1 i)
    (x0 : Vec F S1x1536 .i32) (x1 : Vec F S1536x128 .f32) (x2 : Vec F S1000x128 .f32) (x3 : Vec F S128x128 .f32) (x4 : Vec F S1x128 .f32) (xs0 : Vec F S1000x128 .f32) : Vec F S1000x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- In the last case the pieces stored into the scratch tile it, so they cover it. -/
theorem scover1_C_0 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : cond1_1 i)
    (x0 : Vec F S1x1536 .i32) (x1 : Vec F S1536x128 .f32) (x2 : Vec F S1000x128 .f32) (x3 : Vec F S128x128 .f32) (x4 : Vec F S1x128 .f32) (xs0 : Vec F S1000x128 .f32) (y : S1000x128.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1000x128.size (by sl_kernel_rfl) y

/-- What the last case leaves in the scratch: its pieces read back. -/
def sout1_C_0 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : cond1_1 i)
    (x0 : Vec F S1x1536 .i32) (x1 : Vec F S1536x128 .f32) (x2 : Vec F S1000x128 .f32) (x3 : Vec F S128x128 .f32) (x4 : Vec F S1x128 .f32) (xs0 : Vec F S1000x128 .f32) : Vec F S1000x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output and the scratch hold after each point -/

/-- THE ACCUMULATION. What output window 5's staging buffer (first component) and the scratch the kernel carries between
    points (second component) hold after the body at position `n`: the case the closed forms select at `n`, run at the
    point's memrefs and input blocks, the scratch at what the point before left. Both conditions at once meet no point. -/
def outsAt1 (c : Dev nD) : (n : ℕ) → n < cfg1.N → Vec F S1000x128 .f32 × Vec F S1000x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 391 = 0 then
      if h1 : (n + 1) % 391 = 390 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 391 = 390 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of the first case: that case's contents. -/
theorem outsAt1_A (c : Dev nD) (t : Fin cfg1.N) (h0 : t.val % 391 = 0) (h1 : ¬t.val % 391 = 390) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of the middle case: that case's contents, over what the point before left. -/
theorem outsAt1_B (c : Dev nD) (t : Fin cfg1.N) (h0 : ¬t.val % 391 = 0) (h1 : ¬t.val % 391 = 390) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of the last case: that case's contents, over what the point before left. -/
theorem outsAt1_C (c : Dev nD) (t : Fin cfg1.N) (h0 : ¬t.val % 391 = 0) (h1 : t.val % 391 = 390) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (every scoped buffer that is
    no staging buffer at anything, the generator register at some state); afterwards the same with the scratch at what
    the point before left in it (`outsAt1`'s second component). -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the
    invariant hands the body the scratch at what the point before left (at anything at the very first point) and takes it
    back at this point's contents; the other scoped buffers, the generator register and the core's debt pass through. -/
theorem sound_body1 (c : Dev nD) (t : Fin cfg1.N) :
    bodyPre1 V c t ⊢ wp frame (wpE (defs₀ (F := F)) Variants.none c none) Set.univ (bodyAtR1 t) (fun _ => bodyPost1 V c t) := by
  unfold bodyPre1 bodyPost1 bodyAtR1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 19550 := lt_of_lt_of_eq t.isLt (show cfg1.N = 19550 from N_1)
  by_cases h0 : t.val % 391 = 0
  · by_cases h1 : t.val % 391 = 390
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 391 = 390
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- Before the first point the invariant is what the launch hands the region. -/
theorem Phi1_first (c : Dev nD) : (dat1 V c).Φ 0 = Pipeline.ΦA spec1 c := rfl

/-- After any point but the first the invariant gives the region's own back: the scratch's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem Phi1_last (c : Dev nD) : (dat1 V c).Φ (Fin.last cfg1.N) ⊢ Pipeline.ΦA spec1 c :=
  Phi1_out V c _ (by rw [Fin.val_last]; have : cfg1.N = 19550 := N_1; omega)

end Region1

end Cert.KernelIdeal.Hand

end
-- ==== Proof.KI.RunMain.lean ====
import proofs.«141899_j10780367913070_1_alg».proof.Proof.KI.R0Frame
import proofs.«141899_j10780367913070_1_alg».proof.Proof.KI.R1Body
import proofs.«141899_j10780367913070_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of @main: its segments from the launch to the return

The program is seven stretches of host operations, the two kernel regions, and one closing host operation.
This module states what every unscoped buffer of a core holds at each boundary between two segments (a fold
from the launch memory), gives each segment its record over the thread state "every unscoped buffer whole at the
boundary's contents, the generator register at some state, nothing owed", chains them, and launches. -/

variable (m : (ℓ : Loc nD τ sig) → Buf (Elt F) ℓ) (ρ : Dev nD → PrngReg)

/-! ## The buffer contents at each boundary -/

/-- Region 0's entry contents, read at the TensorCore's references: the launch memory after the seven host stretches. -/
abbrev Vin0 : (c : Dev nD) → (b : Ref sig .tc) → Buf (Elt F) ((c : Thread nD τ).loc b) := fun c b => Gen.V7 m c b

/-- At region 0's exit: its arrays at what the pipeline leaves (an input as entered, the output with every
    write-back folded in), every other buffer as entered. -/
def W8 (c : Dev nD) : Valuation τ sig (Elt F) :=
  Pipeline.withArrays spec0 c (Gen.V7 m c) fun w => (dat0 (Vin0 m) c).arrAt w cfg0.N
theorem W8_arr (c : Dev nD) (w : Fin cfg0.W) :
    W8 m c (Proc.devRef .tc (Pipeline.arrRef spec0 w)) = (dat0 (Vin0 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = Gen.V7 m c (Proc.devRef .tc b) := by
  unfold W8; exact Pipeline.withArrays_of_ne spec0 c _ _ b hb
/-- Region 1's entry contents: region 0's exit contents (region 0's output array is region 1's second input). -/
abbrev Vin1 : (c : Dev nD) → (b : Ref sig .tc) → Buf (Elt F) ((c : Thread nD τ).loc b) := fun c b => W8 m c b
theorem hF0 (c : Dev nD) (w : Fin cfg0.W) : (dat0 (Vin0 m) c).arrAt w cfg0.N = Vin1 m c (Pipeline.arrRef spec0 w) :=
  (W8_arr m c w).symm
theorem hrest0 (c : Dev nD) : ∀ b, b ∉ Finset.univ.image (Pipeline.arrRef spec0) → Vin1 m c b = Vin0 m c b :=
  fun b hb => W8_of_ne m c b fun w e => hb (Finset.mem_image.mpr ⟨w, Finset.mem_univ _, e⟩)

/-- At region 1's exit: its arrays at what the pipeline leaves, every other buffer as entered. -/
def W9 (c : Dev nD) : Valuation τ sig (Elt F) :=
  Pipeline.withArrays spec1 c (W8 m c) fun w => (dat1 (Vin1 m) c).arrAt w cfg1.N
theorem W9_arr (c : Dev nD) (w : Fin cfg1.W) :
    W9 m c (Proc.devRef .tc (Pipeline.arrRef spec1 w)) = (dat1 (Vin1 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
/-- Region 1's exit contents read at the TensorCore's references. -/
abbrev Vout1 : (c : Dev nD) → (b : Ref sig .tc) → Buf (Elt F) ((c : Thread nD τ).loc b) := fun c b => W9 m c b
theorem hF1 (c : Dev nD) (w : Fin cfg1.W) : (dat1 (Vin1 m) c).arrAt w cfg1.N = Vout1 m c (Pipeline.arrRef spec1 w) :=
  (W9_arr m c w).symm
theorem hrest1 (c : Dev nD) : ∀ b, b ∉ Finset.univ.image (Pipeline.arrRef spec1) → Vout1 m c b = Vin1 m c b :=
  fun b hb => W9_of_ne m c b fun w e => hb (Finset.mem_image.mpr ⟨w, Finset.mem_univ _, e⟩)

/-- After the closing host operation: what @main returns with. -/
abbrev W10 (c : Dev nD) : Valuation τ sig (Elt F) := StableHlo.after hostOps2 (W9 m c)

/-! ## The proof data family and the thread state -/

/-- Each pipeline's proof data at its region's entry contents — a literal `match`, so that the family at a numeral
    reduces to the region's own data. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the
    core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at the stretch's result from `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered from every unscoped buffer at the contents after the seven host stretches, left at `W8`. Its arrays
    are split out of the unscoped buffers and put back at the exit contents; the generator register goes into the
    invariant at the first point and comes back from the invariant at the last point; nothing is owed; the kernel
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_first (Vin0 m) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_last (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W8`, left at `W9`. Its arrays
    are split out of the unscoped buffers and put back at the exit contents; the generator register goes into the
    invariant at the first point and comes back from the invariant at the last point; nothing is owed; the kernel
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (Vin1 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .host (hseg hostOps0_5 hostOps0_5_sub hostOps0_5_fresh (Gen.V5 m)),
    .host (hseg hostOps0_6 hostOps0_6_sub hostOps0_6_fresh (Gen.V6 m)),
    .region (reg0 m),
    .region (reg1 m),
    .host (hseg hostOps2 hostOps2_sub hostOps2_fresh (W9 m)) ]

/-- @main is the run of the segments: it is the chain of its items, and the segments' run is the chain of their
    fragments, which are those items. -/
theorem main_run (c : Dev nD) : main (F := F) c = Pipeline.Seg.run (segs m) := by
  rw [main_chain c, Pipeline.Seg.run_eq_chain]
  rfl

/-- The closing host operation's thread state is the last one beside the core owing nothing (the same conjuncts,
    grouped as the launch reads them). -/
theorem last_state (c : Dev nD) : iprop(StableHlo.held (c : Thread nD τ) (Pipeline.ucRefs τ sig) (W10 m c) ∗ R c)
    ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in
/-- THE RUN: from any memory with zero counters, every weakly fair execution of @main on the TensorCores terminates,
    and in every final state every unscoped buffer of every core holds the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-! ## The arguments end as launched

No host operation writes an argument, and a region either reads it through an input window — whose array it leaves
as entered — or does not touch it: the fold at an argument's buffer walks back to the launch memory, boundary by
boundary. -/

/-- `main_arg0` is as launched after the seven host stretches: none of them writes it. -/
theorem V7_main_arg0 (c : Dev nD) : Gen.V7 m c (Proc.devRef .tc main_arg0) = m ((c : Thread nD τ).loc main_arg0) :=
  (V7_of m c main_arg0 (by decide)).trans <| (V6_of m c main_arg0 (by decide)).trans <| (V5_of m c main_arg0 (by decide)).trans <|
  (V4_of m c main_arg0 (by decide)).trans <| (V3_of m c main_arg0 (by decide)).trans <| (V2_of m c main_arg0 (by decide)).trans <|
  (V1_of m c main_arg0 (by decide)).trans rfl
/-- and at region 0's exit: it is no array of region 0; -/
theorem W8_main_arg0 (c : Dev nD) : W8 m c (Proc.devRef .tc main_arg0) = m ((c : Thread nD τ).loc main_arg0) :=
  (W8_of_ne m c main_arg0 (by decide)).trans (V7_main_arg0 m c)
/-- at region 1's exit: it is no array of region 1; -/
theorem W9_main_arg0 (c : Dev nD) : W9 m c (Proc.devRef .tc main_arg0) = m ((c : Thread nD τ).loc main_arg0) :=
  (W9_of_ne m c main_arg0 (by decide)).trans (W8_main_arg0 m c)
/-- and at the return: the closing host operation writes its own result only. -/
theorem W10_main_arg0 (c : Dev nD) : W10 m c (Proc.devRef .tc main_arg0) = m ((c : Thread nD τ).loc main_arg0) :=
  (StableHlo.after_of_writes_sub hostOps2 _ hostOps2_writes (r := main_arg0) (by decide)).trans (W9_main_arg0 m c)

/-- `main_arg1` is as launched after the seven host stretches: none of them writes it. -/
theorem V7_main_arg1 (c : Dev nD) : Gen.V7 m c (Proc.devRef .tc main_arg1) = m ((c : Thread nD τ).loc main_arg1) :=
  (V7_of m c main_arg1 (by decide)).trans <| (V6_of m c main_arg1 (by decide)).trans <| (V5_of m c main_arg1 (by decide)).trans <|
  (V4_of m c main_arg1 (by decide)).trans <| (V3_of m c main_arg1 (by decide)).trans <| (V2_of m c main_arg1 (by decide)).trans <|
  (V1_of m c main_arg1 (by decide)).trans rfl
/-- and at region 0's exit: it is no array of region 0; -/
theorem W8_main_arg1 (c : Dev nD) : W8 m c (Proc.devRef .tc main_arg1) = m ((c : Thread nD τ).loc main_arg1) :=
  (W8_of_ne m c main_arg1 (by decide)).trans (V7_main_arg1 m c)
/-- at region 1's exit: it is no array of region 1; -/
theorem W9_main_arg1 (c : Dev nD) : W9 m c (Proc.devRef .tc main_arg1) = m ((c : Thread nD τ).loc main_arg1) :=
  (W9_of_ne m c main_arg1 (by decide)).trans (W8_main_arg1 m c)
/-- and at the return: the closing host operation writes its own result only. -/
theorem W10_main_arg1 (c : Dev nD) : W10 m c (Proc.devRef .tc main_arg1) = m ((c : Thread nD τ).loc main_arg1) :=
  (StableHlo.after_of_writes_sub hostOps2 _ hostOps2_writes (r := main_arg1) (by decide)).trans (W9_main_arg1 m c)

/-- `main_arg2` is as launched after the seven host stretches: none of them writes it. -/
theorem V7_main_arg2 (c : Dev nD) : Gen.V7 m c (Proc.devRef .tc main_arg2) = m ((c : Thread nD τ).loc main_arg2) :=
  (V7_of m c main_arg2 (by decide)).trans <| (V6_of m c main_arg2 (by decide)).trans <| (V5_of m c main_arg2 (by decide)).trans <|
  (V4_of m c main_arg2 (by decide)).trans <| (V3_of m c main_arg2 (by decide)).trans <| (V2_of m c main_arg2 (by decide)).trans <|
  (V1_of m c main_arg2 (by decide)).trans rfl
/-- and at region 0's exit: region 0 reads it through input window 2, whose array it leaves as entered; -/
theorem W8_main_arg2 (c : Dev nD) : W8 m c (Proc.devRef .tc main_arg2) = m ((c : Thread nD τ).loc main_arg2) :=
  ((W8_arr m c 2).trans (((dat0 (Vin0 m) c).arrAt_in 2 rfl _).trans (A_eq0 (Vin0 m) c 2))).trans (V7_main_arg2 m c)
/-- at region 1's exit: region 1 reads it through input window 2, whose array it leaves as entered; -/
theorem W9_main_arg2 (c : Dev nD) : W9 m c (Proc.devRef .tc main_arg2) = m ((c : Thread nD τ).loc main_arg2) :=
  ((W9_arr m c 2).trans (((dat1 (Vin1 m) c).arrAt_in 2 rfl _).trans (A_eq1 (Vin1 m) c 2))).trans (W8_main_arg2 m c)
/-- and at the return: the closing host operation writes its own result only. -/
theorem W10_main_arg2 (c : Dev nD) : W10 m c (Proc.devRef .tc main_arg2) = m ((c : Thread nD τ).loc main_arg2) :=
  (StableHlo.after_of_writes_sub hostOps2 _ hostOps2_writes (r := main_arg2) (by decide)).trans (W9_main_arg2 m c)

/-- `main_arg3` is as launched after the seven host stretches: none of them writes it. -/
theorem V7_main_arg3 (c : Dev nD) : Gen.V7 m c (Proc.devRef .tc main_arg3) = m ((c : Thread nD τ).loc main_arg3) :=
  (V7_of m c main_arg3 (by decide)).trans <| (V6_of m c main_arg3 (by decide)).trans <| (V5_of m c main_arg3 (by decide)).trans <|
  (V4_of m c main_arg3 (by decide)).trans <| (V3_of m c main_arg3 (by decide)).trans <| (V2_of m c main_arg3 (by decide)).trans <|
  (V1_of m c main_arg3 (by decide)).trans rfl
/-- and at region 0's exit: region 0 reads it through input window 3, whose array it leaves as entered; -/
theorem W8_main_arg3 (c : Dev nD) : W8 m c (Proc.devRef .tc main_arg3) = m ((c : Thread nD τ).loc main_arg3) :=
  ((W8_arr m c 3).trans (((dat0 (Vin0 m) c).arrAt_in 3 rfl _).trans (A_eq0 (Vin0 m) c 3))).trans (V7_main_arg3 m c)
/-- at region 1's exit: it is no array of region 1; -/
theorem W9_main_arg3 (c : Dev nD) : W9 m c (Proc.devRef .tc main_arg3) = m ((c : Thread nD τ).loc main_arg3) :=
  (W9_of_ne m c main_arg3 (by decide)).trans (W8_main_arg3 m c)
/-- and at the return: the closing host operation writes its own result only. -/
theorem W10_main_arg3 (c : Dev nD) : W10 m c (Proc.devRef .tc main_arg3) = m ((c : Thread nD τ).loc main_arg3) :=
  (StableHlo.after_of_writes_sub hostOps2 _ hostOps2_writes (r := main_arg3) (by decide)).trans (W9_main_arg3 m c)

/-- `main_arg4` is as launched after the seven host stretches: none of them writes it. -/
theorem V7_main_arg4 (c : Dev nD) : Gen.V7 m c (Proc.devRef .tc main_arg4) = m ((c : Thread nD τ).loc main_arg4) :=
  (V7_of m c main_arg4 (by decide)).trans <| (V6_of m c main_arg4 (by decide)).trans <| (V5_of m c main_arg4 (by decide)).trans <|
  (V4_of m c main_arg4 (by decide)).trans <| (V3_of m c main_arg4 (by decide)).trans <| (V2_of m c main_arg4 (by decide)).trans <|
  (V1_of m c main_arg4 (by decide)).trans rfl
/-- and at region 0's exit: it is no array of region 0; -/
theorem W8_main_arg4 (c : Dev nD) : W8 m c (Proc.devRef .tc main_arg4) = m ((c : Thread nD τ).loc main_arg4) :=
  (W8_of_ne m c main_arg4 (by decide)).trans (V7_main_arg4 m c)
/-- at region 1's exit: it is no array of region 1; -/
theorem W9_main_arg4 (c : Dev nD) : W9 m c (Proc.devRef .tc main_arg4) = m ((c : Thread nD τ).loc main_arg4) :=
  (W9_of_ne m c main_arg4 (by decide)).trans (W8_main_arg4 m c)
/-- and at the return: the closing host operation writes its own result only. -/
theorem W10_main_arg4 (c : Dev nD) : W10 m c (Proc.devRef .tc main_arg4) = m ((c : Thread nD τ).loc main_arg4) :=
  (StableHlo.after_of_writes_sub hostOps2 _ hostOps2_writes (r := main_arg4) (by decide)).trans (W9_main_arg4 m c)

/-- `main_arg5` is as launched after the seven host stretches: none of them writes it. -/
theorem V7_main_arg5 (c : Dev nD) : Gen.V7 m c (Proc.devRef .tc main_arg5) = m ((c : Thread nD τ).loc main_arg5) :=
  (V7_of m c main_arg5 (by decide)).trans <| (V6_of m c main_arg5 (by decide)).trans <| (V5_of m c main_arg5 (by decide)).trans <|
  (V4_of m c main_arg5 (by decide)).trans <| (V3_of m c main_arg5 (by decide)).trans <| (V2_of m c main_arg5 (by decide)).trans <|
  (V1_of m c main_arg5 (by decide)).trans rfl
/-- and at region 0's exit: it is no array of region 0; -/
theorem W8_main_arg5 (c : Dev nD) : W8 m c (Proc.devRef .tc main_arg5) = m ((c : Thread nD τ).loc main_arg5) :=
  (W8_of_ne m c main_arg5 (by decide)).trans (V7_main_arg5 m c)
/-- at region 1's exit: region 1 reads it through input window 3, whose array it leaves as entered; -/
theorem W9_main_arg5 (c : Dev nD) : W9 m c (Proc.devRef .tc main_arg5) = m ((c : Thread nD τ).loc main_arg5) :=
  ((W9_arr m c 3).trans (((dat1 (Vin1 m) c).arrAt_in 3 rfl _).trans (A_eq1 (Vin1 m) c 3))).trans (W8_main_arg5 m c)
/-- and at the return: the closing host operation writes its own result only. -/
theorem W10_main_arg5 (c : Dev nD) : W10 m c (Proc.devRef .tc main_arg5) = m ((c : Thread nD τ).loc main_arg5) :=
  (StableHlo.after_of_writes_sub hostOps2 _ hostOps2_writes (r := main_arg5) (by decide)).trans (W9_main_arg5 m c)

/-- `main_arg6` is as launched after the seven host stretches: none of them writes it. -/
theorem V7_main_arg6 (c : Dev nD) : Gen.V7 m c (Proc.devRef .tc main_arg6) = m ((c : Thread nD τ).loc main_arg6) :=
  (V7_of m c main_arg6 (by decide)).trans <| (V6_of m c main_arg6 (by decide)).trans <| (V5_of m c main_arg6 (by decide)).trans <|
  (V4_of m c main_arg6 (by decide)).trans <| (V3_of m c main_arg6 (by decide)).trans <| (V2_of m c main_arg6 (by decide)).trans <|
  (V1_of m c main_arg6 (by decide)).trans rfl
/-- and at region 0's exit: it is no array of region 0; -/
theorem W8_main_arg6 (c : Dev nD) : W8 m c (Proc.devRef .tc main_arg6) = m ((c : Thread nD τ).loc main_arg6) :=
  (W8_of_ne m c main_arg6 (by decide)).trans (V7_main_arg6 m c)
/-- at region 1's exit: it is no array of region 1; -/
theorem W9_main_arg6 (c : Dev nD) : W9 m c (Proc.devRef .tc main_arg6) = m ((c : Thread nD τ).loc main_arg6) :=
  (W9_of_ne m c main_arg6 (by decide)).trans (W8_main_arg6 m c)
/-- and at the return: the closing host operation writes its own result only. -/
theorem W10_main_arg6 (c : Dev nD) : W10 m c (Proc.devRef .tc main_arg6) = m ((c : Thread nD τ).loc main_arg6) :=
  (StableHlo.after_of_writes_sub hostOps2 _ hostOps2_writes (r := main_arg6) (by decide)).trans (W9_main_arg6 m c)

/-- `main_arg7` is as launched after the seven host stretches: none of them writes it. -/
theorem V7_main_arg7 (c : Dev nD) : Gen.V7 m c (Proc.devRef .tc main_arg7) = m ((c : Thread nD τ).loc main_arg7) :=
  (V7_of m c main_arg7 (by decide)).trans <| (V6_of m c main_arg7 (by decide)).trans <| (V5_of m c main_arg7 (by decide)).trans <|
  (V4_of m c main_arg7 (by decide)).trans <| (V3_of m c main_arg7 (by decide)).trans <| (V2_of m c main_arg7 (by decide)).trans <|
  (V1_of m c main_arg7 (by decide)).trans rfl
/-- and at region 0's exit: it is no array of region 0; -/
theorem W8_main_arg7 (c : Dev nD) : W8 m c (Proc.devRef .tc main_arg7) = m ((c : Thread nD τ).loc main_arg7) :=
  (W8_of_ne m c main_arg7 (by decide)).trans (V7_main_arg7 m c)
/-- at region 1's exit: it is no array of region 1; -/
theorem W9_main_arg7 (c : Dev nD) : W9 m c (Proc.devRef .tc main_arg7) = m ((c : Thread nD τ).loc main_arg7) :=
  (W9_of_ne m c main_arg7 (by decide)).trans (W8_main_arg7 m c)
/-- and at the return: the closing host operation writes its own result only. -/
theorem W10_main_arg7 (c : Dev nD) : W10 m c (Proc.devRef .tc main_arg7) = m ((c : Thread nD τ).loc main_arg7) :=
  (StableHlo.after_of_writes_sub hostOps2 _ hostOps2_writes (r := main_arg7) (by decide)).trans (W9_main_arg7 m c)

/-- THE FRAME at any `F`: from any memory with zero counters, every weakly fair execution of @main on the
    TensorCores terminates, and every final state has each of the eight argument arrays as launched — the run's
    reading of every unscoped buffer, taken at the arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_arg0 (by decide))).trans (W10_main_arg0 m c),
    (h c _ (mem_uc main_arg1 (by decide))).trans (W10_main_arg1 m c),
    (h c _ (mem_uc main_arg2 (by decide))).trans (W10_main_arg2 m c),
    (h c _ (mem_uc main_arg3 (by decide))).trans (W10_main_arg3 m c),
    (h c _ (mem_uc main_arg4 (by decide))).trans (W10_main_arg4 m c),
    (h c _ (mem_uc main_arg5 (by decide))).trans (W10_main_arg5 m c),
    (h c _ (mem_uc main_arg6 (by decide))).trans (W10_main_arg6 m c),
    (h c _ (mem_uc main_arg7 (by decide))).trans (W10_main_arg7 m c)⟩) (run_all m ρ)

end Cert.KernelIdeal.Hand

end
-- ==== Proof.K.R0Runs.lean ====
import proofs.«141899_j10780367913070_1_alg».proof.Proof.Gen.Kernel.Launch
import proofs.«141899_j10780367913070_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0 (the gather kernel, pipeline 0): what its three case runs share

The region's kernel keeps an accumulator in a scratch buffer between grid points: at the first point of each run of
the inner grid axis it zeroes the scratch, at every point it adds a one-hot product into it, and at the last point of
the run it computes the output block from the accumulated value and stores it into the output window, which is idle
(left untouched and not written back) at every other point. Everything here is stated at a PARAMETER `V`, the
TensorCore's buffer contents when the region is entered. -/

section Region0
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branch conditions, in closed form over the grid -/

/-- The inner coordinate of the `t`-th point (the last axis runs fastest, its bound is 50). -/
theorem coord0_inner (t : Fin grid0.N) : (grid0.coords t 1).val = t.val % 50 := by
  show t.val / 1 % 50 = t.val % 50
  rw [Nat.div_one]

/-- The condition of the body's first conditional (reset the accumulator): the inner coordinate is 0. -/
abbrev cond0_0 (i : grid0.Coords) : Prop := (Scalar.cmpi .ne (Scalar.extui (Scalar.cmpi .eq (BitVec.ofNat 32 (i 1).val) 0#32)) 0#32) = 1#1
/-- Over the 50 values of the inner coordinate: it holds exactly at 0. -/
theorem cond0_0_iff (i : grid0.Coords) : cond0_0 i ↔ (i 1).val = 0 := by
  have h : ∀ n : Fin 50, ((Scalar.cmpi .ne (Scalar.extui (Scalar.cmpi .eq (BitVec.ofNat 32 n.val) 0#32)) 0#32 : BitVec 1) = 1#1) ↔ n.val = 0 := by decide
  exact h (i 1)
/-- It holds at the points ≡ 0 (mod 50). -/
theorem hcond0_0 (t : Fin cfg0.N) : cond0_0 (grid0.coords t) ↔ t.val % 50 = 0 := by
  rw [cond0_0_iff, coord0_inner]

/-- The condition of the body's second conditional (compute and store the output block): the inner coordinate is 49. -/
abbrev cond0_1 (i : grid0.Coords) : Prop := k0_cond2 i = 1#1
/-- Over the 50 values of the inner coordinate: it holds exactly at 49. -/
theorem cond0_1_iff (i : grid0.Coords) : cond0_1 i ↔ (i 1).val = 49 := by
  have h : ∀ n : Fin 50, ((Scalar.cmpi .ne (Scalar.extui (Scalar.cmpi .eq (BitVec.ofNat 32 n.val) 49#32)) 0#32 : BitVec 1) = 1#1) ↔ n.val = 49 := by decide
  exact h (i 1)
/-- It holds at the points ≡ 49 (mod 50). -/
theorem hcond0_1 (t : Fin cfg0.N) : cond0_1 (grid0.coords t) ↔ t.val % 50 = 49 := by
  rw [cond0_1_iff, coord0_inner]

/-! ## Where the windows are idle -/

/-- The four input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Where the second condition fails the output window is idle: the body stores nothing into it. -/
theorem idleAt0_4 (i : grid0.Coords) (h : ¬cond0_1 i) : cfg0.idle 4 i = true := by
  show (!(k0_cond2 i == 1#1)) = true
  rw [Bool.not_eq_true', beq_eq_false_iff_ne]; exact h
/-- Where it holds the output window is live: the body stores into it. -/
theorem liveAt0_4 (i : grid0.Coords) (h : cond0_1 i) : cfg0.idle 4 i = false := by
  show (!(k0_cond2 i == 1#1)) = false
  rw [Bool.not_eq_false', beq_iff_eq]; exact h
/-! ## The staging and scratch memrefs the body is called with -/

/-- One staging buffer of output window 4, through which its contents are stated (the choice does not matter). -/
abbrev VO0_4 : View sig .tc .vmem S1536x128 .f32 := (Memref.whole cc0_stg4_0 : Memref sig .tc .vmem S1536x128 .f32).view
/-- Each window's current staging memref at point `t`, spelled as the pipeline passes it, and its wholeness. -/
abbrev ms0_0 (t : Fin cfg0.N) : Memref sig .tc .vmem S1x1536 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x128 .f32 := win0_4.stage (cfg0.slots t 4)
abbrev hs0_4 (t : Fin cfg0.N) : (ms0_4 t).IsWhole := hstage0_4 ((cfg0.slots t 4).cast nbuf0_4)
/-- The scratch operand: a whole scoped buffer of the kernel's own, passed beside the windows. -/
abbrev scM0_0 : Memref sig .tc .vmem S1536x128 .f32 := Memref.whole cc0_scratch0
/-- The scratch the kernel carries between points, as a view: what it holds is stated through it. -/
abbrev VS0_0 : View sig .tc .vmem S1536x128 .f32 := scM0_0.view

/-- The core's other scoped buffers that are no staging buffer of this region (the other region's staging buffers and
    scratch), each whole at some contents: they pass through the region untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The launch's invariant with the scratch operand as a memref owned at some contents: what the body obligation
    hands the run and takes back. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.Kernel.Hand

end
-- ==== Proof.K.R0RunA.lean ====
import proofs.«141899_j10780367913070_1_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0, case A: the first point of a run of the inner axis (reset, then accumulate; nothing stored into the output) -/

set_option maxHeartbeats 1000000 in
/-- What the body's stores leave in the output's staging memref and in the scratch, as pieces (last first), in the case
    where the first condition holds and the second does not, WITH the proof that on whole memrefs — the inputs' at
    their contents, the idle output's at contents `xi4` handed back untouched, the scratch at anything — the body runs
    to the continuation holding the inputs' as they were and the scratch with its pieces written. -/
noncomputable def kernelRun0_A (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : cond0_0 i) (hc1 : ¬cond0_1 i)
    (x0 : Vec F S1x1536 .i32) (x1 : Vec F S1536x8 .f32) (x2 : Vec F S1000x128 .f32) (x3 : Vec F S8x128x128 .f32) :
    Σ' (L4 : List (View.Piece (Elt F) S1536x128 .f32)), { LS0 : List (View.Piece (Elt F) S1536x128 .f32) //
      ∀ (xi4 : Vec F S1536x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg2 harg2 arg3 harg3 arg4 harg4 arg5 harg5 arg6 harg6 arg7 harg7) K } := by
  refine ⟨[], ?_, fun xi4 E K => ?run⟩
  case run =>
    simp only [cc0__gather_kernel_eq_skeleton]; unfold cc0__gather_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R0OutA.lean ====
import proofs.«141899_j10780367913070_1_alg».proof.Proof.K.R0RunA
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0, case A: what the run's pieces read back as

The pieces case A's run found for the output window (none) and for the carried scratch, read back over junk, the
cover of the scratch by its pieces, and the scratch's value as the skeleton's payloads of the input blocks. -/

/-- Case A stores nothing into the output window (it is idle at the case's points and not written back there): no
    pieces — a placeholder (junk read back) that nothing consults. -/
def out0_A_4 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : cond0_0 i) (hc1 : ¬cond0_1 i)
    (x0 : Vec F S1x1536 .i32) (x1 : Vec F S1536x8 .f32) (x2 : Vec F S1000x128 .f32) (x3 : Vec F S8x128x128 .f32) : Vec F S1536x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the scratch, which the kernel carries between points, cover it (whole stores). -/
theorem scover0_A_0 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : cond0_0 i) (hc1 : ¬cond0_1 i)
    (x0 : Vec F S1x1536 .i32) (x1 : Vec F S1536x8 .f32) (x2 : Vec F S1000x128 .f32) (x3 : Vec F S8x128x128 .f32) (y : S1536x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1536x128.size (by sl_kernel_rfl) y

/-- What case A leaves in the scratch: its pieces read back over junk. -/
def sout0_A_0 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : cond0_0 i) (hc1 : ¬cond0_1 i)
    (x0 : Vec F S1x1536 .i32) (x1 : Vec F S1536x8 .f32) (x2 : Vec F S1000x128 .f32) (x3 : Vec F S8x128x128 .f32) : Vec F S1536x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- The value of case A's scratch: the accumulator is reset (the zero payload), then the point's one-hot product is
    added to it — the reset store is read back whole by the load that follows it, the inputs' loads read their blocks. -/
theorem sout0_A_0_eq (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : cond0_0 i) (hc1 : ¬cond0_1 i)
    (x0 : Vec F S1x1536 .i32) (x1 : Vec F S1536x8 .f32) (x2 : Vec F S1000x128 .f32) (x3 : Vec F S8x128x128 .f32) :
    sout0_A_0 c i arg2 harg2 arg3 harg3 arg4 harg4 arg5 harg5 arg6 harg6 arg7 harg7 hc0 hc1 x0 x1 x2 x3 = k0_pay2 i x0 x2 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  have hz : (![0, 0] : Fin 2 → Nat) = fun _ => 0 := by funext a; fin_cases a <;> rfl
  rw [View.canon_cons_unit_zero hz]
  simp only [View.readAt_eq_ld, harg2.read_unread, harg4.read_unread, View.ld_unit_zero (S := S1x1536) hz, View.ld_unit_zero (S := S1000x128) hz, View.readCov_unit_zero (S := S1536x128) arg7.view hz]

end Cert.Kernel.Hand

end
-- ==== Proof.K.R0RunB.lean ====
import proofs.«141899_j10780367913070_1_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0, case B: a point inside a run of the inner axis (accumulate only; nothing stored into the output) -/

set_option maxHeartbeats 1000000 in
/-- What the body's stores leave in the output's staging memref and in the scratch, as pieces (last first), in the case
    where neither condition holds, WITH the proof that on whole memrefs — the inputs' at their contents, the idle
    output's at contents `xi4` handed back untouched, the scratch at the contents `xs0` the point before left — the
    body runs to the continuation holding the inputs' as they were and the scratch with its pieces written. -/
noncomputable def kernelRun0_B (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : ¬cond0_1 i)
    (x0 : Vec F S1x1536 .i32) (x1 : Vec F S1536x8 .f32) (x2 : Vec F S1000x128 .f32) (x3 : Vec F S8x128x128 .f32) (xs0 : Vec F S1536x128 .f32) :
    Σ' (L4 : List (View.Piece (Elt F) S1536x128 .f32)), { LS0 : List (View.Piece (Elt F) S1536x128 .f32) //
      ∀ (xi4 : Vec F S1536x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg2 harg2 arg3 harg3 arg4 harg4 arg5 harg5 arg6 harg6 arg7 harg7) K } := by
  refine ⟨[], ?_, fun xi4 E K => ?run⟩
  case run =>
    simp only [cc0__gather_kernel_eq_skeleton]; unfold cc0__gather_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R0OutB.lean ====
import proofs.«141899_j10780367913070_1_alg».proof.Proof.K.R0RunB
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0, case B: what the run's pieces read back as

The pieces case B's run found for the output window (none) and for the carried scratch, read back over junk, the
cover of the scratch by its pieces, and the scratch's value as the skeleton's payload of the input blocks and of the
scratch the point before left. -/

/-- Case B stores nothing into the output window (it is idle at the case's points and not written back there): no
    pieces — a placeholder (junk read back) that nothing consults. -/
def out0_B_4 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : ¬cond0_1 i)
    (x0 : Vec F S1x1536 .i32) (x1 : Vec F S1536x8 .f32) (x2 : Vec F S1000x128 .f32) (x3 : Vec F S8x128x128 .f32) (xs0 : Vec F S1536x128 .f32) : Vec F S1536x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the scratch, which the kernel carries between points, cover it (whole stores). -/
theorem scover0_B_0 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : ¬cond0_1 i)
    (x0 : Vec F S1x1536 .i32) (x1 : Vec F S1536x8 .f32) (x2 : Vec F S1000x128 .f32) (x3 : Vec F S8x128x128 .f32) (xs0 : Vec F S1536x128 .f32) (y : S1536x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1536x128.size (by sl_kernel_rfl) y

/-- What case B leaves in the scratch: its pieces read back over junk. -/
def sout0_B_0 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : ¬cond0_1 i)
    (x0 : Vec F S1x1536 .i32) (x1 : Vec F S1536x8 .f32) (x2 : Vec F S1000x128 .f32) (x3 : Vec F S8x128x128 .f32) (xs0 : Vec F S1536x128 .f32) : Vec F S1536x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- The value of case B's scratch: the point's one-hot product added to what the point before left — the scratch's
    load reads the contents it was handed, the inputs' loads read their blocks. -/
theorem sout0_B_0_eq (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : ¬cond0_1 i)
    (x0 : Vec F S1x1536 .i32) (x1 : Vec F S1536x8 .f32) (x2 : Vec F S1000x128 .f32) (x3 : Vec F S8x128x128 .f32) (xs0 : Vec F S1536x128 .f32) :
    sout0_B_0 c i arg2 harg2 arg3 harg3 arg4 harg4 arg5 harg5 arg6 harg6 arg7 harg7 hc0 hc1 x0 x1 x2 x3 xs0 = k0_pay2 i x0 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  have hz : (![0, 0] : Fin 2 → Nat) = fun _ => 0 := by funext a; fin_cases a <;> rfl
  rw [View.canon_cons_unit_zero hz]
  simp only [View.readAt_eq_ld, harg2.read_unread, harg4.read_unread, harg7.read_unread, View.ld_unit_zero (S := S1x1536) hz, View.ld_unit_zero (S := S1000x128) hz, View.ld_unit_zero (S := S1536x128) hz]

end Cert.Kernel.Hand

end
-- ==== Proof.K.R0RunC.lean ====
import proofs.«141899_j10780367913070_1_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0, case C: the last point of a run of the inner axis (accumulate, then compute and store the output block) -/

set_option maxHeartbeats 1000000 in
/-- What the body's stores leave in the output's staging memref and in the scratch, as pieces (last first), in the case
    where the first condition fails and the second holds, WITH the proof that on whole memrefs — the inputs' at their
    contents, the output's at anything, the scratch at the contents `xs0` the point before left — the body runs to the
    continuation holding the inputs' as they were and the output and the scratch each with its pieces written. -/
noncomputable def kernelRun0_C (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : cond0_1 i)
    (x0 : Vec F S1x1536 .i32) (x1 : Vec F S1536x8 .f32) (x2 : Vec F S1000x128 .f32) (x3 : Vec F S8x128x128 .f32) (xs0 : Vec F S1536x128 .f32) :
    Σ' (L4 : List (View.Piece (Elt F) S1536x128 .f32)), { LS0 : List (View.Piece (Elt F) S1536x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__gather_kernel i arg2 harg2 arg3 harg3 arg4 harg4 arg5 harg5 arg6 harg6 arg7 harg7) K } := by
  refine ⟨?_, ?_, fun E K => ?run⟩
  case run =>
    simp only [cc0__gather_kernel_eq_skeleton]; unfold cc0__gather_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.R0OutC.lean ====
import proofs.«141899_j10780367913070_1_alg».proof.Proof.K.R0RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0, case C: what the run's pieces read back as

The pieces case C's run found for the output window and for the carried scratch, read back over junk, their covers,
and both values as the skeleton's payloads of the input blocks and of the scratch the point before left. -/

/-- Case C's pieces for the output window tile its block (one whole store), so they cover it. -/
theorem cover0_C_4 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : cond0_1 i)
    (x0 : Vec F S1x1536 .i32) (x1 : Vec F S1536x8 .f32) (x2 : Vec F S1000x128 .f32) (x3 : Vec F S8x128x128 .f32) (xs0 : Vec F S1536x128 .f32) (y : S1536x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1536x128.size (by sl_kernel_rfl) y

/-- What case C leaves in the output window's staging buffer: its pieces read back over junk. -/
def out0_C_4 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : cond0_1 i)
    (x0 : Vec F S1x1536 .i32) (x1 : Vec F S1536x8 .f32) (x2 : Vec F S1000x128 .f32) (x3 : Vec F S8x128x128 .f32) (xs0 : Vec F S1536x128 .f32) : Vec F S1536x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the scratch, which the kernel carries between points, cover it (whole stores). -/
theorem scover0_C_0 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : cond0_1 i)
    (x0 : Vec F S1x1536 .i32) (x1 : Vec F S1536x8 .f32) (x2 : Vec F S1000x128 .f32) (x3 : Vec F S8x128x128 .f32) (xs0 : Vec F S1536x128 .f32) (y : S1536x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1536x128.size (by sl_kernel_rfl) y

/-- What case C leaves in the scratch: its pieces read back over junk. -/
def sout0_C_0 (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : cond0_1 i)
    (x0 : Vec F S1x1536 .i32) (x1 : Vec F S1536x8 .f32) (x2 : Vec F S1000x128 .f32) (x3 : Vec F S8x128x128 .f32) (xs0 : Vec F S1536x128 .f32) : Vec F S1536x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- The value of case C's scratch: the point's one-hot product added to what the point before left. -/
theorem sout0_C_0_eq (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : cond0_1 i)
    (x0 : Vec F S1x1536 .i32) (x1 : Vec F S1536x8 .f32) (x2 : Vec F S1000x128 .f32) (x3 : Vec F S8x128x128 .f32) (xs0 : Vec F S1536x128 .f32) :
    sout0_C_0 c i arg2 harg2 arg3 harg3 arg4 harg4 arg5 harg5 arg6 harg6 arg7 harg7 hc0 hc1 x0 x1 x2 x3 xs0 = k0_pay2 i x0 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  have hz : (![0, 0] : Fin 2 → Nat) = fun _ => 0 := by funext a; fin_cases a <;> rfl
  rw [View.canon_cons_unit_zero hz]
  simp only [View.readAt_eq_ld, harg2.read_unread, harg4.read_unread, harg7.read_unread, View.ld_unit_zero (S := S1x1536) hz, View.ld_unit_zero (S := S1000x128) hz, View.ld_unit_zero (S := S1536x128) hz]

/-- The value of case C's output block, over the accumulated scratch `S` the point leaves: the scratch's store is read
    back whole by the load that follows it, the weight block is loaded slab by slab through literal rectangles. -/
theorem out0_C_4_eq (c : Dev nD) (i : grid0.Coords) (arg2 : Memref sig .tc .vmem S1x1536 .i32) (harg2 : arg2.IsWhole) (arg3 : Memref sig .tc .vmem S1536x8 .f32) (harg3 : arg3.IsWhole) (arg4 : Memref sig .tc .vmem S1000x128 .f32) (harg4 : arg4.IsWhole) (arg5 : Memref sig .tc .vmem S8x128x128 .f32) (harg5 : arg5.IsWhole) (arg6 : Memref sig .tc .vmem S1536x128 .f32) (harg6 : arg6.IsWhole) (arg7 : Memref sig .tc .vmem S1536x128 .f32) (harg7 : arg7.IsWhole) (hc0 : ¬cond0_0 i) (hc1 : cond0_1 i)
    (x0 : Vec F S1x1536 .i32) (x1 : Vec F S1536x8 .f32) (x2 : Vec F S1000x128 .f32) (x3 : Vec F S8x128x128 .f32) (xs0 : Vec F S1536x128 .f32) :
    out0_C_4 c i arg2 harg2 arg3 harg3 arg4 harg4 arg5 harg5 arg6 harg6 arg7 harg7 hc0 hc1 x0 x1 x2 x3 xs0
      = k0_pay3 (k0_pay4 x1) (k0_pay5 (sout0_C_0 c i arg2 harg2 arg3 harg3 arg4 harg4 arg5 harg5 arg6 harg6 arg7 harg7 hc0 hc1 x0 x1 x2 x3 xs0)) (k0_pay6 (sout0_C_0 c i arg2 harg2 arg3 harg3 arg4 harg4 arg5 harg5 arg6 harg6 arg7 harg7 hc0 hc1 x0 x1 x2 x3 xs0) x1 (View.ld x3 (Rect.unit (s := S8x128x128) ![0, 0, 0] S1x128x128.size inb_S8x128x128_S1x128x128_0_0_0)) (View.ld x3 (Rect.unit (s := S8x128x128) ![1, 0, 0] S1x128x128.size inb_S8x128x128_S1x128x128_1_0_0)) (View.ld x3 (Rect.unit (s := S8x128x128) ![2, 0, 0] S1x128x128.size inb_S8x128x128_S1x128x128_2_0_0)) (View.ld x3 (Rect.unit (s := S8x128x128) ![3, 0, 0] S1x128x128.size inb_S8x128x128_S1x128x128_3_0_0))) (View.ld x3 (Rect.unit (s := S8x128x128) ![4, 0, 0] S1x128x128.size inb_S8x128x128_S1x128x128_4_0_0)) (View.ld x3 (Rect.unit (s := S8x128x128) ![5, 0, 0] S1x128x128.size inb_S8x128x128_S1x128x128_5_0_0)) (View.ld x3 (Rect.unit (s := S8x128x128) ![6, 0, 0] S1x128x128.size inb_S8x128x128_S1x128x128_6_0_0)) (View.ld x3 (Rect.unit (s := S8x128x128) ![7, 0, 0] S1x128x128.size inb_S8x128x128_S1x128x128_7_0_0)) := by
  rw [sout0_C_0_eq]
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  have hz : (![0, 0] : Fin 2 → Nat) = fun _ => 0 := by funext a; fin_cases a <;> rfl
  rw [View.canon_cons_unit_zero hz]
  simp only [View.readAt_eq_ld, harg2.read_unread, harg3.read_unread, harg4.read_unread, harg5.read_unread, harg7.read_unread, View.ld_unit_zero (S := S1x1536) hz, View.ld_unit_zero (S := S1536x8) hz, View.ld_unit_zero (S := S1000x128) hz, View.ld_unit_zero (S := S1536x128) hz, View.readCov_unit_zero (S := S1536x128) arg7.view hz]
  <;> rfl

end Cert.Kernel.Hand

end
-- ==== Proof.K.R0Frame.lean ====
import proofs.«141899_j10780367913070_1_alg».proof.Proof.K.R0OutA
import proofs.«141899_j10780367913070_1_alg».proof.Proof.K.R0OutB
import proofs.«141899_j10780367913070_1_alg».proof.Proof.K.R0OutC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0 (the gather kernel): what its output and scratch hold point by point, the proof data, the body obligation

The accumulation `outsAt0` by recursion on the position, the region invariant `PhiS0` naming the scratch contents
the point before left, the proof data `dat0` at the region-entry contents `V`, and the body obligation by cases. -/

/-! ## The write-back schedule of the output window, and the body as the pipeline calls it -/

/-- The outer coordinate of the `t`-th point (the inner axis has 50 points, the outer 391). -/
theorem coord0_outer (t : Fin grid0.N) : (grid0.coords t 0).val = t.val / 50 % 391 := rfl

/-- Where the second condition fails the pipeline does not write the output block back: the point is not the grid's
    last, and the next point has the same outer coordinate, which is all the output window's block index reads. -/
theorem noFlush0_4 (t : Fin cfg0.N) (h : ¬cond0_1 (grid0.coords t)) : (cfg0.win 4).flush t = false := by
  have h49 : ¬t.val % 50 = 49 := fun e => h ((hcond0_1 t).mpr e)
  rw [Bool.eq_false_iff]; intro hf
  unfold Pipeline.Window.flush at hf
  rw [Bool.and_eq_true, Bool.or_eq_true, decide_eq_true_eq, decide_eq_true_eq] at hf
  obtain ⟨-, hN | ⟨hlt, hne⟩⟩ := hf
  · have hN' : t.val + 1 = 19550 := hN.trans N_0
    omega
  · refine hne (hreads0_4 (grid0.coords ⟨t.val + 1, hlt⟩) (grid0.coords t) fun a ha => ?_)
    match a, ha with
    | ⟨0, _⟩, _ => exact Fin.ext (by show (t.val + 1) / 50 % 391 = t.val / 50 % 391; omega)
    | ⟨1, _⟩, ha => exact absurd ha Bool.false_ne_true

/-- The kernel body at point `t`, on what the pipeline calls it with (the label table's row at the point's slots). -/
abbrev bodyAtR0 (t : Fin cfg0.N) : Prog (TpuEff nD τ sig (Elt F) Λ₀ .tc) PUnit :=
  cc0__gather_kernel (grid0.coords t) (ms0_0 t) (hs0_0 t) (ms0_1 t) (hs0_1 t) (ms0_2 t) (hs0_2 t) (ms0_3 t) (hs0_3 t) (ms0_4 t) (hs0_4 t) scM0_0 (Memref.isWhole_whole _)

section Region0
variable (V : (c : Dev nD) → (b : Ref sig .tc) → Buf (Elt F) ((c : Thread nD τ).loc b))

/-! ## What the output and the scratch hold after each point -/

/-- THE ACCUMULATION. What the output window's staging buffer (first component) and the carried scratch (second
    component) hold after the body at position `n`: the case the closed forms select at `n`, run at the point's
    memrefs and input blocks, the scratch it reads at what this leaves at `n - 1`. Both conditions at once is no case. -/
def outsAt0 (c : Dev nD) : (n : ℕ) → n < cfg0.N → Vec F S1536x128 .f32 × Vec F S1536x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 50 = 0 then
      if h1 : (n + 1) % 50 = 49 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 50 = 49 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- `outsAt0` at a point of case A: that case's contents. -/
theorem outsAt0_A (c : Dev nD) (t : Fin cfg0.N) (h0 : t.val % 50 = 0) (h1 : ¬t.val % 50 = 49) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 50 = 0) (h1 : ¬t.val % 50 = 49) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 50 = 0) (h1 : t.val % 50 = 49) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer that is no staging
    buffer of the region at anything, the generator register at some state); afterwards the same with the carried scratch
    at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- Before the first point the invariant is the launch's. -/
theorem Phi0_first (c : Dev nD) : (dat0 V c).Φ 0 = Pipeline.ΦA spec0 c := by
  rw [show (dat0 V c).Φ 0 = PhiS0 V c 0 (Nat.zero_le _) from rfl, PhiS0_zero V c 0 _ rfl]

/-- After any point but the first the invariant gives the launch's back: the scratch's named contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem Phi0_last (c : Dev nD) : (dat0 V c).Φ (Fin.last cfg0.N) ⊢ Pipeline.ΦA spec0 c :=
  Phi0_out V c _ (by rw [Fin.val_last]; have : cfg0.N = 19550 := N_0; omega)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which case the point is in; the
    invariant hands the body the carried scratch at what the point before left (at anything at the first point) and
    takes it back at this point's contents, the other scoped buffers and the generator register passing through; the
    core owes nothing throughout. -/
theorem sound_body0 (c : Dev nD) (t : Fin cfg0.N) :
    bodyPre0 V c t ⊢ wp frame (wpE (defs₀ (F := F)) Variants.none c none) Set.univ (bodyAtR0 t) (fun _ => bodyPost0 V c t) := by
  unfold bodyPre0 bodyPost0 bodyAtR0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 19550 := lt_of_lt_of_eq t.isLt (show cfg0.N = 19550 from N_0)
  by_cases h0 : t.val % 50 = 0
  · by_cases h1 : t.val % 50 = 49
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 _ (fun h => h1 ((hcond0_1 t).mp h))) (noFlush0_4 t (fun h => h1 ((hcond0_1 t).mp h)))]
      rw [outsAt0_A V c t h0 h1]
      unfold sout0_A_0; (try dsimp only)
      by_cases hz : t.val = 0
      ·
        rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 50 = 49
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 _ ((hcond0_1 t).mpr h1)], after0_4]
      rw [outsAt0_C V c t h0 h1]
      unfold out0_C_4 sout0_C_0; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 _ (fun h => h1 ((hcond0_1 t).mp h))) (noFlush0_4 t (fun h => h1 ((hcond0_1 t).mp h)))]
      rw [outsAt0_B V c t h0 h1]
      unfold sout0_B_0; (try dsimp only)
      by_cases hz : t.val = 0
      · exfalso; omega
      ·
        rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Runs.lean ====
/- Region 1 (the scatter kernel, pipeline 1) of the idealized program: what the three control cases of its body share.
   The body keeps a scratch accumulator between grid points: at the first point of each run of the inner grid axis it
   resets the scratch, at every point it adds a one-hot product into it, at the last point of the run it copies the
   scratch into the output window (idle, and not written back, at the other points). Everything is stated at a
   PARAMETER `V`, the TensorCore's buffer contents when the region is entered. The grid has 50 · 391 points, point `t`
   at coordinates (t div 391, t mod 391): the conditions and the output's write-back schedule are read off that. -/
import proofs.«141899_j10780367913070_1_alg».proof.Proof.Gen.Kernel.Launch
import proofs.«141899_j10780367913070_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

-- membership in a rectangle of large extents: the elaborator's structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched point has
    the block index of the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): an unfetched point has
    the block index of the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): an unfetched point has
    the block index of the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): an unfetched point has
    the block index of the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): an unfetched point has
    the block index of the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The grid's coordinates and the body's branch conditions, in closed form -/

/-- The inner coordinate of point `t` is `t mod 391`; -/
theorem coords1_1 (t : Fin cfg1.N) : (grid1.coords t 1).val = t.val % 391 := by
  show t.val / grid1.stride 1 % grid1.bound 1 = _
  rw [show grid1.stride 1 = 1 from by decide, show grid1.bound 1 = 391 from rfl, Nat.div_one]
/-- the outer one `t div 391` (the grid has 50 · 391 points). -/
theorem coords1_0 (t : Fin cfg1.N) : (grid1.coords t 0).val = t.val / 391 := by
  have hN : t.val < 19550 := lt_of_lt_of_eq t.isLt (show cfg1.N = 19550 from N_1)
  show t.val / grid1.stride 0 % grid1.bound 0 = _
  rw [show grid1.stride 0 = 391 from by decide, show grid1.bound 0 = 50 from rfl]
  omega

/-- The flag the body computes of "coordinate `n` is the literal `k`" (compare for equality, extend the bit to a
    word, compare the word with zero) is set exactly when the two numbers are equal. -/
theorem flag1_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  unfold Scalar.cmpi Scalar.extui
  have key : ∀ v : BitVec 1, (v.setWidth 32 ≠ 0#32 ↔ v = 1#1) := by decide
  rw [IntOp.cmpi_ne, key, IntOp.cmpi_eq]
  constructor
  · intro h
    have e := congrArg BitVec.toNat h
    rwa [BitVec.toNat_ofNat, BitVec.toNat_ofNat, Nat.mod_eq_of_lt hn, Nat.mod_eq_of_lt hk] at e
  · rintro rfl; rfl

/-- The condition of the body's first conditional (the scratch is reset), from the grid coordinates: the inner
    coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 391). -/
theorem hcond1_0 (t : Fin cfg1.N) : cond1_0 (grid1.coords t) ↔ t.val % 391 = 0 := by
  have hb : (grid1.coords t 1).val < 391 := (grid1.coords t 1).isLt
  rw [← coords1_1 t]
  exact flag1_iff _ 0 (by omega) (by omega)

/-- The condition of the body's second conditional (the output is stored): the inner coordinate is 390. -/
abbrev cond1_1 (i : grid1.Coords) : Prop := k1_cond2 i = 1#1
/-- It holds at the points ≡ 390 (mod 391). -/
theorem hcond1_1 (t : Fin cfg1.N) : cond1_1 (grid1.coords t) ↔ t.val % 391 = 390 := by
  have hb : (grid1.coords t 1).val < 391 := (grid1.coords t 1).isLt
  rw [← coords1_1 t]
  exact flag1_iff _ 390 (by omega) (by omega)

/-! ## The output window's schedule -/

/-- Output window 5's block index at point `t`: the outer coordinate along the rows, 0 along the columns. -/
theorem index1_5 (t : Fin cfg1.N) : (cfg1.win 5).index t = ![t.val / 391, 0] := by
  have hN : t.val < 19550 := lt_of_lt_of_eq t.isLt (show cfg1.N = 19550 from N_1)
  show cc1_transform_5 (grid1.coords t) = _
  unfold cc1_transform_5
  funext a
  fin_cases a
  · show (BitVec.ofNat 32 (grid1.coords t 0).val).toNat = t.val / 391
    rw [BitVec.toNat_ofNat, coords1_0, Nat.mod_eq_of_lt (by omega)]
  · rfl

/-! ## Where the windows are idle -/

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Where the second conditional is not taken the output window 5 is idle: the body stores nothing into it. -/
theorem idleAt1_5 : ∀ t : Fin cfg1.N, ¬cond1_1 (grid1.coords t) → cfg1.idle 5 (grid1.coords t) = true := fun t h => by
  show (!(k1_cond2 (grid1.coords t) == 1#1)) = true
  rw [Bool.not_eq_true', beq_eq_false_iff_ne]; exact h
/-- And the pipeline does not write its block back there: the point is not the grid's last, and the next point has
    the same block index (the outer coordinate moves only after inner coordinate 390). -/
theorem noFlush1_5 : ∀ t : Fin cfg1.N, ¬cond1_1 (grid1.coords t) → (cfg1.win 5).flush t = false := fun t h => by
  have hm : t.val % 391 ≠ 390 := fun e => h ((hcond1_1 t).mpr e)
  have hN : t.val < 19550 := lt_of_lt_of_eq t.isLt (show cfg1.N = 19550 from N_1)
  unfold Pipeline.Window.flush
  rw [Bool.and_eq_false_iff]; right
  rw [Bool.or_eq_false_iff]
  refine ⟨decide_eq_false ?_, decide_eq_false ?_⟩
  · have e : cfg1.grid.N = 19550 := N_1
    omega
  · rintro ⟨h', hne⟩
    apply hne
    rw [index1_5, index1_5]
    show ![(t.val + 1) / 391, 0] = ![t.val / 391, 0]
    rw [show (t.val + 1) / 391 = t.val / 391 from by omega]
/-- Where it is taken the window is live: the body stores into it. -/
theorem liveAt1_5 : ∀ t : Fin cfg1.N, cond1_1 (grid1.coords t) → cfg1.idle 5 (grid1.coords t) = false := fun t h => by
  show (!(k1_cond2 (grid1.coords t) == 1#1)) = false
  rw [Bool.not_eq_false', beq_iff_eq]; exact h

/-! ## The staging and scratch memrefs -/

/-- One staging buffer of output window 5, through which its contents are stated (the choice does not matter). -/
abbrev VO1_5 : View sig .tc .vmem S1000x128 .f32 := (Memref.whole cc1_stg5_0 : Memref sig .tc .vmem S1000x128 .f32).view
/-- Each window's current staging memref at point `t`, spelled as the pipeline passes it, and its wholeness. -/
abbrev ms1_0 (t : Fin cfg1.N) : Memref sig .tc .vmem S1x1536 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1536x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1000x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1000x128 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows. -/
abbrev scM1_0 : Memref sig .tc .vmem S1000x128 .f32 := Memref.whole cc1_scratch0
/-- The scratch the kernel carries between points, as a view: what it holds is stated through it. -/
abbrev VS1_0 : View sig .tc .vmem S1000x128 .f32 := scM1_0.view

/-- The core's scoped buffers that are neither a staging buffer of this pipeline nor its scratch (the other
    pipeline's staging buffers and scratch), at some contents each: carried through the region unopened. -/
abbrev rest1 (c : Dev nD) : sProp 𝕄 :=
  Pipeline.scopedRestBut (Ix := Unit) (Name := ℕ) (U := UR sig nD τ) (Lvl := ℕ) (Val := Elt F) spec1 c [cc1_scratch0]

/-- The region invariant with the scratch operand as a memref owned at some contents: what the body obligation
    hands the run and takes back. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA
  rw [Pipeline.scopedRest_split_of_list spec1 c [cc1_scratch0] (by decide) (by decide)]
  simp only [scM1_0, owns_whole, bigSepL_singleton]; try rfl

/-! ## The body as the pipeline calls it -/

/-- The kernel body at point `t`, on the point's coordinates, the windows' current staging memrefs and the scratch: the
    body table's row for this pipeline, at the slots the pipeline is on. -/
abbrev bodyAtR1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (Memref.whole cc1_scratch0) (Memref.isWhole_whole _)

end Cert.Kernel.Hand

end
-- ==== Proof.K.R1RunA.lean ====
/- Region 1 (the scatter kernel): the whole-body run of the kernel in the first case (the inner coordinate is 0: the scratch is reset, then added to; the output is not stored).
   One module per control case, so that each case is elaborated by itself; the run modules form a chain. -/
import proofs.«141899_j10780367913070_1_alg».proof.Proof.K.R1Runs

-- membership in a rectangle of large extents: the elaborator's structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first), IN THE FIRST CASE (the inner coordinate is 0: the scratch is reset, then added to; the output is not stored), WITH the
    proof that on whole memrefs — the five inputs' at their contents `x·`, the output's at contents `xi5` handed back untouched, the scratch at anything — the body runs
    to the continuation holding the inputs' as they were, the output's as it was and the scratch with its pieces written (`LS0`). The pieces
    are the witness the symbolic execution of the body's skeleton finds. -/
noncomputable def kernelRun1_A (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : cond1_0 i) (hc1 : ¬cond1_1 i)
    (x0 : Vec F S1x1536 .i32) (x1 : Vec F S1536x128 .f32) (x2 : Vec F S1000x128 .f32) (x3 : Vec F S128x128 .f32) (x4 : Vec F S1x128 .f32) :
    Σ' (L5 : List (View.Piece (Elt F) S1000x128 .f32)), { LS0 : List (View.Piece (Elt F) S1000x128 .f32) //
      ∀ (xi5 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__scatter_kernel i arg2 harg2 arg3 harg3 arg4 harg4 arg5 harg5 arg6 harg6 arg7 harg7 arg8 harg8) K } := by
  refine ⟨[], ?_, fun xi5 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.R1RunB.lean ====
/- Region 1 (the scatter kernel): the whole-body run of the kernel in the middle case (the inner coordinate is neither 0 nor 390: the scratch is added to; the output is not stored).
   One module per control case, so that each case is elaborated by itself; the run modules form a chain. -/
import proofs.«141899_j10780367913070_1_alg».proof.Proof.K.R1RunA

-- membership in a rectangle of large extents: the elaborator's structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first), IN THE MIDDLE CASE (the inner coordinate is neither 0 nor 390: the scratch is added to; the output is not stored), WITH the
    proof that on whole memrefs — the five inputs' at their contents `x·`, the output's at contents `xi5` handed back untouched, the scratch at what the point before left (`xs0`) — the body runs
    to the continuation holding the inputs' as they were, the output's as it was and the scratch with its pieces written (`LS0`). The pieces
    are the witness the symbolic execution of the body's skeleton finds. -/
noncomputable def kernelRun1_B (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : ¬cond1_1 i)
    (x0 : Vec F S1x1536 .i32) (x1 : Vec F S1536x128 .f32) (x2 : Vec F S1000x128 .f32) (x3 : Vec F S128x128 .f32) (x4 : Vec F S1x128 .f32) (xs0 : Vec F S1000x128 .f32) :
    Σ' (L5 : List (View.Piece (Elt F) S1000x128 .f32)), { LS0 : List (View.Piece (Elt F) S1000x128 .f32) //
      ∀ (xi5 : Vec F S1000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__scatter_kernel i arg2 harg2 arg3 harg3 arg4 harg4 arg5 harg5 arg6 harg6 arg7 harg7 arg8 harg8) K } := by
  refine ⟨[], ?_, fun xi5 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.R1RunC.lean ====
/- Region 1 (the scatter kernel): the whole-body run of the kernel in the last case (the inner coordinate is 390: the scratch is added to, then copied into the output).
   One module per control case, so that each case is elaborated by itself; the run modules form a chain. -/
import proofs.«141899_j10780367913070_1_alg».proof.Proof.K.R1RunB

-- membership in a rectangle of large extents: the elaborator's structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the scratch, as pieces (last first), IN THE LAST CASE (the inner coordinate is 390: the scratch is added to, then copied into the output), WITH the
    proof that on whole memrefs — the five inputs' at their contents `x·`, the output's at anything, the scratch at what the point before left (`xs0`) — the body runs
    to the continuation holding the inputs' as they were, the output's with its pieces written (`L5`) and the scratch with its pieces written (`LS0`). The pieces
    are the witness the symbolic execution of the body's skeleton finds. -/
noncomputable def kernelRun1_C (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : cond1_1 i)
    (x0 : Vec F S1x1536 .i32) (x1 : Vec F S1536x128 .f32) (x2 : Vec F S1000x128 .f32) (x3 : Vec F S128x128 .f32) (x4 : Vec F S1x128 .f32) (xs0 : Vec F S1000x128 .f32) :
    Σ' (L5 : List (View.Piece (Elt F) S1000x128 .f32)), { LS0 : List (View.Piece (Elt F) S1000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__scatter_kernel i arg2 harg2 arg3 harg3 arg4 harg4 arg5 harg5 arg6 harg6 arg7 harg7 arg8 harg8) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K.R1Body.lean ====
/- Region 1 (the scatter kernel, pipeline 1), at the entry contents `V`: what the output window and the carried scratch
   hold per control case (the pieces the runs found, read back) and point by point (`outsAt1`, by recursion on the
   position), the region invariant with the scratch at the previous point's contents (`PhiS1`), the pipeline's proof data
   (`dat1`), and the body obligation (`body_obligation1`) by cases on the conditions' closed forms. -/
import proofs.«141899_j10780367913070_1_alg».proof.Proof.K.R1RunC

-- membership in a rectangle of large extents: the elaborator's structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-- In the first case the body stores nothing into output window 5 (the window is idle at these points and not written back):
    no pieces — a placeholder that nothing consults. -/
def out1_A_5 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : cond1_0 i) (hc1 : ¬cond1_1 i)
    (x0 : Vec F S1x1536 .i32) (x1 : Vec F S1536x128 .f32) (x2 : Vec F S1000x128 .f32) (x3 : Vec F S128x128 .f32) (x4 : Vec F S1x128 .f32) : Vec F S1000x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- In the first case the pieces stored into the scratch tile it, so they cover it. -/
theorem scover1_A_0 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : cond1_0 i) (hc1 : ¬cond1_1 i)
    (x0 : Vec F S1x1536 .i32) (x1 : Vec F S1536x128 .f32) (x2 : Vec F S1000x128 .f32) (x3 : Vec F S128x128 .f32) (x4 : Vec F S1x128 .f32) (y : S1000x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1000x128.size (by sl_kernel_rfl) y

/-- What the first case leaves in the scratch: its pieces read back. -/
def sout1_A_0 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : cond1_0 i) (hc1 : ¬cond1_1 i)
    (x0 : Vec F S1x1536 .i32) (x1 : Vec F S1536x128 .f32) (x2 : Vec F S1000x128 .f32) (x3 : Vec F S128x128 .f32) (x4 : Vec F S1x128 .f32) : Vec F S1000x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- In the middle case the body stores nothing into output window 5 (the window is idle at these points and not written back):
    no pieces — a placeholder that nothing consults. -/
def out1_B_5 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : ¬cond1_1 i)
    (x0 : Vec F S1x1536 .i32) (x1 : Vec F S1536x128 .f32) (x2 : Vec F S1000x128 .f32) (x3 : Vec F S128x128 .f32) (x4 : Vec F S1x128 .f32) (xs0 : Vec F S1000x128 .f32) : Vec F S1000x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- In the middle case the pieces stored into the scratch tile it, so they cover it. -/
theorem scover1_B_0 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : ¬cond1_1 i)
    (x0 : Vec F S1x1536 .i32) (x1 : Vec F S1536x128 .f32) (x2 : Vec F S1000x128 .f32) (x3 : Vec F S128x128 .f32) (x4 : Vec F S1x128 .f32) (xs0 : Vec F S1000x128 .f32) (y : S1000x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1000x128.size (by sl_kernel_rfl) y

/-- What the middle case leaves in the scratch: its pieces read back. -/
def sout1_B_0 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : ¬cond1_1 i)
    (x0 : Vec F S1x1536 .i32) (x1 : Vec F S1536x128 .f32) (x2 : Vec F S1000x128 .f32) (x3 : Vec F S128x128 .f32) (x4 : Vec F S1x128 .f32) (xs0 : Vec F S1000x128 .f32) : Vec F S1000x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- In the last case the pieces stored into output window 5 tile its block, so they cover it. -/
theorem cover1_C_5 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : cond1_1 i)
    (x0 : Vec F S1x1536 .i32) (x1 : Vec F S1536x128 .f32) (x2 : Vec F S1000x128 .f32) (x3 : Vec F S128x128 .f32) (x4 : Vec F S1x128 .f32) (xs0 : Vec F S1000x128 .f32) (y : S1000x128.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1000x128.size (by sl_kernel_rfl) y

/-- What the last case leaves in output window 5's staging buffer: its pieces read back. -/
def out1_C_5 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : cond1_1 i)
    (x0 : Vec F S1x1536 .i32) (x1 : Vec F S1536x128 .f32) (x2 : Vec F S1000x128 .f32) (x3 : Vec F S128x128 .f32) (x4 : Vec F S1x128 .f32) (xs0 : Vec F S1000x128 .f32) : Vec F S1000x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- In the last case the pieces stored into the scratch tile it, so they cover it. -/
theorem scover1_C_0 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : cond1_1 i)
    (x0 : Vec F S1x1536 .i32) (x1 : Vec F S1536x128 .f32) (x2 : Vec F S1000x128 .f32) (x3 : Vec F S128x128 .f32) (x4 : Vec F S1x128 .f32) (xs0 : Vec F S1000x128 .f32) (y : S1000x128.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1000x128.size (by sl_kernel_rfl) y

/-- What the last case leaves in the scratch: its pieces read back. -/
def sout1_C_0 (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : cond1_1 i)
    (x0 : Vec F S1x1536 .i32) (x1 : Vec F S1536x128 .f32) (x2 : Vec F S1000x128 .f32) (x3 : Vec F S128x128 .f32) (x4 : Vec F S1x128 .f32) (xs0 : Vec F S1000x128 .f32) : Vec F S1000x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output and the scratch hold after each point -/

/-- THE ACCUMULATION. What output window 5's staging buffer (first component) and the scratch the kernel carries between
    points (second component) hold after the body at position `n`: the case the closed forms select at `n`, run at the
    point's memrefs and input blocks, the scratch at what the point before left. Both conditions at once meet no point. -/
def outsAt1 (c : Dev nD) : (n : ℕ) → n < cfg1.N → Vec F S1000x128 .f32 × Vec F S1000x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 391 = 0 then
      if h1 : (n + 1) % 391 = 390 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 391 = 390 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of the first case: that case's contents. -/
theorem outsAt1_A (c : Dev nD) (t : Fin cfg1.N) (h0 : t.val % 391 = 0) (h1 : ¬t.val % 391 = 390) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of the middle case: that case's contents, over what the point before left. -/
theorem outsAt1_B (c : Dev nD) (t : Fin cfg1.N) (h0 : ¬t.val % 391 = 0) (h1 : ¬t.val % 391 = 390) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of the last case: that case's contents, over what the point before left. -/
theorem outsAt1_C (c : Dev nD) (t : Fin cfg1.N) (h0 : ¬t.val % 391 = 0) (h1 : t.val % 391 = 390) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (every scoped buffer that is
    no staging buffer at anything, the generator register at some state); afterwards the same with the scratch at what
    the point before left in it (`outsAt1`'s second component). -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the
    invariant hands the body the scratch at what the point before left (at anything at the very first point) and takes it
    back at this point's contents; the other scoped buffers, the generator register and the core's debt pass through. -/
theorem sound_body1 (c : Dev nD) (t : Fin cfg1.N) :
    bodyPre1 V c t ⊢ wp frame (wpE (defs₀ (F := F)) Variants.none c none) Set.univ (bodyAtR1 t) (fun _ => bodyPost1 V c t) := by
  unfold bodyPre1 bodyPost1 bodyAtR1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 19550 := lt_of_lt_of_eq t.isLt (show cfg1.N = 19550 from N_1)
  by_cases h0 : t.val % 391 = 0
  · by_cases h1 : t.val % 391 = 390
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 391 = 390
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- Before the first point the invariant is what the launch hands the region. -/
theorem Phi1_first (c : Dev nD) : (dat1 V c).Φ 0 = Pipeline.ΦA spec1 c := rfl

/-- After any point but the first the invariant gives the region's own back: the scratch's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem Phi1_last (c : Dev nD) : (dat1 V c).Φ (Fin.last cfg1.N) ⊢ Pipeline.ΦA spec1 c :=
  Phi1_out V c _ (by rw [Fin.val_last]; have : cfg1.N = 19550 := N_1; omega)

end Region1

end Cert.Kernel.Hand

end
-- ==== Proof.K.RunMain.lean ====
import proofs.«141899_j10780367913070_1_alg».proof.Proof.K.R0Frame
import proofs.«141899_j10780367913070_1_alg».proof.Proof.K.R1Body
import proofs.«141899_j10780367913070_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of @main: its segments from the launch to the return

The program is seven stretches of host operations, the two kernel regions, and one closing host operation.
This module states what every unscoped buffer of a core holds at each boundary between two segments (a fold
from the launch memory), gives each segment its record over the thread state "every unscoped buffer whole at the
boundary's contents, the generator register at some state, nothing owed", chains them, and launches. -/

variable (m : (ℓ : Loc nD τ sig) → Buf (Elt F) ℓ) (ρ : Dev nD → PrngReg)

/-! ## The buffer contents at each boundary -/

/-- Region 0's entry contents, read at the TensorCore's references: the launch memory after the seven host stretches. -/
abbrev Vin0 : (c : Dev nD) → (b : Ref sig .tc) → Buf (Elt F) ((c : Thread nD τ).loc b) := fun c b => Gen.V7 m c b

/-- At region 0's exit: its arrays at what the pipeline leaves (an input as entered, the output with every
    write-back folded in), every other buffer as entered. -/
def W8 (c : Dev nD) : Valuation τ sig (Elt F) :=
  Pipeline.withArrays spec0 c (Gen.V7 m c) fun w => (dat0 (Vin0 m) c).arrAt w cfg0.N
theorem W8_arr (c : Dev nD) (w : Fin cfg0.W) :
    W8 m c (Proc.devRef .tc (Pipeline.arrRef spec0 w)) = (dat0 (Vin0 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = Gen.V7 m c (Proc.devRef .tc b) := by
  unfold W8; exact Pipeline.withArrays_of_ne spec0 c _ _ b hb
/-- Region 1's entry contents: region 0's exit contents (region 0's output array is region 1's second input). -/
abbrev Vin1 : (c : Dev nD) → (b : Ref sig .tc) → Buf (Elt F) ((c : Thread nD τ).loc b) := fun c b => W8 m c b
theorem hF0 (c : Dev nD) (w : Fin cfg0.W) : (dat0 (Vin0 m) c).arrAt w cfg0.N = Vin1 m c (Pipeline.arrRef spec0 w) :=
  (W8_arr m c w).symm
theorem hrest0 (c : Dev nD) : ∀ b, b ∉ Finset.univ.image (Pipeline.arrRef spec0) → Vin1 m c b = Vin0 m c b :=
  fun b hb => W8_of_ne m c b fun w e => hb (Finset.mem_image.mpr ⟨w, Finset.mem_univ _, e⟩)

/-- At region 1's exit: its arrays at what the pipeline leaves, every other buffer as entered. -/
def W9 (c : Dev nD) : Valuation τ sig (Elt F) :=
  Pipeline.withArrays spec1 c (W8 m c) fun w => (dat1 (Vin1 m) c).arrAt w cfg1.N
theorem W9_arr (c : Dev nD) (w : Fin cfg1.W) :
    W9 m c (Proc.devRef .tc (Pipeline.arrRef spec1 w)) = (dat1 (Vin1 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
/-- Region 1's exit contents read at the TensorCore's references. -/
abbrev Vout1 : (c : Dev nD) → (b : Ref sig .tc) → Buf (Elt F) ((c : Thread nD τ).loc b) := fun c b => W9 m c b
theorem hF1 (c : Dev nD) (w : Fin cfg1.W) : (dat1 (Vin1 m) c).arrAt w cfg1.N = Vout1 m c (Pipeline.arrRef spec1 w) :=
  (W9_arr m c w).symm
theorem hrest1 (c : Dev nD) : ∀ b, b ∉ Finset.univ.image (Pipeline.arrRef spec1) → Vout1 m c b = Vin1 m c b :=
  fun b hb => W9_of_ne m c b fun w e => hb (Finset.mem_image.mpr ⟨w, Finset.mem_univ _, e⟩)

/-- After the closing host operation: what @main returns with. -/
abbrev W10 (c : Dev nD) : Valuation τ sig (Elt F) := StableHlo.after hostOps2 (W9 m c)

/-! ## The proof data family and the thread state -/

/-- Each pipeline's proof data at its region's entry contents — a literal `match`, so that the family at a numeral
    reduces to the region's own data. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the
    core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at the stretch's result from `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W10 m c) ∗ ∃ r, prngReg c r)

/-! ## The regions as segments -/

set_option backward.isDefEq.respectTransparency.types false in
/-- Region 0 over the thread state: entered from every unscoped buffer at the contents after the seven host stretches, left at `W8`. Its arrays
    are split out of the unscoped buffers and put back at the exit contents; the generator register goes into the
    invariant at the first point and comes back from the invariant at the last point; nothing is owed; the kernel
    has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_first (Vin0 m) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_last (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W8`, left at `W9`. Its arrays
    are split out of the unscoped buffers and put back at the exit contents; the generator register goes into the
    invariant at the first point and comes back from the invariant at the last point; nothing is owed; the kernel
    has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (Vin1 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .host (hseg hostOps0_5 hostOps0_5_sub hostOps0_5_fresh (Gen.V5 m)),
    .host (hseg hostOps0_6 hostOps0_6_sub hostOps0_6_fresh (Gen.V6 m)),
    .region (reg0 m),
    .region (reg1 m),
    .host (hseg hostOps2 hostOps2_sub hostOps2_fresh (W9 m)) ]

/-- @main is the run of the segments: it is the chain of its items, and the segments' run is the chain of their
    fragments, which are those items. -/
theorem main_run (c : Dev nD) : main (F := F) c = Pipeline.Seg.run (segs m) := by
  rw [main_chain c, Pipeline.Seg.run_eq_chain]
  rfl

/-- The closing host operation's thread state is the last one beside the core owing nothing (the same conjuncts,
    grouped as the launch reads them). -/
theorem last_state (c : Dev nD) : iprop(StableHlo.held (c : Thread nD τ) (Pipeline.ucRefs τ sig) (W10 m c) ∗ R c)
    ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in
/-- THE RUN: from any memory with zero counters, every weakly fair execution of @main on the TensorCores terminates,
    and in every final state every unscoped buffer of every core holds the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

/-! ## The arguments end as launched

No host operation writes an argument, and a region either reads it through an input window — whose array it leaves
as entered — or does not touch it: the fold at an argument's buffer walks back to the launch memory, boundary by
boundary. -/

/-- `main_arg0` is as launched after the seven host stretches: none of them writes it. -/
theorem V7_main_arg0 (c : Dev nD) : Gen.V7 m c (Proc.devRef .tc main_arg0) = m ((c : Thread nD τ).loc main_arg0) :=
  (V7_of m c main_arg0 (by decide)).trans <| (V6_of m c main_arg0 (by decide)).trans <| (V5_of m c main_arg0 (by decide)).trans <|
  (V4_of m c main_arg0 (by decide)).trans <| (V3_of m c main_arg0 (by decide)).trans <| (V2_of m c main_arg0 (by decide)).trans <|
  (V1_of m c main_arg0 (by decide)).trans rfl
/-- and at region 0's exit: it is no array of region 0; -/
theorem W8_main_arg0 (c : Dev nD) : W8 m c (Proc.devRef .tc main_arg0) = m ((c : Thread nD τ).loc main_arg0) :=
  (W8_of_ne m c main_arg0 (by decide)).trans (V7_main_arg0 m c)
/-- at region 1's exit: it is no array of region 1; -/
theorem W9_main_arg0 (c : Dev nD) : W9 m c (Proc.devRef .tc main_arg0) = m ((c : Thread nD τ).loc main_arg0) :=
  (W9_of_ne m c main_arg0 (by decide)).trans (W8_main_arg0 m c)
/-- and at the return: the closing host operation writes its own result only. -/
theorem W10_main_arg0 (c : Dev nD) : W10 m c (Proc.devRef .tc main_arg0) = m ((c : Thread nD τ).loc main_arg0) :=
  (StableHlo.after_of_writes_sub hostOps2 _ hostOps2_writes (r := main_arg0) (by decide)).trans (W9_main_arg0 m c)

/-- `main_arg1` is as launched after the seven host stretches: none of them writes it. -/
theorem V7_main_arg1 (c : Dev nD) : Gen.V7 m c (Proc.devRef .tc main_arg1) = m ((c : Thread nD τ).loc main_arg1) :=
  (V7_of m c main_arg1 (by decide)).trans <| (V6_of m c main_arg1 (by decide)).trans <| (V5_of m c main_arg1 (by decide)).trans <|
  (V4_of m c main_arg1 (by decide)).trans <| (V3_of m c main_arg1 (by decide)).trans <| (V2_of m c main_arg1 (by decide)).trans <|
  (V1_of m c main_arg1 (by decide)).trans rfl
/-- and at region 0's exit: it is no array of region 0; -/
theorem W8_main_arg1 (c : Dev nD) : W8 m c (Proc.devRef .tc main_arg1) = m ((c : Thread nD τ).loc main_arg1) :=
  (W8_of_ne m c main_arg1 (by decide)).trans (V7_main_arg1 m c)
/-- at region 1's exit: it is no array of region 1; -/
theorem W9_main_arg1 (c : Dev nD) : W9 m c (Proc.devRef .tc main_arg1) = m ((c : Thread nD τ).loc main_arg1) :=
  (W9_of_ne m c main_arg1 (by decide)).trans (W8_main_arg1 m c)
/-- and at the return: the closing host operation writes its own result only. -/
theorem W10_main_arg1 (c : Dev nD) : W10 m c (Proc.devRef .tc main_arg1) = m ((c : Thread nD τ).loc main_arg1) :=
  (StableHlo.after_of_writes_sub hostOps2 _ hostOps2_writes (r := main_arg1) (by decide)).trans (W9_main_arg1 m c)

/-- `main_arg2` is as launched after the seven host stretches: none of them writes it. -/
theorem V7_main_arg2 (c : Dev nD) : Gen.V7 m c (Proc.devRef .tc main_arg2) = m ((c : Thread nD τ).loc main_arg2) :=
  (V7_of m c main_arg2 (by decide)).trans <| (V6_of m c main_arg2 (by decide)).trans <| (V5_of m c main_arg2 (by decide)).trans <|
  (V4_of m c main_arg2 (by decide)).trans <| (V3_of m c main_arg2 (by decide)).trans <| (V2_of m c main_arg2 (by decide)).trans <|
  (V1_of m c main_arg2 (by decide)).trans rfl
/-- and at region 0's exit: region 0 reads it through input window 2, whose array it leaves as entered; -/
theorem W8_main_arg2 (c : Dev nD) : W8 m c (Proc.devRef .tc main_arg2) = m ((c : Thread nD τ).loc main_arg2) :=
  ((W8_arr m c 2).trans (((dat0 (Vin0 m) c).arrAt_in 2 rfl _).trans (A_eq0 (Vin0 m) c 2))).trans (V7_main_arg2 m c)
/-- at region 1's exit: region 1 reads it through input window 2, whose array it leaves as entered; -/
theorem W9_main_arg2 (c : Dev nD) : W9 m c (Proc.devRef .tc main_arg2) = m ((c : Thread nD τ).loc main_arg2) :=
  ((W9_arr m c 2).trans (((dat1 (Vin1 m) c).arrAt_in 2 rfl _).trans (A_eq1 (Vin1 m) c 2))).trans (W8_main_arg2 m c)
/-- and at the return: the closing host operation writes its own result only. -/
theorem W10_main_arg2 (c : Dev nD) : W10 m c (Proc.devRef .tc main_arg2) = m ((c : Thread nD τ).loc main_arg2) :=
  (StableHlo.after_of_writes_sub hostOps2 _ hostOps2_writes (r := main_arg2) (by decide)).trans (W9_main_arg2 m c)

/-- `main_arg3` is as launched after the seven host stretches: none of them writes it. -/
theorem V7_main_arg3 (c : Dev nD) : Gen.V7 m c (Proc.devRef .tc main_arg3) = m ((c : Thread nD τ).loc main_arg3) :=
  (V7_of m c main_arg3 (by decide)).trans <| (V6_of m c main_arg3 (by decide)).trans <| (V5_of m c main_arg3 (by decide)).trans <|
  (V4_of m c main_arg3 (by decide)).trans <| (V3_of m c main_arg3 (by decide)).trans <| (V2_of m c main_arg3 (by decide)).trans <|
  (V1_of m c main_arg3 (by decide)).trans rfl
/-- and at region 0's exit: region 0 reads it through input window 3, whose array it leaves as entered; -/
theorem W8_main_arg3 (c : Dev nD) : W8 m c (Proc.devRef .tc main_arg3) = m ((c : Thread nD τ).loc main_arg3) :=
  ((W8_arr m c 3).trans (((dat0 (Vin0 m) c).arrAt_in 3 rfl _).trans (A_eq0 (Vin0 m) c 3))).trans (V7_main_arg3 m c)
/-- at region 1's exit: it is no array of region 1; -/
theorem W9_main_arg3 (c : Dev nD) : W9 m c (Proc.devRef .tc main_arg3) = m ((c : Thread nD τ).loc main_arg3) :=
  (W9_of_ne m c main_arg3 (by decide)).trans (W8_main_arg3 m c)
/-- and at the return: the closing host operation writes its own result only. -/
theorem W10_main_arg3 (c : Dev nD) : W10 m c (Proc.devRef .tc main_arg3) = m ((c : Thread nD τ).loc main_arg3) :=
  (StableHlo.after_of_writes_sub hostOps2 _ hostOps2_writes (r := main_arg3) (by decide)).trans (W9_main_arg3 m c)

/-- `main_arg4` is as launched after the seven host stretches: none of them writes it. -/
theorem V7_main_arg4 (c : Dev nD) : Gen.V7 m c (Proc.devRef .tc main_arg4) = m ((c : Thread nD τ).loc main_arg4) :=
  (V7_of m c main_arg4 (by decide)).trans <| (V6_of m c main_arg4 (by decide)).trans <| (V5_of m c main_arg4 (by decide)).trans <|
  (V4_of m c main_arg4 (by decide)).trans <| (V3_of m c main_arg4 (by decide)).trans <| (V2_of m c main_arg4 (by decide)).trans <|
  (V1_of m c main_arg4 (by decide)).trans rfl
/-- and at region 0's exit: it is no array of region 0; -/
theorem W8_main_arg4 (c : Dev nD) : W8 m c (Proc.devRef .tc main_arg4) = m ((c : Thread nD τ).loc main_arg4) :=
  (W8_of_ne m c main_arg4 (by decide)).trans (V7_main_arg4 m c)
/-- at region 1's exit: it is no array of region 1; -/
theorem W9_main_arg4 (c : Dev nD) : W9 m c (Proc.devRef .tc main_arg4) = m ((c : Thread nD τ).loc main_arg4) :=
  (W9_of_ne m c main_arg4 (by decide)).trans (W8_main_arg4 m c)
/-- and at the return: the closing host operation writes its own result only. -/
theorem W10_main_arg4 (c : Dev nD) : W10 m c (Proc.devRef .tc main_arg4) = m ((c : Thread nD τ).loc main_arg4) :=
  (StableHlo.after_of_writes_sub hostOps2 _ hostOps2_writes (r := main_arg4) (by decide)).trans (W9_main_arg4 m c)

/-- `main_arg5` is as launched after the seven host stretches: none of them writes it. -/
theorem V7_main_arg5 (c : Dev nD) : Gen.V7 m c (Proc.devRef .tc main_arg5) = m ((c : Thread nD τ).loc main_arg5) :=
  (V7_of m c main_arg5 (by decide)).trans <| (V6_of m c main_arg5 (by decide)).trans <| (V5_of m c main_arg5 (by decide)).trans <|
  (V4_of m c main_arg5 (by decide)).trans <| (V3_of m c main_arg5 (by decide)).trans <| (V2_of m c main_arg5 (by decide)).trans <|
  (V1_of m c main_arg5 (by decide)).trans rfl
/-- and at region 0's exit: it is no array of region 0; -/
theorem W8_main_arg5 (c : Dev nD) : W8 m c (Proc.devRef .tc main_arg5) = m ((c : Thread nD τ).loc main_arg5) :=
  (W8_of_ne m c main_arg5 (by decide)).trans (V7_main_arg5 m c)
/-- at region 1's exit: region 1 reads it through input window 3, whose array it leaves as entered; -/
theorem W9_main_arg5 (c : Dev nD) : W9 m c (Proc.devRef .tc main_arg5) = m ((c : Thread nD τ).loc main_arg5) :=
  ((W9_arr m c 3).trans (((dat1 (Vin1 m) c).arrAt_in 3 rfl _).trans (A_eq1 (Vin1 m) c 3))).trans (W8_main_arg5 m c)
/-- and at the return: the closing host operation writes its own result only. -/
theorem W10_main_arg5 (c : Dev nD) : W10 m c (Proc.devRef .tc main_arg5) = m ((c : Thread nD τ).loc main_arg5) :=
  (StableHlo.after_of_writes_sub hostOps2 _ hostOps2_writes (r := main_arg5) (by decide)).trans (W9_main_arg5 m c)

/-- `main_arg6` is as launched after the seven host stretches: none of them writes it. -/
theorem V7_main_arg6 (c : Dev nD) : Gen.V7 m c (Proc.devRef .tc main_arg6) = m ((c : Thread nD τ).loc main_arg6) :=
  (V7_of m c main_arg6 (by decide)).trans <| (V6_of m c main_arg6 (by decide)).trans <| (V5_of m c main_arg6 (by decide)).trans <|
  (V4_of m c main_arg6 (by decide)).trans <| (V3_of m c main_arg6 (by decide)).trans <| (V2_of m c main_arg6 (by decide)).trans <|
  (V1_of m c main_arg6 (by decide)).trans rfl
/-- and at region 0's exit: it is no array of region 0; -/
theorem W8_main_arg6 (c : Dev nD) : W8 m c (Proc.devRef .tc main_arg6) = m ((c : Thread nD τ).loc main_arg6) :=
  (W8_of_ne m c main_arg6 (by decide)).trans (V7_main_arg6 m c)
/-- at region 1's exit: it is no array of region 1; -/
theorem W9_main_arg6 (c : Dev nD) : W9 m c (Proc.devRef .tc main_arg6) = m ((c : Thread nD τ).loc main_arg6) :=
  (W9_of_ne m c main_arg6 (by decide)).trans (W8_main_arg6 m c)
/-- and at the return: the closing host operation writes its own result only. -/
theorem W10_main_arg6 (c : Dev nD) : W10 m c (Proc.devRef .tc main_arg6) = m ((c : Thread nD τ).loc main_arg6) :=
  (StableHlo.after_of_writes_sub hostOps2 _ hostOps2_writes (r := main_arg6) (by decide)).trans (W9_main_arg6 m c)

/-- `main_arg7` is as launched after the seven host stretches: none of them writes it. -/
theorem V7_main_arg7 (c : Dev nD) : Gen.V7 m c (Proc.devRef .tc main_arg7) = m ((c : Thread nD τ).loc main_arg7) :=
  (V7_of m c main_arg7 (by decide)).trans <| (V6_of m c main_arg7 (by decide)).trans <| (V5_of m c main_arg7 (by decide)).trans <|
  (V4_of m c main_arg7 (by decide)).trans <| (V3_of m c main_arg7 (by decide)).trans <| (V2_of m c main_arg7 (by decide)).trans <|
  (V1_of m c main_arg7 (by decide)).trans rfl
/-- and at region 0's exit: it is no array of region 0; -/
theorem W8_main_arg7 (c : Dev nD) : W8 m c (Proc.devRef .tc main_arg7) = m ((c : Thread nD τ).loc main_arg7) :=
  (W8_of_ne m c main_arg7 (by decide)).trans (V7_main_arg7 m c)
/-- at region 1's exit: it is no array of region 1; -/
theorem W9_main_arg7 (c : Dev nD) : W9 m c (Proc.devRef .tc main_arg7) = m ((c : Thread nD τ).loc main_arg7) :=
  (W9_of_ne m c main_arg7 (by decide)).trans (W8_main_arg7 m c)
/-- and at the return: the closing host operation writes its own result only. -/
theorem W10_main_arg7 (c : Dev nD) : W10 m c (Proc.devRef .tc main_arg7) = m ((c : Thread nD τ).loc main_arg7) :=
  (StableHlo.after_of_writes_sub hostOps2 _ hostOps2_writes (r := main_arg7) (by decide)).trans (W9_main_arg7 m c)

/-- THE FRAME at any `F`: from any memory with zero counters, every weakly fair execution of @main on the
    TensorCores terminates, and every final state has each of the eight argument arrays as launched — the run's
    reading of every unscoped buffer, taken at the arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_arg0 (by decide))).trans (W10_main_arg0 m c),
    (h c _ (mem_uc main_arg1 (by decide))).trans (W10_main_arg1 m c),
    (h c _ (mem_uc main_arg2 (by decide))).trans (W10_main_arg2 m c),
    (h c _ (mem_uc main_arg3 (by decide))).trans (W10_main_arg3 m c),
    (h c _ (mem_uc main_arg4 (by decide))).trans (W10_main_arg4 m c),
    (h c _ (mem_uc main_arg5 (by decide))).trans (W10_main_arg5 m c),
    (h c _ (mem_uc main_arg6 (by decide))).trans (W10_main_arg6 m c),
    (h c _ (mem_uc main_arg7 (by decide))).trans (W10_main_arg7 m c)⟩) (run_all m ρ)

end Cert.Kernel.Hand

end
-- ==== Proof.RefSpec.lean ====
/-
  The reference's result as one function of its eight argument arrays, element by element.

  The host program computes, for a graph of 600000 edges on 50000 nodes with 128 channels and 8 bases,

      node (n, j) = (((((((((∑ k, x (n, k) * root (k, j)) + bias j) + T 0) + T 1) + T 2) + T 3) + T 4) + T 5) + T 6) + T 7,
      T b         = ∑ k, agg b (n, k) * basis (b, k, j),
      agg b (n,k) = ∑ e, (if edge e's destination word, read signed, is n then x (srcRow e, k) * coef (e, b) else 0),

  and returns the 50000 node rows followed by the 64 rows of the last argument. An edge whose destination word is
  negative or at least 50000 lands on no row. The row an edge reads is its source word — a negative word first wrapped
  once by 50000 — read signed and clamped into the table. The per-edge coefficients `coef` (one row of eight per edge)
  are kept as ONE term of the arguments, the program's own expression for that array; nothing here looks inside it.
-/
import proofs.«141899_j10780367913070_1_alg».proof.Proof.Gen.ReferenceIdeal.Read
import Idealize.ShloMosaic.Lib.ValueIdx
import Idealize.ShloMosaic.PureOps.Ideal
import Idealize.ShloMosaic.Lib.Affine

noncomputable section

open scoped BigOperators

namespace Cert.ReferenceIdeal.Hand

open Cert.ReferenceIdeal Cert.ReferenceIdeal.Gen Idealize.ShloMosaic Idealize.ShloMosaic.ValueIdx

section
variable (ei : Vec Ideal S2x600000 .i32) (et : Vec Ideal S600000 .i32) (x : Vec Ideal S50000x128 .f32)
  (basis : Vec Ideal S8x128x128 .f32) (comp : Vec Ideal S48x8 .f32) (root : Vec Ideal S128x128 .f32)
  (bias : Vec Ideal S128 .f32) (sp : Vec Ideal S64x128 .f32)

/-- The per-edge coefficients, eight per edge: one whole term of the edge arrays and the coefficient table. -/
abbrev coef : Vec Ideal S600000x8 .f32 := Cert.ReferenceIdeal.Read.val_main_v31 (F := Ideal) ei et comp

/-- Edge `e`'s source word, a negative word wrapped once by the number of rows. -/
def srcWord (e : Fin 600000) : BitVec 32 :=
  Scalar.select (IntOp.cmpi .slt (ei (ix2 0 e)) 0#32) (IntOp.addi (ei (ix2 0 e)) 50000#32) (ei (ix2 0 e))

/-- The table row edge `e` reads: its wrapped source word read signed and clamped into `[0, 49999]`. -/
def srcRow (e : Fin 600000) : Fin 50000 := ⟨min (srcWord ei e).toInt.toNat (50000 - 1), by omega⟩

/-- The weighted rows summed into node `n`, channel `k`, for basis `b`: over ALL edges, a term that vanishes unless
    the edge's destination word, read signed, is `n`. -/
def agg (b : Fin 8) (n : Fin 50000) (k : Fin 128) : EReal :=
  ∑ e : Fin 600000, if (ei (ix2 1 e)).toInt = (n.val : Int) then x (ix2 (srcRow ei e) k) * coef ei et comp (ix2 e b) else 0

/-- Basis `b`'s contribution to node `n`, channel `j`. -/
def basisTerm (b : Fin 8) (n : Fin 50000) (j : Fin 128) : EReal :=
  ∑ k : Fin 128, agg ei et x comp b n k * basis (ix3 b k j)

/-- The node's own row through the root matrix, plus the bias. -/
def selfTerm (n : Fin 50000) (j : Fin 128) : EReal :=
  (∑ k : Fin 128, x (ix2 n k) * root (ix2 k j)) + bias (ix1 j)

/-- Node `n`, channel `j`: the self term, then the eight basis terms added one after the other. -/
def node (n : Fin 50000) (j : Fin 128) : EReal :=
  ((((((((selfTerm x root bias n j + basisTerm ei et x basis comp 0 n j) + basisTerm ei et x basis comp 1 n j)
    + basisTerm ei et x basis comp 2 n j) + basisTerm ei et x basis comp 3 n j) + basisTerm ei et x basis comp 4 n j)
    + basisTerm ei et x basis comp 5 n j) + basisTerm ei et x basis comp 6 n j) + basisTerm ei et x basis comp 7 n j)

/-- The whole result: the program's last stage, as one function of the eight arguments. -/
abbrev out : Vec Ideal S50064x128 .f32 :=
  Cert.ReferenceIdeal.Read.val_main_v123 (F := Ideal) ei et x basis comp root bias sp

end

/-- A source word that is not negative is not wrapped. -/
theorem srcWord_of_nonneg (ei : Vec Ideal S2x600000 .i32) (e : Fin 600000) (h : 0 ≤ (ei (ix2 0 e)).toInt) :
    srcWord ei e = ei (ix2 0 e) := by
  unfold srcWord Scalar.select
  rw [if_neg]
  intro hc
  have hlt := IntOp.cmpi_slt.mp hc
  have h0 : (0#32 : BitVec 32).toInt = 0 := by decide
  omega

/-- A source word in `[0, 50000)` reads its own row. -/
theorem srcRow_of_inRange (ei : Vec Ideal S2x600000 .i32) (e : Fin 600000) (h0 : 0 ≤ (ei (ix2 0 e)).toInt)
    (h1 : (ei (ix2 0 e)).toInt < 50000) : ((srcRow ei e).val : Int) = (ei (ix2 0 e)).toInt := by
  show ((min (srcWord ei e).toInt.toNat (50000 - 1) : Nat) : Int) = _
  rw [srcWord_of_nonneg ei e h0]
  omega

end Cert.ReferenceIdeal.Hand

end
-- ==== Proof.RefRun.lean ====
/-
  The reference's run. Every weakly fair execution of the host program terminates with its result array the function
  `out` of the eight launch arrays and with those eight arrays unchanged; dropping the statement about the result
  leaves the frame: the program runs to the end and leaves its arguments as they were.
-/
import proofs.«141899_j10780367913070_1_alg».proof.Proof.Gen.ReferenceIdeal.Read
import proofs.«141899_j10780367913070_1_alg».proof.Proof.Gen.Pre_finite_inputs
import proofs.«141899_j10780367913070_1_alg».proof.Defs
import proofs.«141899_j10780367913070_1_alg».proof.Proof.RefSpec

noncomputable section

namespace Cert.ReferenceIdeal.Hand

open Cert.ReferenceIdeal Cert.ReferenceIdeal.Gen Idealize.ShloMosaic Idealize.ShloMosaic.TcCoe Idealize.SL.Sem

/-- The run, with the result named: from any memory `m'` with zero counters the program terminates, its result is
    `out` of the launch contents of the eight arguments, and the arguments are unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v123)
          = out (m' ((c.tc : Thread nD τ).loc main_arg0)) (m' ((c.tc : Thread nD τ).loc main_arg1)) (m' ((c.tc : Thread nD τ).loc main_arg2)) (m' ((c.tc : Thread nD τ).loc main_arg3))
              (m' ((c.tc : Thread nD τ).loc main_arg4)) (m' ((c.tc : Thread nD τ).loc main_arg5)) (m' ((c.tc : Thread nD τ).loc main_arg6)) (m' ((c.tc : Thread nD τ).loc main_arg7))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7) :=
  (θ_run defs _ _).mono
    (fun _ h c => ⟨(h c).1.trans (Cert.ReferenceIdeal.Read.val_main_v123_eq (F := Ideal) m' c), (h c).2⟩)
    (Cert.ReferenceIdeal.Value.run (F := Ideal) m' ρ')

/-- The frame: the run with the statement about the result dropped. -/
theorem frame_ri : Cert.frame_ReferenceIdeal :=
  fun m ρ _ => (θ_run Cert.ReferenceIdeal.defs _ _).mono (fun _ h c => (h c).2)
    (Cert.ReferenceIdeal.Value.run (F := Ideal) m ρ)

end Cert.ReferenceIdeal.Hand

end
-- ==== Proof.KV.Tail.lean ====
import proofs.«141899_j10780367913070_1_alg».proof.Proof.KI.RunMain
import Idealize.ShloMosaic.Lib.Pipeline.Value
import Idealize.ShloMosaic.Lib.StableHlo.Run
import Idealize.ShloMosaic.Lib.ValueIdx
import Idealize.ShloMosaic.Lib.ValueIdxCoords
import Idealize.ShloMosaic.Lib.Tactic

set_option maxRecDepth 16384

noncomputable section

namespace Cert.KernelIdeal.HandV

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

/-! # The program's result, and what the second region is entered with, read off the run's boundary contents

The closing host operation concatenates the second region's output array (50000 rows) and the last argument
(64 rows) along the rows: a row below 50000 of the result is that row of the second region's output as the
pipeline leaves it, a row from 50000 on is the argument's row 50000 less. The second region's inputs are the
first region's output as the pipeline leaves it, two results of the host stretches, and two arguments as launched. -/

variable (m : (ℓ : Loc nD τ sig) → Buf (Elt Ideal) ℓ)

/-- The result buffer at the return: the concatenation of the two buffers the closing operation reads, as the
    second region leaves them. -/
theorem W10_main_v40 (c : Dev nD) :
    (W10 m c (Proc.devRef .tc main_v40) : S50064x128.Idx → EReal)
      = concatenate S50064x128 0 [⟨S50000x128, (W9 m c (Proc.devRef .tc main_v39) : S50000x128.Idx → EReal)⟩,
          ⟨S64x128, (W9 m c (Proc.devRef .tc main_arg7) : S64x128.Idx → EReal)⟩] concatenates_S50000x128_S64x128_S50064x128_d0 := by
  show StableHlo.after hostOps2 _ (Proc.devRef .tc main_v40) = _
  after_results

/-- The second region's output array at its exit is what the pipeline leaves in it. -/
theorem W9_main_v39 (c : Dev nD) :
    (W9 m c (Proc.devRef .tc main_v39) : S50000x128.Idx → EReal) = ((dat1 (Vin1 m) c).arrAt 5 cfg1.N : S50000x128.Idx → EReal) :=
  W9_arr m c 5

/-- A row below 50000 of the result is that row of the second region's output. -/
theorem out_lo (c : Dev nD) (p : Fin 50064) (q : Fin 128) (h : p.val < 50000) :
    (W10 m c (Proc.devRef .tc main_v40) : S50064x128.Idx → EReal) (ix2 p q)
      = ((dat1 (Vin1 m) c).arrAt 5 cfg1.N : S50000x128.Idx → EReal) (ix2 (⟨p.val, h⟩ : Fin 50000) q) := by
  rw [W10_main_v40, W9_main_v39]
  exact concatenate_pair_apply_left (t := S50064x128) (s₁ := S50000x128) (s₂ := S64x128) (0 : Fin S50064x128.rank) _ _ _
    (ix2 p q) rfl (ix2 (⟨p.val, h⟩ : Fin 50000) q)
    (fun b => by
      have hb2 : b.val < 2 := b.isLt
      rcases Nat.lt_or_ge b.val 1 with h0 | h1
      · have e : b = ⟨0, by decide⟩ := Fin.ext (show b.val = 0 by omega)
        subst e; rfl
      · have e : b = ⟨1, by decide⟩ := Fin.ext (show b.val = 1 by omega)
        subst e; rfl)

/-- A row from 50000 on of the result is the last argument's row 50000 less, as launched. -/
theorem out_hi (c : Dev nD) (p : Fin 50064) (q : Fin 128) (h : 50000 ≤ p.val) :
    (W10 m c (Proc.devRef .tc main_v40) : S50064x128.Idx → EReal) (ix2 p q)
      = (m ((c : Thread nD τ).loc main_arg7) : S64x128.Idx → EReal) (ix2 (⟨p.val - 50000, by have := p.isLt; omega⟩ : Fin 64) q) := by
  rw [W10_main_v40, show (W9 m c (Proc.devRef .tc main_arg7) : S64x128.Idx → EReal) = m ((c : Thread nD τ).loc main_arg7) from W9_main_arg7 m c]
  exact concatenate_pair_apply_right (t := S50064x128) (s₁ := S50000x128) (s₂ := S64x128) (0 : Fin S50064x128.rank) _ _ _
    (ix2 p q) rfl rfl (ix2 (⟨p.val - 50000, by have := p.isLt; omega⟩ : Fin 64) q)
    (fun b hb => by
      have hb2 : b.val < 2 := b.isLt
      have hb0 : b.val ≠ 0 := fun e => hb (Fin.ext e)
      have e : b = ⟨1, by decide⟩ := Fin.ext (show b.val = 1 by omega)
      subst e; rfl)
    (by show p.val - 50000 + 50000 = p.val; omega)

/-! ## What the second region is entered with -/

/-- Its second input array is the first region's output as the pipeline leaves it. -/
theorem Vin1_main_v38 (c : Dev nD) : Vin1 m c main_v38 = (dat0 (Vin0 m) c).arrAt 4 cfg0.N := W8_arr m c 4
/-- Its first and fifth input arrays are results of the host stretches, which the first region does not touch. -/
theorem Vin1_main_v36 (c : Dev nD) : Vin1 m c main_v36 = Gen.V7 m c (Proc.devRef .tc main_v36) := W8_of_ne m c main_v36 (by decide)
theorem Vin1_main_v37 (c : Dev nD) : Vin1 m c main_v37 = Gen.V7 m c (Proc.devRef .tc main_v37) := W8_of_ne m c main_v37 (by decide)
/-- Its third and fourth input arrays are arguments, as launched. -/
theorem Vin1_main_arg2 (c : Dev nD) : Vin1 m c main_arg2 = m ((c : Thread nD τ).loc main_arg2) := W8_main_arg2 m c
theorem Vin1_main_arg5 (c : Dev nD) : Vin1 m c main_arg5 = m ((c : Thread nD τ).loc main_arg5) := W8_main_arg5 m c
/-- The first region's third and fourth input arrays are arguments, as launched. -/
theorem Vin0_main_arg2 (c : Dev nD) : Vin0 m c main_arg2 = m ((c : Thread nD τ).loc main_arg2) := V7_main_arg2 m c
theorem Vin0_main_arg3 (c : Dev nD) : Vin0 m c main_arg3 = m ((c : Thread nD τ).loc main_arg3) := V7_main_arg3 m c

end Cert.KernelIdeal.HandV

end
-- ==== Proof.LibSegmentSum.lean ====
/-
  Permuting the updates of an accumulating scatter, and the reads around it.

  A segment sum `out[idx[e], :] += upd[e, :]` is a `stablehlo.scatter` with an `add` body over `E` scatter
  indices. Its value at the ideal instance is, at each operand element, the operand plus the SUM of the updates landing
  there: a sum over a finite set, so presenting the pairs (index, update row) in another order — through any bijection
  `σ` of the `E` positions — changes nothing. Here: that statement for the row scatter `[N, C] ← [E, 1], [E, C]` and
  for the flat scatter `[N] ← [E, 1], [E]`; the gathers `x[idx]` of rows and of a flat table read at an index
  (start index read signed and clamped); and that an argsort (a two-operand sort carrying an iota) returns the words of
  a bijection of the positions.
-/
import Idealize.ShloMosaic.PureOps.Ideal
import Idealize.ShloMosaic.PureOps.Ideal.Laws
import Idealize.ShloMosaic.Lib.ValueIdx
import Idealize.ShloMosaic.Lib.SortFacts

noncomputable section

open scoped BigOperators

namespace Idealize.ShloMosaic.SegmentSum

open Idealize.ShloMosaic Idealize.ShloMosaic.ValueIdx

/-! ## The result index of an update depends only on its start and window coordinates -/

/-- Two update indices (under two index tables) with the same window start and the same window coordinate on every
    operand axis land at the same operand element, or are both dropped. -/
theorem resultIdx?_congr {s si u : Shape} (d : ScatterDims s si u) {w : Nat} (j j' : u.Idx) (idx idx' : IVec si w)
    (hs : ∀ a, d.start j idx a = d.start j' idx' a) (hw : ∀ a, d.window j a = d.window j' a) :
    d.resultIdx? j idx = d.resultIdx? j' idx' := by
  unfold ScatterDims.resultIdx?
  simp only [hs, hw]

/-! ## The row scatter `[N, C] ← [E, 1], [E, C]` -/

/-- The dimension numbers of `x.at[idx].add(upd)` for a table `x : [N, C]`, indices `idx : [E, 1]` and update rows
    `upd : [E, C]`: update axis 1 is the window (a whole row), operand axis 0 is inserted and is the one the scatter
    index names; the index vector is axis 1 of the indices. Their conditions `wf` are decided on literal shapes. -/
abbrev rowsScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- Update `(e, ch)` starts, on the row axis, at the signed word `idx[e, 0]`. -/
theorem rows_start_zero (idx : IVec ⟨2, ![E, 1]⟩ w) (e : Fin E) (ch : Fin C) :
    (rowsScatterDims N E C wf).start (ix2 e ch) idx 0 = (idx (ix2 e 0)).toInt := by
  unfold ScatterDims.start
  rw [dif_pos (show (0 : Fin 2) ∈ (rowsScatterDims N E C wf).scatterDimsToOperandDims from List.mem_singleton.mpr rfl)]
  have hsi : (rowsScatterDims N E C wf).siIdx (ix2 e ch)
      ⟨List.idxOf (0 : Fin 2) (rowsScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and at `0` on the channel axis, which the scatter index does not name. -/
theorem rows_start_one (idx : IVec ⟨2, ![E, 1]⟩ w) (j : (⟨2, ![E, C]⟩ : Shape).Idx) :
    (rowsScatterDims N E C wf).start j idx 1 = 0 := by
  unfold ScatterDims.start
  rw [dif_neg (show (1 : Fin 2) ∉ ([0] : List (Fin 2)) from by decide)]

/-- Its window coordinate is `0` on the (inserted) row axis … -/
theorem rows_window_zero (j : (⟨2, ![E, C]⟩ : Shape).Idx) : (rowsScatterDims N E C wf).window j 0 = 0 := by
  unfold ScatterDims.window
  have h : (0 : Fin 2) ∉ (rowsScatterDims N E C wf).sKept :=
    show (0 : Fin 2) ∉ (List.finRange 2).filter (fun a => a ∉ ([0] : List (Fin 2))) from by decide
  rw [dif_neg h]

/-- … and its channel on the channel axis. -/
theorem rows_window_one (j : (⟨2, ![E, C]⟩ : Shape).Idx) : (rowsScatterDims N E C wf).window j 1 = (j 1).val := by
  unfold ScatterDims.window
  have h : (1 : Fin 2) ∈ (rowsScatterDims N E C wf).sKept :=
    show (1 : Fin 2) ∈ (List.finRange 2).filter (fun a => a ∉ ([0] : List (Fin 2))) from by decide
  rw [dif_pos h]
  rfl

/-- Where update `(e, ch)` lands depends on the index table only through the word `idx[e, 0]`: two tables that hold
    the same word at `e` and at `e'` send `(e, ch)` and `(e', ch)` to the same element. -/
theorem rows_resultIdx?_congr (idx idx' : IVec ⟨2, ![E, 1]⟩ w) (e e' : Fin E) (ch : Fin C)
    (h : idx' (ix2 e' 0) = idx (ix2 e 0)) :
    (rowsScatterDims N E C wf).resultIdx? (ix2 e' ch) idx' = (rowsScatterDims N E C wf).resultIdx? (ix2 e ch) idx := by
  refine resultIdx?_congr _ _ _ _ _ (fun a => ?_) (fun a => ?_)
  · match a with
    | ⟨0, _⟩ => exact (rows_start_zero wf idx' e' ch).trans ((congrArg BitVec.toInt h).trans (rows_start_zero wf idx e ch).symm)
    | ⟨1, _⟩ => exact (rows_start_one wf idx' _).trans (rows_start_one wf idx _).symm
  · match a with
    | ⟨0, _⟩ => exact (rows_window_zero wf _).trans (rows_window_zero wf _).symm
    | ⟨1, _⟩ => exact (rows_window_one wf _).trans (rows_window_one wf _).symm

/-- A bijection of the `E` positions, applied to the first coordinate of an update index. -/
def rowsEquiv (σ : Fin E ≃ Fin E) : (⟨2, ![E, C]⟩ : Shape).Idx ≃ (⟨2, ![E, C]⟩ : Shape).Idx where
  toFun j := ix2 (σ (j 0)) (j 1)
  invFun j := ix2 (σ.symm (j 0)) (j 1)
  left_inv j := by
    funext a
    match a with
    | ⟨0, _⟩ => exact σ.symm_apply_apply _
    | ⟨1, _⟩ => rfl
  right_inv j := by
    funext a
    match a with
    | ⟨0, _⟩ => exact σ.apply_symm_apply _
    | ⟨1, _⟩ => rfl

/-- PERMUTING THE UPDATES OF THE ROW SCATTER: if `idx'`, `upd'` are `idx`, `upd` read through a bijection `σ` of the
    `E` positions (`idx'[e] = idx[σ e]`, `upd'[e, :] = upd[σ e, :]`), the accumulating scatter of `upd'` at `idx'`
    is that of `upd` at `idx`: at each element, the same updates are summed, listed in another order. -/
theorem rows_scatterAdd_reindex (σ : Fin E → Fin E) (hσ : Function.Bijective σ)
    (x : (⟨2, ![N, C]⟩ : Shape).Idx → EReal) (idx idx' : IVec ⟨2, ![E, 1]⟩ w)
    (upd upd' : (⟨2, ![E, C]⟩ : Shape).Idx → EReal)
    (hidx : ∀ e : Fin E, idx' (ix2 e 0) = idx (ix2 (σ e) 0))
    (hupd : ∀ (e : Fin E) (ch : Fin C), upd' (ix2 e ch) = upd (ix2 (σ e) ch)) :
    Ideal.hostScatterAdd (rowsScatterDims N E C wf) x idx' upd' = Ideal.hostScatterAdd (rowsScatterDims N E C wf) x idx upd := by
  funext i
  unfold Ideal.hostScatterAdd
  congr 1
  rw [Finset.sum_filter, Finset.sum_filter]
  refine Fintype.sum_equiv (rowsEquiv (Equiv.ofBijective σ hσ)) _ _ (fun j => ?_)
  obtain ⟨e, ch, rfl⟩ : ∃ e ch, j = ix2 e ch := ⟨j 0, j 1, eq_ix2 j⟩
  show (if (rowsScatterDims N E C wf).resultIdx? (ix2 e ch) idx' = some i then upd' (ix2 e ch) else 0)
    = if (rowsScatterDims N E C wf).resultIdx? (ix2 (σ e) ch) idx = some i then upd (ix2 (σ e) ch) else 0
  rw [rows_resultIdx?_congr wf idx idx' (σ e) e ch (hidx e), hupd e ch]

end Rows

/-! ## The flat scatter `[N] ← [E, 1], [E]` -/

/-- The dimension numbers of `x.at[idx].add(upd)` for a flat table `x : [N]`, indices `idx : [E, 1]` and updates
    `upd : [E]`: no window axis, operand axis 0 inserted and named by the scatter index; the index vector is axis 1 of
    the indices. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)

/-- Update `e` starts at the signed word `idx[e, 0]`. -/
theorem flat_start_zero (idx : IVec ⟨2, ![E, 1]⟩ w) (e : Fin E) :
    (flatScatterDims N E wf).start (ix1 e) idx 0 = (idx (ix2 e 0)).toInt := by
  unfold ScatterDims.start
  rw [dif_pos (show (0 : Fin 1) ∈ (flatScatterDims N E wf).scatterDimsToOperandDims from List.mem_singleton.mpr rfl)]
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- It has no window: its window coordinate is `0`. -/
theorem flat_window_zero (j : (⟨1, ![E]⟩ : Shape).Idx) : (flatScatterDims N E wf).window j 0 = 0 := by
  unfold ScatterDims.window
  have h : (0 : Fin 1) ∉ (flatScatterDims N E wf).sKept :=
    show (0 : Fin 1) ∉ (List.finRange 1).filter (fun a => a ∉ ([0] : List (Fin 1))) from by decide
  rw [dif_neg h]

/-- Where update `e` lands depends on the index table only through the word `idx[e, 0]`. -/
theorem flat_resultIdx?_congr (idx idx' : IVec ⟨2, ![E, 1]⟩ w) (e e' : Fin E)
    (h : idx' (ix2 e' 0) = idx (ix2 e 0)) :
    (flatScatterDims N E wf).resultIdx? (ix1 e') idx' = (flatScatterDims N E wf).resultIdx? (ix1 e) idx := by
  refine resultIdx?_congr _ _ _ _ _ (fun a => ?_) (fun a => ?_)
  · match a with
    | ⟨0, _⟩ => exact (flat_start_zero wf idx' e').trans ((congrArg BitVec.toInt h).trans (flat_start_zero wf idx e).symm)
  · match a with
    | ⟨0, _⟩ => exact (flat_window_zero wf _).trans (flat_window_zero wf _).symm

/-- A bijection of the `E` positions, as one of the rank-1 indices. -/
def flatEquiv (σ : Fin E ≃ Fin E) : (⟨1, ![E]⟩ : Shape).Idx ≃ (⟨1, ![E]⟩ : Shape).Idx where
  toFun j := ix1 (σ (j 0))
  invFun j := ix1 (σ.symm (j 0))
  left_inv j := by
    funext a
    match a with
    | ⟨0, _⟩ => exact σ.symm_apply_apply _
  right_inv j := by
    funext a
    match a with
    | ⟨0, _⟩ => exact σ.apply_symm_apply _

/-- PERMUTING THE UPDATES OF THE FLAT SCATTER: if `idx'`, `upd'` are `idx`, `upd` read through a bijection `σ` of the
    `E` positions, the accumulating scatter of `upd'` at `idx'` is that of `upd` at `idx`. (For a count — constant
    updates — the hypothesis on the updates holds by `rfl`.) -/
theorem flat_scatterAdd_reindex (σ : Fin E → Fin E) (hσ : Function.Bijective σ)
    (x : (⟨1, ![N]⟩ : Shape).Idx → EReal) (idx idx' : IVec ⟨2, ![E, 1]⟩ w)
    (upd upd' : (⟨1, ![E]⟩ : Shape).Idx → EReal)
    (hidx : ∀ e : Fin E, idx' (ix2 e 0) = idx (ix2 (σ e) 0))
    (hupd : ∀ e : Fin E, upd' (ix1 e) = upd (ix1 (σ e))) :
    Ideal.hostScatterAdd (flatScatterDims N E wf) x idx' upd' = Ideal.hostScatterAdd (flatScatterDims N E wf) x idx upd := by
  funext i
  unfold Ideal.hostScatterAdd
  congr 1
  rw [Finset.sum_filter, Finset.sum_filter]
  refine Fintype.sum_equiv (flatEquiv (Equiv.ofBijective σ hσ)) _ _ (fun j => ?_)
  obtain ⟨e, rfl⟩ : ∃ e, j = ix1 e := ⟨j 0, eq_ix1 j⟩
  show (if (flatScatterDims N E wf).resultIdx? (ix1 e) idx' = some i then upd' (ix1 e) else 0)
    = if (flatScatterDims N E wf).resultIdx? (ix1 (σ e)) idx = some i then upd (ix1 (σ e)) else 0
  rw [flat_resultIdx?_congr wf idx idx' (σ e) e (hidx e), hupd e]

end Flat

/-! ## The gathers read at an index -/

/-- The dimension numbers of `x[idx]` (rows) for a table `x : [N, C]`, indices `idx : [E, 1]` and result `[E, C]`:
    result axis 1 is the offset (a whole row), operand axis 0 is collapsed and is the one the start index names; the
    index vector is axis 1 of the indices; slices are `1 × C`. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section RowsGather
variable {N E C w : Nat} (wf : GatherDims.WF ⟨2, ![N, C]⟩ ⟨2, ![E, 1]⟩ ⟨2, ![E, C]⟩ [1] [0] [] [0] [] 1 ![1, C])

/-- Result element `(e, ch)` reads the row `idx[e, 0]`, signed and clamped into `[0, N − 1]` … -/
theorem rows_operandIdx_zero (idx : IVec ⟨2, ![E, 1]⟩ w) (e : Fin E) (ch : Fin C) :
    ((rowsGatherDims N E C wf).operandIdx (ix2 e ch) idx 0).val = min (idx (ix2 e 0)).toInt.toNat (N - 1) := by
  show (rowsGatherDims N E C wf).start (ix2 e ch) idx 0 + (rowsGatherDims N E C wf).batchCoord (ix2 e ch) 0
    + (rowsGatherDims N E C wf).offCoord (ix2 e ch) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsGatherDims N E C wf).startIndexMap from List.mem_singleton.mpr rfl)]
  have hsi : (rowsGatherDims N E C wf).siIdx (ix2 e ch) ⟨List.idxOf (0 : Fin 2) (rowsGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … at channel `ch`. -/
theorem rows_operandIdx_one (idx : IVec ⟨2, ![E, 1]⟩ w) (e : Fin E) (ch : Fin C) :
    ((rowsGatherDims N E C wf).operandIdx (ix2 e ch) idx 1).val = ch.val := by
  show (rowsGatherDims N E C wf).start (ix2 e ch) idx 1 + (rowsGatherDims N E C wf).batchCoord (ix2 e ch) 1
    + (rowsGatherDims N E C wf).offCoord (ix2 e ch) 1 = _
  rw [GatherDims.batchCoord_eq_zero _ _ _ List.not_mem_nil]
  unfold GatherDims.start
  rw [dif_neg (show (1 : Fin 2) ∉ ([0] : List (Fin 2)) from by decide)]
  unfold GatherDims.offCoord
  have h : (1 : Fin 2) ∈ (rowsGatherDims N E C wf).sKept :=
    (GatherDims.mem_sKept _ _).mpr ⟨show (1 : Fin 2) ∉ ([0] : List (Fin 2)) from by decide, List.not_mem_nil⟩
  rw [dif_pos h]
  simp only [Nat.zero_add, Nat.add_zero]
  rfl

/-- THE ROW GATHER READ AT `(e, ch)`: the table at row `idx[e, 0]` — read signed and clamped into `[0, N − 1]` — and
    channel `ch`. -/
theorem rows_gather_apply {α : Type} (hN : 0 < N)
    (x : (⟨2, ![N, C]⟩ : Shape).Idx → α) (idx : IVec ⟨2, ![E, 1]⟩ w) (e : Fin E) (ch : Fin C) :
    Host.gather (rowsGatherDims N E C wf) x idx (ix2 e ch)
      = x (ix2 ⟨min (idx (ix2 e 0)).toInt.toNat (N - 1), by omega⟩ ch) := by
  unfold Host.gather
  congr 1
  funext a
  refine Fin.ext ?_
  match a with
  | ⟨0, _⟩ => exact rows_operandIdx_zero wf idx e ch
  | ⟨1, _⟩ => exact rows_operandIdx_one wf idx e ch

end RowsGather

/-- The dimension numbers of `x[idx]` for a flat table `x : [M]`, indices `idx : [E, 1]` and result `[E]`: no offset
    axis, operand axis 0 collapsed and named by the start index; the index vector is axis 1 of the indices; slices of
    one element. -/
abbrev flatGatherDims (M E : Nat)
    (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table at the start index `idx[e, 0]`, read signed and clamped into
    `[0, M − 1]`. -/
theorem flat_gather_apply {α : Type} {M E w : Nat} (hM : 0 < M)
    (wf : GatherDims.WF ⟨1, ![M]⟩ ⟨2, ![E, 1]⟩ ⟨1, ![E]⟩ [] [0] [] [0] [] 1 ![1])
    (x : (⟨1, ![M]⟩ : Shape).Idx → α) (idx : IVec ⟨2, ![E, 1]⟩ w) (e : Fin E) :
    Host.gather (flatGatherDims M E wf) x idx (ix1 e) = x (ix1 ⟨min (idx (ix2 e 0)).toInt.toNat (M - 1), by omega⟩) := by
  unfold Host.gather
  congr 1
  funext a
  obtain rfl : a = 0 := Subsingleton.elim _ _
  refine Fin.ext ?_
  show (flatGatherDims M E wf).start (ix1 e) idx 0 + (flatGatherDims M E wf).batchCoord (ix1 e) 0
    + (flatGatherDims M E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims M E wf).startIndexMap from List.mem_singleton.mpr rfl)]
  have hsi : (flatGatherDims M E wf).siIdx (ix1 e) ⟨List.idxOf (0 : Fin 1) (flatGatherDims M E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## An argsort returns the words of a bijection of the positions -/

/-- The second component of a two-operand sort of rank-1 tables along axis 0 reads the second table through ONE
    self-map of the positions: `sortedFrom` of the comparator on the pairs of words. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- … and the first component reads the first table through the same map. -/
theorem sort2_fst_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).1 j
      = x (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The rank-1 index at coordinate `k`, in the two notations. -/
theorem ofFin_eq_ix1 {n : Nat} (k : Fin n) : Shape.Idx.ofFin k = ix1 k := by
  funext a
  match a with
  | ⟨0, _⟩ => rfl

/-- AN ARGSORT IS A PERMUTATION: sorting keys together with the iota of their positions, under any comparator, leaves
    in the second table the words of a bijection `σ` of the positions — position `e` holds the word `σ e` — and in the
    first the keys read through `σ`. -/
theorem argsort_perm {E : Nat} (cmp : BitVec 32 × BitVec 32 → BitVec 32 × BitVec 32 → BitVec 1)
    (keys : IVec ⟨1, ![E]⟩ 32) :
    ∃ σ : Fin E → Fin E, Function.Bijective σ ∧
      (∀ e : Fin E, (Host.sort2 ⟨1, ![E]⟩ 0 cmp keys (iotaInDim ⟨1, ![E]⟩ 32 0)).2 (ix1 e) = BitVec.ofNat 32 (σ e).val) ∧
      ∀ e : Fin E, (Host.sort2 ⟨1, ![E]⟩ 0 cmp keys (iotaInDim ⟨1, ![E]⟩ 32 0)).1 (ix1 e) = keys (ix1 (σ e)) := by
  refine ⟨sortedFrom (fun k k' => cmp (keys (Shape.Idx.ofFin k), iotaInDim ⟨1, ![E]⟩ 32 0 (Shape.Idx.ofFin k))
      (keys (Shape.Idx.ofFin k'), iotaInDim ⟨1, ![E]⟩ 32 0 (Shape.Idx.ofFin k')) == 1#1),
    ⟨sortedFrom_injective _, sortedFrom_surjective _⟩, fun e => ?_, fun e => ?_⟩
  · rw [sort2_snd_rank1]
    rfl
  · rw [sort2_fst_rank1]
    exact congrArg keys (ofFin_eq_ix1 _)

/-! ## Position words below `2 ^ 31` -/

/-- A position `k < 2 ^ 31`, written as a 32-bit word and read back SIGNED, is `k`. -/
theorem toInt_ofNat_of_lt {k : Nat} (hk : k < 2 ^ 31) : (BitVec.ofNat 32 k).toInt = (k : Int) := by
  rw [BitVec.toInt_eq_toNat_cond, BitVec.toNat_ofNat]
  have : k % 2 ^ 32 = k := Nat.mod_eq_of_lt (by omega)
  rw [this]
  split
  · rfl
  · omega

/-- … so it is not negative as a signed word … -/
theorem toInt_ofNat_nonneg {k : Nat} (hk : k < 2 ^ 31) : 0 ≤ (BitVec.ofNat 32 k).toInt := by
  rw [toInt_ofNat_of_lt hk]; exact Int.natCast_nonneg k

/-- … and, for a position of a table of `E` entries, the clamp into `[0, E − 1]` leaves it alone. -/
theorem clamp_ofNat_of_lt {E k : Nat} (hE : E < 2 ^ 31) (hk : k < E) :
    min (BitVec.ofNat 32 k).toInt.toNat (E - 1) = k := by
  rw [toInt_ofNat_of_lt (by omega)]
  simp only [Int.toNat_natCast]
  omega

/-! ## Reads through a table of position words, and the gather–scatter pair under a permutation -/

section Perm
variable {E : Nat}

/-- A flat table gathered through the words of a map `σ` of its `E < 2 ^ 31` positions is the table read through
    `σ`: a position word is not negative and below `E`, so the clamp leaves it alone. -/
theorem flat_gather_perm {α : Type} (hE : E < 2 ^ 31)
    (wf : GatherDims.WF ⟨1, ![E]⟩ ⟨2, ![E, 1]⟩ ⟨1, ![E]⟩ [] [0] [] [0] [] 1 ![1])
    (x : (⟨1, ![E]⟩ : Shape).Idx → α) (perm : IVec ⟨2, ![E, 1]⟩ 32) (σ : Fin E → Fin E)
    (hperm : ∀ e : Fin E, perm (ix2 e 0) = BitVec.ofNat 32 (σ e).val) (e : Fin E) :
    Host.gather (flatGatherDims E E wf) x perm (ix1 e) = x (ix1 (σ e)) := by
  rw [flat_gather_apply (Nat.zero_lt_of_lt e.isLt) wf x perm e]
  congr 2
  refine Fin.ext ?_
  show min (perm (ix2 e 0)).toInt.toNat (E - 1) = (σ e).val
  rw [hperm e]
  exact clamp_ofNat_of_lt hE (σ e).isLt

/-- The rows of an `[E, C]` table gathered through the words of a map `σ` of the `E < 2 ^ 31` positions are the rows
    read through `σ`. -/
theorem rows_gather_perm {α : Type} {C : Nat} (hE : E < 2 ^ 31)
    (wf : GatherDims.WF ⟨2, ![E, C]⟩ ⟨2, ![E, 1]⟩ ⟨2, ![E, C]⟩ [1] [0] [] [0] [] 1 ![1, C])
    (x : (⟨2, ![E, C]⟩ : Shape).Idx → α) (perm : IVec ⟨2, ![E, 1]⟩ 32) (σ : Fin E → Fin E)
    (hperm : ∀ e : Fin E, perm (ix2 e 0) = BitVec.ofNat 32 (σ e).val) (e : Fin E) (ch : Fin C) :
    Host.gather (rowsGatherDims E E C wf) x perm (ix2 e ch) = x (ix2 (σ e) ch) := by
  rw [rows_gather_apply wf (Nat.zero_lt_of_lt e.isLt) x perm e ch]
  congr 2
  refine Fin.ext ?_
  show min (perm (ix2 e 0)).toInt.toNat (E - 1) = (σ e).val
  rw [hperm e]
  exact clamp_ofNat_of_lt hE (σ e).isLt

end Perm

section GatherScatter
variable {N E C w : Nat}

/-- Which row result element `(e, ch)` of the row gather reads depends on the index table only through the word
    `idx[e, 0]`. -/
theorem rows_gather_congr {α : Type}
    (wf : GatherDims.WF ⟨2, ![N, C]⟩ ⟨2, ![E, 1]⟩ ⟨2, ![E, C]⟩ [1] [0] [] [0] [] 1 ![1, C])
    (x : (⟨2, ![N, C]⟩ : Shape).Idx → α) (idx idx' : IVec ⟨2, ![E, 1]⟩ w) (e e' : Fin E) (ch : Fin C)
    (h : idx' (ix2 e' 0) = idx (ix2 e 0)) :
    Host.gather (rowsGatherDims N E C wf) x idx' (ix2 e' ch) = Host.gather (rowsGatherDims N E C wf) x idx (ix2 e ch) := by
  unfold Host.gather
  congr 1
  funext a
  refine Fin.ext ?_
  match a with
  | ⟨0, _⟩ =>
    exact (rows_operandIdx_zero wf idx' e' ch).trans
      ((congrArg (fun v : BitVec w => min v.toInt.toNat (N - 1)) h).trans (rows_operandIdx_zero wf idx e ch).symm)
  | ⟨1, _⟩ => exact (rows_operandIdx_one wf idx' e' ch).trans (rows_operandIdx_one wf idx e ch).symm

/-- THE SEGMENT SUM UNDER A PERMUTATION OF THE EDGES: gathering the rows of `x` at source indices and accumulating
    them at destination indices gives the same table when both index tables are read through one bijection `σ` of the
    `E` positions (`src'[e] = src[σ e]`, `dst'[e] = dst[σ e]`) — the messages are then `msg'[e, :] = msg[σ e, :]`, and
    the accumulating scatter does not see the order of its updates. -/
theorem rows_gather_scatterAdd_reindex
    (wfG : GatherDims.WF ⟨2, ![N, C]⟩ ⟨2, ![E, 1]⟩ ⟨2, ![E, C]⟩ [1] [0] [] [0] [] 1 ![1, C])
    {M : Nat} (wfS : ScatterDims.WF ⟨2, ![M, C]⟩ ⟨2, ![E, 1]⟩ ⟨2, ![E, C]⟩ [1] [0] [0] 1)
    (σ : Fin E → Fin E) (hσ : Function.Bijective σ)
    (x : (⟨2, ![N, C]⟩ : Shape).Idx → EReal) (acc : (⟨2, ![M, C]⟩ : Shape).Idx → EReal)
    (src src' dst dst' : IVec ⟨2, ![E, 1]⟩ w)
    (hsrc : ∀ e : Fin E, src' (ix2 e 0) = src (ix2 (σ e) 0))
    (hdst : ∀ e : Fin E, dst' (ix2 e 0) = dst (ix2 (σ e) 0)) :
    Ideal.hostScatterAdd (rowsScatterDims M E C wfS) acc dst' (Host.gather (rowsGatherDims N E C wfG) x src')
      = Ideal.hostScatterAdd (rowsScatterDims M E C wfS) acc dst (Host.gather (rowsGatherDims N E C wfG) x src) :=
  rows_scatterAdd_reindex wfS σ hσ acc dst dst' _ _ hdst
    (fun e ch => rows_gather_congr wfG x src src' (σ e) e ch (hsrc e))

end GatherScatter

end Idealize.ShloMosaic.SegmentSum

end
-- ==== Proof.LibScatterAddRead.lean ====
/-
  An accumulating scatter read at one element as a sum over the update positions.

  `x.at[idx].add(upd)` is a `stablehlo.scatter` with an `add` body over `E` scatter indices. At the ideal values its
  result at an operand element is the operand there plus the sum of the updates that LAND there. An update lands at an
  element exactly when, on every operand axis, its window start (the index word read signed, not clamped, on the axis
  the scatter index names; 0 on the others) plus its window coordinate is the element's coordinate; an update whose
  start falls outside the operand lands nowhere. For the row scatter `[N, C] ← [E, 1], [E, C]` update `(e, ch)` lands at
  `(c, d)` iff the signed word `idx[e, 0]` is `c` and `ch = d`, so the result at `(c, d)` is
  `x[c, d] + ∑ e, (if idx[e, 0] = c then upd[e, d] else 0)` — a segment sum written as a sum over ALL positions of a term
  that vanishes off the segment. The same for the flat scatter `[N] ← [E, 1], [E]` (a count, with constant updates).
  The dimension records are those of the permutation lemmas for the same two scatters (`rowsScatterDims`,
  `flatScatterDims`).
-/
import Idealize.ShloMosaic.PureOps.Ideal
import Idealize.ShloMosaic.Lib.ValueIdx
import proofs.«141899_j10780367913070_1_alg».proof.Proof.LibSegmentSum

noncomputable section

open scoped BigOperators

namespace Idealize.ShloMosaic.ScatterAddRead

open Idealize.ShloMosaic Idealize.ShloMosaic.ValueIdx Idealize.ShloMosaic.SegmentSum

/-- An update lands at `i` iff start plus window coordinate is `i`'s coordinate on every operand axis (in particular
    the sum is then inside the operand on every axis; otherwise the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have := congrArg (fun f : s.Idx => ((f a).val : Int)) e'
      simp only at this
      rw [← this]
      exact (Int.toNat_of_nonneg (h a).1).symm
    · intro H
      refine congrArg some (funext fun a => Fin.ext ?_)
      show (d.start j idx a + (d.window j a : Int)).toNat = (i a).val
      rw [H a]
      exact Int.toNat_natCast _
  · rename_i h
    constructor
    · intro e; exact absurd e (by simp)
    · intro H
      exact absurd (fun a => by rw [H a]; exact ⟨Int.natCast_nonneg _, by exact_mod_cast (i a).isLt⟩) h

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ (fun i => ?_)
  exact congrArg f (eq_ix1 i)

section Rows
variable {N E C w : Nat} (wf : ScatterDims.WF ⟨2, ![N, C]⟩ ⟨2, ![E, 1]⟩ ⟨2, ![E, C]⟩ [1] [0] [0] 1)

/-- Row update `(e, ch)` lands at `(c, d)` iff the signed index word of position `e` is `c` and `ch = d`. -/
theorem rows_lands_iff (idx : IVec ⟨2, ![E, 1]⟩ w) (e : Fin E) (ch : Fin C) (c : Fin N) (d : Fin C) :
    (rowsScatterDims N E C wf).resultIdx? (ix2 e ch) idx = some (ix2 c d)
      ↔ ((idx (ix2 e 0)).toInt = (c.val : Int) ∧ ch = d) := by
  rw [resultIdx?_eq_some_iff, Fin.forall_fin_two]
  rw [rows_start_zero wf idx e ch, rows_start_one wf idx, rows_window_zero wf, rows_window_one wf]
  show ((idx (ix2 e 0)).toInt + ((0 : Nat) : Int) = (c.val : Int) ∧ (0 : Int) + (ch.val : Int) = (d.val : Int)) ↔ _
  rw [Nat.cast_zero, add_zero, zero_add]
  refine and_congr Iff.rfl ?_
  constructor
  · intro h; exact Fin.ext (by exact_mod_cast h)
  · intro h; rw [h]

/-- THE ROW SCATTER AT `(c, d)`: the operand there plus, over all positions `e`, update row `e`'s channel `d` when the
    signed index word of `e` is `c`. -/
theorem rows_scatterAdd_apply (x : (⟨2, ![N, C]⟩ : Shape).Idx → EReal) (idx : IVec ⟨2, ![E, 1]⟩ w)
    (upd : (⟨2, ![E, C]⟩ : Shape).Idx → EReal) (c : Fin N) (d : Fin C) :
    Ideal.hostScatterAdd (rowsScatterDims N E C wf) x idx upd (ix2 c d)
      = x (ix2 c d) + ∑ e : Fin E, if (idx (ix2 e 0)).toInt = (c.val : Int) then upd (ix2 e d) else 0 := by
  unfold Ideal.hostScatterAdd
  refine congrArg (x (ix2 c d) + ·) ?_
  rw [Finset.sum_filter, sum_idx2]
  refine Finset.sum_congr rfl fun e _ => ?_
  simp only [rows_lands_iff wf idx e _ c d]
  by_cases hl : (idx (ix2 e 0)).toInt = (c.val : Int)
  · simp only [hl, true_and, if_true]
    rw [Finset.sum_ite_eq' Finset.univ d (fun ch => upd (ix2 e ch)), if_pos (Finset.mem_univ _)]
  · simp only [hl, false_and, if_false, Finset.sum_const_zero]

end Rows

section Flat
variable {N E w : Nat} (wf : ScatterDims.WF ⟨1, ![N]⟩ ⟨2, ![E, 1]⟩ ⟨1, ![E]⟩ [] [0] [0] 1)

/-- Flat update `e` lands at `c` iff the signed index word of position `e` is `c`. -/
theorem flat_lands_iff (idx : IVec ⟨2, ![E, 1]⟩ w) (e : Fin E) (c : Fin N) :
    (flatScatterDims N E wf).resultIdx? (ix1 e) idx = some (ix1 c) ↔ (idx (ix2 e 0)).toInt = (c.val : Int) := by
  rw [resultIdx?_eq_some_iff]
  constructor
  · intro H
    have h0 := H 0
    rw [flat_start_zero wf idx e, flat_window_zero wf] at h0
    have h1 : (idx (ix2 e 0)).toInt + ((0 : Nat) : Int) = (c.val : Int) := h0
    rw [Nat.cast_zero, add_zero] at h1
    exact h1
  · intro h a
    obtain rfl : a = 0 := Subsingleton.elim _ _
    rw [flat_start_zero wf idx e, flat_window_zero wf]
    show (idx (ix2 e 0)).toInt + ((0 : Nat) : Int) = (c.val : Int)
    rw [Nat.cast_zero, add_zero]
    exact h

/-- THE FLAT SCATTER AT `c`: the operand there plus, over all positions `e`, update `e` when the signed index word of
    `e` is `c` (with constant updates `1`: the number of positions whose word is `c`). -/
theorem flat_scatterAdd_apply (x : (⟨1, ![N]⟩ : Shape).Idx → EReal) (idx : IVec ⟨2, ![E, 1]⟩ w)
    (upd : (⟨1, ![E]⟩ : Shape).Idx → EReal) (c : Fin N) :
    Ideal.hostScatterAdd (flatScatterDims N E wf) x idx upd (ix1 c)
      = x (ix1 c) + ∑ e : Fin E, if (idx (ix2 e 0)).toInt = (c.val : Int) then upd (ix1 e) else 0 := by
  unfold Ideal.hostScatterAdd
  refine congrArg (x (ix1 c) + ·) ?_
  rw [Finset.sum_filter, sum_idx1]
  refine Finset.sum_congr rfl fun e _ => ?_
  simp only [flat_lands_iff wf idx e c]

end Flat

/-- A 32-bit index word equals the word of a position `c < 2 ^ 31` iff its signed value is `c`: with it the
    conditions above read "the index word is the word of `c`". -/
theorem toInt_eq_iff_eq_ofNat (v : BitVec 32) {c : Nat} (hc : c < 2 ^ 31) :
    v.toInt = (c : Int) ↔ v = BitVec.ofNat 32 c := by
  constructor
  · intro h
    exact BitVec.eq_of_toInt_eq (h.trans (toInt_ofNat_of_lt hc).symm)
  · intro h
    rw [h]; exact toInt_ofNat_of_lt hc

end Idealize.ShloMosaic.ScatterAddRead

end
-- ==== Proof.RefEdge.lean ====
/-
  The reference's data-dependent stages read at one element.

  * The two rows of the edge array, sliced and flattened: word `e` of row `r` is the array at `(r, e)`.
  * The row gather: element `(e, k)` of the gathered rows is the table at row `srcRow e` — the source word of edge `e`,
    a negative word wrapped once, read signed and clamped — and channel `k`.
  * The accumulating row scatter into a zero table: element `(n, k)` is the sum, over ALL edges, of update row `e`'s
    channel `k` when the index word of `e`, read signed, is `n`, and of zero otherwise.
  * The node's own row through the root matrix plus the bias, at `(n, j)`.
-/
import proofs.«141899_j10780367913070_1_alg».proof.Proof.RefSpec
import proofs.«141899_j10780367913070_1_alg».proof.Proof.LibScatterAddRead
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx
  Idealize.ShloMosaic.SegmentSum Idealize.ShloMosaic.ScatterAddRead

/-- Source word `e`: row 0 of the edge array at `e`. -/
theorem srcw_apply (ei : Vec Ideal S2x600000 .i32) (e : Fin 600000) :
    val_main_v1 (F := Ideal) ei (ix1 e) = ei (ix2 0 e) := by
  rw [val_main_v1_apply, val_main_v0_apply]
  refine congrArg ei (funext fun a => Fin.ext ?_)
  match a with
  | ⟨0, _⟩ => rfl
  | ⟨1, _⟩ => exact Nat.mod_eq_of_lt e.isLt

/-- Destination word `e`: row 1 of the edge array at `e`. -/
theorem dstw_apply (ei : Vec Ideal S2x600000 .i32) (e : Fin 600000) :
    val_main_v3 (F := Ideal) ei (ix1 e) = ei (ix2 1 e) := by
  rw [val_main_v3_apply, val_main_v2_apply]
  refine congrArg ei (funext fun a => Fin.ext ?_)
  match a with
  | ⟨0, _⟩ => rfl
  | ⟨1, _⟩ => exact Nat.mod_eq_of_lt e.isLt

/-- The start index the gather reads for edge `e` is the wrapped source word. -/
theorem wrapped_apply (ei : Vec Ideal S2x600000 .i32) (e : Fin 600000) :
    val_main_v37 (F := Ideal) ei (ix2 e 0) = srcWord ei e := by
  have hi : idx_main_v37 (ix2 e (0 : Fin 1)) = ix1 e :=
    funext fun a => Fin.ext (by match a with | ⟨0, _⟩ => rfl)
  rw [val_main_v37_apply, hi, val_main_v36_apply, val_main_v33_apply, val_main_v35_apply, val_main_v32_apply,
    val_main_v34_apply, val_main_c_7_apply, val_main_c_8_apply, srcw_apply]
  rfl

/-- THE GATHERED ROWS at `(e, k)`: the table at row `srcRow e`, channel `k`. -/
theorem gathered_apply (ei : Vec Ideal S2x600000 .i32) (x : Vec Ideal S50000x128 .f32) (e : Fin 600000) (k : Fin 128) :
    val_main_v38 (F := Ideal) ei x (ix2 e k) = x (ix2 (srcRow ei e) k) := by
  have h := rows_gather_apply (N := 50000) (E := 600000) (C := 128)
    gather_S50000x128_S600000x1_S600000x128_1_0_n_n_0_1_1128_wf (by decide) x (val_main_v37 (F := Ideal) ei) e k
  refine h.trans (congrArg x (congrArg (fun r => ix2 r k) (Fin.ext ?_)))
  show min (val_main_v37 (F := Ideal) ei (ix2 e 0)).toInt.toNat (50000 - 1) = min (srcWord ei e).toInt.toNat (50000 - 1)
  rw [wrapped_apply]

/-- THE ROW SCATTER INTO A ZERO TABLE at `(n, k)`: the sum over all edges of the update rows whose index word is `n`. -/
theorem scatter_read (z : Vec Ideal S50000x128 .f32) (idx : Vec Ideal S600000x1 .i32) (upd : Vec Ideal S600000x128 .f32)
    (n : Fin 50000) (k : Fin 128) (hz : z (ix2 n k) = 0) :
    Host.scatterAdd (F := Ideal) (φ := .f32) scatter_S50000x128_S600000x1_S600000x128_1_0_0_1 z idx upd (ix2 n k)
      = ∑ e : Fin 600000, if (idx (ix2 e 0)).toInt = (n.val : Int) then upd (ix2 e k) else 0 := by
  have h := rows_scatterAdd_apply (N := 50000) (E := 600000) (C := 128)
    scatter_S50000x128_S600000x1_S600000x128_1_0_0_1_wf z idx upd n k
  rw [hz, zero_add] at h
  exact h

/-- THE SELF TERM at `(n, j)`: the node's row through the root matrix, plus the bias. -/
theorem self_apply (x : Vec Ideal S50000x128 .f32) (root : Vec Ideal S128x128 .f32) (bias : Vec Ideal S128 .f32)
    (n : Fin 50000) (j : Fin 128) :
    val_main_v42 (F := Ideal) x root bias (ix2 n j) = selfTerm x root bias n j := by
  have hb : idx_main_v40 (idx_main_v41 (ix2 n j)) = ix1 j :=
    funext fun a => Fin.ext (by match a with | ⟨0, _⟩ => rfl)
  rw [val_main_v42_apply, val_main_v39_apply, val_main_v41_apply, val_main_v40_apply, hb]
  unfold selfTerm
  refine congrArg (· + bias (ix1 j)) (Finset.sum_congr rfl fun k _ => ?_)
  have hl : lidx_main_v39 (ix2 n j) k = ix2 n k :=
    funext fun a => Fin.ext (by match a with | ⟨0, _⟩ => rfl | ⟨1, _⟩ => rfl)
  have hr : ridx_main_v39 (ix2 n j) k = ix2 k j :=
    funext fun a => Fin.ext (by match a with | ⟨0, _⟩ => rfl | ⟨1, _⟩ => rfl)
  rw [hl, hr]

end Cert.ReferenceIdeal.Hand

end
-- ==== Proof.RefBasisA.lean ====
/-
  The basis terms 0 … 3 of the reference read at one element.

  For each basis `b` the host program slices column `b` off the per-edge coefficients, spreads it along the channels,
  multiplies the gathered rows by it, scatters the products into a zero table by the destination words, and multiplies
  the result by the basis matrix `b`. At `(n, j)` that is `∑ k, agg b (n, k) * basis (b, k, j)`.
-/
import proofs.«141899_j10780367913070_1_alg».proof.Proof.RefEdge

noncomputable section

open scoped BigOperators

namespace Cert.ReferenceIdeal.Hand

open Cert.ReferenceIdeal Cert.ReferenceIdeal.Gen Cert.ReferenceIdeal.Read Idealize.ShloMosaic Idealize.ShloMosaic.ValueIdx

/-! ## Basis 0 -/

/-- Column `0` of the coefficients, spread along the channels: at `(e, k)` it is `coef (e, 0)`. -/
theorem coefcol0 (ei : Vec Ideal S2x600000 .i32) (et : Vec Ideal S600000 .i32) (comp : Vec Ideal S48x8 .f32)
    (e : Fin 600000) (k : Fin 128) :
    val_main_v44 (F := Ideal) ei et comp (ix2 e k) = coef ei et comp (ix2 e 0) := by
  rw [val_main_v44_apply, val_main_v43_apply]
  refine congrArg (val_main_v31 (F := Ideal) ei et comp) (funext fun a => Fin.ext ?_)
  match a with
  | ⟨0, _⟩ => rfl
  | ⟨1, _⟩ => rfl

/-- The update rows of basis `0`: the gathered row times the edge's coefficient. -/
theorem upd0 (ei : Vec Ideal S2x600000 .i32) (et : Vec Ideal S600000 .i32) (x : Vec Ideal S50000x128 .f32)
    (comp : Vec Ideal S48x8 .f32) (e : Fin 600000) (k : Fin 128) :
    val_main_v45 (F := Ideal) ei et x comp (ix2 e k) = x (ix2 (srcRow ei e) k) * coef ei et comp (ix2 e 0) := by
  rw [val_main_v45_apply, gathered_apply, coefcol0]
  rfl

/-- The index words of the scatter of basis `0`: the destination words. -/
theorem dst0 (ei : Vec Ideal S2x600000 .i32) (e : Fin 600000) :
    val_main_v47 (F := Ideal) ei (ix2 e 0) = ei (ix2 1 e) := by
  have hi : idx_main_v47 (ix2 e (0 : Fin 1)) = ix1 e :=
    funext fun a => Fin.ext (by match a with | ⟨0, _⟩ => rfl)
  rw [val_main_v47_apply, hi, dstw_apply]

/-- The table the scatter of basis `0` accumulates into is zero. -/
theorem zero0 (i : S50000x128.Idx) : val_main_v46 (F := Ideal) i = 0 := by
  rw [val_main_v46_apply, val_main_cst_9_apply]
  exact Ideal.ofBits_zero_f32

/-- The scattered sum of basis `0` at `(n, k)`. -/
theorem agg0_apply (ei : Vec Ideal S2x600000 .i32) (et : Vec Ideal S600000 .i32) (x : Vec Ideal S50000x128 .f32)
    (comp : Vec Ideal S48x8 .f32) (n : Fin 50000) (k : Fin 128) :
    val_main_v48 (F := Ideal) ei et x comp (ix2 n k) = agg ei et x comp 0 n k := by
  unfold val_main_v48 agg
  rw [scatter_read _ _ _ n k (zero0 _)]
  refine Finset.sum_congr rfl fun e _ => ?_
  rw [dst0, upd0]

/-- Basis matrix `0`, sliced off and flattened: at `(k, j)` it is the basis array at `(0, k, j)`. -/
theorem mat0 (basis : Vec Ideal S8x128x128 .f32) (k j : Fin 128) :
    val_main_v50 (F := Ideal) basis (ix2 k j) = basis (ix3 0 k j) := by
  rw [val_main_v50_apply, val_main_v49_apply]
  refine congrArg basis (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- BASIS 0'S TERM at `(n, j)`. -/
theorem term0 (ei : Vec Ideal S2x600000 .i32) (et : Vec Ideal S600000 .i32) (x : Vec Ideal S50000x128 .f32)
    (basis : Vec Ideal S8x128x128 .f32) (comp : Vec Ideal S48x8 .f32) (n : Fin 50000) (j : Fin 128) :
    val_main_v51 (F := Ideal) ei et x basis comp (ix2 n j) = basisTerm ei et x basis comp 0 n j := by
  rw [val_main_v51_apply]
  unfold basisTerm
  refine Finset.sum_congr rfl fun k _ => ?_
  have hl : lidx_main_v51 (ix2 n j) k = ix2 n k :=
    funext fun a => Fin.ext (by match a with | ⟨0, _⟩ => rfl | ⟨1, _⟩ => rfl)
  have hr : ridx_main_v51 (ix2 n j) k = ix2 k j :=
    funext fun a => Fin.ext (by match a with | ⟨0, _⟩ => rfl | ⟨1, _⟩ => rfl)
  rw [hl, hr, agg0_apply, mat0]

/-! ## Basis 1 -/

/-- Column `1` of the coefficients, spread along the channels: at `(e, k)` it is `coef (e, 1)`. -/
theorem coefcol1 (ei : Vec Ideal S2x600000 .i32) (et : Vec Ideal S600000 .i32) (comp : Vec Ideal S48x8 .f32)
    (e : Fin 600000) (k : Fin 128) :
    val_main_v54 (F := Ideal) ei et comp (ix2 e k) = coef ei et comp (ix2 e 1) := by
  rw [val_main_v54_apply, val_main_v53_apply]
  refine congrArg (val_main_v31 (F := Ideal) ei et comp) (funext fun a => Fin.ext ?_)
  match a with
  | ⟨0, _⟩ => rfl
  | ⟨1, _⟩ => rfl

/-- The update rows of basis `1`: the gathered row times the edge's coefficient. -/
theorem upd1 (ei : Vec Ideal S2x600000 .i32) (et : Vec Ideal S600000 .i32) (x : Vec Ideal S50000x128 .f32)
    (comp : Vec Ideal S48x8 .f32) (e : Fin 600000) (k : Fin 128) :
    val_main_v55 (F := Ideal) ei et x comp (ix2 e k) = x (ix2 (srcRow ei e) k) * coef ei et comp (ix2 e 1) := by
  rw [val_main_v55_apply, gathered_apply, coefcol1]
  rfl

/-- The index words of the scatter of basis `1`: the destination words. -/
theorem dst1 (ei : Vec Ideal S2x600000 .i32) (e : Fin 600000) :
    val_main_v57 (F := Ideal) ei (ix2 e 0) = ei (ix2 1 e) := by
  have hi : idx_main_v57 (ix2 e (0 : Fin 1)) = ix1 e :=
    funext fun a => Fin.ext (by match a with | ⟨0, _⟩ => rfl)
  rw [val_main_v57_apply, hi, dstw_apply]

/-- The table the scatter of basis `1` accumulates into is zero. -/
theorem zero1 (i : S50000x128.Idx) : val_main_v56 (F := Ideal) i = 0 := by
  rw [val_main_v56_apply, val_main_cst_10_apply]
  exact Ideal.ofBits_zero_f32

/-- The scattered sum of basis `1` at `(n, k)`. -/
theorem agg1_apply (ei : Vec Ideal S2x600000 .i32) (et : Vec Ideal S600000 .i32) (x : Vec Ideal S50000x128 .f32)
    (comp : Vec Ideal S48x8 .f32) (n : Fin 50000) (k : Fin 128) :
    val_main_v58 (F := Ideal) ei et x comp (ix2 n k) = agg ei et x comp 1 n k := by
  unfold val_main_v58 agg
  rw [scatter_read _ _ _ n k (zero1 _)]
  refine Finset.sum_congr rfl fun e _ => ?_
  rw [dst1, upd1]

/-- Basis matrix `1`, sliced off and flattened: at `(k, j)` it is the basis array at `(1, k, j)`. -/
theorem mat1 (basis : Vec Ideal S8x128x128 .f32) (k j : Fin 128) :
    val_main_v60 (F := Ideal) basis (ix2 k j) = basis (ix3 1 k j) := by
  rw [val_main_v60_apply, val_main_v59_apply]
  refine congrArg basis (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- BASIS 1'S TERM at `(n, j)`. -/
theorem term1 (ei : Vec Ideal S2x600000 .i32) (et : Vec Ideal S600000 .i32) (x : Vec Ideal S50000x128 .f32)
    (basis : Vec Ideal S8x128x128 .f32) (comp : Vec Ideal S48x8 .f32) (n : Fin 50000) (j : Fin 128) :
    val_main_v61 (F := Ideal) ei et x basis comp (ix2 n j) = basisTerm ei et x basis comp 1 n j := by
  rw [val_main_v61_apply]
  unfold basisTerm
  refine Finset.sum_congr rfl fun k _ => ?_
  have hl : lidx_main_v61 (ix2 n j) k = ix2 n k :=
    funext fun a => Fin.ext (by match a with | ⟨0, _⟩ => rfl | ⟨1, _⟩ => rfl)
  have hr : ridx_main_v61 (ix2 n j) k = ix2 k j :=
    funext fun a => Fin.ext (by match a with | ⟨0, _⟩ => rfl | ⟨1, _⟩ => rfl)
  rw [hl, hr, agg1_apply, mat1]

/-! ## Basis 2 -/

/-- Column `2` of the coefficients, spread along the channels: at `(e, k)` it is `coef (e, 2)`. -/
theorem coefcol2 (ei : Vec Ideal S2x600000 .i32) (et : Vec Ideal S600000 .i32) (comp : Vec Ideal S48x8 .f32)
    (e : Fin 600000) (k : Fin 128) :
    val_main_v64 (F := Ideal) ei et comp (ix2 e k) = coef ei et comp (ix2 e 2) := by
  rw [val_main_v64_apply, val_main_v63_apply]
  refine congrArg (val_main_v31 (F := Ideal) ei et comp) (funext fun a => Fin.ext ?_)
  match a with
  | ⟨0, _⟩ => rfl
  | ⟨1, _⟩ => rfl

/-- The update rows of basis `2`: the gathered row times the edge's coefficient. -/
theorem upd2 (ei : Vec Ideal S2x600000 .i32) (et : Vec Ideal S600000 .i32) (x : Vec Ideal S50000x128 .f32)
    (comp : Vec Ideal S48x8 .f32) (e : Fin 600000) (k : Fin 128) :
    val_main_v65 (F := Ideal) ei et x comp (ix2 e k) = x (ix2 (srcRow ei e) k) * coef ei et comp (ix2 e 2) := by
  rw [val_main_v65_apply, gathered_apply, coefcol2]
  rfl

/-- The index words of the scatter of basis `2`: the destination words. -/
theorem dst2 (ei : Vec Ideal S2x600000 .i32) (e : Fin 600000) :
    val_main_v67 (F := Ideal) ei (ix2 e 0) = ei (ix2 1 e) := by
  have hi : idx_main_v67 (ix2 e (0 : Fin 1)) = ix1 e :=
    funext fun a => Fin.ext (by match a with | ⟨0, _⟩ => rfl)
  rw [val_main_v67_apply, hi, dstw_apply]

/-- The table the scatter of basis `2` accumulates into is zero. -/
theorem zero2 (i : S50000x128.Idx) : val_main_v66 (F := Ideal) i = 0 := by
  rw [val_main_v66_apply, val_main_cst_11_apply]
  exact Ideal.ofBits_zero_f32

/-- The scattered sum of basis `2` at `(n, k)`. -/
theorem agg2_apply (ei : Vec Ideal S2x600000 .i32) (et : Vec Ideal S600000 .i32) (x : Vec Ideal S50000x128 .f32)
    (comp : Vec Ideal S48x8 .f32) (n : Fin 50000) (k : Fin 128) :
    val_main_v68 (F := Ideal) ei et x comp (ix2 n k) = agg ei et x comp 2 n k := by
  unfold val_main_v68 agg
  rw [scatter_read _ _ _ n k (zero2 _)]
  refine Finset.sum_congr rfl fun e _ => ?_
  rw [dst2, upd2]

/-- Basis matrix `2`, sliced off and flattened: at `(k, j)` it is the basis array at `(2, k, j)`. -/
theorem mat2 (basis : Vec Ideal S8x128x128 .f32) (k j : Fin 128) :
    val_main_v70 (F := Ideal) basis (ix2 k j) = basis (ix3 2 k j) := by
  rw [val_main_v70_apply, val_main_v69_apply]
  refine congrArg basis (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- BASIS 2'S TERM at `(n, j)`. -/
theorem term2 (ei : Vec Ideal S2x600000 .i32) (et : Vec Ideal S600000 .i32) (x : Vec Ideal S50000x128 .f32)
    (basis : Vec Ideal S8x128x128 .f32) (comp : Vec Ideal S48x8 .f32) (n : Fin 50000) (j : Fin 128) :
    val_main_v71 (F := Ideal) ei et x basis comp (ix2 n j) = basisTerm ei et x basis comp 2 n j := by
  rw [val_main_v71_apply]
  unfold basisTerm
  refine Finset.sum_congr rfl fun k _ => ?_
  have hl : lidx_main_v71 (ix2 n j) k = ix2 n k :=
    funext fun a => Fin.ext (by match a with | ⟨0, _⟩ => rfl | ⟨1, _⟩ => rfl)
  have hr : ridx_main_v71 (ix2 n j) k = ix2 k j :=
    funext fun a => Fin.ext (by match a with | ⟨0, _⟩ => rfl | ⟨1, _⟩ => rfl)
  rw [hl, hr, agg2_apply, mat2]

/-! ## Basis 3 -/

/-- Column `3` of the coefficients, spread along the channels: at `(e, k)` it is `coef (e, 3)`. -/
theorem coefcol3 (ei : Vec Ideal S2x600000 .i32) (et : Vec Ideal S600000 .i32) (comp : Vec Ideal S48x8 .f32)
    (e : Fin 600000) (k : Fin 128) :
    val_main_v74 (F := Ideal) ei et comp (ix2 e k) = coef ei et comp (ix2 e 3) := by
  rw [val_main_v74_apply, val_main_v73_apply]
  refine congrArg (val_main_v31 (F := Ideal) ei et comp) (funext fun a => Fin.ext ?_)
  match a with
  | ⟨0, _⟩ => rfl
  | ⟨1, _⟩ => rfl

/-- The update rows of basis `3`: the gathered row times the edge's coefficient. -/
theorem upd3 (ei : Vec Ideal S2x600000 .i32) (et : Vec Ideal S600000 .i32) (x : Vec Ideal S50000x128 .f32)
    (comp : Vec Ideal S48x8 .f32) (e : Fin 600000) (k : Fin 128) :
    val_main_v75 (F := Ideal) ei et x comp (ix2 e k) = x (ix2 (srcRow ei e) k) * coef ei et comp (ix2 e 3) := by
  rw [val_main_v75_apply, gathered_apply, coefcol3]
  rfl

/-- The index words of the scatter of basis `3`: the destination words. -/
theorem dst3 (ei : Vec Ideal S2x600000 .i32) (e : Fin 600000) :
    val_main_v77 (F := Ideal) ei (ix2 e 0) = ei (ix2 1 e) := by
  have hi : idx_main_v77 (ix2 e (0 : Fin 1)) = ix1 e :=
    funext fun a => Fin.ext (by match a with | ⟨0, _⟩ => rfl)
  rw [val_main_v77_apply, hi, dstw_apply]

/-- The table the scatter of basis `3` accumulates into is zero. -/
theorem zero3 (i : S50000x128.Idx) : val_main_v76 (F := Ideal) i = 0 := by
  rw [val_main_v76_apply, val_main_cst_12_apply]
  exact Ideal.ofBits_zero_f32

/-- The scattered sum of basis `3` at `(n, k)`. -/
theorem agg3_apply (ei : Vec Ideal S2x600000 .i32) (et : Vec Ideal S600000 .i32) (x : Vec Ideal S50000x128 .f32)
    (comp : Vec Ideal S48x8 .f32) (n : Fin 50000) (k : Fin 128) :
    val_main_v78 (F := Ideal) ei et x comp (ix2 n k) = agg ei et x comp 3 n k := by
  unfold val_main_v78 agg
  rw [scatter_read _ _ _ n k (zero3 _)]
  refine Finset.sum_congr rfl fun e _ => ?_
  rw [dst3, upd3]

/-- Basis matrix `3`, sliced off and flattened: at `(k, j)` it is the basis array at `(3, k, j)`. -/
theorem mat3 (basis : Vec Ideal S8x128x128 .f32) (k j : Fin 128) :
    val_main_v80 (F := Ideal) basis (ix2 k j) = basis (ix3 3 k j) := by
  rw [val_main_v80_apply, val_main_v79_apply]
  refine congrArg basis (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- BASIS 3'S TERM at `(n, j)`. -/
theorem term3 (ei : Vec Ideal S2x600000 .i32) (et : Vec Ideal S600000 .i32) (x : Vec Ideal S50000x128 .f32)
    (basis : Vec Ideal S8x128x128 .f32) (comp : Vec Ideal S48x8 .f32) (n : Fin 50000) (j : Fin 128) :
    val_main_v81 (F := Ideal) ei et x basis comp (ix2 n j) = basisTerm ei et x basis comp 3 n j := by
  rw [val_main_v81_apply]
  unfold basisTerm
  refine Finset.sum_congr rfl fun k _ => ?_
  have hl : lidx_main_v81 (ix2 n j) k = ix2 n k :=
    funext fun a => Fin.ext (by match a with | ⟨0, _⟩ => rfl | ⟨1, _⟩ => rfl)
  have hr : ridx_main_v81 (ix2 n j) k = ix2 k j :=
    funext fun a => Fin.ext (by match a with | ⟨0, _⟩ => rfl | ⟨1, _⟩ => rfl)
  rw [hl, hr, agg3_apply, mat3]

end Cert.ReferenceIdeal.Hand

end
-- ==== Proof.RefBasisB.lean ====
/-
  The basis terms 4 … 7 of the reference read at one element.

  For each basis `b` the host program slices column `b` off the per-edge coefficients, spreads it along the channels,
  multiplies the gathered rows by it, scatters the products into a zero table by the destination words, and multiplies
  the result by the basis matrix `b`. At `(n, j)` that is `∑ k, agg b (n, k) * basis (b, k, j)`.
-/
import proofs.«141899_j10780367913070_1_alg».proof.Proof.RefEdge

noncomputable section

open scoped BigOperators

namespace Cert.ReferenceIdeal.Hand

open Cert.ReferenceIdeal Cert.ReferenceIdeal.Gen Cert.ReferenceIdeal.Read Idealize.ShloMosaic Idealize.ShloMosaic.ValueIdx

/-! ## Basis 4 -/

/-- Column `4` of the coefficients, spread along the channels: at `(e, k)` it is `coef (e, 4)`. -/
theorem coefcol4 (ei : Vec Ideal S2x600000 .i32) (et : Vec Ideal S600000 .i32) (comp : Vec Ideal S48x8 .f32)
    (e : Fin 600000) (k : Fin 128) :
    val_main_v84 (F := Ideal) ei et comp (ix2 e k) = coef ei et comp (ix2 e 4) := by
  rw [val_main_v84_apply, val_main_v83_apply]
  refine congrArg (val_main_v31 (F := Ideal) ei et comp) (funext fun a => Fin.ext ?_)
  match a with
  | ⟨0, _⟩ => rfl
  | ⟨1, _⟩ => rfl

/-- The update rows of basis `4`: the gathered row times the edge's coefficient. -/
theorem upd4 (ei : Vec Ideal S2x600000 .i32) (et : Vec Ideal S600000 .i32) (x : Vec Ideal S50000x128 .f32)
    (comp : Vec Ideal S48x8 .f32) (e : Fin 600000) (k : Fin 128) :
    val_main_v85 (F := Ideal) ei et x comp (ix2 e k) = x (ix2 (srcRow ei e) k) * coef ei et comp (ix2 e 4) := by
  rw [val_main_v85_apply, gathered_apply, coefcol4]
  rfl

/-- The index words of the scatter of basis `4`: the destination words. -/
theorem dst4 (ei : Vec Ideal S2x600000 .i32) (e : Fin 600000) :
    val_main_v87 (F := Ideal) ei (ix2 e 0) = ei (ix2 1 e) := by
  have hi : idx_main_v87 (ix2 e (0 : Fin 1)) = ix1 e :=
    funext fun a => Fin.ext (by match a with | ⟨0, _⟩ => rfl)
  rw [val_main_v87_apply, hi, dstw_apply]

/-- The table the scatter of basis `4` accumulates into is zero. -/
theorem zero4 (i : S50000x128.Idx) : val_main_v86 (F := Ideal) i = 0 := by
  rw [val_main_v86_apply, val_main_cst_13_apply]
  exact Ideal.ofBits_zero_f32

/-- The scattered sum of basis `4` at `(n, k)`. -/
theorem agg4_apply (ei : Vec Ideal S2x600000 .i32) (et : Vec Ideal S600000 .i32) (x : Vec Ideal S50000x128 .f32)
    (comp : Vec Ideal S48x8 .f32) (n : Fin 50000) (k : Fin 128) :
    val_main_v88 (F := Ideal) ei et x comp (ix2 n k) = agg ei et x comp 4 n k := by
  unfold val_main_v88 agg
  rw [scatter_read _ _ _ n k (zero4 _)]
  refine Finset.sum_congr rfl fun e _ => ?_
  rw [dst4, upd4]

/-- Basis matrix `4`, sliced off and flattened: at `(k, j)` it is the basis array at `(4, k, j)`. -/
theorem mat4 (basis : Vec Ideal S8x128x128 .f32) (k j : Fin 128) :
    val_main_v90 (F := Ideal) basis (ix2 k j) = basis (ix3 4 k j) := by
  rw [val_main_v90_apply, val_main_v89_apply]
  refine congrArg basis (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- BASIS 4'S TERM at `(n, j)`. -/
theorem term4 (ei : Vec Ideal S2x600000 .i32) (et : Vec Ideal S600000 .i32) (x : Vec Ideal S50000x128 .f32)
    (basis : Vec Ideal S8x128x128 .f32) (comp : Vec Ideal S48x8 .f32) (n : Fin 50000) (j : Fin 128) :
    val_main_v91 (F := Ideal) ei et x basis comp (ix2 n j) = basisTerm ei et x basis comp 4 n j := by
  rw [val_main_v91_apply]
  unfold basisTerm
  refine Finset.sum_congr rfl fun k _ => ?_
  have hl : lidx_main_v91 (ix2 n j) k = ix2 n k :=
    funext fun a => Fin.ext (by match a with | ⟨0, _⟩ => rfl | ⟨1, _⟩ => rfl)
  have hr : ridx_main_v91 (ix2 n j) k = ix2 k j :=
    funext fun a => Fin.ext (by match a with | ⟨0, _⟩ => rfl | ⟨1, _⟩ => rfl)
  rw [hl, hr, agg4_apply, mat4]

/-! ## Basis 5 -/

/-- Column `5` of the coefficients, spread along the channels: at `(e, k)` it is `coef (e, 5)`. -/
theorem coefcol5 (ei : Vec Ideal S2x600000 .i32) (et : Vec Ideal S600000 .i32) (comp : Vec Ideal S48x8 .f32)
    (e : Fin 600000) (k : Fin 128) :
    val_main_v94 (F := Ideal) ei et comp (ix2 e k) = coef ei et comp (ix2 e 5) := by
  rw [val_main_v94_apply, val_main_v93_apply]
  refine congrArg (val_main_v31 (F := Ideal) ei et comp) (funext fun a => Fin.ext ?_)
  match a with
  | ⟨0, _⟩ => rfl
  | ⟨1, _⟩ => rfl

/-- The update rows of basis `5`: the gathered row times the edge's coefficient. -/
theorem upd5 (ei : Vec Ideal S2x600000 .i32) (et : Vec Ideal S600000 .i32) (x : Vec Ideal S50000x128 .f32)
    (comp : Vec Ideal S48x8 .f32) (e : Fin 600000) (k : Fin 128) :
    val_main_v95 (F := Ideal) ei et x comp (ix2 e k) = x (ix2 (srcRow ei e) k) * coef ei et comp (ix2 e 5) := by
  rw [val_main_v95_apply, gathered_apply, coefcol5]
  rfl

/-- The index words of the scatter of basis `5`: the destination words. -/
theorem dst5 (ei : Vec Ideal S2x600000 .i32) (e : Fin 600000) :
    val_main_v97 (F := Ideal) ei (ix2 e 0) = ei (ix2 1 e) := by
  have hi : idx_main_v97 (ix2 e (0 : Fin 1)) = ix1 e :=
    funext fun a => Fin.ext (by match a with | ⟨0, _⟩ => rfl)
  rw [val_main_v97_apply, hi, dstw_apply]

/-- The table the scatter of basis `5` accumulates into is zero. -/
theorem zero5 (i : S50000x128.Idx) : val_main_v96 (F := Ideal) i = 0 := by
  rw [val_main_v96_apply, val_main_cst_14_apply]
  exact Ideal.ofBits_zero_f32

/-- The scattered sum of basis `5` at `(n, k)`. -/
theorem agg5_apply (ei : Vec Ideal S2x600000 .i32) (et : Vec Ideal S600000 .i32) (x : Vec Ideal S50000x128 .f32)
    (comp : Vec Ideal S48x8 .f32) (n : Fin 50000) (k : Fin 128) :
    val_main_v98 (F := Ideal) ei et x comp (ix2 n k) = agg ei et x comp 5 n k := by
  unfold val_main_v98 agg
  rw [scatter_read _ _ _ n k (zero5 _)]
  refine Finset.sum_congr rfl fun e _ => ?_
  rw [dst5, upd5]

/-- Basis matrix `5`, sliced off and flattened: at `(k, j)` it is the basis array at `(5, k, j)`. -/
theorem mat5 (basis : Vec Ideal S8x128x128 .f32) (k j : Fin 128) :
    val_main_v100 (F := Ideal) basis (ix2 k j) = basis (ix3 5 k j) := by
  rw [val_main_v100_apply, val_main_v99_apply]
  refine congrArg basis (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- BASIS 5'S TERM at `(n, j)`. -/
theorem term5 (ei : Vec Ideal S2x600000 .i32) (et : Vec Ideal S600000 .i32) (x : Vec Ideal S50000x128 .f32)
    (basis : Vec Ideal S8x128x128 .f32) (comp : Vec Ideal S48x8 .f32) (n : Fin 50000) (j : Fin 128) :
    val_main_v101 (F := Ideal) ei et x basis comp (ix2 n j) = basisTerm ei et x basis comp 5 n j := by
  rw [val_main_v101_apply]
  unfold basisTerm
  refine Finset.sum_congr rfl fun k _ => ?_
  have hl : lidx_main_v101 (ix2 n j) k = ix2 n k :=
    funext fun a => Fin.ext (by match a with | ⟨0, _⟩ => rfl | ⟨1, _⟩ => rfl)
  have hr : ridx_main_v101 (ix2 n j) k = ix2 k j :=
    funext fun a => Fin.ext (by match a with | ⟨0, _⟩ => rfl | ⟨1, _⟩ => rfl)
  rw [hl, hr, agg5_apply, mat5]

/-! ## Basis 6 -/

/-- Column `6` of the coefficients, spread along the channels: at `(e, k)` it is `coef (e, 6)`. -/
theorem coefcol6 (ei : Vec Ideal S2x600000 .i32) (et : Vec Ideal S600000 .i32) (comp : Vec Ideal S48x8 .f32)
    (e : Fin 600000) (k : Fin 128) :
    val_main_v104 (F := Ideal) ei et comp (ix2 e k) = coef ei et comp (ix2 e 6) := by
  rw [val_main_v104_apply, val_main_v103_apply]
  refine congrArg (val_main_v31 (F := Ideal) ei et comp) (funext fun a => Fin.ext ?_)
  match a with
  | ⟨0, _⟩ => rfl
  | ⟨1, _⟩ => rfl

/-- The update rows of basis `6`: the gathered row times the edge's coefficient. -/
theorem upd6 (ei : Vec Ideal S2x600000 .i32) (et : Vec Ideal S600000 .i32) (x : Vec Ideal S50000x128 .f32)
    (comp : Vec Ideal S48x8 .f32) (e : Fin 600000) (k : Fin 128) :
    val_main_v105 (F := Ideal) ei et x comp (ix2 e k) = x (ix2 (srcRow ei e) k) * coef ei et comp (ix2 e 6) := by
  rw [val_main_v105_apply, gathered_apply, coefcol6]
  rfl

/-- The index words of the scatter of basis `6`: the destination words. -/
theorem dst6 (ei : Vec Ideal S2x600000 .i32) (e : Fin 600000) :
    val_main_v107 (F := Ideal) ei (ix2 e 0) = ei (ix2 1 e) := by
  have hi : idx_main_v107 (ix2 e (0 : Fin 1)) = ix1 e :=
    funext fun a => Fin.ext (by match a with | ⟨0, _⟩ => rfl)
  rw [val_main_v107_apply, hi, dstw_apply]

/-- The table the scatter of basis `6` accumulates into is zero. -/
theorem zero6 (i : S50000x128.Idx) : val_main_v106 (F := Ideal) i = 0 := by
  rw [val_main_v106_apply, val_main_cst_15_apply]
  exact Ideal.ofBits_zero_f32

/-- The scattered sum of basis `6` at `(n, k)`. -/
theorem agg6_apply (ei : Vec Ideal S2x600000 .i32) (et : Vec Ideal S600000 .i32) (x : Vec Ideal S50000x128 .f32)
    (comp : Vec Ideal S48x8 .f32) (n : Fin 50000) (k : Fin 128) :
    val_main_v108 (F := Ideal) ei et x comp (ix2 n k) = agg ei et x comp 6 n k := by
  unfold val_main_v108 agg
  rw [scatter_read _ _ _ n k (zero6 _)]
  refine Finset.sum_congr rfl fun e _ => ?_
  rw [dst6, upd6]

/-- Basis matrix `6`, sliced off and flattened: at `(k, j)` it is the basis array at `(6, k, j)`. -/
theorem mat6 (basis : Vec Ideal S8x128x128 .f32) (k j : Fin 128) :
    val_main_v110 (F := Ideal) basis (ix2 k j) = basis (ix3 6 k j) := by
  rw [val_main_v110_apply, val_main_v109_apply]
  refine congrArg basis (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- BASIS 6'S TERM at `(n, j)`. -/
theorem term6 (ei : Vec Ideal S2x600000 .i32) (et : Vec Ideal S600000 .i32) (x : Vec Ideal S50000x128 .f32)
    (basis : Vec Ideal S8x128x128 .f32) (comp : Vec Ideal S48x8 .f32) (n : Fin 50000) (j : Fin 128) :
    val_main_v111 (F := Ideal) ei et x basis comp (ix2 n j) = basisTerm ei et x basis comp 6 n j := by
  rw [val_main_v111_apply]
  unfold basisTerm
  refine Finset.sum_congr rfl fun k _ => ?_
  have hl : lidx_main_v111 (ix2 n j) k = ix2 n k :=
    funext fun a => Fin.ext (by match a with | ⟨0, _⟩ => rfl | ⟨1, _⟩ => rfl)
  have hr : ridx_main_v111 (ix2 n j) k = ix2 k j :=
    funext fun a => Fin.ext (by match a with | ⟨0, _⟩ => rfl | ⟨1, _⟩ => rfl)
  rw [hl, hr, agg6_apply, mat6]

/-! ## Basis 7 -/

/-- Column `7` of the coefficients, spread along the channels: at `(e, k)` it is `coef (e, 7)`. -/
theorem coefcol7 (ei : Vec Ideal S2x600000 .i32) (et : Vec Ideal S600000 .i32) (comp : Vec Ideal S48x8 .f32)
    (e : Fin 600000) (k : Fin 128) :
    val_main_v114 (F := Ideal) ei et comp (ix2 e k) = coef ei et comp (ix2 e 7) := by
  rw [val_main_v114_apply, val_main_v113_apply]
  refine congrArg (val_main_v31 (F := Ideal) ei et comp) (funext fun a => Fin.ext ?_)
  match a with
  | ⟨0, _⟩ => rfl
  | ⟨1, _⟩ => rfl

/-- The update rows of basis `7`: the gathered row times the edge's coefficient. -/
theorem upd7 (ei : Vec Ideal S2x600000 .i32) (et : Vec Ideal S600000 .i32) (x : Vec Ideal S50000x128 .f32)
    (comp : Vec Ideal S48x8 .f32) (e : Fin 600000) (k : Fin 128) :
    val_main_v115 (F := Ideal) ei et x comp (ix2 e k) = x (ix2 (srcRow ei e) k) * coef ei et comp (ix2 e 7) := by
  rw [val_main_v115_apply, gathered_apply, coefcol7]
  rfl

/-- The index words of the scatter of basis `7`: the destination words. -/
theorem dst7 (ei : Vec Ideal S2x600000 .i32) (e : Fin 600000) :
    val_main_v117 (F := Ideal) ei (ix2 e 0) = ei (ix2 1 e) := by
  have hi : idx_main_v117 (ix2 e (0 : Fin 1)) = ix1 e :=
    funext fun a => Fin.ext (by match a with | ⟨0, _⟩ => rfl)
  rw [val_main_v117_apply, hi, dstw_apply]

/-- The table the scatter of basis `7` accumulates into is zero. -/
theorem zero7 (i : S50000x128.Idx) : val_main_v116 (F := Ideal) i = 0 := by
  rw [val_main_v116_apply, val_main_cst_16_apply]
  exact Ideal.ofBits_zero_f32

/-- The scattered sum of basis `7` at `(n, k)`. -/
theorem agg7_apply (ei : Vec Ideal S2x600000 .i32) (et : Vec Ideal S600000 .i32) (x : Vec Ideal S50000x128 .f32)
    (comp : Vec Ideal S48x8 .f32) (n : Fin 50000) (k : Fin 128) :
    val_main_v118 (F := Ideal) ei et x comp (ix2 n k) = agg ei et x comp 7 n k := by
  unfold val_main_v118 agg
  rw [scatter_read _ _ _ n k (zero7 _)]
  refine Finset.sum_congr rfl fun e _ => ?_
  rw [dst7, upd7]

/-- Basis matrix `7`, sliced off and flattened: at `(k, j)` it is the basis array at `(7, k, j)`. -/
theorem mat7 (basis : Vec Ideal S8x128x128 .f32) (k j : Fin 128) :
    val_main_v120 (F := Ideal) basis (ix2 k j) = basis (ix3 7 k j) := by
  rw [val_main_v120_apply, val_main_v119_apply]
  refine congrArg basis (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- BASIS 7'S TERM at `(n, j)`. -/
theorem term7 (ei : Vec Ideal S2x600000 .i32) (et : Vec Ideal S600000 .i32) (x : Vec Ideal S50000x128 .f32)
    (basis : Vec Ideal S8x128x128 .f32) (comp : Vec Ideal S48x8 .f32) (n : Fin 50000) (j : Fin 128) :
    val_main_v121 (F := Ideal) ei et x basis comp (ix2 n j) = basisTerm ei et x basis comp 7 n j := by
  rw [val_main_v121_apply]
  unfold basisTerm
  refine Finset.sum_congr rfl fun k _ => ?_
  have hl : lidx_main_v121 (ix2 n j) k = ix2 n k :=
    funext fun a => Fin.ext (by match a with | ⟨0, _⟩ => rfl | ⟨1, _⟩ => rfl)
  have hr : ridx_main_v121 (ix2 n j) k = ix2 k j :=
    funext fun a => Fin.ext (by match a with | ⟨0, _⟩ => rfl | ⟨1, _⟩ => rfl)
  rw [hl, hr, agg7_apply, mat7]

end Cert.ReferenceIdeal.Hand

end
-- ==== Proof.RefRead.lean ====
/-
  The reference's result read at one element.

  The node rows are the self term plus the eight basis terms, added one after the other; the result array is the node
  rows followed by the 64 rows of the last argument: at `(p, q)` with `p < 50000` it is `node p q`, and from row 50000
  on it is the last argument at `(p - 50000, q)`. Nothing is assumed of the arrays.
-/
import proofs.«141899_j10780367913070_1_alg».proof.Proof.RefBasisA
import proofs.«141899_j10780367913070_1_alg».proof.Proof.RefBasisB
import Idealize.ShloMosaic.Lib.Pipeline.Value

noncomputable section

open scoped BigOperators

namespace Cert.ReferenceIdeal.Hand

open Cert.ReferenceIdeal Cert.ReferenceIdeal.Gen Cert.ReferenceIdeal.Read Idealize.ShloMosaic Idealize.ShloMosaic.ValueIdx

section
variable (ei : Vec Ideal S2x600000 .i32) (et : Vec Ideal S600000 .i32) (x : Vec Ideal S50000x128 .f32)
  (basis : Vec Ideal S8x128x128 .f32) (comp : Vec Ideal S48x8 .f32) (root : Vec Ideal S128x128 .f32)
  (bias : Vec Ideal S128 .f32) (sp : Vec Ideal S64x128 .f32)

/-- THE NODE ROWS at `(n, j)`. -/
theorem node_apply (n : Fin 50000) (j : Fin 128) :
    val_main_v122 (F := Ideal) ei et x basis comp root bias (ix2 n j) = node ei et x basis comp root bias n j := by
  rw [val_main_v122_apply, val_main_v112_apply, val_main_v102_apply, val_main_v92_apply, val_main_v82_apply,
    val_main_v72_apply, val_main_v62_apply, val_main_v52_apply, self_apply, term0, term1, term2, term3, term4, term5,
    term6, term7]
  rfl

/-- THE RESULT, its first 50000 rows: the node rows. -/
theorem out_lo (p : Fin 50064) (q : Fin 128) (h : p.val < 50000) :
    out ei et x basis comp root bias sp (ix2 p q) = node ei et x basis comp root bias ⟨p.val, h⟩ q := by
  show concatenate S50064x128 0 [⟨S50000x128, val_main_v122 (F := Ideal) ei et x basis comp root bias⟩, ⟨S64x128, sp⟩]
    concatenates_S50000x128_S64x128_S50064x128_d0 (ix2 p q) = _
  rw [concatenate_pair_apply_left (t := S50064x128) (s₁ := S50000x128) (s₂ := S64x128) (0 : Fin S50064x128.rank)
    (val_main_v122 (F := Ideal) ei et x basis comp root bias) sp concatenates_S50000x128_S64x128_S50064x128_d0 (ix2 p q) rfl
    (ix2 (⟨p.val, h⟩ : Fin 50000) q) (fun b => by match b with | ⟨0, _⟩ => rfl | ⟨1, _⟩ => rfl)]
  exact node_apply ei et x basis comp root bias ⟨p.val, h⟩ q

/-- THE RESULT, its last 64 rows: the last argument. -/
theorem out_hi (p : Fin 50064) (q : Fin 128) (h : 50000 ≤ p.val) :
    out ei et x basis comp root bias sp (ix2 p q) = sp (ix2 (⟨p.val - 50000, by have := p.isLt; omega⟩ : Fin 64) q) := by
  show concatenate S50064x128 0 [⟨S50000x128, val_main_v122 (F := Ideal) ei et x basis comp root bias⟩, ⟨S64x128, sp⟩]
    concatenates_S50000x128_S64x128_S50064x128_d0 (ix2 p q) = _
  exact concatenate_pair_apply_right (t := S50064x128) (s₁ := S50000x128) (s₂ := S64x128) (0 : Fin S50064x128.rank)
    (val_main_v122 (F := Ideal) ei et x basis comp root bias) sp concatenates_S50000x128_S64x128_S50064x128_d0 (ix2 p q) rfl rfl
    (ix2 (⟨p.val - 50000, by have := p.isLt; omega⟩ : Fin 64) q)
    (fun b hb => by
      match b with
      | ⟨0, _⟩ => exact absurd (Fin.ext rfl) hb
      | ⟨1, _⟩ => rfl)
    (by show p.val - 50000 + 50000 = p.val; omega)

end

end Cert.ReferenceIdeal.Hand

end
-- ==== Proof.KV.Algebraic.lean ====
import proofs.«141899_j10780367913070_1_alg».proof.Proof.KV.Tail
import proofs.«141899_j10780367913070_1_alg».proof.Proof.RefRun
import proofs.«141899_j10780367913070_1_alg».proof.Proof.RefRead
import proofs.«141899_j10780367913070_1_alg».proof.Defs

set_option maxRecDepth 16384

noncomputable section

namespace Cert.KernelIdeal.HandV

open Idealize.ShloMosaic Idealize.ShloMosaic.TcCoe Idealize.SL.Sem
open Cert.KernelIdeal Cert.KernelIdeal.Gen Cert.KernelIdeal.Hand

/-! # The two idealized programs end with equal results: the assembly

Read at the extended reals, the kernel program runs to the end with its result buffer at the last boundary's contents
and its arguments unchanged; the reference runs to the end with its result the function `out` of its arguments, which
are the kernel's. So the two results are equal as soon as the kernel's last boundary holds, in the result buffer,
`out` of the launch arguments — the value equation this module takes as a hypothesis. -/

/-- The kernel program's run with the result named: every weakly fair execution from `m` terminates, the result buffer
    holds the last boundary's contents, and the eight arguments are as launched. -/
theorem kernel_run (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v40) = W10 m c (Proc.devRef .tc main_v40)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run defs _ _).mono (fun _ h c => ⟨h c _ (mem_uc main_v40 (by decide)),
    (h c _ (mem_uc main_arg0 (by decide))).trans (W10_main_arg0 m c),
    (h c _ (mem_uc main_arg1 (by decide))).trans (W10_main_arg1 m c),
    (h c _ (mem_uc main_arg2 (by decide))).trans (W10_main_arg2 m c),
    (h c _ (mem_uc main_arg3 (by decide))).trans (W10_main_arg3 m c),
    (h c _ (mem_uc main_arg4 (by decide))).trans (W10_main_arg4 m c),
    (h c _ (mem_uc main_arg5 (by decide))).trans (W10_main_arg5 m c),
    (h c _ (mem_uc main_arg6 (by decide))).trans (W10_main_arg6 m c),
    (h c _ (mem_uc main_arg7 (by decide))).trans (W10_main_arg7 m c)⟩) (run_all m ρ)

/-- THE FIFTH CONJUNCT, given the value equation: from memories that agree on the arguments both programs run to the
    end, with unchanged arguments and with one result — the kernel's last boundary at the result buffer, which the
    hypothesis says is the reference's function of the arguments. -/
theorem algebraic_of
    (hres : ∀ (m : (ℓ : Loc Cert.KernelIdeal.nD Cert.KernelIdeal.τ Cert.KernelIdeal.sig) → Buf (Elt Ideal) ℓ) (hpre : Cert.Pre_KernelIdeal m)
        (c : Dev Cert.KernelIdeal.nD),
      (W10 m c (Proc.devRef .tc main_v40) : Cert.KernelIdeal.S50064x128.Idx → EReal)
        = Cert.ReferenceIdeal.Hand.out (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))) :
    Cert.algebraic_KernelIdeal_ReferenceIdeal := by
  intro m ρ m' ρ' hpre hagree
  refine ⟨fun c => W10 m c (Proc.devRef .tc main_v40), kernel_run m ρ, ?_⟩
  refine (θ_run Cert.ReferenceIdeal.defs _ _).mono (fun _ h c => ⟨(h c).1.trans ?_, (h c).2⟩)
    (Cert.ReferenceIdeal.Hand.ref_run m' ρ')
  obtain ⟨h0, h1, h2, h3, h4, h5, h6, h7⟩ := hagree c
  rw [h0, h1, h2, h3, h4, h5, h6, h7]
  exact (hres m hpre c).symm

end Cert.KernelIdeal.HandV

end
-- ==== Proof.KV.Shapes.lean ====
/-
  The two kernels' results, entry by entry, as functions of the arrays they read.

  The gather kernel leaves, at padded edge position e and channel j, the edge's message: the source node's feature row
  (the row the edge's source word names) contracted with each of the eight basis matrices, the eight products combined
  with the edge's eight coefficients.  The scatter kernel leaves, at node n and channel j, the node's own term (its
  feature row times the root matrix, plus the bias) plus the messages of all padded edge positions whose target word is
  the node's number, summed block by block.
-/
import proofs.«141899_j10780367913070_1_alg».proof.KernelIdeal
import Idealize.ShloMosaic.Lib.ValueIdx
import Idealize.ShloMosaic.PureOps.Ideal

noncomputable section

open scoped BigOperators
open Idealize.ShloMosaic Idealize.ShloMosaic.ValueIdx

namespace Cert.KernelIdeal.HandV

open Cert.KernelIdeal

/-- The row of the node table a source word names (clamped into the table, so that the function is total). -/
def rowOf (σ : BitVec 32) : Fin 50000 := ⟨min σ.toNat 49999, by omega⟩

theorem rowOf_val (σ : BitVec 32) (h0 : 0 ≤ σ.toInt) (h1 : σ.toInt < 50000) : ((rowOf σ).val : ℤ) = σ.toInt := by
  have hσ := σ.isLt
  unfold rowOf
  rw [BitVec.toInt] at h0 h1 ⊢
  split at h0 <;> split at h1 <;> simp only [] <;> omega

/-- The message of padded edge position `e` for channel `j`, in the kernel's own grouping of the eight terms. -/
def zmsgAt (SRC : S1x600576.Idx → BitVec 32) (Wp : S600576x8.Idx → EReal) (X : S50000x128.Idx → EReal)
    (Bs : S8x128x128.Idx → EReal) (e : Fin 600576) (j : Fin 128) : EReal :=
  ((((((((0 + Wp (ix2 e 0) * ∑ k : Fin 128, X (ix2 (rowOf (SRC (ix2 (0 : Fin 1) e))) k) * Bs (ix3 (0 : Fin 8) k j))
    + Wp (ix2 e 1) * ∑ k : Fin 128, X (ix2 (rowOf (SRC (ix2 (0 : Fin 1) e))) k) * Bs (ix3 (1 : Fin 8) k j))
    + Wp (ix2 e 2) * ∑ k : Fin 128, X (ix2 (rowOf (SRC (ix2 (0 : Fin 1) e))) k) * Bs (ix3 (2 : Fin 8) k j))
    + Wp (ix2 e 3) * ∑ k : Fin 128, X (ix2 (rowOf (SRC (ix2 (0 : Fin 1) e))) k) * Bs (ix3 (3 : Fin 8) k j))
    + Wp (ix2 e 4) * ∑ k : Fin 128, X (ix2 (rowOf (SRC (ix2 (0 : Fin 1) e))) k) * Bs (ix3 (4 : Fin 8) k j))
    + Wp (ix2 e 5) * ∑ k : Fin 128, X (ix2 (rowOf (SRC (ix2 (0 : Fin 1) e))) k) * Bs (ix3 (5 : Fin 8) k j))
    + Wp (ix2 e 6) * ∑ k : Fin 128, X (ix2 (rowOf (SRC (ix2 (0 : Fin 1) e))) k) * Bs (ix3 (6 : Fin 8) k j))
    + Wp (ix2 e 7) * ∑ k : Fin 128, X (ix2 (rowOf (SRC (ix2 (0 : Fin 1) e))) k) * Bs (ix3 (7 : Fin 8) k j))

/-- Padded edge position `k` of block `s`. -/
def posOf (s : Fin 391) (k : Fin 1536) : Fin 600576 := ⟨s.val * 1536 + k.val, by omega⟩

/-- The scatter kernel's entry at node `n`, channel `j`. -/
def nodeOutAt (DST : S1x600576.Idx → BitVec 32) (Z : S600576x128.Idx → EReal) (X : S50000x128.Idx → EReal)
    (Root : S128x128.Idx → EReal) (Bias : S1x128.Idx → EReal) (n : Fin 50000) (j : Fin 128) : EReal :=
  ((∑ k : Fin 128, X (ix2 n k) * Root (ix2 k j)) + Bias (ix2 (0 : Fin 1) j))
    + ∑ s : Fin 391, ∑ k : Fin 1536,
        (if BitVec.ofNat 32 (n.val / 1000) * 1000#32 + BitVec.ofNat 32 (n.val % 1000) = DST (ix2 (0 : Fin 1) (posOf s k))
          then (1 : EReal) else 0) * Z (ix2 (posOf s k) j)

end Cert.KernelIdeal.HandV
-- ==== Proof.LibERealSeg.lean ====
/-
  Finite sums of real-valued data on the extended reals.

  The extended reals `[-∞, +∞]` are a commutative monoid under `+` and under `*`, but multiplication distributes over
  addition only away from the infinities. For data that are (inclusions of) real numbers every law of the real field
  is available: the inclusion `ℝ → EReal` commutes with `+`, `*`, `max` and finite sums, so an identity between two
  arrangements of sums of products is proved in `ℝ` and carried over. Here:

  * the inclusion commutes with finite sums (`coe_sum`), and the closure of "is a real number" under `+`, `*`, `max`
    and finite sums (`real_add`, `real_mul`, `real_max`, `real_sum`);
  * the segment-sum law `seg_linear`: summing over a set `S` of edges the affine images `(∑ k, h e k * W k) + b` of the
    rows `h e` is the affine image of the summed rows, with the constant counted once per edge:
    `∑ e ∈ S, ((∑ k, h e k * W k) + b) = (∑ k, (∑ e ∈ S, h e k) * W k) + (∑ e ∈ S, 1) * b`;
  * a sum over `Fin 259` cut into `128 + 128 + 3` terms and a sum over `Fin 512` cut into four blocks of `128`
    (any commutative additive monoid), and the regrouping of the five-term sum those cuts meet.
-/
import Idealize.ShloMosaic.PureOps.Ideal
import Mathlib.Algebra.BigOperators.Fin
import Mathlib.Tactic.Ring
import Mathlib.Tactic.Abel

noncomputable section

open scoped BigOperators

namespace Idealize.ShloMosaic.ERealSeg

/-! ## The inclusion of the reals and the operations -/

/-- The inclusion of the reals in the extended reals commutes with a finite sum. -/
theorem coe_sum {ι : Type*} (S : Finset ι) (f : ι → ℝ) :
    ((∑ i ∈ S, f i : ℝ) : EReal) = ∑ i ∈ S, (f i : EReal) := by
  classical
  refine Finset.induction_on S ?_ ?_
  · simp
  · intro a s ha ih
    rw [Finset.sum_insert ha, Finset.sum_insert ha, EReal.coe_add, ih]

/-- The inclusion of the reals commutes with the maximum of two numbers (it is monotone). -/
theorem coe_max (a b : ℝ) : ((max a b : ℝ) : EReal) = max (a : EReal) (b : EReal) :=
  EReal.coe_strictMono.monotone.map_max

/-- The positive part of a real number, taken in the extended reals, is the real positive part. -/
theorem max_coe_zero (a : ℝ) : max (a : EReal) (0 : EReal) = ((max a 0 : ℝ) : EReal) := by
  rw [coe_max, EReal.coe_zero]

/-- The sum of two real numbers, taken in the extended reals, is the real sum. -/
theorem coe_add_coe (a b : ℝ) : (a : EReal) + (b : EReal) = ((a + b : ℝ) : EReal) := (EReal.coe_add a b).symm

/-- The product of two real numbers, taken in the extended reals, is the real product. -/
theorem coe_mul_coe (a b : ℝ) : (a : EReal) * (b : EReal) = ((a * b : ℝ) : EReal) := (EReal.coe_mul a b).symm

/-- A finite sum of real numbers, taken in the extended reals, is the real sum. -/
theorem sum_coe {ι : Type*} (S : Finset ι) (f : ι → ℝ) :
    ∑ i ∈ S, (f i : EReal) = ((∑ i ∈ S, f i : ℝ) : EReal) := (coe_sum S f).symm

/-! ## "Is a real number" is closed under the operations -/

/-- An extended real is a real number exactly when it is neither infinity. -/
theorem real_iff (x : EReal) : (∃ r : ℝ, x = (r : EReal)) ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- Zero is a real number. -/
theorem real_zero : ∃ r : ℝ, (0 : EReal) = (r : EReal) := ⟨0, EReal.coe_zero.symm⟩

/-- One is a real number. -/
theorem real_one : ∃ r : ℝ, (1 : EReal) = (r : EReal) := ⟨1, EReal.coe_one.symm⟩

/-- The sum of two real numbers is a real number. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, coe_add_coe a b⟩

/-- The product of two real numbers is a real number. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, coe_mul_coe a b⟩

/-- The maximum of two real numbers is a real number. -/
theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (coe_max a b).symm⟩

/-- A finite sum of real numbers is a real number. -/
theorem real_sum {ι : Type*} (S : Finset ι) (f : ι → EReal) (hf : ∀ i, ∃ r : ℝ, f i = (r : EReal)) :
    ∃ r : ℝ, ∑ i ∈ S, f i = (r : EReal) := by
  choose g hg using hf
  exact ⟨∑ i ∈ S, g i, by rw [coe_sum]; exact Finset.sum_congr rfl (fun i _ => hg i)⟩

/-! ## The segment-sum law -/

/-- THE SEGMENT-SUM LAW, in the reals: the sum over a set `S` of edges of the affine images `(∑ k, h e k * W k) + b` of
    the rows `h e` is the affine image of the summed rows, the constant counted once per edge. -/
theorem seg_linear_real {ι κ : Type*} [Fintype κ] (S : Finset ι) (h : ι → κ → ℝ) (W : κ → ℝ) (b : ℝ) :
    ∑ e ∈ S, ((∑ k, h e k * W k) + b) = (∑ k, (∑ e ∈ S, h e k) * W k) + (∑ _e ∈ S, (1 : ℝ)) * b := by
  rw [Finset.sum_add_distrib, Finset.sum_comm]
  congr 1
  · exact Finset.sum_congr rfl (fun k _ => (Finset.sum_mul _ _ _).symm)
  · rw [Finset.sum_mul]
    simp

/-- THE SEGMENT-SUM LAW on the extended reals, for real data: with `h e k`, `W k`, `b` real numbers,
    `∑ e ∈ S, ((∑ k, h e k * W k) + b) = (∑ k, (∑ e ∈ S, h e k) * W k) + (∑ e ∈ S, 1) * b`, every operation taken in
    the extended reals. (Distributivity, used twice, needs the data finite.) -/
theorem seg_linear {ι κ : Type*} [Fintype κ] (S : Finset ι) (h : ι → κ → ℝ) (W : κ → ℝ) (b : ℝ) :
    ∑ e ∈ S, ((∑ k, (h e k : EReal) * (W k : EReal)) + (b : EReal))
      = (∑ k, (∑ e ∈ S, (h e k : EReal)) * (W k : EReal)) + (∑ _e ∈ S, (1 : EReal)) * (b : EReal) := by
  have key := congrArg (fun r : ℝ => (r : EReal)) (seg_linear_real S h W b)
  simpa only [coe_sum, EReal.coe_add, EReal.coe_mul, EReal.coe_one] using key

/-- The same law with each sum accumulated onto a zero, as a scatter into a zero table or a product onto a zero
    accumulator presents it. -/
theorem seg_linear_zero {ι κ : Type*} [Fintype κ] (S : Finset ι) (h : ι → κ → ℝ) (W : κ → ℝ) (b : ℝ) :
    (0 : EReal) + ∑ e ∈ S, (((0 : EReal) + ∑ k, (h e k : EReal) * (W k : EReal)) + (b : EReal))
      = ((0 : EReal) + ∑ k, ((0 : EReal) + ∑ e ∈ S, (h e k : EReal)) * (W k : EReal))
        + ((0 : EReal) + ∑ _e ∈ S, (1 : EReal)) * (b : EReal) := by
  simp only [zero_add]
  exact seg_linear S h W b

/-- The segment-sum law for extended-real data each of which is a real number. -/
theorem seg_linear_of_real {ι κ : Type*} [Fintype κ] (S : Finset ι) (h : ι → κ → EReal) (W : κ → EReal) (b : EReal)
    (hh : ∀ e k, ∃ r : ℝ, h e k = (r : EReal)) (hW : ∀ k, ∃ r : ℝ, W k = (r : EReal))
    (hb : ∃ r : ℝ, b = (r : EReal)) :
    ∑ e ∈ S, ((∑ k, h e k * W k) + b) = (∑ k, (∑ e ∈ S, h e k) * W k) + (∑ _e ∈ S, (1 : EReal)) * b := by
  choose h' hh' using hh
  choose W' hW' using hW
  obtain ⟨b', rfl⟩ := hb
  obtain rfl : h = fun e k => (h' e k : EReal) := funext fun e => funext fun k => hh' e k
  obtain rfl : W = fun k => (W' k : EReal) := funext hW'
  exact seg_linear S h' W' b'

/-- … and the same with each sum accumulated onto a zero. -/
theorem seg_linear_zero_of_real {ι κ : Type*} [Fintype κ] (S : Finset ι) (h : ι → κ → EReal) (W : κ → EReal)
    (b : EReal) (hh : ∀ e k, ∃ r : ℝ, h e k = (r : EReal)) (hW : ∀ k, ∃ r : ℝ, W k = (r : EReal))
    (hb : ∃ r : ℝ, b = (r : EReal)) :
    (0 : EReal) + ∑ e ∈ S, (((0 : EReal) + ∑ k, h e k * W k) + b)
      = ((0 : EReal) + ∑ k, ((0 : EReal) + ∑ e ∈ S, h e k) * W k) + ((0 : EReal) + ∑ _e ∈ S, (1 : EReal)) * b := by
  simp only [zero_add]
  exact seg_linear_of_real S h W b hh hW hb

/-! ## Cutting a sum over `Fin 259` and over `Fin 512` into blocks -/

/-- A sum of `259 = 128 + 128 + 3` terms is the sum of its first `128`, its next `128` and its last three. -/
theorem sum_fin_259 {M : Type*} [AddCommMonoid M] (f : Fin 259 → M) :
    ∑ i, f i = (∑ i : Fin 128, f ⟨i.val, by omega⟩) + (∑ i : Fin 128, f ⟨128 + i.val, by omega⟩)
      + (f ⟨256, by omega⟩ + f ⟨257, by omega⟩ + f ⟨258, by omega⟩) := by
  have h1 : ∑ i : Fin 259, f i = ∑ i : Fin 256, f (Fin.castAdd 3 i) + ∑ i : Fin 3, f (Fin.natAdd 256 i) :=
    Fin.sum_univ_add (a := 256) (b := 3) f
  have h2 : ∑ i : Fin 256, f (Fin.castAdd 3 i)
      = ∑ i : Fin 128, f (Fin.castAdd 3 (Fin.castAdd 128 i)) + ∑ i : Fin 128, f (Fin.castAdd 3 (Fin.natAdd 128 i)) :=
    Fin.sum_univ_add (a := 128) (b := 128) (fun i => f (Fin.castAdd 3 i))
  rw [h1, h2, Fin.sum_univ_three]
  rfl

/-- A sum of `512 = 4 × 128` terms is the sum of its four blocks of `128`. -/
theorem sum_fin_512 {M : Type*} [AddCommMonoid M] (f : Fin 512 → M) :
    ∑ i, f i = (∑ i : Fin 128, f ⟨i.val, by omega⟩) + (∑ i : Fin 128, f ⟨128 + i.val, by omega⟩)
      + (∑ i : Fin 128, f ⟨256 + i.val, by omega⟩) + (∑ i : Fin 128, f ⟨384 + i.val, by omega⟩) := by
  have h1 : ∑ i : Fin 512, f i = ∑ i : Fin 384, f (Fin.castAdd 128 i) + ∑ i : Fin 128, f (Fin.natAdd 384 i) :=
    Fin.sum_univ_add (a := 384) (b := 128) f
  have h2 : ∑ i : Fin 384, f (Fin.castAdd 128 i)
      = ∑ i : Fin 256, f (Fin.castAdd 128 (Fin.castAdd 128 i))
        + ∑ i : Fin 128, f (Fin.castAdd 128 (Fin.natAdd 256 i)) :=
    Fin.sum_univ_add (a := 256) (b := 128) (fun i => f (Fin.castAdd 128 i))
  have h3 : ∑ i : Fin 256, f (Fin.castAdd 128 (Fin.castAdd 128 i))
      = ∑ i : Fin 128, f (Fin.castAdd 128 (Fin.castAdd 128 (Fin.castAdd 128 i)))
        + ∑ i : Fin 128, f (Fin.castAdd 128 (Fin.castAdd 128 (Fin.natAdd 128 i))) :=
    Fin.sum_univ_add (a := 128) (b := 128) (fun i => f (Fin.castAdd 128 (Fin.castAdd 128 i)))
  rw [h1, h2, h3]
  rfl

/-- Regrouping a five-term sum: two terms, then a constant to which three terms were added one after the other, is
    the two terms with the three, then the constant. -/
theorem add_regroup {M : Type*} [AddCommMonoid M] (A B c t0 t1 t2 : M) :
    (A + B) + (((c + t0) + t1) + t2) = (A + B + (t0 + t1 + t2)) + c := by
  abel

end Idealize.ShloMosaic.ERealSeg

end
-- ==== Proof.Spec.lean ====
/-
  The algebra that joins the two programs, free of any program: a relational graph layer with basis decomposition.

  For one target node and one output channel, the edges that land on the node form a finite set.  One side adds, edge by
  edge, the edge's message  z e = w e 0 · (x e · B 0) + … + w e 7 · (x e · B 7)  (the gathered source row times each basis
  matrix, weighted by the edge's eight coefficients); the other side first aggregates, per basis, the weighted source rows
  over the edges, and then multiplies the aggregate by the basis matrix.  Over the reals the two are equal by
  distributivity and an exchange of finite sums; on the extended reals the same holds once every entry is a real number.
-/
import proofs.«141899_j10780367913070_1_alg».proof.Proof.LibERealSeg

open scoped BigOperators
open Idealize.ShloMosaic.ERealSeg

namespace Cert.Spec

/-- One basis: aggregating the weighted source rows over the edges and then contracting with the basis column is the sum,
    over the edges, of the weight times the edge's own contraction. -/
theorem one_basis {E D : Type*} [Fintype D] (S : Finset E) (x : E → D → ℝ) (w : E → ℝ) (B : D → ℝ) :
    ∑ k, (∑ e ∈ S, x e k * w e) * B k = ∑ e ∈ S, w e * ∑ k, x e k * B k := by
  simp only [Finset.sum_mul, Finset.mul_sum]
  rw [Finset.sum_comm]
  exact Finset.sum_congr rfl fun e _ => Finset.sum_congr rfl fun k _ => by ring

/-- The eight bases together, over the reals, in the two programs' own groupings of the sums. -/
theorem join_real {E D : Type*} [Fintype D] (S : Finset E) (A : ℝ) (x : E → D → ℝ) (w : E → Fin 8 → ℝ)
    (B : Fin 8 → D → ℝ) :
    A + ∑ e ∈ S, (((((((w e 0 * ∑ k, x e k * B 0 k + w e 1 * ∑ k, x e k * B 1 k) + w e 2 * ∑ k, x e k * B 2 k)
        + w e 3 * ∑ k, x e k * B 3 k) + w e 4 * ∑ k, x e k * B 4 k) + w e 5 * ∑ k, x e k * B 5 k)
        + w e 6 * ∑ k, x e k * B 6 k) + w e 7 * ∑ k, x e k * B 7 k)
    = ((((((((A + ∑ k, (∑ e ∈ S, x e k * w e 0) * B 0 k) + ∑ k, (∑ e ∈ S, x e k * w e 1) * B 1 k)
        + ∑ k, (∑ e ∈ S, x e k * w e 2) * B 2 k) + ∑ k, (∑ e ∈ S, x e k * w e 3) * B 3 k)
        + ∑ k, (∑ e ∈ S, x e k * w e 4) * B 4 k) + ∑ k, (∑ e ∈ S, x e k * w e 5) * B 5 k)
        + ∑ k, (∑ e ∈ S, x e k * w e 6) * B 6 k) + ∑ k, (∑ e ∈ S, x e k * w e 7) * B 7 k) := by
  simp only [one_basis, Finset.sum_add_distrib]
  ring

/-- The same on the extended reals, for real-valued data, with the landing edges given by a decidable predicate:
    the per-edge messages added to the node's own term equal the node's own term plus the eight aggregated products. -/
theorem join {E D : Type*} [Fintype E] [Fintype D] (land : E → Prop) [DecidablePred land]
    (A : EReal) (xs : E → D → EReal) (w : E → Fin 8 → EReal) (B : Fin 8 → D → EReal)
    (hA : ∃ r : ℝ, A = (r : EReal)) (hxs : ∀ e k, ∃ r : ℝ, xs e k = (r : EReal))
    (hw : ∀ e b, ∃ r : ℝ, w e b = (r : EReal)) (hB : ∀ b k, ∃ r : ℝ, B b k = (r : EReal)) :
    A + ∑ e, (if land e then
        ((((((((0 + w e 0 * ∑ k, xs e k * B 0 k) + w e 1 * ∑ k, xs e k * B 1 k) + w e 2 * ∑ k, xs e k * B 2 k)
        + w e 3 * ∑ k, xs e k * B 3 k) + w e 4 * ∑ k, xs e k * B 4 k) + w e 5 * ∑ k, xs e k * B 5 k)
        + w e 6 * ∑ k, xs e k * B 6 k) + w e 7 * ∑ k, xs e k * B 7 k) else 0)
    = ((((((((A + ∑ k, (∑ e, if land e then xs e k * w e 0 else 0) * B 0 k)
        + ∑ k, (∑ e, if land e then xs e k * w e 1 else 0) * B 1 k)
        + ∑ k, (∑ e, if land e then xs e k * w e 2 else 0) * B 2 k)
        + ∑ k, (∑ e, if land e then xs e k * w e 3 else 0) * B 3 k)
        + ∑ k, (∑ e, if land e then xs e k * w e 4 else 0) * B 4 k)
        + ∑ k, (∑ e, if land e then xs e k * w e 5 else 0) * B 5 k)
        + ∑ k, (∑ e, if land e then xs e k * w e 6 else 0) * B 6 k)
        + ∑ k, (∑ e, if land e then xs e k * w e 7 else 0) * B 7 k) := by
  obtain ⟨a, rfl⟩ := hA
  choose x hx using hxs
  choose v hv using hw
  choose c hc using hB
  simp only [hx, hv, hc, zero_add, ← Finset.sum_filter]
  simp only [coe_mul_coe, sum_coe, coe_add_coe]
  exact congrArg _ (join_real (Finset.univ.filter land) a x v c)

end Cert.Spec
-- ==== Proof.KV.SumLemmas.lean ====
/-
  Finite sums over the padded edge list, and two facts about 32-bit words.

  The scatter kernel visits the 600576 = 391 · 1536 padded edge positions block by block; the reference sums over the
  600000 real edges.  A double sum over blocks and positions in a block is one sum over all positions, and positions
  whose term vanishes (the padding) can be dropped.  A node number below 50000, written as 1000 · (block) + (row), is
  the word of that number, and a word equals it exactly when its signed value is that number.
-/
import Mathlib.Algebra.BigOperators.Fin
import Mathlib.Tactic.Ring
import Mathlib.Tactic.Linarith

open scoped BigOperators

namespace Cert.SumLemmas

/-- Blocks of `b` positions, `a` of them: the double sum is the sum over all `a * b` positions. -/
theorem sum_blocks {M : Type*} [AddCommMonoid M] (a b : ℕ) (f : ℕ → M) :
    ∑ s ∈ Finset.range a, ∑ k : Fin b, f (s * b + k.val) = ∑ e : Fin (a * b), f e.val := by
  rw [Finset.sum_range (fun s => ∑ k : Fin b, f (s * b + k.val)), ← Finset.sum_product' (f := fun (s : Fin a) (k : Fin b) => f (s.val * b + k.val)),
    Finset.univ_product_univ, ← Equiv.sum_comp finProdFinEquiv (fun e : Fin (a * b) => f e.val)]
  refine Finset.sum_congr rfl fun p _ => ?_
  show f (p.1.val * b + p.2.val) = f (p.2.val + b * p.1.val)
  congr 1; ring

/-- Trailing positions whose term is zero can be dropped. -/
theorem sum_drop_tail {M : Type*} [AddCommMonoid M] (m p : ℕ) (g : ℕ → M) (hg : ∀ e, m ≤ e → e < m + p → g e = 0) :
    ∑ e : Fin (m + p), g e.val = ∑ e : Fin m, g e.val := by
  rw [Fin.sum_univ_add]
  have h2 : ∑ i : Fin p, g (Fin.natAdd m i).val = 0 :=
    Finset.sum_eq_zero fun i _ => hg _ (by simp) (by simp)
  rw [h2, add_zero]
  rfl

/-- A node number below 50000 as block · 1000 + row, in 32-bit words, is the word of the number. -/
theorem word_split (n : ℕ) (hn : n < 50000) :
    BitVec.ofNat 32 (n / 1000) * 1000#32 + BitVec.ofNat 32 (n % 1000) = BitVec.ofNat 32 n := by
  apply BitVec.eq_of_toNat_eq
  simp only [BitVec.toNat_add, BitVec.toNat_mul, BitVec.toNat_ofNat]
  omega

/-- A word is the word of a small number exactly when its signed value is that number. -/
theorem word_eq_iff (n : ℕ) (hn : n < 50000) (σ : BitVec 32) : BitVec.ofNat 32 n = σ ↔ σ.toInt = (n : ℤ) := by
  constructor
  · rintro rfl
    have h1 : (BitVec.ofNat 32 n).toNat = n := by rw [BitVec.toNat_ofNat]; omega
    rw [BitVec.toInt, h1]
    split <;> omega
  · intro h
    apply BitVec.eq_of_toNat_eq
    rw [BitVec.toNat_ofNat]
    have h1 := σ.isLt
    rw [BitVec.toInt] at h
    split at h <;> omega

end Cert.SumLemmas
-- ==== Proof.KV.Bridge.lean ====
/-
  From the scatter kernel's sum over the padded edge positions to the reference's aggregates.

  For one node `n` and one channel, the kernel's entry is the node's own term plus, block by block over the 391 · 1536
  padded edge positions, the messages of the positions whose target word is the node's number.  The padded positions carry
  the zero message; the others carry the edge's message, eight weighted products of the gathered source row with the
  basis columns.  Summing over the real edges only and exchanging the sums (the algebra of the graph layer) gives the
  reference's own term plus its eight aggregated products.
-/
import proofs.«141899_j10780367913070_1_alg».proof.Proof.Spec
import proofs.«141899_j10780367913070_1_alg».proof.Proof.KV.SumLemmas

open scoped BigOperators

namespace Cert.Bridge

open Cert.SumLemmas

theorem node_bridge (n : ℕ) (hn : n < 50000) (own : EReal)
    (dst : Fin 600000 → BitVec 32) (xs : Fin 600000 → Fin 128 → EReal) (w : Fin 600000 → Fin 8 → EReal)
    (B : Fin 8 → Fin 128 → EReal)
    (hown : ∃ r : ℝ, own = (r : EReal)) (hxs : ∀ e k, ∃ r : ℝ, xs e k = (r : EReal))
    (hw : ∀ e b, ∃ r : ℝ, w e b = (r : EReal)) (hB : ∀ b k, ∃ r : ℝ, B b k = (r : EReal))
    (DSTp : ℕ → BitVec 32) (Zp : ℕ → EReal)
    (hD : ∀ (e : ℕ) (h : e < 600000), DSTp e = dst ⟨e, h⟩)
    (hZ : ∀ (e : ℕ) (h : e < 600000), Zp e =
      ((((((((0 + w ⟨e, h⟩ 0 * ∑ k, xs ⟨e, h⟩ k * B 0 k) + w ⟨e, h⟩ 1 * ∑ k, xs ⟨e, h⟩ k * B 1 k)
        + w ⟨e, h⟩ 2 * ∑ k, xs ⟨e, h⟩ k * B 2 k) + w ⟨e, h⟩ 3 * ∑ k, xs ⟨e, h⟩ k * B 3 k)
        + w ⟨e, h⟩ 4 * ∑ k, xs ⟨e, h⟩ k * B 4 k) + w ⟨e, h⟩ 5 * ∑ k, xs ⟨e, h⟩ k * B 5 k)
        + w ⟨e, h⟩ 6 * ∑ k, xs ⟨e, h⟩ k * B 6 k) + w ⟨e, h⟩ 7 * ∑ k, xs ⟨e, h⟩ k * B 7 k))
    (hZpad : ∀ e, 600000 ≤ e → e < 600000 + 576 → Zp e = 0) :
    own + ∑ s ∈ Finset.range 391, ∑ k : Fin 1536,
        (if BitVec.ofNat 32 (n / 1000) * 1000#32 + BitVec.ofNat 32 (n % 1000) = DSTp (s * 1536 + k.val) then (1 : EReal) else 0)
          * Zp (s * 1536 + k.val)
    = ((((((((own + ∑ k, (∑ e, if (dst e).toInt = (n : ℤ) then xs e k * w e 0 else 0) * B 0 k)
        + ∑ k, (∑ e, if (dst e).toInt = (n : ℤ) then xs e k * w e 1 else 0) * B 1 k)
        + ∑ k, (∑ e, if (dst e).toInt = (n : ℤ) then xs e k * w e 2 else 0) * B 2 k)
        + ∑ k, (∑ e, if (dst e).toInt = (n : ℤ) then xs e k * w e 3 else 0) * B 3 k)
        + ∑ k, (∑ e, if (dst e).toInt = (n : ℤ) then xs e k * w e 4 else 0) * B 4 k)
        + ∑ k, (∑ e, if (dst e).toInt = (n : ℤ) then xs e k * w e 5 else 0) * B 5 k)
        + ∑ k, (∑ e, if (dst e).toInt = (n : ℤ) then xs e k * w e 6 else 0) * B 6 k)
        + ∑ k, (∑ e, if (dst e).toInt = (n : ℤ) then xs e k * w e 7 else 0) * B 7 k) := by
  rw [word_split n hn]
  have hterm : ∀ e : ℕ, (if BitVec.ofNat 32 n = DSTp e then (1 : EReal) else 0) * Zp e
      = if (DSTp e).toInt = (n : ℤ) then Zp e else 0 := by
    intro e
    by_cases h : (DSTp e).toInt = (n : ℤ)
    · rw [if_pos ((word_eq_iff n hn _).mpr h), if_pos h, one_mul]
    · rw [if_neg (fun h' => h ((word_eq_iff n hn _).mp h')), if_neg h, zero_mul]
  simp only [hterm]
  rw [sum_blocks 391 1536 (fun e => if (DSTp e).toInt = (n : ℤ) then Zp e else 0)]
  have hpad := sum_drop_tail 600000 576 (fun e => if (DSTp e).toInt = (n : ℤ) then Zp e else 0)
    (fun e h1 h2 => by simp only [hZpad e h1 h2, ite_self])
  rw [show (∑ e : Fin (391 * 1536), (if (DSTp e.val).toInt = (n : ℤ) then Zp e.val else 0))
      = ∑ e : Fin (600000 + 576), (if (DSTp e.val).toInt = (n : ℤ) then Zp e.val else 0) from rfl, hpad]
  rw [← Cert.Spec.join (fun e : Fin 600000 => (dst e).toInt = (n : ℤ)) own xs w B hown hxs hw hB]
  refine congrArg (own + ·) (Finset.sum_congr rfl fun e _ => ?_)
  rw [hD e.val e.isLt, hZ e.val e.isLt]

/-- The same with the padded positions indexed by their own finite type, block `s` and place `k` in the block. -/
theorem node_bridge_fin (n : ℕ) (hn : n < 50000) (own : EReal)
    (dst : Fin 600000 → BitVec 32) (xs : Fin 600000 → Fin 128 → EReal) (w : Fin 600000 → Fin 8 → EReal)
    (B : Fin 8 → Fin 128 → EReal)
    (hown : ∃ r : ℝ, own = (r : EReal)) (hxs : ∀ e k, ∃ r : ℝ, xs e k = (r : EReal))
    (hw : ∀ e b, ∃ r : ℝ, w e b = (r : EReal)) (hB : ∀ b k, ∃ r : ℝ, B b k = (r : EReal))
    (DSTf : Fin 600576 → BitVec 32) (Zf : Fin 600576 → EReal)
    (hD : ∀ (e : Fin 600576) (h : e.val < 600000), DSTf e = dst ⟨e.val, h⟩)
    (hZ : ∀ (e : Fin 600576) (h : e.val < 600000), Zf e =
      ((((((((0 + w ⟨e.val, h⟩ 0 * ∑ k, xs ⟨e.val, h⟩ k * B 0 k) + w ⟨e.val, h⟩ 1 * ∑ k, xs ⟨e.val, h⟩ k * B 1 k)
        + w ⟨e.val, h⟩ 2 * ∑ k, xs ⟨e.val, h⟩ k * B 2 k) + w ⟨e.val, h⟩ 3 * ∑ k, xs ⟨e.val, h⟩ k * B 3 k)
        + w ⟨e.val, h⟩ 4 * ∑ k, xs ⟨e.val, h⟩ k * B 4 k) + w ⟨e.val, h⟩ 5 * ∑ k, xs ⟨e.val, h⟩ k * B 5 k)
        + w ⟨e.val, h⟩ 6 * ∑ k, xs ⟨e.val, h⟩ k * B 6 k) + w ⟨e.val, h⟩ 7 * ∑ k, xs ⟨e.val, h⟩ k * B 7 k))
    (hZpad : ∀ e : Fin 600576, 600000 ≤ e.val → Zf e = 0) :
    own + ∑ s : Fin 391, ∑ k : Fin 1536,
        (if BitVec.ofNat 32 (n / 1000) * 1000#32 + BitVec.ofNat 32 (n % 1000)
              = DSTf (⟨s.val * 1536 + k.val, by omega⟩ : Fin 600576) then (1 : EReal) else 0)
          * Zf (⟨s.val * 1536 + k.val, by omega⟩ : Fin 600576)
    = ((((((((own + ∑ k, (∑ e, if (dst e).toInt = (n : ℤ) then xs e k * w e 0 else 0) * B 0 k)
        + ∑ k, (∑ e, if (dst e).toInt = (n : ℤ) then xs e k * w e 1 else 0) * B 1 k)
        + ∑ k, (∑ e, if (dst e).toInt = (n : ℤ) then xs e k * w e 2 else 0) * B 2 k)
        + ∑ k, (∑ e, if (dst e).toInt = (n : ℤ) then xs e k * w e 3 else 0) * B 3 k)
        + ∑ k, (∑ e, if (dst e).toInt = (n : ℤ) then xs e k * w e 4 else 0) * B 4 k)
        + ∑ k, (∑ e, if (dst e).toInt = (n : ℤ) then xs e k * w e 5 else 0) * B 5 k)
        + ∑ k, (∑ e, if (dst e).toInt = (n : ℤ) then xs e k * w e 6 else 0) * B 6 k)
        + ∑ k, (∑ e, if (dst e).toInt = (n : ℤ) then xs e k * w e 7 else 0) * B 7 k) := by
  have hb := node_bridge n hn own dst xs w B hown hxs hw hB
    (fun e => if h : e < 600576 then DSTf ⟨e, h⟩ else 0#32) (fun e => if h : e < 600576 then Zf ⟨e, h⟩ else 0)
    (fun e h => by
      have h' : e < 600576 := by omega
      simp only [dif_pos h']
      exact hD ⟨e, h'⟩ h)
    (fun e h => by
      have h' : e < 600576 := by omega
      simp only [dif_pos h']
      exact hZ ⟨e, h'⟩ h)
    (fun e h1 h2 => by
      have h' : e < 600576 := by omega
      simp only [dif_pos h']
      exact hZpad ⟨e, h'⟩ h1)
  rw [← hb, Finset.sum_range]
  refine congrArg (own + ·) (Finset.sum_congr rfl fun s _ => Finset.sum_congr rfl fun k _ => ?_)
  have hlt : s.val * 1536 + k.val < 600576 := by omega
  simp only [dif_pos hlt]

end Cert.Bridge
-- ==== Proof.KV.Entry.lean ====
/-
  One node row of the two programs' results is the same number.

  Given what the host operations in front of the kernels leave in the padded arrays (the edge words and coefficients at the
  real positions, zeros in the padding) and what the gather kernel leaves (each position's message), the scatter
  kernel's entry at node n, channel j is the reference's: the padded positions contribute nothing, a real edge's
  source row is the row its (in-range) source word names in both programs, and the sums are exchanged by the algebra of
  the layer, every entry being a real number.
-/
import proofs.«141899_j10780367913070_1_alg».proof.Proof.KV.Shapes
import proofs.«141899_j10780367913070_1_alg».proof.Proof.KV.Bridge
import proofs.«141899_j10780367913070_1_alg».proof.Proof.RefSpec

noncomputable section

open scoped BigOperators
open Idealize.ShloMosaic Idealize.ShloMosaic.ValueIdx Idealize.ShloMosaic.ERealSeg

namespace Cert.KernelIdeal.HandV

open Cert.ReferenceIdeal.Hand

theorem entry_lo
    (ei : Vec Ideal Cert.ReferenceIdeal.S2x600000 .i32) (et : Vec Ideal Cert.ReferenceIdeal.S600000 .i32)
    (x : Vec Ideal Cert.ReferenceIdeal.S50000x128 .f32) (basis : Vec Ideal Cert.ReferenceIdeal.S8x128x128 .f32)
    (comp : Vec Ideal Cert.ReferenceIdeal.S48x8 .f32) (root : Vec Ideal Cert.ReferenceIdeal.S128x128 .f32)
    (bias : Vec Ideal Cert.ReferenceIdeal.S128 .f32)
    (hx : ∀ i, ∃ r : ℝ, x i = (r : EReal)) (hbasis : ∀ i, ∃ r : ℝ, basis i = (r : EReal))
    (hroot : ∀ i, ∃ r : ℝ, root i = (r : EReal)) (hbias : ∀ i, ∃ r : ℝ, bias i = (r : EReal))
    (hcoef : ∀ (e : Fin 600000) (b : Fin 8), ∃ r : ℝ, coef ei et comp (ix2 e b) = (r : EReal))
    (hsrc : ∀ e : Fin 600000, 0 ≤ (ei (ix2 (0 : Fin 2) e)).toInt ∧ (ei (ix2 (0 : Fin 2) e)).toInt < 50000)
    (SRC DST : Cert.KernelIdeal.S1x600576.Idx → BitVec 32) (Wp : Cert.KernelIdeal.S600576x8.Idx → EReal)
    (Bias2 : Cert.KernelIdeal.S1x128.Idx → EReal)
    (hS : ∀ (e : Fin 600576) (h : e.val < 600000), SRC (ix2 (0 : Fin 1) e) = ei (ix2 (0 : Fin 2) (⟨e.val, h⟩ : Fin 600000)))
    (hD : ∀ (e : Fin 600576) (h : e.val < 600000), DST (ix2 (0 : Fin 1) e) = ei (ix2 (1 : Fin 2) (⟨e.val, h⟩ : Fin 600000)))
    (hW : ∀ (e : Fin 600576) (h : e.val < 600000) (b : Fin 8), Wp (ix2 e b) = coef ei et comp (ix2 (⟨e.val, h⟩ : Fin 600000) b))
    (hW0 : ∀ (e : Fin 600576), 600000 ≤ e.val → ∀ b : Fin 8, Wp (ix2 e b) = 0)
    (hB2 : ∀ j : Fin 128, Bias2 (ix2 (0 : Fin 1) j) = bias (ix1 j))
    (Z : Cert.KernelIdeal.S600576x128.Idx → EReal) (hZ : ∀ (e : Fin 600576) (j : Fin 128), Z (ix2 e j) = zmsgAt SRC Wp x basis e j)
    (n : Fin 50000) (j : Fin 128) :
    nodeOutAt DST Z x root Bias2 n j = node ei et x basis comp root bias n j := by
  unfold nodeOutAt node basisTerm agg selfTerm
  rw [hB2]
  have hown : ∃ r : ℝ, ((∑ k : Fin 128, x (ix2 n k) * root (ix2 k j)) + bias (ix1 j)) = (r : EReal) :=
    real_add (real_sum _ _ fun k => real_mul (hx _) (hroot _)) (hbias _)
  refine Cert.Bridge.node_bridge_fin n.val n.isLt _ (fun e => ei (ix2 (1 : Fin 2) e))
    (fun e k => x (ix2 (srcRow ei e) k)) (fun e b => coef ei et comp (ix2 e b)) (fun b k => basis (ix3 b k j))
    hown (fun e k => hx _) hcoef (fun b k => hbasis _)
    (fun e => DST (ix2 (0 : Fin 1) e)) (fun e => Z (ix2 e j)) hD ?_ ?_
  · intro e h
    rw [hZ]
    unfold zmsgAt
    have hrow : rowOf (SRC (ix2 (0 : Fin 1) e)) = srcRow ei (⟨e.val, h⟩ : Fin 600000) := by
      apply Fin.ext
      have h1 := rowOf_val (SRC (ix2 (0 : Fin 1) e)) (by rw [hS e h]; exact (hsrc _).1) (by rw [hS e h]; exact (hsrc _).2)
      have h2 := srcRow_of_inRange ei (⟨e.val, h⟩ : Fin 600000) (hsrc _).1 (hsrc _).2
      have h3 : (SRC (ix2 (0 : Fin 1) e)).toInt = (ei (ix2 (0 : Fin 2) (⟨e.val, h⟩ : Fin 600000))).toInt :=
        congrArg BitVec.toInt (hS e h)
      omega
    simp only [hrow, hW e h]
  · intro e h
    rw [hZ]
    unfold zmsgAt
    simp only [hW0 e h, zero_mul, add_zero]

end Cert.KernelIdeal.HandV
-- ==== Proof.KV.HostPrefix.lean ====
/-
  What the host operations in front of the two kernels leave in the arrays the kernels read, as pure terms of the
  launch memory, and those terms read at an index.

  The edge-index table's two rows are cut out, flattened, padded at the end with 576 zero words (600000 → 600576 edges)
  and viewed as one row each; the per-edge coefficient matrix [600000, 8] is padded with 576 zero rows; the bias vector
  is viewed as one row.  At an edge number below 600000 a padded array holds the original entry, and from 600000 on it
  holds zero.  The node table, the basis matrices and the root matrix are read by the kernels as they were at launch.
-/
import proofs.«141899_j10780367913070_1_alg».proof.Proof.Gen.KernelIdeal.Regions
import proofs.«141899_j10780367913070_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run

set_option maxRecDepth 16384

noncomputable section

open Idealize.ShloMosaic Idealize.ShloMosaic.ValueIdx Idealize.ShloMosaic.TcCoe Idealize.SL.Sem

namespace Cert.KernelIdeal.HandV

open Cert.KernelIdeal Cert.KernelIdeal.Gen

/-! ## Padded arrays read at an index (over variables) -/

/-- A vector of 600000 words padded at the end to 600576 and viewed as one row: below 600000 the original word. -/
theorem padRow_lt (x : IVec S600000 32) (v : IVec S_ 32) (j : Fin 600576) (h : j.val < 600000) :
    shapeCast S1x600576 (pad S600576 ![0] ![576] ![0] x v pads_S600000_S600576_05760 h_S_) shapeCasts_S600576_S1x600576
        (ix2 (0 : Fin 1) j) = x (ix1 (⟨j.val, h⟩ : Fin 600000)) := by
  refine (shapeCast_a_1a_apply _ shapeCasts_S600576_S1x600576 (0 : Fin 1) j).trans ?_
  exact pad_apply_of_inside _ _ _ x v pads_S600000_S600576_05760 h_S_ _ (ix1 (⟨j.val, h⟩ : Fin 600000)) (by
    intro a
    have ha : a = 0 := Subsingleton.elim _ _
    subst ha
    show j.val = 0 + j.val * (0 + 1); omega)

/-- … and from 600000 on the padding word. -/
theorem padRow_ge (x : IVec S600000 32) (v : IVec S_ 32) (j : Fin 600576) (h : 600000 ≤ j.val) :
    shapeCast S1x600576 (pad S600576 ![0] ![576] ![0] x v pads_S600000_S600576_05760 h_S_) shapeCasts_S600576_S1x600576
        (ix2 (0 : Fin 1) j) = v ix0 := by
  refine (shapeCast_a_1a_apply _ shapeCasts_S600576_S1x600576 (0 : Fin 1) j).trans ?_
  refine (pad_apply_of_not_inside _ _ _ x v pads_S600000_S600576_05760 h_S_ (ix1 j) (0 : Fin 1) (by
    intro hin
    have e' : (j.val - 0) / (0 + 1) < 600000 := hin.2.2
    omega)).trans ?_
  exact congrArg v (eq_ix0 _)

/-- A [600000, 8] matrix padded with 576 rows at the end: below row 600000 the original entry. -/
theorem padRows_lt (x : FVec Ideal S600000x8 .f32) (v : FVec Ideal S_ .f32) (j : Fin 600576) (b : Fin 8) (h : j.val < 600000) :
    pad S600576x8 ![0, 0] ![576, 0] ![0, 0] x v pads_S600000x8_S600576x8_05760_000 h_S_ (ix2 j b)
      = x (ix2 (⟨j.val, h⟩ : Fin 600000) b) :=
  pad_apply_of_inside _ _ _ x v pads_S600000x8_S600576x8_05760_000 h_S_ _ (ix2 (⟨j.val, h⟩ : Fin 600000) b) (by
    intro a
    match a with
    | ⟨0, _⟩ => show j.val = 0 + j.val * (0 + 1); omega
    | ⟨1, _⟩ => show b.val = 0 + b.val * (0 + 1); omega)

/-- … and from row 600000 on the padding value. -/
theorem padRows_ge (x : FVec Ideal S600000x8 .f32) (v : FVec Ideal S_ .f32) (j : Fin 600576) (b : Fin 8) (h : 600000 ≤ j.val) :
    pad S600576x8 ![0, 0] ![576, 0] ![0, 0] x v pads_S600000x8_S600576x8_05760_000 h_S_ (ix2 j b) = v ix0 := by
  refine (pad_apply_of_not_inside _ _ _ x v pads_S600000x8_S600576x8_05760_000 h_S_ (ix2 j b) (0 : Fin 2) (by
    intro hin
    have e' : (j.val - 0) / (0 + 1) < 600000 := hin.2.2
    omega)).trans ?_
  exact congrArg v (eq_ix0 _)

/-! ## The launch contents of the arguments, at their literal types -/

variable (m : (ℓ : Loc nD τ sig) → Buf (Elt Ideal) ℓ) (c : Dev nD)

/-- The edge-index table [2, 600000] at launch. -/
abbrev A0 : IVec S2x600000 32 := m ((c : Thread nD τ).loc main_arg0)
/-- The edge-type vector [600000] at launch. -/
abbrev A1 : IVec S600000 32 := m ((c : Thread nD τ).loc main_arg1)
/-- The coefficient table [48, 8] at launch. -/
abbrev A4 : FVec Ideal S48x8 .f32 := m ((c : Thread nD τ).loc main_arg4)
/-- The bias [128] at launch. -/
abbrev A6 : FVec Ideal S128 .f32 := m ((c : Thread nD τ).loc main_arg6)

/-! ## One host stretch at a time, from any contents W -/

section Stretch
variable (W : Valuation τ sig (Elt Ideal))

theorem s6_v35 : (StableHlo.after (Gen.hostOps0_6 (F := Ideal)) W (Proc.devRef .tc main_v35) : S1x600576.Idx → BitVec 32)
    = shapeCast S1x600576 (W (Proc.devRef .tc main_v32) : S600576.Idx → BitVec 32) shapeCasts_S600576_S1x600576 := by
  dsimp only [Gen.hostOps0_6]
  after_results
  rfl

theorem s6_v36 : (StableHlo.after (Gen.hostOps0_6 (F := Ideal)) W (Proc.devRef .tc main_v36) : S1x600576.Idx → BitVec 32)
    = shapeCast S1x600576 (W (Proc.devRef .tc main_v33) : S600576.Idx → BitVec 32) shapeCasts_S600576_S1x600576 := by
  dsimp only [Gen.hostOps0_6]
  after_results
  rfl

theorem s6_v37 : (StableHlo.after (Gen.hostOps0_6 (F := Ideal)) W (Proc.devRef .tc main_v37) : S1x128.Idx → EReal)
    = shapeCast S1x128 (W (Proc.devRef .tc main_arg6) : S128.Idx → EReal) shapeCasts_S128_S1x128 := by
  dsimp only [Gen.hostOps0_6]
  after_results
  rfl

theorem s5_v34 : (StableHlo.after (Gen.hostOps0_5 (F := Ideal)) W (Proc.devRef .tc main_v34) : S600576x8.Idx → EReal)
    = pad S600576x8 ![0, 0] ![576, 0] ![0, 0] (W (Proc.devRef .tc main_v31) : S600000x8.Idx → EReal)
        (sitofp (F := Ideal) .f32 (W (Proc.devRef .tc main_c_9) : S_.Idx → BitVec 32)) pads_S600000x8_S600576x8_05760_000 h_S_ := by
  dsimp only [Gen.hostOps0_5]
  after_results
  rfl

theorem s4_c9 : (StableHlo.after (Gen.hostOps0_4 (F := Ideal)) W (Proc.devRef .tc main_c_9) : S_.Idx → BitVec 32)
    = constantI S_ 32 0#32 := by
  dsimp only [Gen.hostOps0_4]
  after_results

theorem s3_v33 : (StableHlo.after (Gen.hostOps0_3 (F := Ideal)) W (Proc.devRef .tc main_v33) : S600576.Idx → BitVec 32)
    = pad S600576 ![0] ![576] ![0] (W (Proc.devRef .tc main_v3) : S600000.Idx → BitVec 32)
        (W (Proc.devRef .tc main_c_8) : S_.Idx → BitVec 32) pads_S600000_S600576_05760 h_S_ := by
  dsimp only [Gen.hostOps0_3]
  after_results
  rfl

theorem s2_c8 : (StableHlo.after (Gen.hostOps0_2 (F := Ideal)) W (Proc.devRef .tc main_c_8) : S_.Idx → BitVec 32)
    = constantI S_ 32 0#32 := by
  dsimp only [Gen.hostOps0_2]
  after_results

theorem s1_v32 : (StableHlo.after (Gen.hostOps0_1 (F := Ideal)) W (Proc.devRef .tc main_v32) : S600576.Idx → BitVec 32)
    = pad S600576 ![0] ![576] ![0] (W (Proc.devRef .tc main_v1) : S600000.Idx → BitVec 32)
        (W (Proc.devRef .tc main_c_7) : S_.Idx → BitVec 32) pads_S600000_S600576_05760 h_S_ := by
  dsimp only [Gen.hostOps0_1]
  after_results
  rfl

end Stretch

/-! ## The first stretch -/

/-- Row 0 of the edge-index table, flattened. -/
theorem V1_v1 : (Gen.V1 m c main_v1 : S600000.Idx → BitVec 32)
    = shapeCast S600000 (extractStridedSlice S1x600000 ![0, 0] (A0 m c) slices_S2x600000_S1x600000_0_0) shapeCasts_S1x600000_S600000 := by
  dsimp only [Gen.V1, Gen.hostOps0]
  after_results_simp
  rfl

/-- Row 1 of the edge-index table, flattened. -/
theorem V1_v3 : (Gen.V1 m c main_v3 : S600000.Idx → BitVec 32)
    = shapeCast S600000 (extractStridedSlice S1x600000 ![1, 0] (A0 m c) slices_S2x600000_S1x600000_1_0) shapeCasts_S1x600000_S600000 := by
  dsimp only [Gen.V1, Gen.hostOps0]
  after_results_simp
  rfl

/-- The padding word of the first pad. -/
theorem V1_c_7 : (Gen.V1 m c main_c_7 : S_.Idx → BitVec 32) = constantI S_ 32 0#32 := by
  dsimp only [Gen.V1, Gen.hostOps0]
  after_results_simp

/-- The per-edge coefficients [600000, 8]: the same operations, one by one, as the reference's. -/
theorem V1_v31 : (Gen.V1 m c main_v31 : S600000x8.Idx → EReal)
    = Cert.ReferenceIdeal.Read.val_main_v31 (F := Ideal) (A0 m c) (A1 m c) (A4 m c) := by
  dsimp only [Gen.V1, Gen.hostOps0]
  after_results_simp
  rfl

/-! ## The arrays the kernels read, when region 0 is entered -/

/-- The node table, the basis matrices and the root matrix: as at launch. -/
theorem V7_arg2 : Gen.V7 m c main_arg2 = m ((c : Thread nD τ).loc main_arg2) :=
  (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem V7_arg3 : Gen.V7 m c main_arg3 = m ((c : Thread nD τ).loc main_arg3) :=
  (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem V7_arg5 : Gen.V7 m c main_arg5 = m ((c : Thread nD τ).loc main_arg5) :=
  (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
theorem V6_arg6 : Gen.V6 m c main_arg6 = m ((c : Thread nD τ).loc main_arg6) :=
  (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl

/-- The bias as one row. -/
theorem V7_v37 : (Gen.V7 m c main_v37 : S1x128.Idx → EReal) = shapeCast S1x128 (A6 m c) shapeCasts_S128_S1x128 := by
  rw [show (Gen.V7 m c main_v37 : S1x128.Idx → EReal) = _ from s6_v37 (Gen.V6 m c), V6_arg6]

/-- The padded source indices as one row: row 0 of the index table, flattened, 576 zero words appended. -/
theorem V7_v35 : (Gen.V7 m c main_v35 : S1x600576.Idx → BitVec 32)
    = shapeCast S1x600576
        (pad S600576 ![0] ![576] ![0]
          (shapeCast S600000 (extractStridedSlice S1x600000 ![0, 0] (A0 m c) slices_S2x600000_S1x600000_0_0) shapeCasts_S1x600000_S600000)
          (constantI S_ 32 0#32) pads_S600000_S600576_05760 h_S_)
        shapeCasts_S600576_S1x600576 := by
  have e2 : Gen.V6 m c main_v32 = Gen.V2 m c main_v32 :=
    (V6_of m c main_v32 (by decide)).trans <| (V5_of m c main_v32 (by decide)).trans <| (V4_of m c main_v32 (by decide)).trans (V3_of m c main_v32 (by decide))
  rw [show (Gen.V7 m c main_v35 : S1x600576.Idx → BitVec 32) = _ from s6_v35 (Gen.V6 m c), e2,
    show (Gen.V2 m c main_v32 : S600576.Idx → BitVec 32) = _ from s1_v32 (Gen.V1 m c), V1_v1, V1_c_7]

/-- The padded destination indices as one row: row 1 of the index table, flattened, 576 zero words appended. -/
theorem V7_v36 : (Gen.V7 m c main_v36 : S1x600576.Idx → BitVec 32)
    = shapeCast S1x600576
        (pad S600576 ![0] ![576] ![0]
          (shapeCast S600000 (extractStridedSlice S1x600000 ![1, 0] (A0 m c) slices_S2x600000_S1x600000_1_0) shapeCasts_S1x600000_S600000)
          (constantI S_ 32 0#32) pads_S600000_S600576_05760 h_S_)
        shapeCasts_S600576_S1x600576 := by
  have e2 : Gen.V6 m c main_v33 = Gen.V4 m c main_v33 :=
    (V6_of m c main_v33 (by decide)).trans (V5_of m c main_v33 (by decide))
  have e3 : Gen.V3 m c main_v3 = Gen.V1 m c main_v3 :=
    (V3_of m c main_v3 (by decide)).trans (V2_of m c main_v3 (by decide))
  rw [show (Gen.V7 m c main_v36 : S1x600576.Idx → BitVec 32) = _ from s6_v36 (Gen.V6 m c), e2,
    show (Gen.V4 m c main_v33 : S600576.Idx → BitVec 32) = _ from s3_v33 (Gen.V3 m c), e3, V1_v3,
    show (Gen.V3 m c main_c_8 : S_.Idx → BitVec 32) = _ from s2_c8 (Gen.V2 m c)]

/-- The padded per-edge coefficients [600576, 8]: the coefficient matrix with 576 zero rows appended. -/
theorem V7_v34 : (Gen.V7 m c main_v34 : S600576x8.Idx → EReal)
    = pad S600576x8 ![0, 0] ![576, 0] ![0, 0]
        (Cert.ReferenceIdeal.Read.val_main_v31 (F := Ideal) (A0 m c) (A1 m c) (A4 m c))
        (sitofp (F := Ideal) .f32 (constantI S_ 32 0#32)) pads_S600000x8_S600576x8_05760_000 h_S_ := by
  have e1 : Gen.V7 m c main_v34 = Gen.V6 m c main_v34 := V7_of m c main_v34 (by decide)
  have e3 : Gen.V5 m c main_v31 = Gen.V1 m c main_v31 :=
    (V5_of m c main_v31 (by decide)).trans <| (V4_of m c main_v31 (by decide)).trans <| (V3_of m c main_v31 (by decide)).trans (V2_of m c main_v31 (by decide))
  rw [e1, show (Gen.V6 m c main_v34 : S600576x8.Idx → EReal) = _ from s5_v34 (Gen.V5 m c), e3, V1_v31,
    show (Gen.V5 m c main_c_9 : S_.Idx → BitVec 32) = _ from s4_c9 (Gen.V4 m c)]

/-! ## … read at an index -/

/-- Source word of edge j < 600000: row 0 of the index table at j. -/
theorem src_lt (j : Fin 600576) (h : j.val < 600000) :
    (Gen.V7 m c main_v35 : S1x600576.Idx → BitVec 32) (ix2 (0 : Fin 1) j) = A0 m c (ix2 (0 : Fin 2) (⟨j.val, h⟩ : Fin 600000)) := by
  rw [V7_v35, padRow_lt _ _ j h]
  exact (shapeCast_1a_a_apply _ shapeCasts_S1x600000_S600000 _).trans
    (slice2_axis0_apply 0 (A0 m c) slices_S2x600000_S1x600000_0_0 (0 : Fin 1) _ (0 : Fin 2) rfl)

/-- Source word of a padding edge 600000 ≤ j < 600576: the zero word. -/
theorem src_ge (j : Fin 600576) (h : 600000 ≤ j.val) :
    (Gen.V7 m c main_v35 : S1x600576.Idx → BitVec 32) (ix2 (0 : Fin 1) j) = 0#32 := by
  rw [V7_v35, padRow_ge _ _ j h]; rfl

/-- Destination word of edge j < 600000: row 1 of the index table at j. -/
theorem dst_lt (j : Fin 600576) (h : j.val < 600000) :
    (Gen.V7 m c main_v36 : S1x600576.Idx → BitVec 32) (ix2 (0 : Fin 1) j) = A0 m c (ix2 (1 : Fin 2) (⟨j.val, h⟩ : Fin 600000)) := by
  rw [V7_v36, padRow_lt _ _ j h]
  exact (shapeCast_1a_a_apply _ shapeCasts_S1x600000_S600000 _).trans
    (slice2_axis0_apply 1 (A0 m c) slices_S2x600000_S1x600000_1_0 (0 : Fin 1) _ (1 : Fin 2) rfl)

/-- Destination word of a padding edge: the zero word. -/
theorem dst_ge (j : Fin 600576) (h : 600000 ≤ j.val) :
    (Gen.V7 m c main_v36 : S1x600576.Idx → BitVec 32) (ix2 (0 : Fin 1) j) = 0#32 := by
  rw [V7_v36, padRow_ge _ _ j h]; rfl

/-- Coefficient b of edge j < 600000: the coefficient matrix at (j, b). -/
theorem coef_lt (j : Fin 600576) (b : Fin 8) (h : j.val < 600000) :
    (Gen.V7 m c main_v34 : S600576x8.Idx → EReal) (ix2 j b)
      = Cert.ReferenceIdeal.Read.val_main_v31 (F := Ideal) (A0 m c) (A1 m c) (A4 m c) (ix2 (⟨j.val, h⟩ : Fin 600000) b) := by
  rw [V7_v34]; exact padRows_lt _ _ j b h

/-- Coefficient b of a padding edge: zero. -/
theorem coef_ge (j : Fin 600576) (b : Fin 8) (h : 600000 ≤ j.val) :
    (Gen.V7 m c main_v34 : S600576x8.Idx → EReal) (ix2 j b) = (0 : EReal) := by
  rw [V7_v34, padRows_ge _ _ j b h]
  show ((((0#32 : BitVec 32).toInt : ℤ) : ℝ) : EReal) = 0
  simp

/-- The bias row at lane k: the bias at k. -/
theorem bias_at (k : Fin 128) :
    (Gen.V7 m c main_v37 : S1x128.Idx → EReal) (ix2 (0 : Fin 1) k) = A6 m c (ix1 k) := by
  rw [V7_v37]; exact shapeCast_a_1a_apply _ shapeCasts_S128_S1x128 (0 : Fin 1) k

end Cert.KernelIdeal.HandV

end
-- ==== Proof.PreFacts.lean ====
/-
  The precondition read back: every floating-point input entry is a real number, and every entry of row 0 of the
  edge-index table (the source node of each edge) is a row number of the node table, 0 ≤ s < 50000.

  The printed predicate is a conjunction of seven one-bit words.  Six of them are `all (|x| < +∞)` over one input
  array each; the seventh is `all (0 ≤ s ∧ s < 50000)` over row 0 of the integer table.  A conjunction of one-bit
  words is 1 exactly when both are; a reduction by `and` that is 1 met only 1s; an extended real whose absolute
  value is below +∞ is neither +∞ nor −∞, hence a real.
-/
import proofs.«141899_j10780367913070_1_alg».proof.Pre_finite_inputs
import proofs.«141899_j10780367913070_1_alg».proof.Proof.Gen.Pre_finite_inputs
import Idealize.ShloMosaic.Lib.ReduceAll
import Idealize.ShloMosaic.Lib.ValueIdx
import Idealize.ShloMosaic.Lib.ValueLayout
import Idealize.ShloMosaic.PureOps.Ideal

noncomputable section

namespace Cert.PreFacts

open Idealize.ShloMosaic Idealize.ShloMosaic.ValueIdx Cert.Pre_finite_inputs Cert.Pre_finite_inputs.Gen

/-- The scalar shape has one index. -/
instance : Subsingleton S_.Idx := ⟨fun a b => funext fun d => d.elim0⟩

/-- An extended real whose absolute value is strictly below +∞ is a real number. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  induction x using EReal.rec with
  | bot => exact absurd h (by simp [FloatOps.cmpf, FloatOps.hostAbsf, Ideal.cmp, Ideal.ofBits, Ideal.ieee])
  | coe r => exact ⟨r, rfl⟩
  | top => exact absurd h (by simp [FloatOps.cmpf, FloatOps.hostAbsf, Ideal.cmp, Ideal.ofBits, Ideal.ieee])

/-- `all (|x| < +∞)` over an array, read back at an index. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32))) init hr hu ix0 = 1#1)
    (i : s.Idx) : ∃ r : ℝ, x i = (r : EReal) :=
  real_of_abs_lt_top (x i) (Host.reduce_andi_all _ init hr hu ix0 e i)

/-- The integer conjunct at an edge: row 0 of the table holds a node-table row number. -/
theorem src_range_of_all (a0 : IVec S2x600000 32) (init : IVec S_ 1)
    (e : Host.reduce IntOp.andi
        (andi
          (cmpi .sge
            (shapeCast S600000 ((extractStridedSlice S1x600000 ![0, 0] · slices_S2x600000_S1x600000_0_0) a0) shapeCasts_S1x600000_S600000)
            (broadcastInDim S600000 ![] bcast_S_S600000 (constantI S_ 32 0#32)))
          (cmpi .slt
            (shapeCast S600000 ((extractStridedSlice S1x600000 ![0, 0] · slices_S2x600000_S1x600000_0_0) a0) shapeCasts_S1x600000_S600000)
            (broadcastInDim S600000 ![] bcast_S_S600000 (constantI S_ 32 50000#32))))
        init reducesTo_S600000_S_d0 h_S_ ix0 = 1#1)
    (k : Fin 600000) :
    0 ≤ (a0 (ix2 (0 : Fin 2) k)).toInt ∧ (a0 (ix2 (0 : Fin 2) k)).toInt < 50000 := by
  have h1 := Host.reduce_andi_all _ init reducesTo_S600000_S_d0 h_S_ ix0 e (ix1 k)
  obtain ⟨hge, hlt⟩ := IntOp.andi_eq_one.1 h1
  have hv : shapeCast S600000 ((extractStridedSlice S1x600000 ![0, 0] · slices_S2x600000_S1x600000_0_0) a0) shapeCasts_S1x600000_S600000 (ix1 k)
      = a0 (ix2 (0 : Fin 2) k) :=
    (shapeCast_1a_a_apply _ shapeCasts_S1x600000_S600000 k).trans
      (slice2_axis0_apply 0 a0 slices_S2x600000_S1x600000_0_0 (0 : Fin 1) k (0 : Fin 2) rfl)
  have hge' : IntOp.cmpi .sge (a0 (ix2 (0 : Fin 2) k)) (0#32) = 1#1 := hv ▸ hge
  have hlt' : IntOp.cmpi .slt (a0 (ix2 (0 : Fin 2) k)) (50000#32) = 1#1 := hv ▸ hlt
  rw [IntOp.cmpi_sge] at hge'
  rw [IntOp.cmpi_slt] at hlt'
  exact ⟨by simpa using hge', by simpa using hlt'⟩

theorem decode (a0 : IVec S2x600000 32) (a1 : IVec S600000 32) (a2 : FVec Ideal S50000x128 .f32)
    (a3 : FVec Ideal S8x128x128 .f32) (a4 : FVec Ideal S48x8 .f32) (a5 : FVec Ideal S128x128 .f32)
    (a6 : FVec Ideal S128 .f32) (a7 : FVec Ideal S64x128 .f32)
    (h : Cert.Pre_finite_inputs.fn (F := Ideal) a0 a1 a2 a3 a4 a5 a6 a7 = (fun _ => 1#1)) :
    (∀ i, ∃ r : ℝ, a2 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ e : Fin 600000, 0 ≤ (a0 (ix2 (0 : Fin 2) e)).toInt ∧ (a0 (ix2 (0 : Fin 2) e)).toInt < 50000) := by
  have e := congrFun h ix0
  dsimp only [fn, fn_part1, fn_part2] at e
  obtain ⟨e, h7⟩ := IntOp.andi_eq_one.1 (show IntOp.andi _ _ = 1#1 from e)
  obtain ⟨e, h6⟩ := IntOp.andi_eq_one.1 (show IntOp.andi _ _ = 1#1 from e)
  obtain ⟨e, h5⟩ := IntOp.andi_eq_one.1 (show IntOp.andi _ _ = 1#1 from e)
  obtain ⟨e, h4⟩ := IntOp.andi_eq_one.1 (show IntOp.andi _ _ = 1#1 from e)
  obtain ⟨e, h3⟩ := IntOp.andi_eq_one.1 (show IntOp.andi _ _ = 1#1 from e)
  obtain ⟨h1, h2⟩ := IntOp.andi_eq_one.1 (show IntOp.andi _ _ = 1#1 from e)
  exact ⟨real_of_all a2 _ _ _ _ h1, real_of_all a3 _ _ _ _ h2, real_of_all a4 _ _ _ _ h3,
    real_of_all a5 _ _ _ _ h4, real_of_all a6 _ _ _ _ h5, real_of_all a7 _ _ _ _ h6,
    src_range_of_all a0 _ h7⟩

end Cert.PreFacts

end
-- ==== Proof.KV.Final.lean ====
/-
  The kernel program's result is the reference's, as whole arrays.

  A row below 50000 of the result is the scatter kernel's node row, which is the reference's node row (the algebra of the
  layer, with the host operations' padded arrays and the gather kernel's messages read at an index); a row from 50000 on
  is the last argument's row in both programs.
-/
import proofs.«141899_j10780367913070_1_alg».proof.Defs
import proofs.«141899_j10780367913070_1_alg».proof.Proof.KV.Entry
import proofs.«141899_j10780367913070_1_alg».proof.Proof.KV.Tail
import proofs.«141899_j10780367913070_1_alg».proof.Proof.KV.HostPrefix
import proofs.«141899_j10780367913070_1_alg».proof.Proof.PreFacts
import proofs.«141899_j10780367913070_1_alg».proof.Proof.RefRead

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.HandV

open Cert.KernelIdeal Cert.KernelIdeal.Gen Cert.KernelIdeal.Hand

theorem result_eq_of
    (H0 : ∀ (V : (c : Dev nD) → (b : Ref sig .tc) → Buf (Elt Ideal) ((c : Thread nD τ).loc b)) (c : Dev nD)
      (hsrc : ∀ e : Fin 600576, 0 ≤ ((V c main_v35 : S1x600576.Idx → BitVec 32) (ix2 (0 : Fin 1) e)).toInt
        ∧ ((V c main_v35 : S1x600576.Idx → BitVec 32) (ix2 (0 : Fin 1) e)).toInt < 50000)
      (e : Fin 600576) (j : Fin 128),
      ((dat0 (F := Ideal) V c).arrAt 4 cfg0.N : S600576x128.Idx → EReal) (ix2 e j)
        = zmsgAt (V c main_v35) (V c main_v34) (V c main_arg2) (V c main_arg3) e j)
    (H1 : ∀ (V : (c : Dev nD) → (b : Ref sig .tc) → Buf (Elt Ideal) ((c : Thread nD τ).loc b)) (c : Dev nD)
      (n : Fin 50000) (j : Fin 128),
      ((dat1 (F := Ideal) V c).arrAt 5 cfg1.N : S50000x128.Idx → EReal) (ix2 n j)
        = nodeOutAt (V c main_v36) (V c main_v38) (V c main_arg2) (V c main_arg5) (V c main_v37) n j)
    (Hc : ∀ (ei : Vec Ideal Cert.ReferenceIdeal.S2x600000 .i32) (et : Vec Ideal Cert.ReferenceIdeal.S600000 .i32)
      (comp : Vec Ideal Cert.ReferenceIdeal.S48x8 .f32), (∀ i, ∃ r : ℝ, comp i = (r : EReal)) →
      ∀ (e : Fin 600000) (b : Fin 8), ∃ r : ℝ, Cert.ReferenceIdeal.Hand.coef ei et comp (ix2 e b) = (r : EReal))
    (m : (ℓ : Loc nD τ sig) → Buf (Elt Ideal) ℓ) (hpre : Cert.Pre_KernelIdeal m) (c : Dev nD) :
    (W10 m c (Proc.devRef .tc main_v40) : S50064x128.Idx → EReal)
      = Cert.ReferenceIdeal.Hand.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  obtain ⟨hx, hbasis, hcomp, hroot, hbias, hsp, hsrc⟩ := Cert.PreFacts.decode _ _ _ _ _ _ _ _ (hpre c)
  funext i
  obtain ⟨p, q, rfl⟩ : ∃ (p : Fin 50064) (q : Fin 128), i = ix2 p q := ⟨i 0, i 1, eq_ix2 i⟩
  by_cases h : p.val < 50000
  · rw [out_lo m c p q h, Cert.ReferenceIdeal.Hand.out_lo _ _ _ _ _ _ _ _ p q h, H1 (Vin1 m) c ⟨p.val, h⟩ q]
    have hsrc7 : ∀ e : Fin 600576, 0 ≤ ((Vin0 m c main_v35 : S1x600576.Idx → BitVec 32) (ix2 (0 : Fin 1) e)).toInt
        ∧ ((Vin0 m c main_v35 : S1x600576.Idx → BitVec 32) (ix2 (0 : Fin 1) e)).toInt < 50000 := by
      intro e
      by_cases he : e.val < 600000
      · rw [show (Vin0 m c main_v35 : S1x600576.Idx → BitVec 32) (ix2 (0 : Fin 1) e) = _ from src_lt m c e he]
        exact hsrc _
      · rw [show (Vin0 m c main_v35 : S1x600576.Idx → BitVec 32) (ix2 (0 : Fin 1) e) = _ from src_ge m c e (by omega)]
        decide
    rw [Vin1_main_v36 m c, Vin1_main_v37 m c, Vin1_main_arg2 m c, Vin1_main_arg5 m c]
    refine entry_lo _ _ _ _ _ _ _ hx hbasis hroot hbias (Hc _ _ _ hcomp) hsrc
      (Gen.V7 m c main_v35) (Gen.V7 m c main_v36) (Gen.V7 m c main_v34) (Gen.V7 m c main_v37)
      (fun e he => src_lt m c e he) (fun e he => dst_lt m c e he) (fun e he b => coef_lt m c e b he)
      (fun e he b => coef_ge m c e b he) (fun k => bias_at m c k)
      (Vin1 m c main_v38) (fun e j => ?_) ⟨p.val, h⟩ q
    rw [show (Vin1 m c main_v38 : S600576x128.Idx → EReal) = (dat0 (F := Ideal) (Vin0 m) c).arrAt 4 cfg0.N from Vin1_main_v38 m c,
      H0 (Vin0 m) c hsrc7 e j, Vin0_main_arg2 m c, Vin0_main_arg3 m c]
  · rw [out_hi m c p q (by omega), Cert.ReferenceIdeal.Hand.out_hi _ _ _ _ _ _ _ _ p q (by omega)]

end Cert.KernelIdeal.HandV
-- ==== Proof.KI.R0Value.lean ====
import proofs.«141899_j10780367913070_1_alg».proof.Proof.KI.R0Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the value equations of the accumulation

What `outsAt0` holds, point by point, over the skeleton's payloads: at the first point of a run of the inner axis the
scratch is the point's one-hot product added to the zero payload, at every later point of the run it is the point's
product added to what the point before left, and at the last point of the run the output block is the message payload
of the accumulated scratch, the weights block and the eight slabs of the basis block. -/

section Region0
variable (V : (c : Dev nD) → (b : Ref sig .tc) → Buf (Elt F) ((c : Thread nD τ).loc b))

/-- At the first point of a run: the scratch is reset, then the point's product is added. -/
theorem scr0_first (c : Dev nD) (t : Fin cfg0.N) (h : t.val % 50 = 0) :
    (outsAt0 V c t.val t.isLt).2 = k0_pay2 (grid0.coords t) (iblk0 V c 0 t) (iblk0 V c 2 t) k0_pay1 := by
  have h1 : ¬t.val % 50 = 49 := by omega
  rw [outsAt0_A V c t h h1]
  dsimp only
  exact sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h) (fun h' => h1 ((hcond0_1 t).mp h')) (iblk0 V c 0 t) (iblk0 V c 1 t) (iblk0 V c 2 t) (iblk0 V c 3 t)

/-- At a later point of a run: the point's product is added to what the point before left. -/
theorem scr0_next (c : Dev nD) (t : Fin cfg0.N) (h : t.val % 50 ≠ 0) :
    (outsAt0 V c t.val t.isLt).2 = k0_pay2 (grid0.coords t) (iblk0 V c 0 t) (iblk0 V c 2 t) (outsAt0 V c (t.val - 1) (Nat.lt_of_le_of_lt (Nat.sub_le _ _) t.isLt)).2 := by
  by_cases h1 : t.val % 50 = 49
  · rw [outsAt0_C V c t h h1]
    dsimp only
    exact sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h' => h ((hcond0_0 t).mp h')) ((hcond0_1 t).mpr h1) (iblk0 V c 0 t) (iblk0 V c 1 t) (iblk0 V c 2 t) (iblk0 V c 3 t) (outsAt0 V c (t.val - 1) (Nat.lt_of_le_of_lt (Nat.sub_le _ _) t.isLt)).2
  · rw [outsAt0_B V c t h h1]
    dsimp only
    exact sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h' => h ((hcond0_0 t).mp h')) (fun h' => h1 ((hcond0_1 t).mp h')) (iblk0 V c 0 t) (iblk0 V c 1 t) (iblk0 V c 2 t) (iblk0 V c 3 t) (outsAt0 V c (t.val - 1) (Nat.lt_of_le_of_lt (Nat.sub_le _ _) t.isLt)).2

/-- At the last point of a run: the output block is the message payload of the accumulated scratch. -/
theorem out0_last (c : Dev nD) (t : Fin cfg0.N) (h : t.val % 50 = 49) :
    (outsAt0 V c t.val t.isLt).1
      = k0_pay3 (k0_pay4 (iblk0 V c 1 t)) (k0_pay5 (outsAt0 V c t.val t.isLt).2) (k0_pay6 (outsAt0 V c t.val t.isLt).2 (iblk0 V c 1 t) (View.ld (iblk0 V c 3 t) (Rect.unit (s := S8x128x128) ![0, 0, 0] S1x128x128.size inb_S8x128x128_S1x128x128_0_0_0)) (View.ld (iblk0 V c 3 t) (Rect.unit (s := S8x128x128) ![1, 0, 0] S1x128x128.size inb_S8x128x128_S1x128x128_1_0_0)) (View.ld (iblk0 V c 3 t) (Rect.unit (s := S8x128x128) ![2, 0, 0] S1x128x128.size inb_S8x128x128_S1x128x128_2_0_0)) (View.ld (iblk0 V c 3 t) (Rect.unit (s := S8x128x128) ![3, 0, 0] S1x128x128.size inb_S8x128x128_S1x128x128_3_0_0))) (View.ld (iblk0 V c 3 t) (Rect.unit (s := S8x128x128) ![4, 0, 0] S1x128x128.size inb_S8x128x128_S1x128x128_4_0_0)) (View.ld (iblk0 V c 3 t) (Rect.unit (s := S8x128x128) ![5, 0, 0] S1x128x128.size inb_S8x128x128_S1x128x128_5_0_0)) (View.ld (iblk0 V c 3 t) (Rect.unit (s := S8x128x128) ![6, 0, 0] S1x128x128.size inb_S8x128x128_S1x128x128_6_0_0)) (View.ld (iblk0 V c 3 t) (Rect.unit (s := S8x128x128) ![7, 0, 0] S1x128x128.size inb_S8x128x128_S1x128x128_7_0_0)) := by
  have h0 : ¬t.val % 50 = 0 := by omega
  rw [outsAt0_C V c t h0 h]
  dsimp only
  exact out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h' => h0 ((hcond0_0 t).mp h')) ((hcond0_1 t).mpr h) (iblk0 V c 0 t) (iblk0 V c 1 t) (iblk0 V c 2 t) (iblk0 V c 3 t) (outsAt0 V c (t.val - 1) (Nat.lt_of_le_of_lt (Nat.sub_le _ _) t.isLt)).2

end Region0

end Cert.KernelIdeal.Hand

end
-- ==== Proof.KV.Val0Blocks.lean ====
import proofs.«141899_j10780367913070_1_alg».proof.Proof.KI.R0Value
import proofs.«141899_j10780367913070_1_alg».proof.Proof.KV.Shapes

set_option maxRecDepth 16384

noncomputable section

open scoped BigOperators
open Idealize.ShloMosaic Idealize.ShloMosaic.TcCoe Idealize.ShloMosaic.ValueIdx
open Idealize.SL Idealize.SL.Sem
open Idealize.ShloMosaic.Pipeline (Dat Cfg Window)

namespace Cert.KernelIdeal.HandV.R0

open Cert.KernelIdeal Cert.KernelIdeal.Gen Cert.KernelIdeal.Hand

/-! # Region 0: the windows' blocks read at a symbolic point

The index maps of the five windows, read symbolically from the grid coordinates (never decided over the grid): the
source-index window and the coefficient window move with the outer coordinate, the node-table window with the inner
one, the basis block never moves, and the output window moves with the outer coordinate. An element of a block sits
in its array at block index × block size + its own coordinate. -/

/-- A small number's 32-bit word reads back as the number. -/
theorem toNat_ofNat_small (n : ℕ) (h : n < 4294967296) : (BitVec.ofNat 32 n).toNat = n := by
  rw [BitVec.toNat_ofNat]; exact Nat.mod_eq_of_lt h

theorem outer_lt (t : Fin grid0.N) : (grid0.coords t 0).val < 391 := (grid0.coords t 0).isLt
theorem inner_lt (t : Fin grid0.N) : (grid0.coords t 1).val < 50 := (grid0.coords t 1).isLt

/-- The block indices, axis by axis. -/
theorem idx0_0_0 (t : Fin cfg0.N) : win0_0.index t (0 : Fin 2) = 0 := rfl
theorem idx0_0_1 (t : Fin cfg0.N) : win0_0.index t (1 : Fin 2) = t.val / 50 % 391 := by
  show (BitVec.ofNat 32 (grid0.coords t 0).val).toNat = _
  rw [toNat_ofNat_small _ (by have := outer_lt t; omega), coord0_outer]
theorem idx0_1_0 (t : Fin cfg0.N) : win0_1.index t (0 : Fin 2) = t.val / 50 % 391 := by
  show (BitVec.ofNat 32 (grid0.coords t 0).val).toNat = _
  rw [toNat_ofNat_small _ (by have := outer_lt t; omega), coord0_outer]
theorem idx0_1_1 (t : Fin cfg0.N) : win0_1.index t (1 : Fin 2) = 0 := rfl
theorem idx0_2_0 (t : Fin cfg0.N) : win0_2.index t (0 : Fin 2) = t.val % 50 := by
  show (BitVec.ofNat 32 (grid0.coords t 1).val).toNat = _
  rw [toNat_ofNat_small _ (by have := inner_lt t; omega), coord0_inner]
theorem idx0_2_1 (t : Fin cfg0.N) : win0_2.index t (1 : Fin 2) = 0 := rfl
theorem idx0_3 (t : Fin cfg0.N) (a : Fin 3) : win0_3.index t a = 0 := by
  match a with
  | ⟨0, _⟩ => rfl
  | ⟨1, _⟩ => rfl
  | ⟨2, _⟩ => rfl
theorem idx0_4_0 (t : Fin cfg0.N) : win0_4.index t (0 : Fin 2) = t.val / 50 % 391 := by
  show (BitVec.ofNat 32 (grid0.coords t 0).val).toNat = _
  rw [toNat_ofNat_small _ (by have := outer_lt t; omega), coord0_outer]
theorem idx0_4_1 (t : Fin cfg0.N) : win0_4.index t (1 : Fin 2) = 0 := rfl

section Reads
variable (V : (c : Dev nD) → (b : Ref sig .tc) → Buf (Elt Ideal) ((c : Thread nD τ).loc b))

/-- The source-index block at point `t`, position `r`: the array's word at position (outer coordinate)·1536 + r. -/
theorem read0_0 (c : Dev nD) (t : Fin cfg0.N) (r : Fin 1536) :
    (iblk0 V c 0 t : Vec Ideal S1x1536 .i32) (ix2 (0 : Fin 1) r)
      = (V c main_v35 : S1x600576.Idx → BitVec 32) (ix2 (0 : Fin 1) (⟨(t.val / 50 % 391) * 1536 + r.val, by omega⟩ : Fin 600576)) := by
  show (V c main_v35 : S1x600576.Idx → BitVec 32) (((cfg0.win 0).blk t).view.emb (ix2 (0 : Fin 1) r)) = _
  refine congrArg (V c main_v35 : S1x600576.Idx → BitVec 32) ?_
  funext a; apply Fin.ext
  match a with
  | ⟨0, _⟩ => show win0_0.index t (0 : Fin 2) * 1 + 1 * 0 = 0; rw [idx0_0_0]
  | ⟨1, _⟩ => show win0_0.index t (1 : Fin 2) * 1536 + 1 * r.val = (t.val / 50 % 391) * 1536 + r.val; rw [idx0_0_1]; omega

/-- The coefficient block at point `t`, entry (r, b): the array's entry at row (outer coordinate)·1536 + r. -/
theorem read0_1 (c : Dev nD) (t : Fin cfg0.N) (r : Fin 1536) (b : Fin 8) :
    (iblk0 V c 1 t : Vec Ideal S1536x8 .f32) (ix2 r b)
      = (V c main_v34 : S600576x8.Idx → EReal) (ix2 (⟨(t.val / 50 % 391) * 1536 + r.val, by omega⟩ : Fin 600576) b) := by
  show (V c main_v34 : S600576x8.Idx → EReal) (((cfg0.win 1).blk t).view.emb (ix2 r b)) = _
  refine congrArg (V c main_v34 : S600576x8.Idx → EReal) ?_
  funext a; apply Fin.ext
  match a with
  | ⟨0, _⟩ => show win0_1.index t (0 : Fin 2) * 1536 + 1 * r.val = (t.val / 50 % 391) * 1536 + r.val; rw [idx0_1_0]; omega
  | ⟨1, _⟩ => show win0_1.index t (1 : Fin 2) * 8 + 1 * b.val = b.val; rw [idx0_1_1]; omega

/-- The node-table block at point `t`, entry (k, d): the table's entry at row (inner coordinate)·1000 + k. -/
theorem read0_2 (c : Dev nD) (t : Fin cfg0.N) (k : Fin 1000) (d : Fin 128) :
    (iblk0 V c 2 t : Vec Ideal S1000x128 .f32) (ix2 k d)
      = (V c main_arg2 : S50000x128.Idx → EReal) (ix2 (⟨(t.val % 50) * 1000 + k.val, by omega⟩ : Fin 50000) d) := by
  show (V c main_arg2 : S50000x128.Idx → EReal) (((cfg0.win 2).blk t).view.emb (ix2 k d)) = _
  refine congrArg (V c main_arg2 : S50000x128.Idx → EReal) ?_
  funext a; apply Fin.ext
  match a with
  | ⟨0, _⟩ => show win0_2.index t (0 : Fin 2) * 1000 + 1 * k.val = (t.val % 50) * 1000 + k.val; rw [idx0_2_0]; omega
  | ⟨1, _⟩ => show win0_2.index t (1 : Fin 2) * 128 + 1 * d.val = d.val; rw [idx0_2_1]; omega

/-- The basis block at any point is the whole basis array. -/
theorem read0_3 (c : Dev nD) (t : Fin cfg0.N) (b : Fin 8) (k : Fin 128) (j : Fin 128) :
    (iblk0 V c 3 t : Vec Ideal S8x128x128 .f32) (ix3 b k j)
      = (V c main_arg3 : S8x128x128.Idx → EReal) (ix3 b k j) := by
  show (V c main_arg3 : S8x128x128.Idx → EReal) (((cfg0.win 3).blk t).view.emb (ix3 b k j)) = _
  refine congrArg (V c main_arg3 : S8x128x128.Idx → EReal) ?_
  funext a; apply Fin.ext
  match a with
  | ⟨0, _⟩ => show win0_3.index t (0 : Fin 3) * 8 + 1 * b.val = b.val; rw [idx0_3]; omega
  | ⟨1, _⟩ => show win0_3.index t (1 : Fin 3) * 128 + 1 * k.val = k.val; rw [idx0_3]; omega
  | ⟨2, _⟩ => show win0_3.index t (2 : Fin 3) * 128 + 1 * j.val = j.val; rw [idx0_3]; omega

end Reads

/-- Slab `b` of a basis block, loaded through its literal rectangle, at entry (0, k, j): the block's entry (b, k, j). -/
theorem slab_apply (B : Vec Ideal S8x128x128 .f32) (b : Fin 8) (inb : ∀ a, (![b.val, 0, 0] : Fin 3 → Nat) a + S1x128x128.size a ≤ S8x128x128.size a)
    (k : Fin 128) (j : Fin 128) :
    (View.ld B (Rect.unit (s := S8x128x128) ![b.val, 0, 0] S1x128x128.size inb) : Vec Ideal S1x128x128 .f32) (ix3 (0 : Fin 1) k j) = B (ix3 b k j) := by
  show B ((Rect.unit (s := S8x128x128) ![b.val, 0, 0] S1x128x128.size inb).emb (ix3 (0 : Fin 1) k j)) = _
  refine congrArg B ?_
  funext a; apply Fin.ext
  rw [Rect.emb_apply]
  match a with
  | ⟨0, _⟩ => show b.val + 1 * 0 = b.val; omega
  | ⟨1, _⟩ => show 0 + 1 * k.val = k.val; omega
  | ⟨2, _⟩ => show 0 + 1 * j.val = j.val; omega

/-! ## The output window: where its blocks sit and when they are written back -/

/-- An index of the output array is in point `t`'s block iff each coordinate is in the block's range on its axis. -/
theorem mem_blk4 (t : Fin cfg0.N) (i : S600576x128.Idx) :
    i ∈ ((cfg0.win 4).blk t).view.set ↔ ∀ a : Fin 2, win0_4.index t a * S1536x128.size a ≤ (i a).val ∧ (i a).val < win0_4.index t a * S1536x128.size a + S1536x128.size a := by
  show i ∈ ((View.whole main_v38).slice (win0_4.rect t)).set ↔ _
  rw [View.set_slice_whole, Rect.mem_set_unit]
  exact Iff.rfl

/-- The output block is written back exactly at the last point of each run of the inner axis. -/
theorem flush4_iff (t : Fin cfg0.N) : (cfg0.win 4).flush t = true ↔ t.val % 50 = 49 := by
  constructor
  · intro hf
    by_contra h49
    have := noFlush0_4 t (fun hc => h49 ((hcond0_1 t).mp hc))
    rw [this] at hf; exact absurd hf Bool.false_ne_true
  · intro h49
    have hN : t.val < 19550 := lt_of_lt_of_eq t.isLt N_0
    unfold Pipeline.Window.flush
    rw [Bool.and_eq_true, Bool.or_eq_true, decide_eq_true_eq, decide_eq_true_eq]
    refine ⟨rfl, ?_⟩
    by_cases hl : t.val + 1 = 19550
    · exact .inl (hl.trans N_0.symm)
    · refine .inr ⟨lt_of_lt_of_eq (show t.val + 1 < 19550 by omega) N_0.symm, fun he => ?_⟩
      have h0 := congrFun he (0 : Fin 2)
      have e1 : win0_4.index ⟨t.val + 1, lt_of_lt_of_eq (show t.val + 1 < 19550 by omega) N_0.symm⟩ (0 : Fin 2) = (t.val + 1) / 50 % 391 := idx0_4_0 _
      have e2 : win0_4.index t (0 : Fin 2) = t.val / 50 % 391 := idx0_4_0 t
      rw [e1, e2] at h0
      omega

end Cert.KernelIdeal.HandV.R0

end
-- ==== Proof.LibProductEntry.lean ====
/-
  A matrix product read at an entry.

  Both programs contract the second axis of a left matrix `[M, K]` with the first axis of a right matrix `[K, N]`.
  At the ideal values the product's entry `(p, q)` is `∑ k : Fin K, x (p, k) * w (k, q)`, whether it is the host's
  product or the kernel's matrix multiplication onto a zero accumulator. The statement is proved once for any
  dimension record whose four coordinate maps are the expected ones; each record of the two programs then supplies
  those four facts.
-/
import Idealize.ShloMosaic.PureOps.Ideal
import Idealize.ShloMosaic.PureOps.Ideal.Laws
import Idealize.ShloMosaic.Lib.ValueIdx

noncomputable section

open scoped BigOperators

namespace Cert.ProductEntry

open Idealize.ShloMosaic Idealize.ShloMosaic.ValueIdx

/-- The sum over a one-axis contraction shape, re-indexed by the axis' coordinate: for a record whose left index is
    `(p, k)` and right index `(k, q)` at output `(p, q)` and contraction position `k`. -/
theorem sum_apply {M K N : ℕ} (D : DotDims ⟨2, ![M, K]⟩ ⟨2, ![K, N]⟩ ⟨2, ![M, N]⟩)
    (hr : D.contr.rank = 1) (hs : D.contr.size ⟨0, by omega⟩ = K)
    (hl0 : ∀ i k, (D.lhsIdx i k 0).val = (i 0).val)
    (hl1 : ∀ i k, (D.lhsIdx i k 1).val = (k ⟨0, by omega⟩).val)
    (hr0 : ∀ i k, (D.rhsIdx i k 0).val = (k ⟨0, by omega⟩).val)
    (hr1 : ∀ i k, (D.rhsIdx i k 1).val = (i 1).val)
    (x : (⟨2, ![M, K]⟩ : Shape).Idx → EReal) (w : (⟨2, ![K, N]⟩ : Shape).Idx → EReal) (p : Fin M) (q : Fin N) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.ProductEntry

end
-- ==== Proof.LibKeepDims.lean ====
/-
  Column forms of a kept reduced axis, read at an index given by coordinates.

  A row statistic of an `[a, b]` block (a mean, a variance) is computed as a lane sum `[a, b] → [a]`, viewed as a
  column `[a] → [a, 1]`, and spread back over the lanes `[a, 1] → [a, b]`. Here each of the three steps is read at an
  index written by its coordinates: the column view at `(i, u)` is the vector at `i`; the spread column at `(p, c)` is
  the column at `(p, 0)`; and, at the ideal values, the lane sum at `p` is `∑ k : Fin b` of row `p`. Also one column
  of a matrix (a unit-width slice along axis 1) read at `(p, u)`.
-/
import Idealize.ShloMosaic.PureOps.Ideal
import Idealize.ShloMosaic.PureOps.Ideal.Laws
import Idealize.ShloMosaic.Lib.ValueIdx
import Idealize.ShloMosaic.Lib.ValueLayout

noncomputable section

open scoped BigOperators

namespace Idealize.ShloMosaic.KeepDims

open Idealize.ShloMosaic Idealize.ShloMosaic.ValueIdx

variable {α : Type}

/-! ## The column view of a vector, and a column spread over the lanes -/

/-- An `[a]` vector viewed as a column `[a, 1]` reads, at `(i, u)`, the vector at `i`, whatever the unit coordinate
    `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Column `o` of an `[a, n]` matrix, cut out as an `[a, 1]` slice, reads at `(p, u)` the matrix at `(p, o)`. -/
theorem column_apply {a n : ℕ} (o : ℕ) (X : (⟨2, ![a, n]⟩ : Shape).Idx → α)
    (h : (⟨2, ![a, n]⟩ : Shape).Slices ![0, o] ⟨2, ![a, 1]⟩) (p : Fin a) (u : Fin 1) (k : Fin n) (hk : k.val = o) :
    extractStridedSlice ⟨2, ![a, 1]⟩ ![0, o] X h (ix2 p u) = X (ix2 p k) :=
  slice2_axis1_apply o X h p u k (by have : u.val = 0 := by omega
                                     omega)

/-! ## The lane sum of a block, at the ideal values -/

/-- The sum over the lanes (axis 1) of an `[a, b]` block, read at row `p`, is `∑ k : Fin b` of the block's row `p`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext ax
  match ax with
  | ⟨0, _⟩ => exact Fin.ext rfl
  | ⟨1, _⟩ => exact Fin.ext rfl

end Idealize.ShloMosaic.KeepDims

end
-- ==== Proof.KV.Pay0.lean ====
/-
  The arithmetic of the gather kernel's body, read one entry at a time over the extended reals.

  One accumulation step adds, to entry (r, d) of the running block, the product of a 0/1 selection matrix with a block of
  1000 rows of the node table: the selection entry (r, k) is 1 exactly when edge r's source index is the k-th node of
  the block.  The closing step multiplies the accumulated rows by each of the eight basis matrices and combines the eight
  products with the edge's eight coefficients.
-/
import proofs.«141899_j10780367913070_1_alg».proof.Proof.Gen.KernelIdeal.Skeleton
import proofs.«141899_j10780367913070_1_alg».proof.Proof.LibProductEntry
import proofs.«141899_j10780367913070_1_alg».proof.Proof.LibKeepDims
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators
open Idealize.ShloMosaic Idealize.ShloMosaic.ValueIdx

namespace Cert.KernelIdeal.HandV

open Cert.KernelIdeal Cert.KernelIdeal.Gen

/-- A comparison bit widened to a word and converted to a float is 1 or 0. -/
theorem bit_to_real (b : BitVec 1) :
    (FloatOps.sitofp (F := Ideal) .f32 (b.setWidth 32) : EReal) = if b = 1#1 then 1 else 0 := by
  rcases BitVec.eq_zero_or_eq_one b with h | h <;> subst h
  · show ((((0#1 : BitVec 1).setWidth 32).toInt : ℝ) : EReal) = _
    simp
  · show ((((1#1 : BitVec 1).setWidth 32).toInt : ℝ) : EReal) = _
    simp

/-- Equality of two words as a comparison bit. -/
theorem cmpi_eq_one (x y : BitVec 32) : IntOp.cmpi .eq x y = 1#1 ↔ x = y := by
  show BitVec.ofBool (x == y) = 1#1 ↔ x = y
  by_cases h : x = y
  · subst h; simp
  · have hb : (x == y) = false := by simpa using h
    rw [hb]
    exact ⟨fun h' => absurd h' (by decide), fun h' => absurd h' h⟩

/-- The selection matrix times a block of the node table, at entry (p, q): the contraction runs over the block's rows. -/
theorem mm_gather (l : FVec Ideal S1536x1000 .bf16) (r : FVec Ideal S1000x128 .bf16) (p : Fin 1536) (q : Fin 128) :
    ∑ k : dot_S1536x1000_S1000x128_S1536x128_1_0_0_1_n_n.contr.Idx,
        l (dot_S1536x1000_S1000x128_S1536x128_1_0_0_1_n_n.lhsIdx (ix2 p q) k)
          * r (dot_S1536x1000_S1000x128_S1536x128_1_0_0_1_n_n.rhsIdx (ix2 p q) k)
      = ∑ k : Fin 1000, l (ix2 p k) * r (ix2 k q) :=
  Cert.ProductEntry.sum_apply dot_S1536x1000_S1000x128_S1536x128_1_0_0_1_n_n rfl rfl
    (fun i k => by
      unfold DotDims.lhsIdx
      rw [dif_neg (show ¬(0 : Fin S1536x1000.rank) ∈ dot_S1536x1000_S1000x128_S1536x128_1_0_0_1_n_n.lhsBatch by decide),
        dif_pos (show (0 : Fin S1536x1000.rank) ∈ dot_S1536x1000_S1000x128_S1536x128_1_0_0_1_n_n.lhsNonContracting by decide)]
      rfl)
    (fun i k => dot_S1536x1000_S1000x128_S1536x128_1_0_0_1_n_n.lhsIdx_val_of_single rfl i k)
    (fun i k => dot_S1536x1000_S1000x128_S1536x128_1_0_0_1_n_n.rhsIdx_val_of_single rfl i k)
    (fun i k => by
      unfold DotDims.rhsIdx
      rw [dif_neg (show ¬(1 : Fin S1000x128.rank) ∈ dot_S1536x1000_S1000x128_S1536x128_1_0_0_1_n_n.rhsBatch by decide),
        dif_pos (show (1 : Fin S1000x128.rank) ∈ dot_S1536x1000_S1000x128_S1536x128_1_0_0_1_n_n.rhsNonContracting by decide)]
      rfl)
    l r p q

/-- One accumulation step at entry (r, d): the running value plus the selected row of the node block. -/
theorem pay2_apply (i : grid0.Coords) (s : Vec Ideal S1x1536 .i32) (x : Vec Ideal S1000x128 .f32)
    (acc : Vec Ideal S1536x128 .f32) (r : Fin 1536) (d : Fin 128) :
    k0_pay2 (F := Ideal) i s x acc (ix2 r d)
      = acc (ix2 r d) + ∑ k : Fin 1000,
          (if s (ix2 (0 : Fin 1) r) = BitVec.ofNat 32 (i 1).val * 1000#32 + BitVec.ofNat 32 k.val then (1 : EReal) else 0)
            * x (ix2 k d) := by
  unfold k0_pay2
  dsimp only
  rw [Idealize.ShloMosaic.shapeCast_self]
  rw [addf_apply]
  simp only [matmul]
  rw [Ideal.matmul_constant_zero_apply, mm_gather]
  refine congrArg (acc (ix2 r d) + ·) (Finset.sum_congr rfl fun k _ => ?_)
  refine congrArg (· * x (ix2 k d)) ?_
  show FloatOps.sitofp (F := Ideal) .f32 ((IntOp.cmpi .eq _ _).setWidth 32) = _
  rw [bit_to_real]
  simp only [cmpi_eq_one]
  rw [KeepDims.broadcastTo_a1_ab_apply, KeepDims.shapeCast_a_a1_apply, shapeCast_1a_a_apply, broadcastTo_1b_ab_apply]
  show (if s (ix2 (0 : Fin 1) r) = IntOp.addi (Scalar.muli (BitVec.ofNat 32 (i 1).val) 1000#32) (iota .tc S1x1000 32 [1] iota_S1x1000_d1_w32 (ix2 (0 : Fin 1) k)) then (1 : EReal) else 0) = _
  rw [iota_single_apply]
  rfl

/-- A row block times one basis matrix, at entry (p, q). -/
theorem mm_basis (l : FVec Ideal S1536x128 .bf16) (r : FVec Ideal S128x128 .bf16) (p : Fin 1536) (q : Fin 128) :
    ∑ k : dot_S1536x128_S128x128_S1536x128_1_0_0_1_n_n.contr.Idx,
        l (dot_S1536x128_S128x128_S1536x128_1_0_0_1_n_n.lhsIdx (ix2 p q) k)
          * r (dot_S1536x128_S128x128_S1536x128_1_0_0_1_n_n.rhsIdx (ix2 p q) k)
      = ∑ k : Fin 128, l (ix2 p k) * r (ix2 k q) :=
  Cert.ProductEntry.sum_apply dot_S1536x128_S128x128_S1536x128_1_0_0_1_n_n rfl rfl
    (fun i k => by
      unfold DotDims.lhsIdx
      rw [dif_neg (show ¬(0 : Fin S1536x128.rank) ∈ dot_S1536x128_S128x128_S1536x128_1_0_0_1_n_n.lhsBatch by decide),
        dif_pos (show (0 : Fin S1536x128.rank) ∈ dot_S1536x128_S128x128_S1536x128_1_0_0_1_n_n.lhsNonContracting by decide)]
      rfl)
    (fun i k => dot_S1536x128_S128x128_S1536x128_1_0_0_1_n_n.lhsIdx_val_of_single rfl i k)
    (fun i k => dot_S1536x128_S128x128_S1536x128_1_0_0_1_n_n.rhsIdx_val_of_single rfl i k)
    (fun i k => by
      unfold DotDims.rhsIdx
      rw [dif_neg (show ¬(1 : Fin S128x128.rank) ∈ dot_S1536x128_S128x128_S1536x128_1_0_0_1_n_n.rhsBatch by decide),
        dif_pos (show (1 : Fin S128x128.rank) ∈ dot_S1536x128_S128x128_S1536x128_1_0_0_1_n_n.rhsNonContracting by decide)]
      rfl)
    l r p q

/-- One basis term of an edge's message at entry (r, j): the edge's coefficient for that basis times the accumulated source
    row contracted with the basis matrix. -/
theorem term_apply (b : ℕ) (hb : b < 8) (w : FVec Ideal S1536x8 .f32) (h1 : S1536x8.Slices ![0, b] S1536x1)
    (S : FVec Ideal S1536x128 .bf16) (B : Vec Ideal S1x128x128 .f32) (r : Fin 1536) (j : Fin 128) :
    mulf (broadcastTo S1536x128 (extractStridedSlice S1536x1 ![0, b] w h1) broadcasts_S1536x1_S1536x128)
        (matmul dot_S1536x128_S128x128_S1536x128_1_0_0_1_n_n none S
          (truncf .bf16 (shapeCast S128x128 B shapeCasts_S1x128x128_S128x128) bitsLt_bf16_f32)
          (constant S1536x128 .f32 0x00000000#32)) (ix2 r j)
      = w (ix2 r (⟨b, hb⟩ : Fin 8)) * ∑ k : Fin 128, S (ix2 r k) * B (ix3 (0 : Fin 1) k j) := by
  rw [mulf_apply]
  simp only [matmul]
  rw [Ideal.matmul_constant_zero_apply, mm_basis, KeepDims.broadcastTo_a1_ab_apply,
    KeepDims.column_apply b w h1 r (0 : Fin 1) (⟨b, hb⟩ : Fin 8) rfl]
  refine congrArg (w (ix2 r (⟨b, hb⟩ : Fin 8)) * ·) (Finset.sum_congr rfl fun k _ => ?_)
  refine congrArg (S (ix2 r k) * ·) ?_
  rw [truncf_apply, shapeCast_1ab_ab_apply]

/-- The closing step at entry (r, j): from the accumulated source rows `S`, the block's coefficients `w` and the eight
    basis matrices, the edge's message in the kernel's own grouping of the eight terms. -/
theorem message_apply (S : Vec Ideal S1536x128 .f32) (w : Vec Ideal S1536x8 .f32)
    (B0 B1 B2 B3 B4 B5 B6 B7 : Vec Ideal S1x128x128 .f32) (r : Fin 1536) (j : Fin 128) :
    k0_pay3 (F := Ideal) (k0_pay4 w) (k0_pay5 S) (k0_pay6 S w B0 B1 B2 B3) B4 B5 B6 B7 (ix2 r j)
      = ((((((((0 + w (ix2 r 0) * ∑ k : Fin 128, S (ix2 r k) * B0 (ix3 (0 : Fin 1) k j))
          + w (ix2 r 1) * ∑ k : Fin 128, S (ix2 r k) * B1 (ix3 (0 : Fin 1) k j))
          + w (ix2 r 2) * ∑ k : Fin 128, S (ix2 r k) * B2 (ix3 (0 : Fin 1) k j))
          + w (ix2 r 3) * ∑ k : Fin 128, S (ix2 r k) * B3 (ix3 (0 : Fin 1) k j))
          + w (ix2 r 4) * ∑ k : Fin 128, S (ix2 r k) * B4 (ix3 (0 : Fin 1) k j))
          + w (ix2 r 5) * ∑ k : Fin 128, S (ix2 r k) * B5 (ix3 (0 : Fin 1) k j))
          + w (ix2 r 6) * ∑ k : Fin 128, S (ix2 r k) * B6 (ix3 (0 : Fin 1) k j))
          + w (ix2 r 7) * ∑ k : Fin 128, S (ix2 r k) * B7 (ix3 (0 : Fin 1) k j)) := by
  unfold k0_pay3 k0_pay6 k0_pay4 k0_pay5
  dsimp only
  simp only [Idealize.ShloMosaic.shapeCast_self]
  rw [addf_apply, addf_apply, addf_apply, addf_apply, addf_apply, addf_apply, addf_apply, addf_apply]
  rw [term_apply 0 (by omega), term_apply 1 (by omega), term_apply 2 (by omega), term_apply 3 (by omega),
    term_apply 4 (by omega), term_apply 5 (by omega), term_apply 6 (by omega), term_apply 7 (by omega)]
  rw [broadcast_apply]
  show ((((((((Ideal.ofBits .f32 0x00000000#32 + _) + _) + _) + _) + _) + _) + _) + _) = _
  rw [Ideal.ofBits_zero_f32]
  rfl

end Cert.KernelIdeal.HandV
-- ==== Proof.KV.OneHot.lean ====
/-
  A 0/1 selection over the node table collapses to one row.

  The node table's 50000 rows are visited as 50 blocks of 1000.  For a node number σ with 0 ≤ σ < 50000, written as a
  32-bit word, the word of row k of block s is s·1000 + k, which does not wrap (it is below 50000 < 2³²); so it equals σ
  exactly when s = σ / 1000 and k = σ % 1000.  A sum of the rows weighted by "this row's word is σ" (1 or 0) is then the
  single row σ: over the extended reals 1·x = x and 0·x = 0 for every x, infinite ones included.
-/
import Mathlib.Data.EReal.Inv
import Mathlib.Algebra.BigOperators.Group.Finset.Basic
import Mathlib.Algebra.BigOperators.Fin

open scoped BigOperators

namespace Cert.OneHot

/-- The word of row k of block s, as a number: no wrap-around. -/
theorem word_toNat (s k : ℕ) (hs : s < 50) (hk : k < 1000) :
    (BitVec.ofNat 32 s * 1000#32 + BitVec.ofNat 32 k).toNat = s * 1000 + k := by
  simp only [BitVec.toNat_add, BitVec.toNat_mul, BitVec.toNat_ofNat]
  omega

/-- A signed word in [0, 50000) read unsigned. -/
theorem toNat_lt (σ : BitVec 32) (h0 : 0 ≤ σ.toInt) (h1 : σ.toInt < 50000) : σ.toNat < 50000 := by
  have e := BitVec.toInt_eq_toNat_cond σ
  have := σ.isLt
  omega

/-- Row k of block s has word σ exactly when (s, k) are σ's quotient and remainder by 1000. -/
theorem word_eq_iff (σ : BitVec 32) (hn : σ.toNat < 50000) (s k : ℕ) (hs : s < 50) (hk : k < 1000) :
    σ = BitVec.ofNat 32 s * 1000#32 + BitVec.ofNat 32 k ↔ s = σ.toNat / 1000 ∧ k = σ.toNat % 1000 := by
  constructor
  · intro e
    have e' : σ.toNat = s * 1000 + k := by rw [e]; exact word_toNat s k hs hk
    omega
  · rintro ⟨e1, e2⟩
    apply BitVec.eq_of_toNat_eq
    rw [word_toNat s k hs hk]
    omega

/-- The selection sum over blocks `s < 50` (as a range) and rows `k` of a block is row σ. -/
theorem collapse (σ : BitVec 32) (h0 : 0 ≤ σ.toInt) (h1 : σ.toInt < 50000) (X : ℕ → EReal) :
    (0 : EReal) + ∑ s ∈ Finset.range 50, ∑ k : Fin 1000,
        (if σ = BitVec.ofNat 32 s * 1000#32 + BitVec.ofNat 32 k.val then (1 : EReal) else 0) * X (s * 1000 + k.val)
      = X σ.toNat := by
  have hn : σ.toNat < 50000 := toNat_lt σ h0 h1
  have hq : σ.toNat / 1000 < 50 := by omega
  have hr : σ.toNat % 1000 < 1000 := Nat.mod_lt _ (by norm_num)
  rw [zero_add, Finset.sum_eq_single (σ.toNat / 1000)]
  · rw [Finset.sum_eq_single (⟨σ.toNat % 1000, hr⟩ : Fin 1000)]
    · rw [if_pos ((word_eq_iff σ hn _ _ hq hr).2 ⟨rfl, rfl⟩), one_mul]
      congr 1
      show σ.toNat / 1000 * 1000 + σ.toNat % 1000 = σ.toNat
      omega
    · intro k _ hk
      rw [if_neg, zero_mul]
      intro e
      exact hk (Fin.ext ((word_eq_iff σ hn _ _ hq k.isLt).1 e).2)
    · intro h; exact absurd (Finset.mem_univ _) h
  · intro s hs hne
    refine Finset.sum_eq_zero fun k _ => ?_
    rw [if_neg, zero_mul]
    intro e
    exact hne ((word_eq_iff σ hn _ _ (Finset.mem_range.1 hs) k.isLt).1 e).1
  · intro h; exact absurd (Finset.mem_range.2 hq) h

/-- The same with the blocks indexed by `Fin 50`. -/
theorem collapse_fin (σ : BitVec 32) (h0 : 0 ≤ σ.toInt) (h1 : σ.toInt < 50000) (X : ℕ → EReal) :
    (0 : EReal) + ∑ s : Fin 50, ∑ k : Fin 1000,
        (if σ = BitVec.ofNat 32 s.val * 1000#32 + BitVec.ofNat 32 k.val then (1 : EReal) else 0) * X (s.val * 1000 + k.val)
      = X σ.toNat := by
  rw [← collapse σ h0 h1 X, Finset.sum_range]

end Cert.OneHot
-- ==== Proof.KV.Val0Fold.lean ====
import proofs.«141899_j10780367913070_1_alg».proof.Proof.KV.Val0Blocks
import proofs.«141899_j10780367913070_1_alg».proof.Proof.KV.Pay0
import proofs.«141899_j10780367913070_1_alg».proof.Proof.KV.OneHot

set_option maxRecDepth 16384

noncomputable section

open scoped BigOperators
open Idealize.ShloMosaic Idealize.ShloMosaic.TcCoe Idealize.ShloMosaic.ValueIdx
open Idealize.SL Idealize.SL.Sem
open Idealize.ShloMosaic.Pipeline (Dat Cfg Window)

namespace Cert.KernelIdeal.HandV.R0

open Cert.KernelIdeal Cert.KernelIdeal.Gen Cert.KernelIdeal.Hand

/-! # Region 0: the scratch at the last point of a run is the selected row of the node table

Over a run of the inner axis (50 points) the scratch is reset to the point's one-hot product and then each later point
adds its own: at the run's last point it holds, at entry (r, d), the sum over the 50 points of the block products,
which is one sum over all 50000 rows of the table of a 0/1 selection times the row's entry — the entry of the row the
position's source word names. -/

/-- The source word at padded edge position `n` (the last position past the array, so that the function is total). -/
def srcAt (SRC : S1x600576.Idx → BitVec 32) (n : ℕ) : BitVec 32 :=
  SRC (ix2 (0 : Fin 1) (⟨min n 600575, by omega⟩ : Fin 600576))

/-- Channel `d` of row `n` of the node table (the last row past the table, so that the function is total). -/
def rowAt (X : S50000x128.Idx → EReal) (d : Fin 128) (n : ℕ) : EReal :=
  X (ix2 (⟨min n 49999, by omega⟩ : Fin 50000) d)

/-- What point `n` adds to the scratch at entry (r, d): the block of 1000 table rows the point holds, each row's
    entry times 1 if the position's source word is that row's number and 0 otherwise. -/
def addend (SRC : S1x600576.Idx → BitVec 32) (X : S50000x128.Idx → EReal) (n : ℕ) (p : Fin 1536 × Fin 128) : EReal :=
  ∑ k : Fin 1000,
    (if srcAt SRC ((n / 50 % 391) * 1536 + p.1.val) = BitVec.ofNat 32 (n % 50) * 1000#32 + BitVec.ofNat 32 k.val then (1 : EReal) else 0)
      * rowAt X p.2 ((n % 50) * 1000 + k.val)

/-- The reset payload is zero everywhere. -/
theorem pay1_apply (i : S1536x128.Idx) : k0_pay1 (F := Ideal) i = 0 := by
  unfold k0_pay1
  (try dsimp only)
  rw [Idealize.ShloMosaic.shapeCast_self, broadcast_apply]
  exact Ideal.ofBits_zero_f32

section Fold
variable (V : (c : Dev nD) → (b : Ref sig .tc) → Buf (Elt Ideal) ((c : Thread nD τ).loc b))

/-- One accumulation step at point `t`, entry (r, d), over the arrays as the region finds them. -/
theorem pay2_point (c : Dev nD) (t : Fin cfg0.N) (acc : Vec Ideal S1536x128 .f32) (r : Fin 1536) (d : Fin 128) :
    k0_pay2 (F := Ideal) (grid0.coords t) (iblk0 V c 0 t) (iblk0 V c 2 t) acc (ix2 r d)
      = acc (ix2 r d) + addend (V c main_v35) (V c main_arg2) t.val (r, d) := by
  refine (pay2_apply (grid0.coords t) (iblk0 V c 0 t) (iblk0 V c 2 t) acc r d).trans ?_
  refine congrArg (acc (ix2 r d) + ·) (Finset.sum_congr rfl fun k _ => ?_)
  rw [read0_0 V c t r, read0_2 V c t k d, coord0_inner]
  have hN : t.val < 19550 := lt_of_lt_of_eq t.isLt N_0
  have e0 : srcAt (V c main_v35) ((t.val / 50 % 391) * 1536 + r.val)
      = (V c main_v35 : S1x600576.Idx → BitVec 32) (ix2 (0 : Fin 1) (⟨(t.val / 50 % 391) * 1536 + r.val, by omega⟩ : Fin 600576)) := by
    unfold srcAt
    refine congrArg (fun e : Fin 600576 => (V c main_v35 : S1x600576.Idx → BitVec 32) (ix2 (0 : Fin 1) e)) (Fin.ext ?_)
    show min ((t.val / 50 % 391) * 1536 + r.val) 600575 = (t.val / 50 % 391) * 1536 + r.val
    omega
  have e2 : rowAt (V c main_arg2) d ((t.val % 50) * 1000 + k.val)
      = (V c main_arg2 : S50000x128.Idx → EReal) (ix2 (⟨(t.val % 50) * 1000 + k.val, by omega⟩ : Fin 50000) d) := by
    unfold rowAt
    refine congrArg (fun e : Fin 50000 => (V c main_arg2 : S50000x128.Idx → EReal) (ix2 e d)) (Fin.ext ?_)
    show min ((t.val % 50) * 1000 + k.val) 49999 = (t.val % 50) * 1000 + k.val
    omega
  rw [e0, e2]

/-- The scratch after point `n`, entry by entry. -/
def scrAt (c : Dev nD) (n : ℕ) (h : n < cfg0.N) : Fin 1536 × Fin 128 → EReal :=
  fun p => ((outsAt0 V c n h).2 : Vec Ideal S1536x128 .f32) (ix2 p.1 p.2)

/-- THE FOLD: at any point the scratch is the sum of the addends of the points of its run so far. -/
theorem scrAt_sum (c : Dev nD) (t : Fin cfg0.N) (p : Fin 1536 × Fin 128) :
    scrAt V c t.val t.isLt p
      = 0 + ∑ s ∈ Finset.range (t.val % 50 + 1), addend (V c main_v35) (V c main_arg2) (50 * (t.val / 50) + s) p := by
  have h' : 50 * (t.val / 50) + t.val % 50 < cfg0.N := by rw [Nat.div_add_mod]; exact t.isLt
  rw [Pipeline.eq_accAt_of_mod (scrAt V c) 50
    (fun n _ p => 0 + addend (V c main_v35) (V c main_arg2) n p)
    (fun n _ acc p => acc p + addend (V c main_v35) (V c main_arg2) n p)
    (fun n h e => funext fun p => by
      show ((outsAt0 V c n h).2 : Vec Ideal S1536x128 .f32) (ix2 p.1 p.2) = _
      rw [scr0_first V c ⟨n, h⟩ e, pay2_point V c ⟨n, h⟩ (k0_pay1 (F := Ideal)) p.1 p.2, pay1_apply])
    (fun n h e => funext fun p => by
      show ((outsAt0 V c (n + 1) h).2 : Vec Ideal S1536x128 .f32) (ix2 p.1 p.2) = _
      rw [scr0_next V c ⟨n + 1, h⟩ e, pay2_point V c ⟨n + 1, h⟩ _ p.1 p.2]
      rfl)
    (by norm_num) t.val t.isLt h']
  exact Pipeline.accAt_add_apply _ _ (fun _ => 0) (addend (V c main_v35) (V c main_arg2)) (50 * (t.val / 50)) 49
    (fun _ _ => rfl) (fun _ _ _ _ _ _ => rfl) (t.val % 50) (by omega) h' p

/-- At the last point of a run the scratch holds, at entry (r, d), channel `d` of the table row the position's source
    word names (the word a node number below 50000). -/
theorem scr_last (c : Dev nD) (t : Fin cfg0.N) (h49 : t.val % 50 = 49) (r : Fin 1536) (d : Fin 128)
    (h0 : 0 ≤ (srcAt (V c main_v35) ((t.val / 50 % 391) * 1536 + r.val)).toInt)
    (h1 : (srcAt (V c main_v35) ((t.val / 50 % 391) * 1536 + r.val)).toInt < 50000) :
    ((outsAt0 V c t.val t.isLt).2 : Vec Ideal S1536x128 .f32) (ix2 r d)
      = (V c main_arg2 : S50000x128.Idx → EReal) (ix2 (rowOf (srcAt (V c main_v35) ((t.val / 50 % 391) * 1536 + r.val))) d) := by
  have hN : t.val < 19550 := lt_of_lt_of_eq t.isLt N_0
  refine (scrAt_sum V c t (r, d)).trans ?_
  rw [h49]
  refine Eq.trans ?_ (Cert.OneHot.collapse _ h0 h1 (rowAt (V c main_arg2) d))
  refine congrArg ((0 : EReal) + ·) (Finset.sum_congr rfl fun s hs => ?_)
  have hs' : s < 50 := Finset.mem_range.mp hs
  unfold addend
  have e1 : (50 * (t.val / 50) + s) / 50 % 391 = t.val / 50 % 391 := by omega
  have e2 : (50 * (t.val / 50) + s) % 50 = s := by omega
  rw [e1, e2]

end Fold

end Cert.KernelIdeal.HandV.R0

end
-- ==== Proof.KV.Val0.lean ====
import proofs.«141899_j10780367913070_1_alg».proof.Proof.KV.Val0Fold

set_option maxRecDepth 16384

noncomputable section

open scoped BigOperators
open Idealize.ShloMosaic Idealize.ShloMosaic.TcCoe Idealize.ShloMosaic.ValueIdx
open Idealize.SL Idealize.SL.Sem
open Idealize.ShloMosaic.Pipeline (Dat Cfg Window)

namespace Cert.KernelIdeal.HandV.R0

open Cert.KernelIdeal Cert.KernelIdeal.Gen Cert.KernelIdeal.Hand

/-! # Region 0: the output array after the region, entry by entry

At the last point of each run of the inner axis the body stores the message payload of the accumulated scratch into the
output block, and the pipeline writes the block back; the blocks of these points tile the output array. So the array
ends holding, at padded edge position e and channel j, the message of the table row the position's source word names. -/

/-- The message payload at entry (r, j), over any readings of its operands at that row: the eight terms in the kernel's
    own grouping. -/
theorem message_congr (S : Vec Ideal S1536x128 .f32) (w : Vec Ideal S1536x8 .f32)
    (B0 B1 B2 B3 B4 B5 B6 B7 : Vec Ideal S1x128x128 .f32) (r : Fin 1536) (j : Fin 128)
    (S' : Fin 128 → EReal) (w' : Fin 8 → EReal) (B' : Fin 8 → Fin 128 → EReal)
    (hS : ∀ k, S (ix2 r k) = S' k) (hw : ∀ b, w (ix2 r b) = w' b)
    (hB0 : ∀ k, B0 (ix3 (0 : Fin 1) k j) = B' 0 k) (hB1 : ∀ k, B1 (ix3 (0 : Fin 1) k j) = B' 1 k) (hB2 : ∀ k, B2 (ix3 (0 : Fin 1) k j) = B' 2 k) (hB3 : ∀ k, B3 (ix3 (0 : Fin 1) k j) = B' 3 k) (hB4 : ∀ k, B4 (ix3 (0 : Fin 1) k j) = B' 4 k) (hB5 : ∀ k, B5 (ix3 (0 : Fin 1) k j) = B' 5 k) (hB6 : ∀ k, B6 (ix3 (0 : Fin 1) k j) = B' 6 k) (hB7 : ∀ k, B7 (ix3 (0 : Fin 1) k j) = B' 7 k) :
    k0_pay3 (F := Ideal) (k0_pay4 w) (k0_pay5 S) (k0_pay6 S w B0 B1 B2 B3) B4 B5 B6 B7 (ix2 r j)
      = ((((((((0 + w' 0 * ∑ k : Fin 128, S' k * B' 0 k) + w' 1 * ∑ k : Fin 128, S' k * B' 1 k) + w' 2 * ∑ k : Fin 128, S' k * B' 2 k) + w' 3 * ∑ k : Fin 128, S' k * B' 3 k) + w' 4 * ∑ k : Fin 128, S' k * B' 4 k) + w' 5 * ∑ k : Fin 128, S' k * B' 5 k) + w' 6 * ∑ k : Fin 128, S' k * B' 6 k) + w' 7 * ∑ k : Fin 128, S' k * B' 7 k) := by
  rw [message_apply]
  simp only [hS, hw, hB0, hB1, hB2, hB3, hB4, hB5, hB6, hB7]

section Final
variable (V : (c : Dev nD) → (b : Ref sig .tc) → Buf (Elt Ideal) ((c : Thread nD τ).loc b))

/-- Inside the array the total reading of the source words is the array's. -/
theorem srcAt_eq (c : Dev nD) (e : Fin 600576) :
    srcAt (V c main_v35) e.val = (V c main_v35 : S1x600576.Idx → BitVec 32) (ix2 (0 : Fin 1) e) := by
  unfold srcAt
  refine congrArg (fun e' : Fin 600576 => (V c main_v35 : S1x600576.Idx → BitVec 32) (ix2 (0 : Fin 1) e')) (Fin.ext ?_)
  show min e.val 600575 = e.val
  omega

/-- WHAT A FLUSHING POINT LEAVES in the output block, entry (r, j): the message of padded edge position
    (outer coordinate)·1536 + r. -/
theorem flushed4_apply (c : Dev nD)
    (hsrc : ∀ e : Fin 600576, 0 ≤ ((V c main_v35 : S1x600576.Idx → BitVec 32) (ix2 (0 : Fin 1) e)).toInt
      ∧ ((V c main_v35 : S1x600576.Idx → BitVec 32) (ix2 (0 : Fin 1) e)).toInt < 50000)
    (t : Fin cfg0.N) (h49 : t.val % 50 = 49) (r : Fin 1536) (j : Fin 128) :
    ((outsAt0 V c t.val t.isLt).1 : Vec Ideal S1536x128 .f32) (ix2 r j)
      = zmsgAt (V c main_v35) (V c main_v34) (V c main_arg2) (V c main_arg3) (⟨(t.val / 50 % 391) * 1536 + r.val, by omega⟩ : Fin 600576) j := by
  have hσ := srcAt_eq V c (⟨(t.val / 50 % 391) * 1536 + r.val, by omega⟩ : Fin 600576)
  have hS : ∀ k : Fin 128, ((outsAt0 V c t.val t.isLt).2 : Vec Ideal S1536x128 .f32) (ix2 r k)
      = (V c main_arg2 : S50000x128.Idx → EReal) (ix2 (rowOf ((V c main_v35 : S1x600576.Idx → BitVec 32) (ix2 (0 : Fin 1) (⟨(t.val / 50 % 391) * 1536 + r.val, by omega⟩ : Fin 600576)))) k) := fun k => by
    rw [← hσ]
    exact scr_last V c t h49 r k (by rw [hσ]; exact (hsrc _).1) (by rw [hσ]; exact (hsrc _).2)
  rw [out0_last V c t h49]
  exact message_congr _ (iblk0 V c 1 t) _ _ _ _ _ _ _ _ r j
    (fun k => (V c main_arg2 : S50000x128.Idx → EReal) (ix2 (rowOf ((V c main_v35 : S1x600576.Idx → BitVec 32) (ix2 (0 : Fin 1) (⟨(t.val / 50 % 391) * 1536 + r.val, by omega⟩ : Fin 600576)))) k))
    (fun b => (V c main_v34 : S600576x8.Idx → EReal) (ix2 (⟨(t.val / 50 % 391) * 1536 + r.val, by omega⟩ : Fin 600576) b))
    (fun b k => (V c main_arg3 : S8x128x128.Idx → EReal) (ix3 b k j))
    hS (fun b => read0_1 V c t r b)
    (fun k => (slab_apply (iblk0 V c 3 t) 0 inb_S8x128x128_S1x128x128_0_0_0 k j).trans (read0_3 V c t 0 k j))
    (fun k => (slab_apply (iblk0 V c 3 t) 1 inb_S8x128x128_S1x128x128_1_0_0 k j).trans (read0_3 V c t 1 k j))
    (fun k => (slab_apply (iblk0 V c 3 t) 2 inb_S8x128x128_S1x128x128_2_0_0 k j).trans (read0_3 V c t 2 k j))
    (fun k => (slab_apply (iblk0 V c 3 t) 3 inb_S8x128x128_S1x128x128_3_0_0 k j).trans (read0_3 V c t 3 k j))
    (fun k => (slab_apply (iblk0 V c 3 t) 4 inb_S8x128x128_S1x128x128_4_0_0 k j).trans (read0_3 V c t 4 k j))
    (fun k => (slab_apply (iblk0 V c 3 t) 5 inb_S8x128x128_S1x128x128_5_0_0 k j).trans (read0_3 V c t 5 k j))
    (fun k => (slab_apply (iblk0 V c 3 t) 6 inb_S8x128x128_S1x128x128_6_0_0 k j).trans (read0_3 V c t 6 k j))
    (fun k => (slab_apply (iblk0 V c 3 t) 7 inb_S8x128x128_S1x128x128_7_0_0 k j).trans (read0_3 V c t 7 k j))

/-- The output array as one function of the arrays the region reads. -/
def zmsgArr (c : Dev nD) : S600576x128.Idx → EReal :=
  fun i => zmsgAt (V c main_v35) (V c main_v34) (V c main_arg2) (V c main_arg3) (i 0) (i 1)

/-- WHAT POINT `t` WRITES BACK is block `t` of that function. -/
theorem flushed4_eq (c : Dev nD)
    (hsrc : ∀ e : Fin 600576, 0 ≤ ((V c main_v35 : S1x600576.Idx → BitVec 32) (ix2 (0 : Fin 1) e)).toInt
      ∧ ((V c main_v35 : S1x600576.Idx → BitVec 32) (ix2 (0 : Fin 1) e)).toInt < 50000)
    (t : Fin cfg0.N) (hf : (cfg0.win 4).flush t = true) :
    (dat0 V c).flushed 4 t = ((cfg0.win 4).blk t).view.read (Elt Ideal) (zmsgArr V c) := by
  have h49 := (flush4_iff t).mp hf
  show (cfg0.win 4).cut (grid0.coords t) ((dat0 V c).after 4 t) = _
  rw [after0_4]
  funext y
  obtain ⟨r, j, rfl⟩ : ∃ (r : Fin 1536) (j : Fin 128), y = ix2 r j := ⟨y 0, y 1, eq_ix2 y⟩
  show ((outsAt0 V c t.val t.isLt).1 : Vec Ideal S1536x128 .f32) (ix2 r j) = zmsgArr V c (((cfg0.win 4).blk t).view.emb (ix2 r j))
  have e0 : (((cfg0.win 4).blk t).view.emb (ix2 r j)) 0 = (⟨(t.val / 50 % 391) * 1536 + r.val, by omega⟩ : Fin 600576) :=
    Fin.ext (by show win0_4.index t (0 : Fin 2) * 1536 + 1 * r.val = (t.val / 50 % 391) * 1536 + r.val; rw [idx0_4_0]; omega)
  have e1 : (((cfg0.win 4).blk t).view.emb (ix2 r j)) 1 = j :=
    Fin.ext (by show win0_4.index t (1 : Fin 2) * 128 + 1 * j.val = j.val; rw [idx0_4_1]; omega)
  exact (flushed4_apply V c hsrc t h49 r j).trans
    (congrArg₂ (zmsgAt (V c main_v35) (V c main_v34) (V c main_arg2) (V c main_arg3)) e0.symm e1.symm)

/-- Every index of the output array is in the block some flushing point writes back. -/
theorem cover4 (i : S600576x128.Idx) :
    ∃ t : Fin cfg0.N, (cfg0.win 4).flush t = true ∧ i ∈ ((cfg0.win 4).blk t).view.set := by
  have hi0 : (i 0).val < 600576 := (i 0).isLt
  have hi1 : (i 1).val < 128 := (i 1).isLt
  refine ⟨⟨(i 0).val / 1536 * 50 + 49, lt_of_lt_of_eq (show (i 0).val / 1536 * 50 + 49 < 19550 by omega) N_0.symm⟩, ?_, ?_⟩
  · rw [flush4_iff]; show ((i 0).val / 1536 * 50 + 49) % 50 = 49; omega
  · rw [mem_blk4]
    intro a
    match a with
    | ⟨0, _⟩ =>
      show win0_4.index _ (0 : Fin 2) * 1536 ≤ (i 0).val ∧ (i 0).val < win0_4.index _ (0 : Fin 2) * 1536 + 1536
      rw [idx0_4_0]
      show ((i 0).val / 1536 * 50 + 49) / 50 % 391 * 1536 ≤ (i 0).val ∧ (i 0).val < ((i 0).val / 1536 * 50 + 49) / 50 % 391 * 1536 + 1536
      omega
    | ⟨1, _⟩ =>
      show win0_4.index _ (1 : Fin 2) * 128 ≤ (i 1).val ∧ (i 1).val < win0_4.index _ (1 : Fin 2) * 128 + 128
      rw [idx0_4_1]; omega

/-- THE ARRAY after the region: the message function, everywhere. -/
theorem final0_arr (c : Dev nD)
    (hsrc : ∀ e : Fin 600576, 0 ≤ ((V c main_v35 : S1x600576.Idx → BitVec 32) (ix2 (0 : Fin 1) e)).toInt
      ∧ ((V c main_v35 : S1x600576.Idx → BitVec 32) (ix2 (0 : Fin 1) e)).toInt < 50000) :
    (dat0 V c).arrAt 4 cfg0.N = zmsgArr V c :=
  (dat0 V c).arrAt_eq_of_cover 4 (zmsgArr V c) (fun t hf => flushed4_eq V c hsrc t hf) cover4

/-- THE ARRAY after the region, at padded edge position `e` and channel `j`. -/
theorem final0 (c : Dev nD)
    (hsrc : ∀ e : Fin 600576, 0 ≤ ((V c main_v35 : S1x600576.Idx → BitVec 32) (ix2 (0 : Fin 1) e)).toInt
      ∧ ((V c main_v35 : S1x600576.Idx → BitVec 32) (ix2 (0 : Fin 1) e)).toInt < 50000)
    (e : Fin 600576) (j : Fin 128) :
    ((dat0 V c).arrAt 4 cfg0.N : S600576x128.Idx → EReal) (ix2 e j)
      = zmsgAt (V c main_v35) (V c main_v34) (V c main_arg2) (V c main_arg3) e j := by
  rw [final0_arr V c hsrc]
  rfl

end Final

end Cert.KernelIdeal.HandV.R0

end
-- ==== Proof.KI.R1Frame.lean ====
/- Region 1 (the scatter kernel, pipeline 1): the VALUE of what its body leaves. Each control case's found pieces read
   back as the body's named payloads, and from them the recurrence of the carried scratch over the grid points: at the
   first point of a run of the inner axis the reset value plus that point's one-hot product, at every later point the
   previous contents plus the point's product; at the last point of the run the output window holds the scratch. -/
import proofs.«141899_j10780367913070_1_alg».proof.Proof.KI.R1Body
import Idealize.ShloMosaic.Lib.Pipeline.Value

-- membership in a rectangle of large extents: the elaborator's structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of the whole-buffer rectangles, however spelt. -/
theorem r1_zero2 : (![0, 0] : Fin 2 → Nat) = fun _ => 0 := funext fun a => by fin_cases a <;> rfl

/-- THE FIRST CASE's value: the body stores the reset value (the product of the node block with the root weights plus
    the bias), reads it back, and leaves it plus this point's one-hot product in the scratch — the read-back is the
    run's own named intermediate (a covered load of the first store). -/
theorem sout1_A_0_eq (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : cond1_0 i) (hc1 : ¬cond1_1 i)
    (x0 : Vec F S1x1536 .i32) (x1 : Vec F S1536x128 .f32) (x2 : Vec F S1000x128 .f32) (x3 : Vec F S128x128 .f32) (x4 : Vec F S1x128 .f32) :
    sout1_A_0 c i arg2 harg2 arg3 harg3 arg4 harg4 arg5 harg5 arg6 harg6 arg7 harg7 arg8 harg8 hc0 hc1 x0 x1 x2 x3 x4 = k1_pay2 i x0 x1 (k1_pay1 x2 x3 x4) := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S1000x128) r1_zero2, View.readCov_unit_zero (S := S1000x128) _ r1_zero2]
  simp only [View.readAt_eq_ld, harg2.read_unread, harg3.read_unread, harg4.read_unread, harg5.read_unread, harg6.read_unread, harg8.read_unread, View.ld_unit_zero (S := S1x1536) r1_zero2, View.ld_unit_zero (S := S1536x128) r1_zero2, View.ld_unit_zero (S := S1000x128) r1_zero2, View.ld_unit_zero (S := S128x128) r1_zero2, View.ld_unit_zero (S := S1x128) r1_zero2]

/-- THE MIDDLE CASE's value: the scratch holding `xs0` is left at `xs0` plus this point's one-hot product — its one
    covering store's payload, whose loads read the whole buffers. -/
theorem sout1_B_0_eq (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : ¬cond1_1 i)
    (x0 : Vec F S1x1536 .i32) (x1 : Vec F S1536x128 .f32) (x2 : Vec F S1000x128 .f32) (x3 : Vec F S128x128 .f32) (x4 : Vec F S1x128 .f32) (xs0 : Vec F S1000x128 .f32) :
    sout1_B_0 c i arg2 harg2 arg3 harg3 arg4 harg4 arg5 harg5 arg6 harg6 arg7 harg7 arg8 harg8 hc0 hc1 x0 x1 x2 x3 x4 xs0 = k1_pay2 i x0 x1 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  rw [View.canon_unit_zero r1_zero2]
  simp only [View.readAt_eq_ld, harg2.read_unread, harg3.read_unread, harg4.read_unread, harg5.read_unread, harg6.read_unread, harg8.read_unread, View.ld_unit_zero (S := S1x1536) r1_zero2, View.ld_unit_zero (S := S1536x128) r1_zero2, View.ld_unit_zero (S := S1000x128) r1_zero2, View.ld_unit_zero (S := S128x128) r1_zero2, View.ld_unit_zero (S := S1x128) r1_zero2]

/-- THE LAST CASE's value in the scratch: as in the middle case. -/
theorem sout1_C_0_eq (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : cond1_1 i)
    (x0 : Vec F S1x1536 .i32) (x1 : Vec F S1536x128 .f32) (x2 : Vec F S1000x128 .f32) (x3 : Vec F S128x128 .f32) (x4 : Vec F S1x128 .f32) (xs0 : Vec F S1000x128 .f32) :
    sout1_C_0 c i arg2 harg2 arg3 harg3 arg4 harg4 arg5 harg5 arg6 harg6 arg7 harg7 arg8 harg8 hc0 hc1 x0 x1 x2 x3 x4 xs0 = k1_pay2 i x0 x1 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero r1_zero2]
  simp only [View.readAt_eq_ld, harg2.read_unread, harg3.read_unread, harg4.read_unread, harg5.read_unread, harg6.read_unread, harg8.read_unread, View.ld_unit_zero (S := S1x1536) r1_zero2, View.ld_unit_zero (S := S1536x128) r1_zero2, View.ld_unit_zero (S := S1000x128) r1_zero2, View.ld_unit_zero (S := S128x128) r1_zero2, View.ld_unit_zero (S := S1x128) r1_zero2]

/-- THE LAST CASE's value in the output window: the scratch's new contents, read back and stored whole. -/
theorem out1_C_5_eq (c : Dev nD) (i : grid1.Coords) (arg2 : Memref sig .tc .vmem S1x1536 .i32) (harg2 : arg2.IsWhole) (arg3 : Memref sig .tc .vmem S1536x128 .f32) (harg3 : arg3.IsWhole) (arg4 : Memref sig .tc .vmem S1000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1000x128 .f32) (harg7 : arg7.IsWhole) (arg8 : Memref sig .tc .vmem S1000x128 .f32) (harg8 : arg8.IsWhole) (hc0 : ¬cond1_0 i) (hc1 : cond1_1 i)
    (x0 : Vec F S1x1536 .i32) (x1 : Vec F S1536x128 .f32) (x2 : Vec F S1000x128 .f32) (x3 : Vec F S128x128 .f32) (x4 : Vec F S1x128 .f32) (xs0 : Vec F S1000x128 .f32) :
    out1_C_5 c i arg2 harg2 arg3 harg3 arg4 harg4 arg5 harg5 arg6 harg6 arg7 harg7 arg8 harg8 hc0 hc1 x0 x1 x2 x3 x4 xs0 = k1_pay2 i x0 x1 xs0 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero r1_zero2, View.readCov_unit_zero (S := S1000x128) _ r1_zero2]
  simp only [View.readAt_eq_ld, harg2.read_unread, harg3.read_unread, harg4.read_unread, harg5.read_unread, harg6.read_unread, harg8.read_unread, View.ld_unit_zero (S := S1x1536) r1_zero2, View.ld_unit_zero (S := S1536x128) r1_zero2, View.ld_unit_zero (S := S1000x128) r1_zero2, View.ld_unit_zero (S := S128x128) r1_zero2, View.ld_unit_zero (S := S1x128) r1_zero2]

section Region1
-- the TensorCore's buffer contents when the region is entered
variable (V : (c : Dev nD) → (b : Ref sig .tc) → Buf (Elt F) ((c : Thread nD τ).loc b))

/-- At the first point of a run of the inner axis the scratch is left at the reset value — the node block times the
    root weights, plus the bias — plus this point's one-hot product of the destination indices with the message block. -/
theorem scr1_first (c : Dev nD) (t : Fin cfg1.N) (h : t.val % 391 = 0) :
    (outsAt1 V c t.val t.isLt).2
      = k1_pay2 (grid1.coords t) (iblk1 V c 0 t) (iblk1 V c 1 t) (k1_pay1 (iblk1 V c 2 t) (iblk1 V c 3 t) (iblk1 V c 4 t)) := by
  have h1 : ¬t.val % 391 = 390 := by omega
  rw [outsAt1_A V c t h h1]; dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h) (fun h => h1 ((hcond1_1 t).mp h)) (iblk1 V c 0 t) (iblk1 V c 1 t) (iblk1 V c 2 t) (iblk1 V c 3 t) (iblk1 V c 4 t)

/-- At every other point it is left at what the point before left plus this point's one-hot product. -/
theorem scr1_next (c : Dev nD) (t : Fin cfg1.N) (h0 : t.val % 391 ≠ 0) :
    (outsAt1 V c t.val t.isLt).2
      = k1_pay2 (grid1.coords t) (iblk1 V c 0 t) (iblk1 V c 1 t) (outsAt1 V c (t.val - 1) (Nat.lt_of_le_of_lt (Nat.sub_le _ _) t.isLt)).2 := by
  by_cases h1 : t.val % 391 = 390
  · rw [outsAt1_C V c t h0 h1]; dsimp only
    exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2
  · rw [outsAt1_B V c t h0 h1]; dsimp only
    exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2

/-- At the last point of a run of the inner axis the output window's buffer holds what the scratch holds. -/
theorem out1_last (c : Dev nD) (t : Fin cfg1.N) (h : t.val % 391 = 390) :
    (outsAt1 V c t.val t.isLt).1 = (outsAt1 V c t.val t.isLt).2 := by
  have h0 : ¬t.val % 391 = 0 := by omega
  rw [outsAt1_C V c t h0 h]; dsimp only
  exact (out1_C_5_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h) (iblk1 V c 0 t) (iblk1 V c 1 t) (iblk1 V c 2 t) (iblk1 V c 3 t) (iblk1 V c 4 t) (outsAt1 V c (t.val - 1) (Nat.lt_of_le_of_lt (Nat.sub_le _ _) t.isLt)).2).trans
    (sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h) (iblk1 V c 0 t) (iblk1 V c 1 t) (iblk1 V c 2 t) (iblk1 V c 3 t) (iblk1 V c 4 t) (outsAt1 V c (t.val - 1) (Nat.lt_of_le_of_lt (Nat.sub_le _ _) t.isLt)).2).symm

end Region1

end Cert.KernelIdeal.Hand

end
-- ==== Proof.KV.Val1Idx.lean ====
/- The scatter kernel's windows at a symbolic grid point: point `t` of the 50 · 391 grid is node block `t div 391`, edge
   block `t mod 391`. The target-index window and the message window move with the edge block, the node-feature window
   and the output window with the node block, the root matrix and the bias stay. An element of a block sits in its array,
   on each axis, at the block index times the block's extent plus its own coordinate: so each block's entries are read
   off the arrays as the region finds them, the output's write-back points are the last edge block of each node block,
   and their blocks cover the output array. -/
import proofs.«141899_j10780367913070_1_alg».proof.Proof.KI.R1Frame
import proofs.«141899_j10780367913070_1_alg».proof.Proof.KV.Shapes
import Idealize.ShloMosaic.Lib.ValueIdx
import Idealize.ShloMosaic.Lib.Pipeline.Value

set_option maxRecDepth 16384

noncomputable section

open scoped BigOperators
open Idealize.ShloMosaic Idealize.ShloMosaic.ValueIdx
open Idealize.ShloMosaic.Pipeline (Dat Cfg Window)

namespace Cert.KernelIdeal.HandV

open Cert.KernelIdeal Cert.KernelIdeal.Gen Cert.KernelIdeal.Hand

variable {F : FTy → Type} [FloatOps F]

/-! ## The index maps -/

theorem index1_0 (t : Fin cfg1.N) : (cfg1.win 0).index t = ![0, t.val % 391] := by
  have hN : t.val < 19550 := lt_of_lt_of_eq t.isLt (show cfg1.N = 19550 from N_1)
  show cc1_transform_0 (grid1.coords t) = _
  unfold cc1_transform_0
  funext a
  fin_cases a
  · rfl
  · show (BitVec.ofNat 32 (grid1.coords t 1).val).toNat = t.val % 391
    rw [BitVec.toNat_ofNat, coords1_1, Nat.mod_eq_of_lt (by omega)]

theorem index1_1 (t : Fin cfg1.N) : (cfg1.win 1).index t = ![t.val % 391, 0] := by
  have hN : t.val < 19550 := lt_of_lt_of_eq t.isLt (show cfg1.N = 19550 from N_1)
  show cc1_transform_1 (grid1.coords t) = _
  unfold cc1_transform_1
  funext a
  fin_cases a
  · show (BitVec.ofNat 32 (grid1.coords t 1).val).toNat = t.val % 391
    rw [BitVec.toNat_ofNat, coords1_1, Nat.mod_eq_of_lt (by omega)]
  · rfl

theorem index1_2 (t : Fin cfg1.N) : (cfg1.win 2).index t = ![t.val / 391, 0] := by
  have hN : t.val < 19550 := lt_of_lt_of_eq t.isLt (show cfg1.N = 19550 from N_1)
  show cc1_transform_2 (grid1.coords t) = _
  unfold cc1_transform_2
  funext a
  fin_cases a
  · show (BitVec.ofNat 32 (grid1.coords t 0).val).toNat = t.val / 391
    rw [BitVec.toNat_ofNat, coords1_0, Nat.mod_eq_of_lt (by omega)]
  · rfl

theorem index1_3 (t : Fin cfg1.N) : (cfg1.win 3).index t = ![0, 0] := by
  have hN : t.val < 19550 := lt_of_lt_of_eq t.isLt (show cfg1.N = 19550 from N_1)
  show cc1_transform_3 (grid1.coords t) = _
  unfold cc1_transform_3
  funext a
  fin_cases a
  · rfl
  · rfl

theorem index1_4 (t : Fin cfg1.N) : (cfg1.win 4).index t = ![0, 0] := by
  have hN : t.val < 19550 := lt_of_lt_of_eq t.isLt (show cfg1.N = 19550 from N_1)
  show cc1_transform_4 (grid1.coords t) = _
  unfold cc1_transform_4
  funext a
  fin_cases a
  · rfl
  · rfl

/-- The output window is written back exactly at the last edge block of each node block. -/
theorem flush1_5_iff (t : Fin cfg1.N) : (cfg1.win 5).flush t = true ↔ t.val % 391 = 390 := by
  have hN : t.val < 19550 := lt_of_lt_of_eq t.isLt (show cfg1.N = 19550 from N_1)
  constructor
  · intro hf
    by_contra hm
    have := noFlush1_5 t (fun hc => hm ((hcond1_1 t).mp hc))
    rw [hf] at this; exact Bool.noConfusion this
  · intro hm
    unfold Pipeline.Window.flush
    rw [Bool.and_eq_true]
    refine ⟨rfl, ?_⟩
    rw [Bool.or_eq_true]
    by_cases hl : t.val + 1 = cfg1.grid.N
    · exact .inl (decide_eq_true hl)
    · refine .inr (decide_eq_true ?_)
      have e : cfg1.grid.N = 19550 := N_1
      refine ⟨by omega, fun hne => ?_⟩
      have h0 := congrFun hne 0
      rw [index1_5, index1_5] at h0
      have h0' : (t.val + 1) / 391 = t.val / 391 := h0
      omega

end Cert.KernelIdeal.HandV

end
-- ==== Proof.KV.Blocks1.lean ====
/-
  Region 1: the windows' blocks read at a symbolic point of the grid [50, 391] (point t = n·391 + eb: n the node
  block, eb the edge block).

  The target-index window and the message window move with the inner coordinate eb; the node-table window and the
  output window move with the outer coordinate n; the root matrix and the bias row never move.  An element of a block
  sits in its array, on each axis, at block index × block size + its own coordinate.  The index maps are read
  symbolically from the grid coordinates.
-/
import proofs.«141899_j10780367913070_1_alg».proof.Proof.KI.R1Runs
import Idealize.ShloMosaic.Lib.ValueIdx
import Idealize.ShloMosaic.Lib.Pipeline.Value

set_option maxRecDepth 16384

noncomputable section

open scoped BigOperators
open Idealize.ShloMosaic Idealize.ShloMosaic.TcCoe Idealize.ShloMosaic.ValueIdx
open Idealize.SL Idealize.SL.Sem
open Idealize.ShloMosaic.Pipeline (Dat Cfg Window)

namespace Cert.KernelIdeal.HandV

open Cert.KernelIdeal Cert.KernelIdeal.Gen Cert.KernelIdeal.Hand

/-- A small number's 32-bit word reads back as the number. -/
theorem toNat_ofNat_small1 (n : ℕ) (h : n < 4294967296) : (BitVec.ofNat 32 n).toNat = n := by
  rw [BitVec.toNat_ofNat]; exact Nat.mod_eq_of_lt h

theorem outer1_lt (t : Fin grid1.N) : (grid1.coords t 0).val < 50 := (grid1.coords t 0).isLt
theorem inner1_lt (t : Fin grid1.N) : (grid1.coords t 1).val < 391 := (grid1.coords t 1).isLt
theorem point1_lt (t : Fin cfg1.N) : t.val < 19550 := lt_of_lt_of_eq t.isLt (show cfg1.N = 19550 from N_1)

/-! ## The block indices, axis by axis -/

theorem idx1_0_0 (t : Fin cfg1.N) : win1_0.index t (0 : Fin 2) = 0 := rfl
theorem idx1_0_1 (t : Fin cfg1.N) : win1_0.index t (1 : Fin 2) = t.val % 391 := by
  show (BitVec.ofNat 32 (grid1.coords t 1).val).toNat = _
  rw [toNat_ofNat_small1 _ (by have := inner1_lt t; omega), coords1_1]
theorem idx1_1_0 (t : Fin cfg1.N) : win1_1.index t (0 : Fin 2) = t.val % 391 := by
  show (BitVec.ofNat 32 (grid1.coords t 1).val).toNat = _
  rw [toNat_ofNat_small1 _ (by have := inner1_lt t; omega), coords1_1]
theorem idx1_1_1 (t : Fin cfg1.N) : win1_1.index t (1 : Fin 2) = 0 := rfl
theorem idx1_2_0 (t : Fin cfg1.N) : win1_2.index t (0 : Fin 2) = t.val / 391 := by
  show (BitVec.ofNat 32 (grid1.coords t 0).val).toNat = _
  rw [toNat_ofNat_small1 _ (by have := outer1_lt t; omega), coords1_0]
theorem idx1_2_1 (t : Fin cfg1.N) : win1_2.index t (1 : Fin 2) = 0 := rfl
theorem idx1_3 (t : Fin cfg1.N) (a : Fin 2) : win1_3.index t a = 0 := by
  match a with
  | ⟨0, _⟩ => rfl
  | ⟨1, _⟩ => rfl
theorem idx1_4 (t : Fin cfg1.N) (a : Fin 2) : win1_4.index t a = 0 := by
  match a with
  | ⟨0, _⟩ => rfl
  | ⟨1, _⟩ => rfl
theorem idx1_5_0 (t : Fin cfg1.N) : win1_5.index t (0 : Fin 2) = t.val / 391 := by
  show (BitVec.ofNat 32 (grid1.coords t 0).val).toNat = _
  rw [toNat_ofNat_small1 _ (by have := outer1_lt t; omega), coords1_0]
theorem idx1_5_1 (t : Fin cfg1.N) : win1_5.index t (1 : Fin 2) = 0 := rfl

section Reads
variable (V : (c : Dev nD) → (b : Ref sig .tc) → Buf (Elt Ideal) ((c : Thread nD τ).loc b))

/-- The target-index block at point `t`, position `k`: the array's word at position (inner coordinate)·1536 + k. -/
theorem read1_0 (c : Dev nD) (t : Fin cfg1.N) (k : Fin 1536) :
    (iblk1 V c 0 t : Vec Ideal S1x1536 .i32) (ix2 (0 : Fin 1) k)
      = (V c main_v36 : S1x600576.Idx → BitVec 32) (ix2 (0 : Fin 1) (⟨(t.val % 391) * 1536 + k.val, by omega⟩ : Fin 600576)) := by
  show (V c main_v36 : S1x600576.Idx → BitVec 32) (((cfg1.win 0).blk t).view.emb (ix2 (0 : Fin 1) k)) = _
  refine congrArg (V c main_v36 : S1x600576.Idx → BitVec 32) ?_
  funext a; apply Fin.ext
  match a with
  | ⟨0, _⟩ => show win1_0.index t (0 : Fin 2) * 1 + 1 * 0 = 0; rw [idx1_0_0]
  | ⟨1, _⟩ => show win1_0.index t (1 : Fin 2) * 1536 + 1 * k.val = (t.val % 391) * 1536 + k.val; rw [idx1_0_1]; omega

/-- The message block at point `t`, entry (k, j): the array's entry at row (inner coordinate)·1536 + k. -/
theorem read1_1 (c : Dev nD) (t : Fin cfg1.N) (k : Fin 1536) (j : Fin 128) :
    (iblk1 V c 1 t : Vec Ideal S1536x128 .f32) (ix2 k j)
      = (V c main_v38 : S600576x128.Idx → EReal) (ix2 (⟨(t.val % 391) * 1536 + k.val, by omega⟩ : Fin 600576) j) := by
  show (V c main_v38 : S600576x128.Idx → EReal) (((cfg1.win 1).blk t).view.emb (ix2 k j)) = _
  refine congrArg (V c main_v38 : S600576x128.Idx → EReal) ?_
  funext a; apply Fin.ext
  match a with
  | ⟨0, _⟩ => show win1_1.index t (0 : Fin 2) * 1536 + 1 * k.val = (t.val % 391) * 1536 + k.val; rw [idx1_1_0]; omega
  | ⟨1, _⟩ => show win1_1.index t (1 : Fin 2) * 128 + 1 * j.val = j.val; rw [idx1_1_1]; omega

/-- The node-table block at point `t`, entry (r, k): the table's entry at row (outer coordinate)·1000 + r. -/
theorem read1_2 (c : Dev nD) (t : Fin cfg1.N) (r : Fin 1000) (k : Fin 128) :
    (iblk1 V c 2 t : Vec Ideal S1000x128 .f32) (ix2 r k)
      = (V c main_arg2 : S50000x128.Idx → EReal) (ix2 (⟨(t.val / 391) * 1000 + r.val, by have := point1_lt t; omega⟩ : Fin 50000) k) := by
  show (V c main_arg2 : S50000x128.Idx → EReal) (((cfg1.win 2).blk t).view.emb (ix2 r k)) = _
  refine congrArg (V c main_arg2 : S50000x128.Idx → EReal) ?_
  funext a; apply Fin.ext
  match a with
  | ⟨0, _⟩ => show win1_2.index t (0 : Fin 2) * 1000 + 1 * r.val = (t.val / 391) * 1000 + r.val; rw [idx1_2_0]; omega
  | ⟨1, _⟩ => show win1_2.index t (1 : Fin 2) * 128 + 1 * k.val = k.val; rw [idx1_2_1]; omega

/-- The root-matrix block at any point is the whole root matrix. -/
theorem read1_3 (c : Dev nD) (t : Fin cfg1.N) (k : Fin 128) (j : Fin 128) :
    (iblk1 V c 3 t : Vec Ideal S128x128 .f32) (ix2 k j) = (V c main_arg5 : S128x128.Idx → EReal) (ix2 k j) := by
  show (V c main_arg5 : S128x128.Idx → EReal) (((cfg1.win 3).blk t).view.emb (ix2 k j)) = _
  refine congrArg (V c main_arg5 : S128x128.Idx → EReal) ?_
  funext a; apply Fin.ext
  match a with
  | ⟨0, _⟩ => show win1_3.index t (0 : Fin 2) * 128 + 1 * k.val = k.val; rw [idx1_3]; omega
  | ⟨1, _⟩ => show win1_3.index t (1 : Fin 2) * 128 + 1 * j.val = j.val; rw [idx1_3]; omega

/-- The bias block at any point is the whole bias row. -/
theorem read1_4 (c : Dev nD) (t : Fin cfg1.N) (j : Fin 128) :
    (iblk1 V c 4 t : Vec Ideal S1x128 .f32) (ix2 (0 : Fin 1) j) = (V c main_v37 : S1x128.Idx → EReal) (ix2 (0 : Fin 1) j) := by
  show (V c main_v37 : S1x128.Idx → EReal) (((cfg1.win 4).blk t).view.emb (ix2 (0 : Fin 1) j)) = _
  refine congrArg (V c main_v37 : S1x128.Idx → EReal) ?_
  funext a; apply Fin.ext
  match a with
  | ⟨0, _⟩ => show win1_4.index t (0 : Fin 2) * 1 + 1 * 0 = 0; rw [idx1_4]
  | ⟨1, _⟩ => show win1_4.index t (1 : Fin 2) * 128 + 1 * j.val = j.val; rw [idx1_4]; omega

end Reads

/-! ## The output window: where its blocks sit and when they are written back -/

/-- An index of the output array is in point `t`'s block iff each coordinate is in the block's range on its axis. -/
theorem mem_blk5 (t : Fin cfg1.N) (i : S50000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v39).slice (win1_5.rect t)).set ↔ _
  rw [View.set_slice_whole, Rect.mem_set_unit]
  exact Iff.rfl

/-- In numbers: the rows (outer coordinate)·1000 … +999, every column. -/
theorem mem_blk5_iff (t : Fin cfg1.N) (i : S50000x128.Idx) :
    i ∈ ((cfg1.win 5).blk t).view.set ↔ (t.val / 391) * 1000 ≤ (i 0).val ∧ (i 0).val < (t.val / 391) * 1000 + 1000 := by
  rw [mem_blk5]
  constructor
  · intro h
    have h0 := h (0 : Fin 2)
    rw [idx1_5_0] at h0
    exact h0
  · intro h a
    match a with
    | ⟨0, _⟩ => show win1_5.index t (0 : Fin 2) * 1000 ≤ (i 0).val ∧ (i 0).val < win1_5.index t (0 : Fin 2) * 1000 + 1000; rw [idx1_5_0]; exact h
    | ⟨1, _⟩ =>
      show win1_5.index t (1 : Fin 2) * 128 ≤ (i 1).val ∧ (i 1).val < win1_5.index t (1 : Fin 2) * 128 + 128
      rw [idx1_5_1]; have := (i 1).isLt; have e : S50000x128.size 1 = 128 := rfl; omega

/-- Every index of the output array lies in the block of the last point of its node block's run. -/
theorem mem_blk5_last (i : S50000x128.Idx) (h : ((i 0).val / 1000) * 391 + 390 < cfg1.N) :
    i ∈ ((cfg1.win 5).blk ⟨((i 0).val / 1000) * 391 + 390, h⟩).view.set := by
  rw [mem_blk5_iff]
  show (((i 0).val / 1000) * 391 + 390) / 391 * 1000 ≤ (i 0).val ∧ (i 0).val < (((i 0).val / 1000) * 391 + 390) / 391 * 1000 + 1000
  have e : (((i 0).val / 1000) * 391 + 390) / 391 = (i 0).val / 1000 := by omega
  rw [e]; omega

/-- The point of `mem_blk5_last` is a point of the grid. -/
theorem last_point_lt (i : S50000x128.Idx) : ((i 0).val / 1000) * 391 + 390 < cfg1.N := by
  have h0 : (i 0).val < 50000 := (i 0).isLt
  have e : cfg1.N = 19550 := N_1
  omega

/-- Where an element of point `t`'s output block sits in the output array. -/
theorem emb_blk5 (t : Fin cfg1.N) (r : Fin 1000) (j : Fin 128) :
    (((cfg1.win 5).blk t).view.emb (ix2 r j) : S50000x128.Idx)
      = ix2 (⟨(t.val / 391) * 1000 + r.val, by have := point1_lt t; omega⟩ : Fin 50000) j := by
  funext a; apply Fin.ext
  match a with
  | ⟨0, _⟩ => show win1_5.index t (0 : Fin 2) * 1000 + 1 * r.val = (t.val / 391) * 1000 + r.val; rw [idx1_5_0]; omega
  | ⟨1, _⟩ => show win1_5.index t (1 : Fin 2) * 128 + 1 * j.val = j.val; rw [idx1_5_1]; omega

/-- The same at any index `y` of the block. -/
theorem emb_blk5' (t : Fin cfg1.N) (y : S1000x128.Idx) :
    (((cfg1.win 5).blk t).view.emb y : S50000x128.Idx)
      = ix2 (⟨(t.val / 391) * 1000 + (y 0).val, by have := point1_lt t; have := (y 0).isLt; have e : S1000x128.size 0 = 1000 := rfl; omega⟩ : Fin 50000)
          (⟨(y 1).val, (y 1).isLt⟩ : Fin 128) := by
  rw [eq_ix2 y]; exact emb_blk5 t (y 0) (y 1)

/-- The output block is written back exactly at the last point of each run of the inner axis. -/
theorem flush5_iff (t : Fin cfg1.N) : (cfg1.win 5).flush t = true ↔ t.val % 391 = 390 := by
  constructor
  · intro hf
    by_contra h390
    have := noFlush1_5 t (fun hc => h390 ((hcond1_1 t).mp hc))
    rw [this] at hf; exact absurd hf Bool.false_ne_true
  · intro h390
    have hN : t.val < 19550 := point1_lt t
    unfold Pipeline.Window.flush
    rw [Bool.and_eq_true, Bool.or_eq_true, decide_eq_true_eq, decide_eq_true_eq]
    refine ⟨rfl, ?_⟩
    by_cases hl : t.val + 1 = 19550
    · exact .inl (hl.trans N_1.symm)
    · refine .inr ⟨lt_of_lt_of_eq (show t.val + 1 < 19550 by omega) N_1.symm, fun he => ?_⟩
      have h0 := congrFun he (0 : Fin 2)
      have e1 : win1_5.index ⟨t.val + 1, lt_of_lt_of_eq (show t.val + 1 < 19550 by omega) N_1.symm⟩ (0 : Fin 2) = (t.val + 1) / 391 := idx1_5_0 _
      have e2 : win1_5.index t (0 : Fin 2) = t.val / 391 := idx1_5_0 t
      rw [e1, e2] at h0
      omega

end Cert.KernelIdeal.HandV

end
-- ==== Proof.KV.Pay1.lean ====
/-
  The arithmetic of the scatter kernel's body, read one entry at a time over the extended reals.

  The first step of a node block sets entry (r, j) to the node's own term: its feature row times the root matrix, plus the
  bias.  Every step then adds the product of a 0/1 selection matrix with a block of 1536 edge messages: the selection
  entry (r, k) is 1 exactly when edge k's target index is node r of the block.
-/
import proofs.«141899_j10780367913070_1_alg».proof.Proof.Gen.KernelIdeal.Skeleton
import proofs.«141899_j10780367913070_1_alg».proof.Proof.LibProductEntry
import proofs.«141899_j10780367913070_1_alg».proof.Proof.LibKeepDims
import proofs.«141899_j10780367913070_1_alg».proof.Proof.KV.Pay0
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.HandV

open Cert.KernelIdeal Cert.KernelIdeal.Gen

/-- A block of node rows times the root matrix, at entry (p, q). -/
theorem mm_root (l : FVec Ideal S1000x128 .bf16) (r : FVec Ideal S128x128 .bf16) (p : Fin 1000) (q : Fin 128) :
    ∑ k : dot_S1000x128_S128x128_S1000x128_1_0_0_1_n_n.contr.Idx,
        l (dot_S1000x128_S128x128_S1000x128_1_0_0_1_n_n.lhsIdx (ix2 p q) k)
          * r (dot_S1000x128_S128x128_S1000x128_1_0_0_1_n_n.rhsIdx (ix2 p q) k)
      = ∑ k : Fin 128, l (ix2 p k) * r (ix2 k q) :=
  Cert.ProductEntry.sum_apply dot_S1000x128_S128x128_S1000x128_1_0_0_1_n_n rfl rfl
    (fun i k => by
      unfold DotDims.lhsIdx
      rw [dif_neg (show ¬(0 : Fin S1000x128.rank) ∈ dot_S1000x128_S128x128_S1000x128_1_0_0_1_n_n.lhsBatch by decide),
        dif_pos (show (0 : Fin S1000x128.rank) ∈ dot_S1000x128_S128x128_S1000x128_1_0_0_1_n_n.lhsNonContracting by decide)]
      rfl)
    (fun i k => dot_S1000x128_S128x128_S1000x128_1_0_0_1_n_n.lhsIdx_val_of_single rfl i k)
    (fun i k => dot_S1000x128_S128x128_S1000x128_1_0_0_1_n_n.rhsIdx_val_of_single rfl i k)
    (fun i k => by
      unfold DotDims.rhsIdx
      rw [dif_neg (show ¬(1 : Fin S128x128.rank) ∈ dot_S1000x128_S128x128_S1000x128_1_0_0_1_n_n.rhsBatch by decide),
        dif_pos (show (1 : Fin S128x128.rank) ∈ dot_S1000x128_S128x128_S1000x128_1_0_0_1_n_n.rhsNonContracting by decide)]
      rfl)
    l r p q

/-- The selection matrix times a block of edge messages, at entry (p, q): the contraction runs over the block's edges. -/
theorem mm_scatter (l : FVec Ideal S1000x1536 .bf16) (r : FVec Ideal S1536x128 .bf16) (p : Fin 1000) (q : Fin 128) :
    ∑ k : dot_S1000x1536_S1536x128_S1000x128_1_0_0_1_n_n.contr.Idx,
        l (dot_S1000x1536_S1536x128_S1000x128_1_0_0_1_n_n.lhsIdx (ix2 p q) k)
          * r (dot_S1000x1536_S1536x128_S1000x128_1_0_0_1_n_n.rhsIdx (ix2 p q) k)
      = ∑ k : Fin 1536, l (ix2 p k) * r (ix2 k q) :=
  Cert.ProductEntry.sum_apply dot_S1000x1536_S1536x128_S1000x128_1_0_0_1_n_n rfl rfl
    (fun i k => by
      unfold DotDims.lhsIdx
      rw [dif_neg (show ¬(0 : Fin S1000x1536.rank) ∈ dot_S1000x1536_S1536x128_S1000x128_1_0_0_1_n_n.lhsBatch by decide),
        dif_pos (show (0 : Fin S1000x1536.rank) ∈ dot_S1000x1536_S1536x128_S1000x128_1_0_0_1_n_n.lhsNonContracting by decide)]
      rfl)
    (fun i k => dot_S1000x1536_S1536x128_S1000x128_1_0_0_1_n_n.lhsIdx_val_of_single rfl i k)
    (fun i k => dot_S1000x1536_S1536x128_S1000x128_1_0_0_1_n_n.rhsIdx_val_of_single rfl i k)
    (fun i k => by
      unfold DotDims.rhsIdx
      rw [dif_neg (show ¬(1 : Fin S1536x128.rank) ∈ dot_S1000x1536_S1536x128_S1000x128_1_0_0_1_n_n.rhsBatch by decide),
        dif_pos (show (1 : Fin S1536x128.rank) ∈ dot_S1000x1536_S1536x128_S1000x128_1_0_0_1_n_n.rhsNonContracting by decide)]
      rfl)
    l r p q

/-- The node's own term at entry (r, j): its feature row times the root matrix, plus the bias. -/
theorem own_apply (x : Vec Ideal S1000x128 .f32) (root : Vec Ideal S128x128 .f32) (bias : Vec Ideal S1x128 .f32)
    (r : Fin 1000) (j : Fin 128) :
    k1_pay1 (F := Ideal) x root bias (ix2 r j)
      = (∑ k : Fin 128, x (ix2 r k) * root (ix2 k j)) + bias (ix2 (0 : Fin 1) j) := by
  unfold k1_pay1
  simp only [Idealize.ShloMosaic.shapeCast_self]
  rw [addf_apply]
  simp only [matmul]
  rw [Ideal.matmul_constant_zero_apply, mm_root, broadcastTo_1b_ab_apply]
  rfl

/-- One accumulation step at entry (r, j): the running value plus the messages of the block's edges that target node
    r of the node block. -/
theorem scatter_step_apply (i : grid1.Coords) (d : Vec Ideal S1x1536 .i32) (z : Vec Ideal S1536x128 .f32)
    (acc : Vec Ideal S1000x128 .f32) (r : Fin 1000) (j : Fin 128) :
    k1_pay2 (F := Ideal) i d z acc (ix2 r j)
      = acc (ix2 r j) + ∑ k : Fin 1536,
          (if BitVec.ofNat 32 (i 0).val * 1000#32 + BitVec.ofNat 32 r.val = d (ix2 (0 : Fin 1) k) then (1 : EReal) else 0)
            * z (ix2 k j) := by
  unfold k1_pay2
  dsimp only
  simp only [Idealize.ShloMosaic.shapeCast_self]
  rw [addf_apply]
  simp only [matmul]
  rw [Ideal.matmul_constant_zero_apply, mm_scatter]
  refine congrArg (acc (ix2 r j) + ·) (Finset.sum_congr rfl fun k _ => ?_)
  refine congrArg (· * z (ix2 k j)) ?_
  show FloatOps.sitofp (F := Ideal) .f32 ((IntOp.cmpi .eq _ _).setWidth 32) = _
  rw [bit_to_real]
  simp only [cmpi_eq_one]
  rw [KeepDims.broadcastTo_a1_ab_apply, broadcastTo_1b_ab_apply, shapeCast_a_1a_apply, shapeCast_1a_a_apply]
  show (if IntOp.addi (Scalar.muli (BitVec.ofNat 32 (i 0).val) 1000#32) (iota .tc S1000x1 32 [0] iota_S1000x1_d0_w32 (ix2 r (0 : Fin 1))) = d (ix2 (0 : Fin 1) k) then (1 : EReal) else 0) = _
  rw [iota_single_apply]
  rfl

end Cert.KernelIdeal.HandV
-- ==== Proof.KV.Val1.lean ====
/- The scatter kernel's region, read as a value over the extended reals: what it leaves in the output array, entry by
   entry, as one function of the arrays the region finds.

   A node block's run is 391 consecutive grid points (one per edge block). The scratch accumulator is reset at the run's
   first point to the block's own term (feature rows times the root matrix, plus the bias) and every point of the run
   adds its edge block's messages, selected by the target words: so after point `t` the scratch holds the own term plus
   the addends of the run's points up to `t` — the recurrence of the per-point contents, unrolled as a fold and read at an
   entry. At the run's last point the output window holds the scratch and is written back; those blocks tile the output
   array, which therefore ends holding, at node `n` and channel `j`, the node's own term plus the messages of all padded
   edge positions whose target word is the node's number, summed edge block by edge block. -/
import proofs.«141899_j10780367913070_1_alg».proof.Proof.KV.Val1Idx
import proofs.«141899_j10780367913070_1_alg».proof.Proof.KV.Blocks1
import proofs.«141899_j10780367913070_1_alg».proof.Proof.KV.Pay1

set_option maxRecDepth 16384

noncomputable section

open scoped BigOperators
open Idealize.ShloMosaic Idealize.ShloMosaic.TcCoe Idealize.ShloMosaic.ValueIdx
open Idealize.ShloMosaic.Pipeline (Dat Cfg Window)

namespace Cert.KernelIdeal.HandV

open Cert.KernelIdeal Cert.KernelIdeal.Gen Cert.KernelIdeal.Hand

/-- Padded edge position `k` of the edge block point `n` is on (edge block `n mod 391`). -/
def posAt (n : ℕ) (k : Fin 1536) : Fin 600576 :=
  ⟨n % 391 * 1536 + k.val, by have := Nat.mod_lt n (show 0 < 391 by decide); have := k.isLt; omega⟩

/-- Row `r` of node block `q` as a row of the node table. -/
def rowAt (q : Fin 50) (r : Fin 1000) : Fin 50000 := ⟨q.val * 1000 + r.val, by have := q.isLt; have := r.isLt; omega⟩

/-- Along the run of node block `q` (points `391 q … 391 q + 390`), point `391 q + s` is on edge block `s`. -/
theorem posAt_run (q s : ℕ) (hs : s < 391) (k : Fin 1536) : posAt (391 * q + s) k = posOf ⟨s, hs⟩ k := by
  apply Fin.ext
  show (391 * q + s) % 391 * 1536 + k.val = s * 1536 + k.val
  rw [Nat.mul_add_mod, Nat.mod_eq_of_lt hs]

/-- The own term of row `r` of node block `q`, channel `j`: the node's feature row times the root matrix, plus the bias. -/
def ownAt (X : S50000x128.Idx → EReal) (Root : S128x128.Idx → EReal) (Bias : S1x128.Idx → EReal)
    (q : Fin 50) (r : Fin 1000) (j : Fin 128) : EReal :=
  (∑ k : Fin 128, X (ix2 (rowAt q r) k) * Root (ix2 k j)) + Bias (ix2 (0 : Fin 1) j)

/-- What point `n` adds to row `r` of node block `q`, channel `j`: the messages of the edges of point `n`'s edge block whose
    target word is the node's number. -/
def addAt (DST : S1x600576.Idx → BitVec 32) (Z : S600576x128.Idx → EReal) (q n : ℕ) (r : Fin 1000) (j : Fin 128) : EReal :=
  ∑ k : Fin 1536,
    (if BitVec.ofNat 32 q * 1000#32 + BitVec.ofNat 32 r.val = DST (ix2 (0 : Fin 1) (posAt n k)) then (1 : EReal) else 0)
      * Z (ix2 (posAt n k) j)

/-- A whole run of a node block: the own term plus the addends of its 391 points is the scatter kernel's entry. -/
theorem run_sum (DST : S1x600576.Idx → BitVec 32) (Z : S600576x128.Idx → EReal) (X : S50000x128.Idx → EReal)
    (Root : S128x128.Idx → EReal) (Bias : S1x128.Idx → EReal) (q : Fin 50) (r : Fin 1000) (j : Fin 128) :
    ownAt X Root Bias q r j + ∑ s ∈ Finset.range 391, addAt DST Z q.val (391 * q.val + s) r j
      = nodeOutAt DST Z X Root Bias (rowAt q r) j := by
  have hq := q.isLt
  have hr := r.isLt
  have h1 : (rowAt q r).val / 1000 = q.val := by show (q.val * 1000 + r.val) / 1000 = q.val; omega
  have h2 : (rowAt q r).val % 1000 = r.val := by show (q.val * 1000 + r.val) % 1000 = r.val; omega
  unfold nodeOutAt ownAt
  rw [Finset.sum_range, h1, h2]
  refine congrArg (_ + ·) (Finset.sum_congr rfl fun s _ => ?_)
  unfold addAt
  refine Finset.sum_congr rfl fun k _ => ?_
  rw [posAt_run q.val s.val s.isLt k]

variable (V : (c : Dev nD) → (b : Ref sig .tc) → Buf (Elt Ideal) ((c : Thread nD τ).loc b)) (c : Dev nD)

/-- The node block of point `t`. -/
def qOf (t : Fin cfg1.N) : Fin 50 := ⟨t.val / 391, by have := point1_lt t; omega⟩

/-- One accumulation step at point `t`, read at an entry: the running value plus the point's addend. -/
theorem step1_apply (t : Fin cfg1.N) (acc : Vec Ideal S1000x128 .f32) (r : Fin 1000) (j : Fin 128) :
    k1_pay2 (F := Ideal) (grid1.coords t) (iblk1 V c 0 t) (iblk1 V c 1 t) acc (ix2 r j)
      = acc (ix2 r j) + addAt (V c main_v36) (V c main_v38) (t.val / 391) t.val r j := by
  refine (scatter_step_apply (grid1.coords t) (iblk1 V c 0 t) (iblk1 V c 1 t) acc r j).trans ?_
  unfold addAt
  refine congrArg (acc (ix2 r j) + ·) (Finset.sum_congr rfl fun k _ => ?_)
  rw [coords1_0 t, read1_0 V c t k, read1_1 V c t k j]
  rfl

/-- The reset at the first point of a node block's run, read at an entry: the node's own term. -/
theorem own1_apply (t : Fin cfg1.N) (q : Fin 50) (hq : t.val / 391 = q.val) (r : Fin 1000) (j : Fin 128) :
    k1_pay1 (F := Ideal) (iblk1 V c 2 t) (iblk1 V c 3 t) (iblk1 V c 4 t) (ix2 r j)
      = ownAt (V c main_arg2) (V c main_arg5) (V c main_v37) q r j := by
  refine (own_apply (iblk1 V c 2 t) (iblk1 V c 3 t) (iblk1 V c 4 t) r j).trans ?_
  unfold ownAt
  have e : ∀ h, (⟨t.val / 391 * 1000 + r.val, h⟩ : Fin 50000) = rowAt q r := fun h =>
    Fin.ext (by show t.val / 391 * 1000 + r.val = q.val * 1000 + r.val; rw [hq])
  rw [read1_4 V c t j]
  refine congrArg (· + _) (Finset.sum_congr rfl fun k _ => ?_)
  rw [read1_2 V c t r k, read1_3 V c t k j, e]

/-- THE SCRATCH AFTER POINT `t`, at an entry: the own term of the point's node block plus the addends of the points of
    the block's run so far. -/
theorem scr1_apply (t : Fin cfg1.N) (r : Fin 1000) (j : Fin 128) :
    (outsAt1 V c t.val t.isLt).2 (ix2 r j)
      = ownAt (V c main_arg2) (V c main_arg5) (V c main_v37) (qOf t) r j
        + ∑ s ∈ Finset.range (t.val % 391 + 1), addAt (V c main_v36) (V c main_v38) (t.val / 391) (391 * (t.val / 391) + s) r j := by
  have hN : cfg1.N = 19550 := N_1
  have ht : t.val < 19550 := lt_of_lt_of_eq t.isLt hN
  have h' : 391 * (t.val / 391) + t.val % 391 < cfg1.N := by rw [Nat.div_add_mod]; exact t.isLt
  -- the recurrence over the points, as the library's fold
  have hfold := Pipeline.eq_accAt_of_mod (N := cfg1.N)
    (fun n h => (outsAt1 V c n h).2) 391
    (fun n h => k1_pay2 (F := Ideal) (grid1.coords ⟨n, h⟩) (iblk1 V c 0 ⟨n, h⟩) (iblk1 V c 1 ⟨n, h⟩)
      (k1_pay1 (iblk1 V c 2 ⟨n, h⟩) (iblk1 V c 3 ⟨n, h⟩) (iblk1 V c 4 ⟨n, h⟩)))
    (fun n h acc => k1_pay2 (F := Ideal) (grid1.coords ⟨n, h⟩) (iblk1 V c 0 ⟨n, h⟩) (iblk1 V c 1 ⟨n, h⟩) acc)
    (fun n h hm => scr1_first V c ⟨n, h⟩ hm)
    (fun n h hm => scr1_next V c ⟨n + 1, h⟩ hm)
    (by decide) t.val t.isLt h'
  have hdiv : ∀ n, 391 * (t.val / 391) ≤ n → n ≤ 391 * (t.val / 391) + 390 → n / 391 = t.val / 391 := fun n h1 h2 => by omega
  have hadd := Pipeline.accAt_add_apply (N := cfg1.N) (ι := S1000x128.Idx) (β := EReal)
    (fun n h => k1_pay2 (F := Ideal) (grid1.coords ⟨n, h⟩) (iblk1 V c 0 ⟨n, h⟩) (iblk1 V c 1 ⟨n, h⟩)
      (k1_pay1 (iblk1 V c 2 ⟨n, h⟩) (iblk1 V c 3 ⟨n, h⟩) (iblk1 V c 4 ⟨n, h⟩)))
    (fun n h acc => k1_pay2 (F := Ideal) (grid1.coords ⟨n, h⟩) (iblk1 V c 0 ⟨n, h⟩) (iblk1 V c 1 ⟨n, h⟩) acc)
    (fun i => ownAt (V c main_arg2) (V c main_arg5) (V c main_v37) (qOf t) (i 0) (i 1))
    (fun n i => addAt (V c main_v36) (V c main_v38) (t.val / 391) n (i 0) (i 1))
    (391 * (t.val / 391)) 390
    (fun h i => by
      obtain ⟨r, j, rfl⟩ : ∃ (r : Fin 1000) (j : Fin 128), i = ix2 r j := ⟨i 0, i 1, eq_ix2 i⟩
      show k1_pay2 (F := Ideal) _ _ _ _ (ix2 r j)
        = ownAt (V c main_arg2) (V c main_arg5) (V c main_v37) (qOf t) r j
          + addAt (V c main_v36) (V c main_v38) (t.val / 391) (391 * (t.val / 391)) r j
      refine (step1_apply V c ⟨391 * (t.val / 391), h⟩ _ r j).trans ?_
      rw [own1_apply V c ⟨391 * (t.val / 391), h⟩ (qOf t) (hdiv (391 * (t.val / 391)) (le_refl _) (by omega)) r j]
      show _ + addAt (V c main_v36) (V c main_v38) (391 * (t.val / 391) / 391) (391 * (t.val / 391)) r j = _
      rw [hdiv (391 * (t.val / 391)) (le_refl _) (by omega)])
    (fun n h acc i h1 h2 => by
      obtain ⟨r, j, rfl⟩ : ∃ (r : Fin 1000) (j : Fin 128), i = ix2 r j := ⟨i 0, i 1, eq_ix2 i⟩
      show k1_pay2 (F := Ideal) _ _ _ acc (ix2 r j) = acc (ix2 r j) + addAt (V c main_v36) (V c main_v38) (t.val / 391) n r j
      refine (step1_apply V c ⟨n, h⟩ acc r j).trans ?_
      show acc (ix2 r j) + addAt (V c main_v36) (V c main_v38) (n / 391) n r j = _
      rw [hdiv n (by omega) h2])
    (t.val % 391) (by omega) h' (ix2 r j)
  have hfold' : (outsAt1 V c t.val t.isLt).2 = _ := hfold
  rw [hfold']
  exact hadd

/-! ## The output array after the region -/

/-- The array the region leaves in the output: at node `n`, channel `j`, the scatter kernel's entry. -/
def G1 : S50000x128.Idx → EReal := fun i =>
  nodeOutAt (V c main_v36) (V c main_v38) (V c main_arg2) (V c main_arg5) (V c main_v37) (i 0) (i 1)

/-- WHAT A WRITING-BACK POINT WRITES BACK is its block of that array: at the last point of a node block's run the output
    window holds the scratch, which holds the own term plus all 391 addends of the run. -/
theorem flushed1_5_eq (t : Fin cfg1.N) (hf : (cfg1.win 5).flush t = true) :
    (dat1 V c).flushed 5 t = ((cfg1.win 5).blk t).view.read (Elt Ideal) (G1 V c) := by
  have hm : t.val % 391 = 390 := (flush1_5_iff t).mp hf
  show (cfg1.win 5).cut (grid1.coords t) ((dat1 V c).after 5 t) = _
  rw [after1_5, out1_last V c t hm]
  funext y
  obtain ⟨r, j, rfl⟩ : ∃ (r : Fin 1000) (j : Fin 128), y = ix2 r j := ⟨y 0, y 1, eq_ix2 (n0 := 1000) (n1 := 128) y⟩
  show (outsAt1 V c t.val t.isLt).2 (ix2 r j) = G1 V c (((cfg1.win 5).blk t).view.emb (ix2 r j))
  rw [emb_blk5 t r j, scr1_apply V c t r j, hm]
  exact run_sum (V c main_v36) (V c main_v38) (V c main_arg2) (V c main_arg5) (V c main_v37) (qOf t) r j

/-- Every entry of the output array is in the block of a writing-back point: row `n` is in node block `n div 1000`, written
    back at that block's last point. -/
theorem cover1_5 (i : S50000x128.Idx) :
    ∃ t : Fin cfg1.N, (cfg1.win 5).flush t = true ∧ i ∈ ((cfg1.win 5).blk t).view.set :=
  ⟨⟨(i 0).val / 1000 * 391 + 390, last_point_lt i⟩,
    (flush1_5_iff _).mpr (by show ((i 0).val / 1000 * 391 + 390) % 391 = 390; omega),
    mem_blk5_last i (last_point_lt i)⟩

/-- THE OUTPUT ARRAY AFTER THE REGION, whole. -/
theorem final1_eq : (dat1 V c).arrAt 5 cfg1.N = G1 V c :=
  (dat1 V c).arrAt_eq_of_cover 5 (G1 V c) (fun t hf => flushed1_5_eq V c t hf) (cover1_5)

/-- THE OUTPUT ARRAY AFTER THE REGION, entry by entry: node `n`, channel `j` holds the node's own term plus the messages of
    all padded edge positions whose target word is the node's number, summed edge block by edge block. -/
theorem final1 (n : Fin 50000) (j : Fin 128) :
    ((dat1 V c).arrAt 5 cfg1.N : S50000x128.Idx → EReal) (ix2 n j)
      = nodeOutAt (V c main_v36) (V c main_v38) (V c main_arg2) (V c main_arg5) (V c main_v37) n j := by
  rw [final1_eq V c]; rfl

end Cert.KernelIdeal.HandV

end
-- ==== Proof.RefCoefReal.lean ====
/-
  The per-edge coefficients are real numbers when the coefficient table is.

  `coef (e, b)` is a product of two factors. The first is an entry of the coefficient table (the row gather reads SOME
  row of the table, whatever the index word: it clamps). The second is `1 / max (c, 1)` for `c` an entry of the table of
  counts (the flat gather reads SOME entry, whatever the index word), and every count is zero plus a finite sum of
  ones and zeros — a real number; the maximum of a real number and one is a real number that is at least one, so not
  zero, and one divided by it is a real number. A product of two real numbers is a real number.

  The statements about the scatter and the two gathers are made over arbitrary operands first, and then read off at
  the program's own operands.
-/
import proofs.«141899_j10780367913070_1_alg».proof.Proof.RefSpec
import proofs.«141899_j10780367913070_1_alg».proof.Proof.LibScatterAddRead
import proofs.«141899_j10780367913070_1_alg».proof.Proof.LibERealSeg
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx
  Idealize.ShloMosaic.SegmentSum Idealize.ShloMosaic.ScatterAddRead Idealize.ShloMosaic.ERealSeg

/-- The word `0x3F800000` is the number one. -/
theorem ofBits_one_f32 : Ideal.ofBits .f32 0x3F800000#32 = 1 := by
  simp [Ideal.ofBits, Ideal.ieee, -EReal.coe_mul]; norm_num

/-! ## Over arbitrary operands -/

/-- The flat accumulating scatter of real updates into a real table is a real table. -/
theorem flat_scatter_real (z : Vec Ideal S2400000 .f32) (idx : Vec Ideal S600000x1 .i32) (u : Vec Ideal S600000 .f32)
    (hz : ∀ i, ∃ r : ℝ, z i = (r : EReal)) (hu : ∀ i, ∃ r : ℝ, u i = (r : EReal)) (i : S2400000.Idx) :
    ∃ r : ℝ, Host.scatterAdd (F := Ideal) (φ := .f32) scatter_S2400000_S600000x1_S600000_n_0_0_1 z idx u i = (r : EReal) := by
  obtain ⟨c, rfl⟩ : ∃ c : Fin 2400000, i = ix1 c := ⟨i 0, eq_ix1 i⟩
  have h := flat_scatterAdd_apply (N := 2400000) (E := 600000) scatter_S2400000_S600000x1_S600000_n_0_0_1_wf z idx u c
  have h' : Host.scatterAdd (F := Ideal) (φ := .f32) scatter_S2400000_S600000x1_S600000_n_0_0_1 z idx u (ix1 c)
      = z (ix1 c) + ∑ e : Fin 600000, if (idx (ix2 e 0)).toInt = (c.val : Int) then u (ix1 e) else 0 := h
  rw [h']
  refine real_add (hz _) (real_sum _ _ fun e => ?_)
  by_cases hc : (idx (ix2 e 0)).toInt = (c.val : Int)
  · rw [if_pos hc]; exact hu _
  · rw [if_neg hc]; exact real_zero

/-- The flat gather from a real table reads a real number: some entry of the table. -/
theorem flat_gather_real (t : Vec Ideal S2400000 .f32) (idx : Vec Ideal S600000x1 .i32)
    (ht : ∀ i, ∃ r : ℝ, t i = (r : EReal)) (j : S600000.Idx) :
    ∃ r : ℝ, Host.gather gather_S2400000_S600000x1_S600000_n_0_n_n_0_1_1 t idx j = (r : EReal) :=
  ht (gather_S2400000_S600000x1_S600000_n_0_n_n_0_1_1.operandIdx j idx)

/-- The row gather from a real table reads a real number: some entry of the table. -/
theorem rows_gather_real (t : Vec Ideal S48x8 .f32) (idx : Vec Ideal S600000x1 .i32)
    (ht : ∀ i, ∃ r : ℝ, t i = (r : EReal)) (j : S600000x8.Idx) :
    ∃ r : ℝ, Host.gather gather_S48x8_S600000x1_S600000x8_1_0_n_n_0_1_18 t idx j = (r : EReal) :=
  ht (gather_S48x8_S600000x1_S600000x8_1_0_n_n_0_1_18.operandIdx j idx)

/-- One over the maximum of a real number and one is a real number. -/
theorem real_inv_max_one (a : ℝ) : ∃ r : ℝ, Ideal.div 1 (max (a : EReal) 1) = (r : EReal) := by
  have hm : max (a : EReal) 1 = ((max a 1 : ℝ) : EReal) := by rw [coe_max, EReal.coe_one]
  have hne : (max a 1 : ℝ) ≠ 0 := ne_of_gt (lt_of_lt_of_le one_pos (le_max_right a 1))
  rw [hm, Ideal.div_coe hne, one_mul]
  exact ⟨_, rfl⟩

/-! ## At the program's operands -/

/-- The zero table the counts accumulate into. -/
theorem v8_real (i : S2400000.Idx) : ∃ r : ℝ, val_main_v8 (F := Ideal) i = (r : EReal) := by
  rw [val_main_v8_apply, val_main_cst_0_apply]
  exact ⟨0, Ideal.ofBits_zero_f32.trans EReal.coe_zero.symm⟩

/-- The ones that are counted. -/
theorem v7_real (i : S600000.Idx) : ∃ r : ℝ, val_main_v7 (F := Ideal) i = (r : EReal) := by
  rw [val_main_v7_apply, val_main_cst_apply]
  exact ⟨1, ofBits_one_f32.trans EReal.coe_one.symm⟩

/-- Every count is a real number. -/
theorem count_real (ei : Vec Ideal S2x600000 .i32) (et : Vec Ideal S600000 .i32) (i : S2400000.Idx) :
    ∃ r : ℝ, val_main_v10 (F := Ideal) ei et i = (r : EReal) := by
  unfold val_main_v10
  exact flat_scatter_real _ _ _ v8_real v7_real i

/-- The count an edge reads is a real number. -/
theorem v17_real (ei : Vec Ideal S2x600000 .i32) (et : Vec Ideal S600000 .i32) (j : S600000.Idx) :
    ∃ r : ℝ, val_main_v17 (F := Ideal) ei et j = (r : EReal) := by
  unfold val_main_v17
  exact flat_gather_real _ _ (count_real ei et) j

/-- The coefficient row an edge reads is a row of real numbers when the table is. -/
theorem v28_real (et : Vec Ideal S600000 .i32) (comp : Vec Ideal S48x8 .f32)
    (hcomp : ∀ i, ∃ r : ℝ, comp i = (r : EReal)) (j : S600000x8.Idx) :
    ∃ r : ℝ, val_main_v28 (F := Ideal) et comp j = (r : EReal) := by
  unfold val_main_v28
  exact rows_gather_real _ _ hcomp j

/-- The reciprocal count of an edge, spread along the eight coefficients, is a real number. -/
theorem norm_real (ei : Vec Ideal S2x600000 .i32) (et : Vec Ideal S600000 .i32) (i : S600000x8.Idx) :
    ∃ r : ℝ, val_main_v30 (F := Ideal) ei et i = (r : EReal) := by
  obtain ⟨a, ha⟩ := v17_real ei et (idx_main_v29 (idx_main_v30 i))
  rw [val_main_v30_apply, val_main_v29_apply, val_main_v21_apply, val_main_v20_apply, val_main_cst_4_apply,
    val_main_v19_apply, val_main_v18_apply, val_main_cst_3_apply, ha]
  show ∃ r : ℝ, Ideal.div (Ideal.ofBits .f32 0x3F800000#32) (max (a : EReal) (Ideal.ofBits .f32 0x3F800000#32)) = (r : EReal)
  rw [ofBits_one_f32]
  exact real_inv_max_one a

/-- THE COEFFICIENTS ARE REAL when the coefficient table is. -/
theorem coef_real (ei : Vec Ideal S2x600000 .i32) (et : Vec Ideal S600000 .i32) (comp : Vec Ideal S48x8 .f32)
    (hcomp : ∀ i, ∃ r : ℝ, comp i = (r : EReal)) (e : Fin 600000) (b : Fin 8) :
    ∃ r : ℝ, coef ei et comp (ix2 e b) = (r : EReal) := by
  obtain ⟨a, ha⟩ := v28_real et comp hcomp (ix2 e b)
  obtain ⟨c, hc⟩ := norm_real ei et (ix2 e b)
  refine ⟨a * c, ?_⟩
  show val_main_v31 (F := Ideal) ei et comp (ix2 e b) = _
  rw [val_main_v31_apply, ha, hc]
  exact (EReal.coe_mul a c).symm

end Cert.ReferenceIdeal.Hand

end
-- ==== Proof.KV.Result.lean ====
/-
  The value equation: under the precondition, the kernel program's result array is the reference's function of the
  arguments.  The two kernels' results entry by entry and the realness of the per-edge coefficients are put into the
  row-by-row comparison.
-/
import proofs.«141899_j10780367913070_1_alg».proof.Proof.KV.Final
import proofs.«141899_j10780367913070_1_alg».proof.Proof.KV.Val0
import proofs.«141899_j10780367913070_1_alg».proof.Proof.KV.Val1
import proofs.«141899_j10780367913070_1_alg».proof.Proof.RefCoefReal

noncomputable section

open Idealize.ShloMosaic Idealize.ShloMosaic.TcCoe Idealize.SL.Sem Idealize.ShloMosaic.ValueIdx

namespace Cert.KernelIdeal.HandV

open Cert.KernelIdeal Cert.KernelIdeal.Gen Cert.KernelIdeal.Hand

theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    (W10 m c (Proc.devRef .tc main_v40) : Cert.KernelIdeal.S50064x128.Idx → EReal)
      = Cert.ReferenceIdeal.Hand.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  result_eq_of (fun V c hsrc e j => R0.final0 V c hsrc e j) (fun V c n j => final1 V c n j)
    (fun ei et comp h e b => Cert.ReferenceIdeal.Hand.coef_real ei et comp h e b) m hpre c

end Cert.KernelIdeal.HandV
-- ==== Proof.lean ====
/-
  The proof of `Cert.Claim`.

  WHAT THE PROGRAMS COMPUTE. The inputs are a graph on 50000 nodes with 600000 typed edges (source and destination
  node of each edge, and one of 48 relation types), the nodes' feature rows x (50000 × 128), eight basis matrices
  (128 × 128), the relations' coefficients comp (48 × 8), a root matrix (128 × 128), a bias row, and 64 further rows.
  The result has 50064 rows. Its first 50000 are a relational graph convolution with basis decomposition and mean
  aggregation: with the edge coefficients
      w e b = comp (type e) b / max 1 (the number of edges of e's type into e's destination),
  row n is
      x n · root + bias + Σ_b (Σ_{e into n} w e b • x (src e)) · basis b.
  Its last 64 rows are the further rows, unchanged.

  WHY THE TWO PROGRAMS AGREE over the extended reals. Both compute the coefficients w by the same host operations on
  the same inputs. The reference then gathers the source rows and sums them into their destinations, basis by basis.
  The kernel program never indexes by an edge: its first region forms, for a block of edges, the source rows as the
  product of a 0/1 selection matrix (edge e against node k: is k the source of e) with the nodes' rows, summed over the
  50 blocks of 1000 nodes, and from them z e = Σ_b w e b • (x (src e) · basis b); its second region forms, for a block
  of nodes, x n · root + bias, and adds the product of the selection matrix (node n against edge e: is n the
  destination of e) with the rows z, summed over the 391 blocks of 1536 edges — the 576 edges that pad the last block
  have all coefficients zero, so their rows z are zero. Read at the extended reals a change of float format is the
  identity and every sum is exact. The precondition says that every float input is finite and that every edge's source
  word is a node number (in [0, 50000)): finite inputs, so that no sum meets +∞ with −∞; source words in range, because
  outside that range the two programs differ (the reference wraps and clamps the index, the selection product gives the
  zero row). Then a product against a selection row is the selected row, a sum over blocks is the sum over all, and the
  matrix product distributes over the sums: row n of the second region's output is the sum displayed above, in the reference's grouping. The closing concatenation is
  the same operation in both programs.

  THE FIVE CONJUNCTS. The kernel program as printed and its idealization are one text (the idealization rewrote no
  operation, which makes the fourth conjunct `True`) read at two float instances; its frame — every weakly fair
  execution terminates, nothing faults, the eight argument arrays end as launched — is proved once for any instance
  (the run of the ten segments of the main function: seven stretches of host operations, the two regions, the closing
  concatenation) and cited twice. The reference is host operations only: its run is their straight-line evaluation.
  The fifth conjunct is assembled from the two runs and the value equation `result_eq`: the kernel program's result
  buffer at the return is the reference's function of the arguments.
-/
import proofs.«141899_j10780367913070_1_alg».proof.Defs
import proofs.«141899_j10780367913070_1_alg».proof.Proof.KI.RunMain
import proofs.«141899_j10780367913070_1_alg».proof.Proof.K.RunMain
import proofs.«141899_j10780367913070_1_alg».proof.Proof.RefRun
import proofs.«141899_j10780367913070_1_alg».proof.Proof.KV.Algebraic
import proofs.«141899_j10780367913070_1_alg».proof.Proof.KV.Result
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.ReferenceIdeal.Hand.frame_ri,
    trivial,
    Cert.KernelIdeal.HandV.algebraic_of Cert.KernelIdeal.HandV.result_eq⟩

end Cert.Proof

end
